-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg11 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg7 : FVec F S128x128 .f32) (main_arg8 : FVec F S128 .f32) (main_arg9 : FVec F S128 .f32) (main_arg10 : FVec F S128 .f32) (main_arg11 : FVec F S128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_v48 main_v49 main_v50

def fn_part1 {F : FTy → Type} [FloatOps F] (main_arg4 : FVec F S128x128 .f32) (main_arg5 : FVec F S128x128 .f32) (main_arg6 : FVec F S128x128 .f32) (main_arg7 : FVec F S128x128 .f32) (main_arg8 : FVec F S128 .f32) (main_arg9 : FVec F S128 .f32) (main_arg10 : FVec F S128 .f32) (main_arg11 : FVec F S128 .f32) (main_v13 : IVec S_ 1) (main_v16 : IVec S10000x10000 1) : IVec S_ 1 :=
  let main_c_5 : IVec S_ 1 := constantI S_ 1 1#1
  let main_v17 : IVec S_ 1 := (fun x v => Host.reduce IntOp.andi x v reducesTo_S10000x10000_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S10000x128 .f32) (main_arg1 : FVec F S10000x128 .f32) (main_arg2 : FVec F S10000x10000 .f32) (main_arg3 : FVec F S10000x10000 .f32) (main_arg4 : FVec F S128x128 .f32) (main_arg5 : FVec F S128x128 .f32) (main_arg6 : FVec F S128x128 .f32) (main_arg7 : FVec F S128x128 .f32) (main_arg8 : FVec F S128 .f32) (main_arg9 : FVec F S128 .f32) (main_arg10 : FVec F S128 .f32) (main_arg11 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  let main_v14 : FVec F S10000x10000 .f32 := Host.absf main_arg3
  let main_cst_4 : FVec F S_ .f32 := constant S_ .f32 0x7F800000#32
  let main_v15 : FVec F S10000x10000 .f32 := broadcastInDim S10000x10000 ![] bcast_S_S10000x10000 main_cst_4
  let main_v16 : IVec S10000x10000 1 := cmpf .olt main_v14 main_v15
  fn_part1 (F := F) main_arg4 main_arg5 main_arg6 main_arg7 main_arg8 main_arg9 main_arg10 main_arg11 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S200x10000 : Shape := ⟨2, ![200, 10000]⟩
abbrev S400x128 : Shape := ⟨2, ![400, 128]⟩
abbrev S200x128 : Shape := ⟨2, ![200, 128]⟩
abbrev S10000x256 : Shape := ⟨2, ![10000, 256]⟩
abbrev S200x256 : Shape := ⟨2, ![200, 256]⟩

abbrev nBuf : Space → Nat
  | .hbm => 22
  | .vmem => 34
  | .smem => 0
  | _ => 0

abbrev bufTy : (tb : Table) → Fin (tcTables nBuf tb) → BufTy
  | .hbm, ⟨0, _⟩ => ⟨S10000x128, .f32⟩
  | .hbm, ⟨1, _⟩ => ⟨S10000x128, .f32⟩
  | .hbm, ⟨2, _⟩ => ⟨S10000x10000, .f32⟩
  | .hbm, ⟨3, _⟩ => ⟨S10000x10000, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128x128, .bf16⟩
  | .hbm, ⟨13, _⟩ => ⟨S128x128, .bf16⟩
  | .hbm, ⟨14, _⟩ => ⟨S1x128, .f32⟩
  | .hbm, ⟨15, _⟩ => ⟨S10000x128, .bf16⟩
  | .hbm, ⟨16, _⟩ => ⟨S1x128, .f32⟩
  | .hbm, ⟨17, _⟩ => ⟨S1x128, .f32⟩
  | .hbm, ⟨18, _⟩ => ⟨S10000x128, .f32⟩
  | .hbm, ⟨19, _⟩ => ⟨S10000x128, .bf16⟩
  | .hbm, ⟨20, _⟩ => ⟨S1x128, .f32⟩
  | .hbm, ⟨21, _⟩ => ⟨S10000x128, .f32⟩
  | .local _ .vmem, ⟨0, _⟩ => ⟨S200x10000, .f32⟩
  | .local _ .vmem, ⟨1, _⟩ => ⟨S200x10000, .f32⟩
  | .local _ .vmem, ⟨2, _⟩ => ⟨S200x10000, .f32⟩
  | .local _ .vmem, ⟨3, _⟩ => ⟨S200x10000, .f32⟩
  | .local _ .vmem, ⟨4, _⟩ => ⟨S10000x128, .f32⟩
  | .local _ .vmem, ⟨5, _⟩ => ⟨S128x128, .f32⟩
  | .local _ .vmem, ⟨6, _⟩ => ⟨S128x128, .bf16⟩
  | .local _ .vmem, ⟨7, _⟩ => ⟨S1x128, .f32⟩
  | .local _ .vmem, ⟨8, _⟩ => ⟨S400x128, .bf16⟩
  | .local _ .vmem, ⟨9, _⟩ => ⟨S400x128, .bf16⟩
  | .local _ .vmem, ⟨10, _⟩ => ⟨S10000x128, .bf16⟩
  | .local _ .vmem, ⟨11, _⟩ => ⟨S200x10000, .f32⟩
  | .local _ .vmem, ⟨12, _⟩ => ⟨S200x10000, .f32⟩
  | .local _ .vmem, ⟨13, _⟩ => ⟨S200x10000, .f32⟩
  | .local _ .vmem, ⟨14, _⟩ => ⟨S200x10000, .f32⟩
  | .local _ .vmem, ⟨15, _⟩ => ⟨S10000x128, .f32⟩
  | .local _ .vmem, ⟨16, _⟩ => ⟨S128x128, .f32⟩
  | .local _ .vmem, ⟨17, _⟩ => ⟨S128x128, .bf16⟩
  | .local _ .vmem, ⟨18, _⟩ => ⟨S10000x128, .bf16⟩
  | .local _ .vmem, ⟨19, _⟩ => ⟨S1x128, .f32⟩
  | .local _ .vmem, ⟨20, _⟩ => ⟨S1x128, .f32⟩
  | .local _ .vmem, ⟨21, _⟩ => ⟨S400x128, .f32⟩
  | .local _ .vmem, ⟨22, _⟩ => ⟨S400x128, .f32⟩
  | .local _ .vmem, ⟨23, _⟩ => ⟨S400x128, .bf16⟩
  | .local _ .vmem, ⟨24, _⟩ => ⟨S400x128, .bf16⟩
  | .local _ .vmem, ⟨25, _⟩ => ⟨S10000x256, .bf16⟩
  | .local _ .vmem, ⟨26, _⟩ => ⟨S200x10000, .f32⟩
  | .local _ .vmem, ⟨27, _⟩ => ⟨S200x10000, .f32⟩
  | .local _ .vmem, ⟨28, _⟩ => ⟨S200x10000, .f32⟩
  | .local _ .vmem, ⟨29, _⟩ => ⟨S200x10000, .f32⟩
  | .local _ .vmem, ⟨30, _⟩ => ⟨S10000x128, .bf16⟩
  | .local _ .vmem, ⟨31, _⟩ => ⟨S1x128, .f32⟩
  | .local _ .vmem, ⟨32, _⟩ => ⟨S400x128, .f32⟩
  | .local _ .vmem, ⟨33, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6_0 : Ref sig .tc := ⟨.hbm, 18, rfl⟩
abbrev main_v6_1 : Ref sig .tc := ⟨.hbm, 19, rfl⟩
abbrev main_v7 : Ref sig .tc := ⟨.hbm, 20, rfl⟩
abbrev main_v8 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg8_1 : Ref sig .tc := ⟨.vmem, 22, rfl⟩
abbrev cc1_stg9_0 : Ref sig .tc := ⟨.vmem, 23, rfl⟩
abbrev cc1_stg9_1 : Ref sig .tc := ⟨.vmem, 24, rfl⟩
abbrev cc1_scratch0 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg4_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem8_1 : DmaSem sig := 21
abbrev cc1_sem9_0 : DmaSem sig := 22
abbrev cc1_sem9_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem4_1 : DmaSem sig := 31

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S400x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S200x10000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S10000x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S10000x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S400x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S400x128 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc2_transform_1 (i : grid2.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S200x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S200x10000 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S10000x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S400x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  bitsLt_bf16_f32 : FTy.bits .bf16 < FTy.bits .f32
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S200x10000_S200x10000_0_0 : ∀ a, (![0, 0] : Fin 2 → Nat) a + S200x10000.size a ≤ S200x10000.size a
  h_S200x10000 : 0 < S200x10000.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  shapeCasts_S128x128_S128x128 : S128x128.ShapeCasts S128x128
  inb_S400x128_S200x128_0_0 : ∀ a, (![0, 0] : Fin 2 → Nat) a + S200x128.size a ≤ S400x128.size a
  h_S200x128 : 0 < S200x128.numel
  packedbf16_S400x128_S200x128_0_0 : (Rect.unit (s := S400x128) ![0, 0] S200x128.size inb_S400x128_S200x128_0_0).PackedRows (EltTy.packing .bf16)
  inb_S400x128_S200x128_200_0 : ∀ a, (![200, 0] : Fin 2 → Nat) a + S200x128.size a ≤ S400x128.size a
  packedbf16_S400x128_S200x128_200_0 : (Rect.unit (s := S400x128) ![200, 0] S200x128.size inb_S400x128_S200x128_200_0).PackedRows (EltTy.packing .bf16)
  inb_S10000x256_S10000x128_0_0 : ∀ a, (![0, 0] : Fin 2 → Nat) a + S10000x128.size a ≤ S10000x256.size a
  packedbf16_S10000x256_S10000x128_0_0 : (Rect.unit (s := S10000x256) ![0, 0] S10000x128.size inb_S10000x256_S10000x128_0_0).PackedRows (EltTy.packing .bf16)
  inb_S10000x256_S10000x128_0_128 : ∀ a, (![0, 128] : Fin 2 → Nat) a + S10000x128.size a ≤ S10000x256.size a
  packedbf16_S10000x256_S10000x128_0_128 : (Rect.unit (s := S10000x256) ![0, 128] S10000x128.size inb_S10000x256_S10000x128_0_128).PackedRows (EltTy.packing .bf16)
  inb_S10000x256_S10000x256_0_0 : ∀ a, (![0, 0] : Fin 2 → Nat) a + S10000x256.size a ≤ S10000x256.size a
  h_S10000x256 : 0 < S10000x256.numel
  slices_S200x256_o0_0_S200x128 : S200x256.Slices ![0, 0] S200x128
  slices_S200x256_o0_128_S200x128 : S200x256.Slices ![0, 128] S200x128
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  dot_S200x128_S128x128_S200x128_1_0_0_1_n_n_wf : DotDims.WF S200x128 S128x128 S200x128 [1] [0] [0] [1] [] []
  dot_S200x10000_S10000x256_S200x256_1_0_0_1_n_n_wf : DotDims.WF S200x10000 S10000x256 S200x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .f32 = 32 ∨ (Rect.block (s := S10000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x128.size a ≤ S10000x128.size a
  hwx0_6 : ∀ i : grid0.Coords, EltTy.bits .bf16 = 32 ∨ (Rect.block (s := S10000x128) S400x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S200x10000.size a ≤ S10000x10000.size a
  hwx1_1 : ∀ i : grid1.Coords, EltTy.bits .f32 = 32 ∨ (Rect.block (s := S10000x10000) S200x10000.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S10000x128.size a
  hwx1_2 : ∀ i : grid1.Coords, EltTy.bits .f32 = 32 ∨ (Rect.block (s := S10000x128) S10000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S10000x128.size a ≤ S10000x128.size a
  hwx1_5 : ∀ i : grid1.Coords, EltTy.bits .bf16 = 32 ∨ (Rect.block (s := S10000x128) S10000x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S400x128.size a ≤ S10000x128.size a
  hwx1_8 : ∀ i : grid1.Coords, EltTy.bits .f32 = 32 ∨ (Rect.block (s := S10000x128) S400x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S400x128.size a ≤ S10000x128.size a
  hwx1_9 : ∀ i : grid1.Coords, EltTy.bits .bf16 = 32 ∨ (Rect.block (s := S10000x128) S400x128.size (cc1_transform_9 i) (hinb1_9 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S200x10000.size a ≤ S10000x10000.size a
  hwx2_0 : ∀ i : grid2.Coords, EltTy.bits .f32 = 32 ∨ (Rect.block (s := S10000x10000) S200x10000.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S200x10000.size a ≤ S10000x10000.size a
  hwx2_1 : ∀ i : grid2.Coords, EltTy.bits .f32 = 32 ∨ (Rect.block (s := S10000x10000) S200x10000.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S10000x128.size a
  hwx2_2 : ∀ i : grid2.Coords, EltTy.bits .bf16 = 32 ∨ (Rect.block (s := S10000x128) S10000x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S400x128.size a ≤ S10000x128.size a
  hwx2_4 : ∀ i : grid2.Coords, EltTy.bits .f32 = 32 ∨ (Rect.block (s := S10000x128) S400x128.size (cc2_transform_4 i) (hinb2_4 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x128_S200x128_1_0_0_1_n_n : DotDims S200x128 S128x128 S200x128 where
  lhsContracting := [1]
  rhsContracting := [0]
  lhsNonContracting := [0]
  rhsNonContracting := [1]
  lhsBatch := []
  rhsBatch := []
  wf := dot_S200x128_S128x128_S200x128_1_0_0_1_n_n_wf
def dot_S200x10000_S10000x256_S200x256_1_0_0_1_n_n : DotDims S200x10000 S10000x256 S200x256 where
  lhsContracting := [1]
  rhsContracting := [0]
  lhsNonContracting := [0]
  rhsNonContracting := [1]
  lhsBatch := []
  rhsBatch := []
  wf := dot_S200x10000_S10000x256_S200x256_1_0_0_1_n_n_wf

abbrev win0_0 : Pipeline.Window sig grid0 :=
  Pipeline.Window.ofSpec (Memref.whole main_arg3) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S400x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg2) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S200x10000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S10000x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3) S10000x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v4) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v5) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v6_0) S400x128.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v6_1) S400x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_arg3) S200x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S200x10000.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v6_1) S10000x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v7) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v8) S400x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 70
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x128, .f32⟩
  | .hbm, ⟨2, _⟩ => ⟨S10000x10000, .f32⟩
  | .hbm, ⟨3, _⟩ => ⟨S10000x10000, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S10000x128, .f32⟩
  | .hbm, ⟨13, _⟩ => ⟨S10000x128, .f32⟩
  | .hbm, ⟨14, _⟩ => ⟨S1x128, .f32⟩
  | .hbm, ⟨15, _⟩ => ⟨S10000x128, .f32⟩
  | .hbm, ⟨16, _⟩ => ⟨S10000x128, .f32⟩
  | .hbm, ⟨17, _⟩ => ⟨S_, .f32⟩
  | .hbm, ⟨18, _⟩ => ⟨S_, .f32⟩
  | .hbm, ⟨19, _⟩ => ⟨S10000x128, .f32⟩
  | .hbm, ⟨20, _⟩ => ⟨S10000x128, .i1⟩
  | .hbm, ⟨21, _⟩ => ⟨S_, .f32⟩
  | .hbm, ⟨22, _⟩ => ⟨S10000x128, .f32⟩
  | .hbm, ⟨23, _⟩ => ⟨S10000x128, .f32⟩
  | .hbm, ⟨24, _⟩ => ⟨S10000x128, .f32⟩
  | .hbm, ⟨25, _⟩ => ⟨S10000x128, .f32⟩
  | .hbm, ⟨26, _⟩ => ⟨S10000x128, .f32⟩
  | .hbm, ⟨27, _⟩ => ⟨S1x128, .f32⟩
  | .hbm, ⟨28, _⟩ => ⟨S10000x128, .f32⟩
  | .hbm, ⟨29, _⟩ => ⟨S10000x128, .f32⟩
  | .hbm, ⟨30, _⟩ => ⟨S_, .f32⟩
  | .hbm, ⟨31, _⟩ => ⟨S_, .f32⟩
  | .hbm, ⟨32, _⟩ => ⟨S10000x128, .f32⟩
  | .hbm, ⟨33, _⟩ => ⟨S10000x128, .i1⟩
  | .hbm, ⟨34, _⟩ => ⟨S_, .f32⟩
  | .hbm, ⟨35, _⟩ => ⟨S10000x128, .f32⟩
  | .hbm, ⟨36, _⟩ => ⟨S10000x128, .f32⟩
  | .hbm, ⟨37, _⟩ => ⟨S10000x128, .f32⟩
  | .hbm, ⟨38, _⟩ => ⟨S10000x128, .f32⟩
  | .hbm, ⟨39, _⟩ => ⟨S10000x128, .f32⟩
  | .hbm, ⟨40, _⟩ => ⟨S1x128, .f32⟩
  | .hbm, ⟨41, _⟩ => ⟨S10000x128, .f32⟩
  | .hbm, ⟨42, _⟩ => ⟨S10000x128, .f32⟩
  | .hbm, ⟨43, _⟩ => ⟨S_, .f32⟩
  | .hbm, ⟨44, _⟩ => ⟨S_, .f32⟩
  | .hbm, ⟨45, _⟩ => ⟨S10000x128, .f32⟩
  | .hbm, ⟨46, _⟩ => ⟨S10000x128, .i1⟩
  | .hbm, ⟨47, _⟩ => ⟨S_, .f32⟩
  | .hbm, ⟨48, _⟩ => ⟨S10000x128, .f32⟩
  | .hbm, ⟨49, _⟩ => ⟨S10000x128, .f32⟩
  | .hbm, ⟨50, _⟩ => ⟨S10000x128, .f32⟩
  | .hbm, ⟨51, _⟩ => ⟨S10000x128, .f32⟩
  | .hbm, ⟨52, _⟩ => ⟨S10000x128, .f32⟩
  | .hbm, ⟨53, _⟩ => ⟨S1x128, .f32⟩
  | .hbm, ⟨54, _⟩ => ⟨S10000x128, .f32⟩
  | .hbm, ⟨55, _⟩ => ⟨S10000x128, .f32⟩
  | .hbm, ⟨56, _⟩ => ⟨S_, .f32⟩
  | .hbm, ⟨57, _⟩ => ⟨S_, .f32⟩
  | .hbm, ⟨58, _⟩ => ⟨S10000x128, .f32⟩
  | .hbm, ⟨59, _⟩ => ⟨S10000x128, .i1⟩
  | .hbm, ⟨60, _⟩ => ⟨S_, .f32⟩
  | .hbm, ⟨61, _⟩ => ⟨S10000x128, .f32⟩
  | .hbm, ⟨62, _⟩ => ⟨S10000x128, .f32⟩
  | .hbm, ⟨63, _⟩ => ⟨S10000x128, .f32⟩
  | .hbm, ⟨64, _⟩ => ⟨S_, .f32⟩
  | .hbm, ⟨65, _⟩ => ⟨S10000x128, .f32⟩
  | .hbm, ⟨66, _⟩ => ⟨S10000x128, .f32⟩
  | .hbm, ⟨67, _⟩ => ⟨S_, .f32⟩
  | .hbm, ⟨68, _⟩ => ⟨S10000x128, .f32⟩
  | .hbm, ⟨69, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_0 : Ref sig .tc := ⟨.hbm, 30, rfl⟩
abbrev main_call1_cst : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_cst_1 : Ref sig .tc := ⟨.hbm, 43, rfl⟩
abbrev main_call2_cst : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_cst_2 : Ref sig .tc := ⟨.hbm, 56, rfl⟩
abbrev main_call3_cst : Ref sig .tc := ⟨.hbm, 57, rfl⟩
abbrev main_call3_v0 : Ref sig .tc := ⟨.hbm, 58, rfl⟩
abbrev main_call3_v1 : Ref sig .tc := ⟨.hbm, 59, rfl⟩
abbrev main_call3_v2 : Ref sig .tc := ⟨.hbm, 60, rfl⟩
abbrev main_call3_v3 : Ref sig .tc := ⟨.hbm, 61, rfl⟩
abbrev main_call3_v4 : Ref sig .tc := ⟨.hbm, 62, rfl⟩
abbrev main_v23 : Ref sig .tc := ⟨.hbm, 63, rfl⟩
abbrev main_call4_cst : Ref sig .tc := ⟨.hbm, 64, rfl⟩
abbrev main_call4_v0 : Ref sig .tc := ⟨.hbm, 65, rfl⟩
abbrev main_v24 : Ref sig .tc := ⟨.hbm, 66, rfl⟩
abbrev main_call5_cst : Ref sig .tc := ⟨.hbm, 67, rfl⟩
abbrev main_call5_v0 : Ref sig .tc := ⟨.hbm, 68, rfl⟩
abbrev main_v25 : Ref sig .tc := ⟨.hbm, 69, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.K.Body0.lean ====
import proofs.«180870_g50560355009132_cont_8to1c4_249_8_alg».proof.Proof.Gen.Kernel.Launch
import proofs.«180870_g50560355009132_cont_8to1c4_249_8_alg».proof.Proof.Gen.Kernel.Skeleton
import proofs.«180870_g50560355009132_cont_8to1c4_249_8_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand.B0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's access rectangles: every operand whole, the output block in its two row halves -/

abbrev rW_200x10000 : Rect S200x10000 := Rect.unit (s := S200x10000) ![0, 0] S200x10000.size inb_S200x10000_S200x10000_0_0
abbrev rW_10000x128 : Rect S10000x128 := Rect.unit (s := S10000x128) ![0, 0] S10000x128.size inb_S10000x128_S10000x128_0_0
abbrev rW_128x128 : Rect S128x128 := Rect.unit (s := S128x128) ![0, 0] S128x128.size inb_S128x128_S128x128_0_0
abbrev rW_1x128 : Rect S1x128 := Rect.unit (s := S1x128) ![0, 0] S1x128.size inb_S1x128_S1x128_0_0
abbrev rTop : Rect S400x128 := Rect.unit (s := S400x128) ![0, 0] S200x128.size inb_S400x128_S200x128_0_0
abbrev rBot : Rect S400x128 := Rect.unit (s := S400x128) ![200, 0] S200x128.size inb_S400x128_S200x128_200_0

/-- What the first grid point leaves in the carried buffer: the one whole-buffer store of the rounded
    product of the features with the first weight. -/
def scr0 (x3 : Vec F S10000x128 .f32) (x4 : Vec F S128x128 .f32) : Vec F S10000x128 .bf16 :=
  View.canon [⟨rW_10000x128, k0_pay2 (View.ld x3 rW_10000x128) (View.ld x4 rW_128x128)⟩]

/-- What every grid point leaves in the output block, given the carried buffer's contents `s`: rows [200,400)
    from the second half of the adjacency tile, rows [0,200) from the first half (the later store first). -/
def out0 (x1 x2 : Vec F S200x10000 .f32) (s : Vec F S10000x128 .bf16) (x5 : Vec F S128x128 .bf16) (x6 : Vec F S1x128 .f32) : Vec F S400x128 .bf16 :=
  View.canon [⟨rBot, k0_pay1 (k0_pay4 (View.ld x2 rW_200x10000) (View.ld s rW_10000x128) (View.ld x6 rW_1x128)) (k0_pay5 (View.ld x2 rW_200x10000) (View.ld s rW_10000x128) (View.ld x6 rW_1x128)) (Scalar.ofBits .f32 0x3E4CCCCD#32) (View.ld x5 rW_128x128)⟩,
    ⟨rTop, k0_pay3 (View.ld x1 rW_200x10000) (View.ld s rW_10000x128) (View.ld x6 rW_1x128) (View.ld x5 rW_128x128)⟩]

/-- The whole-buffer store covers the carried buffer. -/
theorem cover_scr0 (p0 : Vec F S10000x128 .bf16) (y : S10000x128.Idx) :
    ∃ pc ∈ ([⟨rW_10000x128, p0⟩] : List (View.Piece (Elt F) S10000x128 .bf16)), y ∈ pc.1.set :=
  View.cover_of_tiled [⟨rW_10000x128, p0⟩] S10000x128.size (by rfl) y

/-- The two row halves tile the output block. -/
theorem cover_out0 (p0 p1 : Vec F S200x128 .bf16) (y : S400x128.Idx) :
    ∃ pc ∈ ([⟨rBot, p0⟩, ⟨rTop, p1⟩] : List (View.Piece (Elt F) S400x128 .bf16)), y ∈ pc.1.set :=
  View.cover_of_tiled [⟨rBot, p0⟩, ⟨rTop, p1⟩] S200x128.size (by sl_kernel_rfl) y

/-- The body's branch condition, from the grid coordinate. -/
abbrev cond0 (i : grid0.Coords) : Prop :=
  (Scalar.cmpi .ne (Scalar.extui (Scalar.cmpi .eq (BitVec.ofNat 32 (i 0).val) 0#32)) 0#32) = 1#1

/-- Over the 25 grid points the condition holds exactly at the first. -/
theorem cond0_fin : ∀ n : Fin 25,
    ((Scalar.cmpi .ne (Scalar.extui (Scalar.cmpi .eq (BitVec.ofNat 32 n.val) 0#32)) 0#32) = 1#1) ↔ n.val = 0 := by
  decide

theorem cond0_iff (i : grid0.Coords) : cond0 i ↔ (i 0).val = 0 := cond0_fin (i 0)

/-! ## The body's triples: at the first point the carried buffer is filled and then read; at a later point it is only read -/

set_option maxHeartbeats 1000000 in
/-- At the first grid point, on whole buffers with the six inputs at read contents and the output block and the
    carried buffer at anything, the body runs to the continuation holding the inputs as they were, the carried
    buffer at `scr0` of the features and the first weight, and the output block at `out0` over that. -/
theorem sound_first (c : Dev nD) (E : Set ℕ) (i : grid0.Coords) (hi : (i 0).val = 0) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S400x128 .bf16) (harg7 : arg7.IsWhole) (arg8 : Memref sig .tc .vmem S10000x128 .bf16) (harg8 : arg8.IsWhole)
    (x1 x2 : Vec F S200x10000 .f32) (x3 : Vec F S10000x128 .f32) (x4 : Vec F S128x128 .f32) (x5 : Vec F S128x128 .bf16) (x6 : Vec F S1x128 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out0 x1 x2 (scr0 x3 x4) x5 x6) ∗ owns (c : Thread nD τ) arg8 fullShare (scr0 x3 x4)) -∗ K ⟨⟩))
      ⊢ wp frame (wpE (defs₀ (F := F)) Variants.none c none) E (cc0__pass1_body i arg1 harg1 arg2 harg2 arg3 harg3 arg4 harg4 arg5 harg5 arg6 harg6 arg7 harg7 arg8 harg8) K := by
  have hc0 : cond0 i := (cond0_iff i).mpr hi
  simp only [cc0__pass1_body_eq_skeleton]; unfold cc0__pass1_body_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf1 hf2 hf3 hf4 hf5 hf6
  sl_exec (disch := first | exact hc0)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [View.read_writes_eq_canon _ _ _ (cover_out0 _ _)]
    sl_unfold_run_names
    rw [View.readCov_eq_canon']
    rfl
  · iexists _; isplitr
    swap; · iexact H8
    ipureintro
    sl_unfold_run_names
    exact View.read_writes_eq_canon _ _ _ (cover_scr0 _)

set_option maxHeartbeats 1000000 in
/-- At a later grid point, the carried buffer at read contents `s`: the body leaves it and the inputs as they
    were and the output block at `out0` over `s`. -/
theorem sound_next (c : Dev nD) (E : Set ℕ) (i : grid0.Coords) (hi : (i 0).val ≠ 0) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S400x128 .bf16) (harg7 : arg7.IsWhole) (arg8 : Memref sig .tc .vmem S10000x128 .bf16) (harg8 : arg8.IsWhole)
    (x1 x2 : Vec F S200x10000 .f32) (x3 : Vec F S10000x128 .f32) (x4 : Vec F S128x128 .f32) (x5 : Vec F S128x128 .bf16) (x6 : Vec F S1x128 .f32) (s : Vec F S10000x128 .bf16) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ owns (c : Thread nD τ) arg8 fullShare s
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out0 x1 x2 s x5 x6) ∗ owns (c : Thread nD τ) arg8 fullShare s) -∗ K ⟨⟩))
      ⊢ wp frame (wpE (defs₀ (F := F)) Variants.none c none) E (cc0__pass1_body i arg1 harg1 arg2 harg2 arg3 harg3 arg4 harg4 arg5 harg5 arg6 harg6 arg7 harg7 arg8 harg8) K := by
  have hc0 : ¬ cond0 i := fun h => hi ((cond0_iff i).mp h)
  simp only [cc0__pass1_body_eq_skeleton]; unfold cc0__pass1_body_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  subst hf1 hf2 hf3 hf4 hf5 hf6 hf8
  sl_exec (disch := first | exact hc0)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [View.read_writes_eq_canon _ _ _ (cover_out0 _ _)]
    rfl
  · iexists f8; isplitr; · ipureintro; rfl
    iexact H8

end Cert.Kernel.Hand.B0

end
-- ==== Proof.LibSharedArrays.lean ====
/-
  One array handed to a kernel through several input windows.

  A pipeline holds each window's array separately, window by window, at a share of the window's own; the launch hands
  over the DISTINCT buffers behind the arrays, each whole at the full share. When several windows read one buffer the
  buffer's full share has to be dealt among them. Two facts, for any window layout:

  * regrouping — the windows are partitioned by the buffer behind their array, so the distinct buffers entail any
    window-indexed family of resources as soon as each buffer by itself entails the family over the windows on it;
  * dealing — one points-to at the full share is three points-tos of the same contents at the shares
    left, right·left, right·right (the tree share's two halves, the right one halved again), and back.
-/
import Idealize.ShloMosaic.Lib.Pipeline.Launch
import Idealize.ShloMosaic.Lib.Pipeline.Frame
import Idealize.ShloMosaic.Lib.Pipeline.FrameSuffix

noncomputable section

namespace Cert.Lib.SharedArrays

open Idealize.ShloMosaic Idealize.ShloMosaic.Pipeline
open Idealize.SL
open Idealize.SL.BI (sProp bigSep bigSep_mono bigSep_biUnion)
open scoped Idealize.SL.BI
open Idealize.SL.BI.BIBase Idealize.SL.BI.Laws Idealize.SL.Sem Idealize.SL.ProofMode
open Idealize.SL.RA
open Idealize.ShloMosaic.TcCoe
open Idealize.ShloMosaic.Rounds

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

/-- The windows, grouped by the buffer behind their array, are all the windows. -/
theorem biUnion_fibers {gr W : Nat} (win : Fin W → WinSpec sig gr) :
    (Finset.univ.image (arrRef win)).biUnion (fun b => Finset.univ.filter fun w => arrRef win w = b) = Finset.univ := by
  ext w
  simp only [Finset.mem_biUnion, Finset.mem_image, Finset.mem_univ, true_and, Finset.mem_filter, iff_true]
  exact ⟨arrRef win w, ⟨w, rfl⟩, rfl⟩

/-- A family over the windows whose array lies among the buffers `s`, grouped buffer by buffer. -/
theorem bigSep_fiberwise {gr W : Nat} (win : Fin W → WinSpec sig gr) (P : Fin W → sProp 𝕄) (s : Finset (Ref sig .tc)) :
    bigSep (Finset.univ.filter fun w => arrRef win w ∈ s) P
      = bigSep s fun b => bigSep (Finset.univ.filter fun w => arrRef win w = b) P := by
  classical
  induction s using Finset.induction_on with
  | empty => simp
  | insert b s hb ih =>
    have hd : Disjoint (Finset.univ.filter fun w => arrRef win w = b) (Finset.univ.filter fun w => arrRef win w ∈ s) :=
      Finset.disjoint_filter.mpr fun w _ h₁ h₂ => hb (h₁ ▸ h₂)
    have hu : (Finset.univ.filter fun w => arrRef win w ∈ insert b s)
        = (Finset.univ.filter fun w => arrRef win w = b) ∪ (Finset.univ.filter fun w => arrRef win w ∈ s) := by
      ext w; simp [Finset.mem_insert]
    rw [BI.bigSep_insert hb, ← ih, hu, BI.bigSep_union hd]

/-- Every window's array lies among the buffers behind the arrays. -/
theorem filter_image_eq_univ {gr W : Nat} (win : Fin W → WinSpec sig gr) :
    (Finset.univ.filter fun w => arrRef win w ∈ Finset.univ.image (arrRef win)) = Finset.univ := by
  ext w; simp

/-- REGROUPING, as an equality: a family over all windows is the family over the windows on each buffer, buffer by buffer. -/
theorem bigSep_windows_eq {gr W : Nat} (win : Fin W → WinSpec sig gr) (P : Fin W → sProp 𝕄) :
    bigSep Finset.univ P
      = bigSep (Finset.univ.image (arrRef win)) fun b => bigSep (Finset.univ.filter fun w => arrRef win w = b) P := by
  rw [← bigSep_fiberwise, filter_image_eq_univ]

/-- JOINING (the converse of dealing, at a region's exit). If the resources of the windows on each buffer entail the buffer
    whole at the full share at contents `V`, then the windows' resources together entail the distinct buffers at `V`. -/
theorem entails_arrBufs {gr W : Nat} (win : Fin W → WinSpec sig gr) (c : Dev nD)
    (V : (b : Ref sig .tc) → Buf Val ((c.tc : Thread nD τ).loc b)) (P : Fin W → sProp 𝕄)
    (h : ∀ b ∈ Finset.univ.image (arrRef win),
      bigSep (Finset.univ.filter fun w => arrRef win w = b) P ⊢ ((((c.tc : Thread nD τ).loc b) ↦{fullShare} V b : sProp 𝕄))) :
    bigSep Finset.univ P ⊢ (arrBufs win c V : sProp 𝕄) := by
  classical
  rw [bigSep_windows_eq win P]
  unfold arrBufs
  exact bigSep_mono h

/-- REGROUPING. If each distinct buffer, whole at the full share at contents `V`, entails the resources `P w` of the
    windows `w` whose array it is, then the distinct buffers together entail `P` over every window. -/
theorem arrBufs_entails {gr W : Nat} (win : Fin W → WinSpec sig gr) (c : Dev nD)
    (V : (b : Ref sig .tc) → Buf Val ((c.tc : Thread nD τ).loc b)) (P : Fin W → sProp 𝕄)
    (h : ∀ b ∈ Finset.univ.image (arrRef win),
      ((((c.tc : Thread nD τ).loc b) ↦{fullShare} V b : sProp 𝕄)) ⊢ bigSep (Finset.univ.filter fun w => arrRef win w = b) P) :
    (arrBufs win c V : sProp 𝕄) ⊢ bigSep Finset.univ P := by
  classical
  unfold arrBufs
  have hflat := bigSep_biUnion (M := 𝕄) (Finset.univ.image (arrRef win))
    (fun b => Finset.univ.filter fun w => arrRef win w = b) (Φ := P)
  rw [biUnion_fibers] at hflat
  exact (bigSep_mono h).trans hflat

/-- REGROUPING, both ways at once. -/
theorem arrBufs_iff {gr W : Nat} (win : Fin W → WinSpec sig gr) (c : Dev nD)
    (V : (b : Ref sig .tc) → Buf Val ((c.tc : Thread nD τ).loc b)) (P : Fin W → sProp 𝕄)
    (h : ∀ b ∈ Finset.univ.image (arrRef win),
      ((((c.tc : Thread nD τ).loc b) ↦{fullShare} V b : sProp 𝕄)) ⊣⊢ bigSep (Finset.univ.filter fun w => arrRef win w = b) P) :
    (arrBufs win c V : sProp 𝕄) ⊣⊢ bigSep Finset.univ P :=
  ⟨arrBufs_entails win c V P fun b hb => (h b hb).1, entails_arrBufs win c V P fun b hb => (h b hb).2⟩

/-- DEALING. One points-to at the full share is three of the same contents, at the left half, the left half of the
    right half and the right half of the right half; the three together are the full share again. -/
theorem pointsTo_deal3 {ℓ : Loc nD τ sig} (I : Finset (Idx ℓ)) (f : Buf Val ℓ) :
    (ℓ ↦[I]{fullShare} f : sProp 𝕄)
      ⊣⊢ iprop((ℓ ↦[I]{fullShare.left} f) ∗ (ℓ ↦[I]{fullShare.right.left} f) ∗ ℓ ↦[I]{fullShare.right.right} f) :=
  (pointsTo_share (PosShare.mem_left_op_right fullShare)).trans
    ⟨sep_mono .rfl (pointsTo_share (PosShare.mem_left_op_right fullShare.right)).1,
     sep_mono .rfl (pointsTo_share (PosShare.mem_left_op_right fullShare.right)).2⟩

/-- The three shares of the deal, for a window's position among the three windows on one buffer. -/
def share3 : Fin 3 → PosShare TreeShare
  | 0 => fullShare.left
  | 1 => fullShare.right.left
  | 2 => fullShare.right.right

/-- A core's unscoped buffers are the distinct buffers behind the windows' arrays and the rest, whether or not
    windows share an array. -/
theorem unscopedBufs_eq {gr W : Nat} (win : Fin W → WinSpec sig gr) (hunscoped : ∀ w, (arrRef win w).isScoped = false) (c : Dev nD)
    (V : (b : Ref sig .tc) → Buf Val ((c.tc : Thread nD τ).loc b)) :
    (unscopedBufs c V : sProp 𝕄) = iprop((arrBufs win c V : sProp 𝕄) ∗ unscopedRest win c V) := by
  classical
  have hA : Finset.univ.image (arrRef win) ⊆ Finset.univ.filter fun b : Ref sig .tc => ¬ b.isScoped := fun b hb => by
    obtain ⟨w, -, rfl⟩ := Finset.mem_image.mp hb
    exact Finset.mem_filter.mpr ⟨Finset.mem_univ _, by simp [hunscoped w]⟩
  unfold unscopedBufs unscopedRest arrBufs
  rw [BI.bigSep_sdiff_split hA]
  rfl

/-! ## The host lines after a region whose windows share arrays -/

section Tail

variable {Λ₀ : Idealize.SL.Sem.Labels} {P : Type} [Fintype P] [DecidableEq P]
variable (pcs : P → PCfg sig Λ₀ Val) (defs₀ : Defs nD τ sig Val Λ₀) (𝒱₀ : Variants)

local notation "𝔻" => Pipeline.defs pcs defs₀
local notation "𝕍" => Variants.lift 𝒱₀

omit [Fintype P] [DecidableEq P] in
set_option backward.isDefEq.respectTransparency.types false in
/-- The lines after the region, run from the windows' resources `Pw` and the bypassing buffers. The windows' resources
    join into the distinct buffers behind the arrays at the exit contents `Wv` (`hjoin`) and are dealt from them again
    (`hdeal`); no line writes an array (`hkeep`). The lines then run over the core's unscoped buffers, held whole, and the
    windows' resources come back as they were beside the bypassing buffers at the lines' results. -/
theorem tail_seqs_shared [Preorder Lvl] {gr W : Nat} (win : Fin W → WinSpec sig gr) (hunscoped : ∀ w, (arrRef win w).isScoped = false)
    (c : Dev nD) (Wv : Valuation τ sig Val) (Pw : Fin W → sProp 𝕄)
    (hjoin : bigSep Finset.univ Pw ⊢ (arrBufs win c (fun b => Wv (Proc.devRef .tc b)) : sProp 𝕄))
    (hdeal : (arrBufs win c (fun b => Wv (Proc.devRef .tc b)) : sProp 𝕄) ⊢ bigSep Finset.univ Pw)
    (opss : List (List (HloOp τ sig Val)))
    (hsub : ∀ ops ∈ opss, ∀ op ∈ ops, op.bufs ⊆ StableHlo.tcRefs τ sig)
    (hfresh : ∀ ops ∈ opss, ∀ op ∈ ops, op.fresh = ∅)
    (hkeep : ∀ ops ∈ opss, ∀ op ∈ ops, ∀ w, Proc.devRef .tc (arrRef win w) ∉ op.writes)
    (Q' : PUnit → sProp 𝕄) :
    iprop((iprop(bigSep Finset.univ Pw ∗ unscopedRest win c (fun b => StableHlo.after opss.flatten Wv (Proc.devRef .tc b))) -∗ Q' ⟨⟩)
        ∗ boundary (c.tc : Thread nD τ) ∗ bigSep Finset.univ Pw ∗ unscopedRest win c (fun b => Wv (Proc.devRef .tc b)))
      ⊢ wp frame (wpE 𝔻 𝕍 (c.tc : Thread nD τ) none) Set.univ (chain (opss.map StableHlo.seq)) Q' := by
  classical
  have hheld : ∀ Wv' : Valuation τ sig Val, (StableHlo.held (c.tc : Thread nD τ) (ucRefs τ sig) Wv' : sProp 𝕄)
      = iprop((arrBufs win c (fun b => Wv' (Proc.devRef .tc b)) : sProp 𝕄) ∗ unscopedRest win c (fun b => Wv' (Proc.devRef .tc b))) := fun Wv' => by
    rw [← unscopedBufs_held (Ix := Ix) (Name := Name) (U := U) (Lvl := Lvl) c Wv']
    exact unscopedBufs_eq win hunscoped c _
  have hsame : (arrBufs win c (fun b => StableHlo.after opss.flatten Wv (Proc.devRef .tc b)) : sProp 𝕄)
      = arrBufs win c (fun b => Wv (Proc.devRef .tc b)) := by
    unfold arrBufs
    refine BI.bigSep_congr fun b hb => ?_
    obtain ⟨w, -, rfl⟩ := Finset.mem_image.mp hb
    beta_reduce
    rw [StableHlo.after_of_forall_not_mem _ _ fun op hop => ?_]
    obtain ⟨ops, hops, hop⟩ := List.mem_flatten.mp hop
    exact hkeep ops hops op hop w
  rw [← List.append_nil (opss.map StableHlo.seq)]
  iintro ⟨Hk, Hb, Hp, Hr⟩
  ihave Ha := hjoin $$ Hp
  iapply (wp_seqs_then pcs defs₀ 𝒱₀ c (ucRefs τ sig) [] opss (fun ops ho op h => sub_ucRefs op (hsub ops ho op h)) hfresh Wv) $$ [Hb Ha Hr]
  · rw [hheld Wv]
    isplitl [Hb]; · iexact Hb
    isplitl [Ha] <;> iassumption
  iintro Hb
  rw [chain_nil, wp_pure, hheld, hsame]
  imodintro
  iapply Hk
  icases Hb with ⟨-, Ha, Hr⟩
  isplitl [Ha]
  · iapply hdeal; iexact Ha
  iexact Hr

end Tail

/-! ## The frame run of a region whose windows share arrays, @main continuing after it -/

section Frame

variable {Λ₀ : Idealize.SL.Sem.Labels} {P : Type} [Fintype P] [DecidableEq P] [∀ e, Nonempty (Val e)]
variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝕄₁" => MT nD τ sig Unit Val ℕ (UR sig nD τ) ℕ
local notation "𝔻" => Pipeline.defs (fun q => Cfg.toPCfg (Val := Val) (cfgs q)) defs₀

/-- What a run of such a program ends in: every window's array at what the library computes from the proof data, and
    every unscoped buffer that is no window's array at the results of the lines after the region, run from the exit
    contents `VN`. -/
def SharedPost (VN : Dev nD → Valuation τ sig Val) (opss : List (List (HloOp τ sig Val))) : PUnit × MemSt nD τ sig Val → Prop := fun r =>
  ∀ c : Dev nD, (∀ w, r.2.mem (((cfg).spec w).arr.view.loc (c.tc : Thread nD τ)) = (dats p c).arrAt w (cfg).N)
    ∧ ∀ b ∈ restRefs sig (cfg).spec, r.2.mem ((c.tc : Thread nD τ).loc b) = StableHlo.after opss.flatten (VN c) (Proc.devRef .tc b)

set_option backward.isDefEq.respectTransparency.types false in
/-- THE FRAME RUN for a kernel of the plain class — no semaphore, scratch or table of its own, nothing carried between
    points beyond the tracked invariant — whose windows MAY SHARE ARRAYS, in an @main that continues after the region
    with the host lines `opss`. The layout comes by its fields (`hinj`, `hw`, `hne`, `harr`, `hstage`); in place of the
    arrays' distinctness the certificate says how the distinct buffers at the entry contents `V₀` are dealt to the
    windows (`hdeal0`), and, at the exit contents `VN` — `V₀` off the arrays (`hVN`) —, that the windows' holdings join
    into the distinct buffers and are dealt from them again (`hjoinN`, `hdealN`); the lines write no array (`hkeep`). -/
theorem θ_run_frame_around_shared
    (hinj : Function.Injective (cellOf (nD := nD) (τ := τ) cfgs)) (hw : WinFacts₀ (cfg).spec)
    (hne : ∀ w : Fin (cfg).W, 0 < ((cfg).spec w).block.numel)
    (harr : ∀ w, ((cfg).spec w).arr.IsWhole) (hstage : ∀ w s, (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V₀ VN : Dev nD → Valuation τ sig Val) (opss : List (List (HloOp τ sig Val)))
    (hsub : ∀ ops ∈ opss, ∀ op ∈ ops, op.bufs ⊆ StableHlo.tcRefs τ sig)
    (hfresh : ∀ ops ∈ opss, ∀ op ∈ ops, op.fresh = ∅)
    (hkeep : ∀ ops ∈ opss, ∀ op ∈ ops, ∀ w, Proc.devRef .tc (arrRef (cfg).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hVN : ∀ c, ∀ b ∈ restRefs sig (cfg).spec, VN c (Proc.devRef .tc b) = V₀ c (Proc.devRef .tc b))
    (hdeal0 : ∀ c, (arrBufs (cfg).spec c (fun b => V₀ c (Proc.devRef .tc b)) : sProp 𝕄₁) ⊢ (dats p c).arrays ((dats p c).arrAt · 0))
    (hjoinN : ∀ c, (dats p c).arrays ((dats p c).arrAt · (cfg).N) ⊢ (arrBufs (cfg).spec c (fun b => VN c (Proc.devRef .tc b)) : sProp 𝕄₁))
    (hdealN : ∀ c, (arrBufs (cfg).spec c (fun b => VN c (Proc.devRef .tc b)) : sProp 𝕄₁) ⊢ (dats p c).arrays ((dats p c).arrAt · (cfg).N))
    (hin : ∀ c, ΦA (cfg).spec c ⊢ (dats p c).Φ 0) (hout : ∀ c, (dats p c).Φ (Fin.last (cfg).N) ⊢ ΦA (cfg).spec c) :
    θ_run 𝔻 (onTc main) (s₀ m g) (SharedPost cfgs dats p VN opss) := by
  classical
  exact θ_run_region_pf_tail (fun q => (cfgs q).toPCfg (Val := Val)) (fun q => (cfgs q).toPCfg_adm) dats () hinj p hw
    (OwnSemFacts.none (cfg).spec) (PreFacts.none _) emb₁ defs₀ 𝒱₀ m g main
    (fun _ => chain (opss.map StableHlo.seq)) hbody hne harr hstage howed
    (G := fun _ => iprop(emp)) (u₀ := initOf (cells cfgs hinj) (launchToks cfgs hinj))
    (hu₀ := by
      iintro Hu; imodintro
      isplitl [Hu]; · iapply (show (ownU _ : sProp 𝕄₁) ⊢ BI.own (emb₁ (initOf (cells cfgs hinj) (launchToks cfgs hinj))) from .rfl); iexact Hu
      iapply (show (BI.emp : sProp 𝕄₁) ⊢ bigSep Finset.univ (fun _ : Dev nD => (BI.emp : sProp 𝕄₁)) from by rw [BI.bigSep_emp_const])
      iempintro)
    (V := fun c b => V₀ c (Proc.devRef .tc b)) (hmain := hmain)
    (hsplit := hdeal0)
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none (cfg).spec c (fun b => V₀ c (Proc.devRef .tc b)))
    (Z' := fun c => unscopedRestP (Ix := Unit) (Name := ℕ) (U := UR sig nD τ) (Lvl := ℕ) Prefetch.none (cfg).spec c
      (fun b => StableHlo.after opss.flatten (VN c) (Proc.devRef .tc b)))
    (hX := fun c => by
      iintro ⟨HU, -, -, -, Hp, -⟩; imodintro
      isplitl [Hp]; · iexists _; iexact Hp
      iexact HU)
    (hin := fun c => (show _ ⊢ ΦA (cfg).spec c by
      unfold ΦA; iintro ⟨Hp, -, Hr⟩
      isplitl [Hr] <;> iassumption).trans (hin c))
    (hout := fun c => (hout c).trans (by
      rw [ownSems0_none]; unfold ΦA
      iintro ⟨Hr, Hp⟩
      isplitl [Hp]; · iexact Hp
      isplitr; · iempintro
      iexact Hr))
    (htail := fun c Q' => by
      rw [unscopedRestP_none, unscopedRestP_none,
        show (unscopedRest (cfg).spec c (fun b => V₀ c (Proc.devRef .tc b)) : sProp 𝕄₁)
            = unscopedRest (cfg).spec c (fun b => VN c (Proc.devRef .tc b)) from by
          unfold unscopedRest; exact BI.bigSep_congr fun b hb => by beta_reduce; rw [hVN c b hb]]
      exact tail_seqs_shared (fun q => (cfgs q).toPCfg (Val := Val)) defs₀ 𝒱₀ (cfg).spec hw.arr_unscoped c (VN c) _
        (hjoinN c) (hdealN c) opss hsub hfresh hkeep Q')
    (QY := fun c s => ∀ b ∈ restRefs sig (cfg).spec, s.mem ((c.tc : Thread nD τ).loc b) = StableHlo.after opss.flatten (VN c) (Proc.devRef .tc b))
    (hY := fun c s' => by
      rw [unscopedRestP_none]
      iintro ⟨-, HU, HSI⟩
      unfold unscopedRest
      imodintro
      iapply (pointsTo_read_all (restRefs sig (cfg).spec) (fun b => (c.tc : Thread nD τ).loc b)
        (fun b => StableHlo.after opss.flatten (VN c) (Proc.devRef .tc b)) s')
      isplitl [HU] <;> iassumption)
    (hQ := fun s h c => ⟨(h c).1, (h c).2.2⟩)

end Frame

end Cert.Lib.SharedArrays

end
-- ==== Proof.K.Region0.lean ====
/-
  The first kernel region: its proof data and what it owes the launch.

  The region has seven windows: windows 0 and 1 read the SAME adjacency array (the even and the odd 200-row blocks of
  it), window 2 the whole feature matrix, windows 3 and 4 the two weights, window 5 the bias row, window 6 is the
  output, one 400-row block per grid point. Beside them the body keeps a buffer of its own from point to point: at
  the first point it fills it with the rounded product of the features with the first weight, at every point it
  reads it. The adjacency's buffer is held by the two windows at the two halves of the full share; every other array
  is held by its one window at the full share. At a grid point each input window's staged block is the array's block
  there, and the output block is the body's function `out0` of the input blocks and of the carried buffer's contents,
  which are the same at every point.
-/
import proofs.«180870_g50560355009132_cont_8to1c4_249_8_alg».proof.Proof.K.Body0
import proofs.«180870_g50560355009132_cont_8to1c4_249_8_alg».proof.Proof.LibSharedArrays

set_option maxRecDepth 16384

noncomputable section

namespace Cert.Kernel.Hand.B0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Lib.SharedArrays

section Region0

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staged buffer holds the array's block at every point, fetched there or not: where it is not
    fetched its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The carried buffer -/

/-- The first grid point. -/
def t0 : Fin cfg0.N := ⟨0, by decide⟩

/-- What the carried buffer holds from the first point on: the rounded product of the features with the first weight,
    both whole arrays fetched at the first point. -/
def S0 (c : Dev nD) : Vec F S10000x128 .bf16 := scr0 (iblk0 V c 2 t0) (iblk0 V c 3 t0)

/-- The core's scoped buffers that are neither a staging buffer of this region nor its carried buffer, each whole at
    some contents. -/
def others0 (c : Dev nD) : sProp 𝕄 :=
  Pipeline.scopedRestBut (Ix := Unit) (Name := ℕ) (U := UR sig nD τ) (Lvl := ℕ) (Val := Elt F) spec0 c [cc0_scratch0]

/-- The scoped rest is the carried buffer and the others. -/
theorem scopedRest0_split (c : Dev nD) :
    (Pipeline.scopedRest (Ix := Unit) (Name := ℕ) (U := UR sig nD τ) (Lvl := ℕ) (Val := Elt F) spec0 c : sProp 𝕄)
      = iprop((∃ f, owns (c : Thread nD τ) (Memref.whole cc0_scratch0 : Memref sig .tc .vmem S10000x128 .bf16) fullShare f) ∗ others0 (F := F) c) := by
  unfold others0
  rw [Pipeline.scopedRest_split_of_list (Ix := Unit) (Name := ℕ) (U := UR sig nD τ) (Lvl := ℕ) (Val := Elt F) spec0 c [cc0_scratch0] (by decide) (by decide)]
  simp only [owns_whole]
  rfl

/-! ## The proof data -/

/-- The share each window holds of its array: the adjacency's two windows the two halves, the others everything. -/
def sh0 : Fin 7 → PosShare TreeShare
  | ⟨0, _⟩ => fullShare.left
  | ⟨1, _⟩ => fullShare.right
  | ⟨2, _⟩ => fullShare
  | ⟨3, _⟩ => fullShare
  | ⟨4, _⟩ => fullShare
  | ⟨5, _⟩ => fullShare
  | ⟨6, _⟩ => fullShare

/-- The proof data of the first region on core `c`: the arrays as the region finds them; after the body at point `t`
    each input's buffer at its block and the output's at `out0` of the input blocks and the carried buffer's contents;
    the invariant the generator register, the carried buffer — at anything before the first point, at `S0` after it —
    and the other scoped buffers; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0 (iblk0 V c 0 t) (iblk0 V c 1 t) (S0 V c) (iblk0 V c 4 t) (iblk0 V c 5 t)
  Φ k := iprop((∃ r, prngReg c r)
    ∗ (if k.val = 0 then iprop(∃ f, owns (c : Thread nD τ) (Memref.whole cc0_scratch0 : Memref sig .tc .vmem S10000x128 .bf16) fullShare f)
        else owns (c : Thread nD τ) (Memref.whole cc0_scratch0 : Memref sig .tc .vmem S10000x128 .bf16) fullShare (S0 V c))
    ∗ others0 (F := F) c)
  q := sh0
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) :
    (dat0 V c).after 6 t = out0 (iblk0 V c 0 t) (iblk0 V c 1 t) (S0 V c) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- The invariant before the first point: the carried buffer at anything. -/
theorem Phi0_zero (c : Dev nD) (k : Fin (cfg0.N + 1)) (h : k.val = 0) :
    (dat0 V c).Φ k = iprop((∃ r, prngReg c r) ∗ (∃ f, owns (c : Thread nD τ) (Memref.whole cc0_scratch0 : Memref sig .tc .vmem S10000x128 .bf16) fullShare f) ∗ others0 (F := F) c) := by
  dsimp only [dat0]; rw [if_pos h]

/-- The invariant after the first point: the carried buffer at `S0`. -/
theorem Phi0_pos (c : Dev nD) (k : Fin (cfg0.N + 1)) (h : k.val ≠ 0) :
    (dat0 V c).Φ k = iprop((∃ r, prngReg c r) ∗ owns (c : Thread nD τ) (Memref.whole cc0_scratch0 : Memref sig .tc .vmem S10000x128 .bf16) fullShare (S0 V c) ∗ others0 (F := F) c) := by
  dsimp only [dat0]; rw [if_neg h]

/-- The grid coordinate of a point is its number. -/
theorem coord0 : ∀ t : Fin cfg0.N, ((grid0.coords t) 0).val = t.val :=
  (by decide : ∀ t : Fin grid0.N, ((grid0.coords t) 0).val = t.val)

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks; at the first point the carried buffer comes out of
    the invariant at anything and goes back filled, at a later point it comes out filled and goes back as it was; the
    generator register, the other scoped buffers and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl,
    after0_0, after0_1, after0_2, after0_3, after0_4, after0_5, after0_6]
  by_cases h0 : t.val = 0
  · rw [Phi0_zero V c t.castSucc (show t.castSucc.val = 0 from h0), Phi0_pos V c t.succ (show t.succ.val ≠ 0 from Nat.succ_ne_zero _)]
    have hi : ((grid0.coords t) 0).val = 0 := (coord0 t).trans h0
    obtain rfl : t = t0 := Fin.ext h0
    unfold S0
    iintro ⟨⟨Hr, ⟨%f8, H8⟩, Hoth⟩, Ho, ⟨%d0, H0⟩, ⟨%d1, H1⟩, ⟨%d2, H2⟩, ⟨%d3, H3⟩, ⟨%d4, H4⟩, ⟨%d5, H5⟩, ⟨%d6, H6⟩⟩
    iapply (sound_first c Set.univ (grid0.coords t0) hi _ _ _ _ _ _ _ _ _ _ _ _ _ _ _ _ (iblk0 V c 0 t0) (iblk0 V c 1 t0) (iblk0 V c 2 t0) (iblk0 V c 3 t0) (iblk0 V c 4 t0) (iblk0 V c 5 t0) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H8]; · iexists _; iexact H8
    iintro ⟨H0, H1, H2, H3, H4, H5, H6, H8⟩
    isplitl [Hr H8 Hoth]
    · isplitl [Hr]; · iexact Hr
      isplitl [H8]; · iexact H8
      iexact Hoth
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [Phi0_pos V c t.castSucc (show t.castSucc.val ≠ 0 from h0), Phi0_pos V c t.succ (show t.succ.val ≠ 0 from Nat.succ_ne_zero _)]
    have hi : ((grid0.coords t) 0).val ≠ 0 := fun h => h0 ((coord0 t).symm.trans h)
    iintro ⟨⟨Hr, H8, Hoth⟩, Ho, ⟨%d0, H0⟩, ⟨%d1, H1⟩, ⟨%d2, H2⟩, ⟨%d3, H3⟩, ⟨%d4, H4⟩, ⟨%d5, H5⟩, ⟨%d6, H6⟩⟩
    iapply (sound_next c Set.univ (grid0.coords t) hi _ _ _ _ _ _ _ _ _ _ _ _ _ _ _ _ (iblk0 V c 0 t) (iblk0 V c 1 t) (iblk0 V c 2 t) (iblk0 V c 3 t) (iblk0 V c 4 t) (iblk0 V c 5 t) (S0 V c) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H8]; · iexact H8
    iintro ⟨H0, H1, H2, H3, H4, H5, H6, H8⟩
    isplitl [Hr H8 Hoth]
    · isplitl [Hr]; · iexact Hr
      isplitl [H8]; · iexact H8
      iexact Hoth
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's two ends -/

/-- ENTRY of the invariant: the scoped rest holds the carried buffer at some contents. -/
theorem hin0 (c : Dev nD) :
    iprop((∃ r, prngReg c r) ∗ Pipeline.scopedRest (Ix := Unit) (Name := ℕ) (U := UR sig nD τ) (Lvl := ℕ) (Val := Elt F) spec0 c) ⊢ (dat0 V c).Φ 0 := by
  rw [Phi0_zero V c 0 rfl, scopedRest0_split]

/-- EXIT of the invariant: the carried buffer, at what the first point left, is again a scoped buffer at some contents. -/
theorem hout0 (c : Dev nD) :
    (dat0 V c).Φ (Fin.last cfg0.N) ⊢ iprop((∃ r, prngReg c r) ∗ Pipeline.scopedRest (Ix := Unit) (Name := ℕ) (U := UR sig nD τ) (Lvl := ℕ) (Val := Elt F) spec0 c) := by
  rw [Phi0_pos V c (Fin.last cfg0.N) (by decide), scopedRest0_split]
  iintro ⟨Hr, Hs, Ho⟩
  isplitl [Hr]; · iexact Hr
  isplitl [Hs]; · iexists _; iexact Hs
  iexact Ho

end Region0

section Ends0

variable (V : (c : Dev nD) → (b : Ref sig .tc) → Buf (Elt F) ((c : Thread nD τ).loc b))

/-! ## The arrays at the region's two ends -/

/-- The distinct buffers behind the seven windows' arrays. -/
theorem image0 : Finset.univ.image (Pipeline.arrRef spec0) = ({main_arg3, main_arg0, main_arg4, main_v0, main_v2, main_v3} : Finset (Ref sig .tc)) := by
  decide

/-- Each window holds its array at `sh0`. -/
theorem share0 (c : Dev nD) (w : Fin cfg0.W) : (dat0 V c).share w = sh0 w := by
  fin_cases w <;> rfl

/-- The pipeline's arrays, window by window, as whole buffers at the windows' shares. -/
theorem arrays0_eq (c : Dev nD) (G : (w : Fin cfg0.W) → Buf (Elt F) ((cfg0.win w).arr.view.loc (c.tc : Thread nD τ))) :
    (dat0 V c).arrays G = bigSep Finset.univ fun w : Fin cfg0.W => (((c.tc : Thread nD τ).loc (Pipeline.arrRef spec0 w)) ↦{sh0 w} G w : sProp 𝕄) := by
  unfold Dat.arrays
  exact bigSep_congr fun w _ => by rw [(arr_whole0 w).set_eq_univ, share0]

/-- DEALING AND JOINING: the six distinct buffers whole at contents `Vc` are the seven windows' holdings at `Vc`, the
    adjacency's full share being its left and right halves. -/
theorem deal0 (c : Dev nD) (Vc : (b : Ref sig .tc) → Buf (Elt F) ((c.tc : Thread nD τ).loc b)) :
    (Pipeline.arrBufs spec0 c Vc : sProp 𝕄)
      ⊣⊢ bigSep Finset.univ fun w : Fin cfg0.W => (((c.tc : Thread nD τ).loc (Pipeline.arrRef spec0 w)) ↦{sh0 w} Vc (Pipeline.arrRef spec0 w) : sProp 𝕄) := by
  unfold Pipeline.arrBufs
  rw [image0, BI.bigSep_insert (by decide), BI.bigSep_insert (by decide), BI.bigSep_insert (by decide), BI.bigSep_insert (by decide),
    BI.bigSep_insert (by decide), BI.bigSep_singleton, bigSep_W0]
  have h : ((((c.tc : Thread nD τ).loc main_arg3) ↦{fullShare} Vc main_arg3) : sProp 𝕄)
      ⊣⊢ iprop((((c.tc : Thread nD τ).loc main_arg3) ↦{fullShare.left} Vc main_arg3) ∗ (((c.tc : Thread nD τ).loc main_arg3) ↦{fullShare.right} Vc main_arg3)) :=
    pointsTo_share (PosShare.mem_left_op_right fullShare)
  have h1 := h.1
  have h2 := h.2
  show (iprop((((c.tc : Thread nD τ).loc main_arg3) ↦{fullShare} Vc main_arg3) ∗ (((c.tc : Thread nD τ).loc main_arg0) ↦{fullShare} Vc main_arg0) ∗ (((c.tc : Thread nD τ).loc main_arg4) ↦{fullShare} Vc main_arg4)
      ∗ (((c.tc : Thread nD τ).loc main_v0) ↦{fullShare} Vc main_v0) ∗ (((c.tc : Thread nD τ).loc main_v2) ↦{fullShare} Vc main_v2) ∗ (((c.tc : Thread nD τ).loc main_v3) ↦{fullShare} Vc main_v3)) : sProp 𝕄) ⊣⊢ _
  constructor
  · iintro ⟨H3, H0, H4, Hv0, Hv2, Hv3⟩
    ihave H := h1 $$ H3
    icases H with ⟨Hl, Hr⟩
    isplitl [Hl]; · iexact Hl
    isplitl [Hr]; · iexact Hr
    isplitl [H0]; · iexact H0
    isplitl [H4]; · iexact H4
    isplitl [Hv0]; · iexact Hv0
    isplitl [Hv2]; · iexact Hv2
    iexact Hv3
  · iintro ⟨Hl, Hr, H0, H4, Hv0, Hv2, Hv3⟩
    isplitl [Hl Hr]
    · iapply h2
      isplitl [Hl]; · iexact Hl
      iexact Hr
    isplitl [H0]; · iexact H0
    isplitl [H4]; · iexact H4
    isplitl [Hv0]; · iexact Hv0
    isplitl [Hv2]; · iexact Hv2
    iexact Hv3

/-- ENTRY: the core's unscoped buffers at `V c` are the region's arrays at the proof data's entry contents and the
    unscoped rest. -/
theorem entry0 (c : Dev nD) :
    (unscopedBufs c (V c) : sProp 𝕄) ⊢ iprop((dat0 V c).arrays (dat0 V c).A ∗ Pipeline.unscopedRest spec0 c (V c)) := by
  rw [unscopedBufs_eq spec0 winFacts₀0.arr_unscoped c (V c), arrays0_eq]
  exact sep_mono ((deal0 c (V c)).1.trans (Entails.of_eq (bigSep_congr fun w _ => by rw [A_eq0]))) .rfl

/-- EXIT: the arrays after every write-back and the unscoped rest as entered are the core's unscoped buffers at any
    valuation that has the output's array at what the pipeline leaves and agrees with `V c` elsewhere. -/
theorem exit0 (c : Dev nD) (Vc' : (b : Ref sig .tc) → Buf (Elt F) ((c.tc : Thread nD τ).loc b))
    (hout : Vc' main_v3 = (dat0 V c).arrAt 6 cfg0.N) (hrest : ∀ b : Ref sig .tc, b ≠ main_v3 → Vc' b = V c b) :
    iprop((dat0 V c).arrays ((dat0 V c).arrAt · cfg0.N) ∗ Pipeline.unscopedRest spec0 c (V c)) ⊢ (unscopedBufs c Vc' : sProp 𝕄) := by
  have hF : ∀ w : Fin cfg0.W, (dat0 V c).arrAt w cfg0.N = Vc' (Pipeline.arrRef spec0 w) := fun w => by
    fin_cases w
    · exact ((dat0 V c).arrAt_in 0 rfl _).trans ((A_eq0 V c 0).trans (hrest main_arg3 (by decide)).symm)
    · exact ((dat0 V c).arrAt_in 1 rfl _).trans ((A_eq0 V c 1).trans (hrest main_arg3 (by decide)).symm)
    · exact ((dat0 V c).arrAt_in 2 rfl _).trans ((A_eq0 V c 2).trans (hrest main_arg0 (by decide)).symm)
    · exact ((dat0 V c).arrAt_in 3 rfl _).trans ((A_eq0 V c 3).trans (hrest main_arg4 (by decide)).symm)
    · exact ((dat0 V c).arrAt_in 4 rfl _).trans ((A_eq0 V c 4).trans (hrest main_v0 (by decide)).symm)
    · exact ((dat0 V c).arrAt_in 5 rfl _).trans ((A_eq0 V c 5).trans (hrest main_v2 (by decide)).symm)
    · exact hout.symm
  rw [unscopedBufs_eq spec0 winFacts₀0.arr_unscoped c Vc', arrays0_eq]
  refine sep_mono ((Entails.of_eq (bigSep_congr fun w _ => by rw [hF w])).trans (deal0 c Vc').2) (Entails.of_eq ?_)
  unfold Pipeline.unscopedRest
  exact bigSep_congr fun b hb => by
    rw [hrest b fun e => (Finset.mem_sdiff.mp hb).2 (e ▸ Finset.mem_image.mpr ⟨6, Finset.mem_univ _, rfl⟩)]

end Ends0

end Cert.Kernel.Hand.B0

end
-- ==== Proof.K.Body1.lean ====
/-
  The second kernel body at one grid point, in closed form.

  At the first point the body fills the carried [10000, 256] buffer: columns [0, 128) with the rounded product of the
  feature block and the weight, columns [128, 256) with the earlier result. At every point, for each 200-row half of
  the adjacency tile, it multiplies the rounded half with the whole carried buffer and writes, from the product's
  columns [0, 128), the bf16 output's half (bias, leaky select, product with the bf16 weight, rounded) and, from its
  columns [128, 256), the f32 output's half (bias, maximum with zero).

  `scr1`, `outU1`, `outS1` name what the stores leave as the canonical contents of their pieces; `sound_first` and
  `sound_next` are the body's triples at the first point and at a later one, the carried buffer a parameter of the
  latter.
-/
import proofs.«180870_g50560355009132_cont_8to1c4_249_8_alg».proof.Proof.Gen.Kernel.Launch
import proofs.«180870_g50560355009132_cont_8to1c4_249_8_alg».proof.Proof.Gen.Kernel.Skeleton
import proofs.«180870_g50560355009132_cont_8to1c4_249_8_alg».proof.Proof.Gen.Kernel.Points
import Idealize.ShloMosaic.Lib.Pipeline.FrameBody
import Idealize.ShloMosaic.Lib.Tactic

set_option maxRecDepth 16384

noncomputable section

namespace Cert.Kernel.Hand.B1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The body's access rectangles -/

/-- the whole adjacency half-tile -/
abbrev rA : Rect S200x10000 := Rect.unit (s := S200x10000) ![0, 0] S200x10000.size inb_S200x10000_S200x10000_0_0
/-- the whole feature block / the whole earlier result -/
abbrev rX : Rect S10000x128 := Rect.unit (s := S10000x128) ![0, 0] S10000x128.size inb_S10000x128_S10000x128_0_0
/-- a whole 128 × 128 weight -/
abbrev rW : Rect S128x128 := Rect.unit (s := S128x128) ![0, 0] S128x128.size inb_S128x128_S128x128_0_0
/-- a whole bias row -/
abbrev rB : Rect S1x128 := Rect.unit (s := S1x128) ![0, 0] S1x128.size inb_S1x128_S1x128_0_0
/-- the carried buffer: its columns [0, 128), its columns [128, 256), and all of it -/
abbrev rSl : Rect S10000x256 := Rect.unit (s := S10000x256) ![0, 0] S10000x128.size inb_S10000x256_S10000x128_0_0
abbrev rSr : Rect S10000x256 := Rect.unit (s := S10000x256) ![0, 128] S10000x128.size inb_S10000x256_S10000x128_0_128
abbrev rSw : Rect S10000x256 := Rect.unit (s := S10000x256) ![0, 0] S10000x256.size inb_S10000x256_S10000x256_0_0
/-- an output block: its rows [0, 200) and its rows [200, 400) -/
abbrev rOt : Rect S400x128 := Rect.unit (s := S400x128) ![0, 0] S200x128.size inb_S400x128_S200x128_0_0
abbrev rOb : Rect S400x128 := Rect.unit (s := S400x128) ![200, 0] S200x128.size inb_S400x128_S200x128_200_0

/-! ## What the body leaves -/

/-- What the first point leaves in the carried buffer: the rounded product of the features with the weight in
    columns [0, 128), the earlier result in columns [128, 256) (the two stores as pieces, last first). -/
def scr1 (x3 : Vec F S10000x128 .f32) (x4 : Vec F S128x128 .f32) (x6 : Vec F S10000x128 .bf16) : Vec F S10000x256 .bf16 :=
  View.canon [⟨rSr, k1_pay5 (View.ld x6 rX)⟩, ⟨rSl, k1_pay4 (View.ld x3 rX) (View.ld x4 rW)⟩]

/-- The f32 output block after the body, from the two half-tiles, the carried buffer and the bias row: its two
    row-half stores as pieces, last first. -/
def outU1 (x1 x2 : Vec F S200x10000 .f32) (s : Vec F S10000x256 .bf16) (x8 : Vec F S1x128 .f32) : Vec F S400x128 .f32 :=
  View.canon [⟨rOb, k1_pay3 (k1_pay9 (View.ld x2 rA)) (View.ld s rSw) (View.ld x8 rB)⟩,
              ⟨rOt, k1_pay8 (View.ld x1 rA) (View.ld s rSw) (View.ld x8 rB)⟩]

/-- The bf16 output block after the body, likewise. -/
def outS1 (x1 x2 : Vec F S200x10000 .f32) (s : Vec F S10000x256 .bf16) (x5 : Vec F S128x128 .bf16) (x7 : Vec F S1x128 .f32) : Vec F S400x128 .bf16 :=
  View.canon [⟨rOb, k1_pay2 (k1_pay9 (View.ld x2 rA)) (View.ld s rSw) (View.ld x7 rB) (View.ld x5 rW)⟩,
              ⟨rOt, k1_pay7 (View.ld x1 rA) (View.ld s rSw) (View.ld x7 rB) (View.ld x5 rW)⟩]

/-- The two column rectangles tile the carried buffer. -/
theorem cover_scr1 (p0 p1 : Vec F S10000x128 .bf16) (y : S10000x256.Idx) :
    ∃ pc ∈ ([⟨rSr, p0⟩, ⟨rSl, p1⟩] : List (View.Piece (Elt F) S10000x256 .bf16)), y ∈ pc.1.set :=
  View.cover_of_tiled [⟨rSr, p0⟩, ⟨rSl, p1⟩] S10000x128.size (by rfl) y

/-- The two row halves tile an output block. -/
theorem cover_out1 {e : EltTy} (p0 p1 : S200x128.Idx → Elt F e) (y : S400x128.Idx) :
    ∃ pc ∈ ([⟨rOb, p0⟩, ⟨rOt, p1⟩] : List (View.Piece (Elt F) S400x128 e)), y ∈ pc.1.set :=
  View.cover_of_tiled [⟨rOb, p0⟩, ⟨rOt, p1⟩] S200x128.size (by rfl) y

/-! ## The body's branch on the grid coordinate -/

/-- The printed test of the body's conditional, over the grid coordinate. -/
abbrev cond1 (j : ℕ) : Prop :=
  (Scalar.cmpi .ne (Scalar.extui (Scalar.cmpi .eq (BitVec.ofNat 32 j) 0#32)) 0#32) = 1#1

/-- It holds at the first of the 25 points only. -/
theorem cond1_iff : ∀ j : Fin 25, cond1 j.val ↔ j.val = 0 := by decide

/-! ## The carried buffer read back whole, and the outputs over any spelling of that read -/

/-- After the first point's two stores a load of the whole carried buffer reads `scr1`. -/
theorem readCov_scr1 (v : View sig .tc .vmem S10000x256 .bf16) (x3 : Vec F S10000x128 .f32) (x4 : Vec F S128x128 .f32)
    (x6 : Vec F S10000x128 .bf16) :
    v.readCov [⟨rSr, k1_pay5 (View.ld x6 rX)⟩, ⟨rSl, k1_pay4 (View.ld x3 rX) (View.ld x4 rW)⟩] rSw.toLoadRect
      = View.ld (scr1 x3 x4 x6) rSw :=
  View.readCov_eq_canon_ld v _ rSw (cover_scr1 _ _)

/-- The f32 output's pieces over a value `w` equal to the carried buffer's whole read are `outU1`. -/
theorem outU1_of_read (x1 x2 : Vec F S200x10000 .f32) (w : Vec F S10000x256 .bf16) (s : Vec F S10000x256 .bf16)
    (x8 : Vec F S1x128 .f32) (h : w = View.ld s rSw) :
    View.canon [⟨rOb, k1_pay3 (k1_pay9 (View.ld x2 rA)) w (View.ld x8 rB)⟩,
                ⟨rOt, k1_pay8 (View.ld x1 rA) w (View.ld x8 rB)⟩] = outU1 x1 x2 s x8 := by
  subst h; rfl

/-- The bf16 output's pieces, likewise. -/
theorem outS1_of_read (x1 x2 : Vec F S200x10000 .f32) (w : Vec F S10000x256 .bf16) (s : Vec F S10000x256 .bf16)
    (x5 : Vec F S128x128 .bf16) (x7 : Vec F S1x128 .f32) (h : w = View.ld s rSw) :
    View.canon [⟨rOb, k1_pay2 (k1_pay9 (View.ld x2 rA)) w (View.ld x7 rB) (View.ld x5 rW)⟩,
                ⟨rOt, k1_pay7 (View.ld x1 rA) w (View.ld x7 rB) (View.ld x5 rW)⟩] = outS1 x1 x2 s x5 x7 := by
  subst h; rfl

/-! ## The body's triples -/

set_option maxHeartbeats 1000000 in
/-- At the first point: on whole memrefs, the inputs at their contents and the two outputs and the carried buffer at
    anything, the body runs to the continuation holding the inputs as they were, the carried buffer at `scr1` and
    each output at its closed form over `scr1`. -/
theorem sound_first (c : Dev nD) (E : Set ℕ) (i : grid1.Coords) (hi : (i 0).val = 0)
    (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .bf16) (harg5 : arg5.IsWhole) (arg6 : Memref sig .tc .vmem S10000x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S400x128 .f32) (harg9 : arg9.IsWhole) (arg10 : Memref sig .tc .vmem S400x128 .bf16) (harg10 : arg10.IsWhole) (arg11 : Memref sig .tc .vmem S10000x256 .bf16) (harg11 : arg11.IsWhole)
    (x1 : Vec F S200x10000 .f32) (x2 : Vec F S200x10000 .f32) (x3 : Vec F S10000x128 .f32) (x4 : Vec F S128x128 .f32) (x5 : Vec F S128x128 .bf16) (x6 : Vec F S10000x128 .bf16) (x7 : Vec F S1x128 .f32) (x8 : Vec F S1x128 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
            ∗ owns (c : Thread nD τ) arg9 fullShare (outU1 x1 x2 (scr1 x3 x4 x6) x8) ∗ owns (c : Thread nD τ) arg10 fullShare (outS1 x1 x2 (scr1 x3 x4 x6) x5 x7)
            ∗ owns (c : Thread nD τ) arg11 fullShare (scr1 x3 x4 x6)) -∗ K ⟨⟩))
      ⊢ wp frame (wpE (defs₀ (F := F)) Variants.none c none) E (cc1__pass2_body i arg1 harg1 arg2 harg2 arg3 harg3 arg4 harg4 arg5 harg5 arg6 harg6 arg7 harg7 arg8 harg8 arg9 harg9 arg10 harg10 arg11 harg11) K := by
  have hc : cond1 (i 0).val := (cond1_iff (i 0)).mpr hi
  simp only [cc1__pass2_body_eq_skeleton]; unfold cc1__pass2_body_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf1 hf2 hf3 hf4 hf5 hf6 hf7 hf8
  sl_exec (disch := first | exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    sl_unfold_run_names
    exact (View.read_writes_eq_canon _ _ _ (cover_out1 _ _)).trans
      (outU1_of_read (arg1.view.read (Elt F) f1) (arg2.view.read (Elt F) f2) _
        (scr1 (arg3.view.read (Elt F) f3) (arg4.view.read (Elt F) f4) (arg6.view.read (Elt F) f6))
        (arg8.view.read (Elt F) f8) (readCov_scr1 arg11.view _ _ _))
  isplitl [H10]
  · iexists _; isplitr
    swap; · iexact H10
    ipureintro
    sl_unfold_run_names
    exact (View.read_writes_eq_canon _ _ _ (cover_out1 _ _)).trans
      (outS1_of_read (arg1.view.read (Elt F) f1) (arg2.view.read (Elt F) f2) _
        (scr1 (arg3.view.read (Elt F) f3) (arg4.view.read (Elt F) f4) (arg6.view.read (Elt F) f6))
        (arg5.view.read (Elt F) f5) (arg7.view.read (Elt F) f7) (readCov_scr1 arg11.view _ _ _))
  iexists _; isplitr
  swap; · iexact H11
  ipureintro
  sl_unfold_run_names
  exact View.read_writes_eq_canon _ _ _ (cover_scr1 _ _)

set_option maxHeartbeats 1000000 in
/-- At a later point: the carried buffer at contents `s` stays at `s`, and each output ends at its closed form
    over `s`. -/
theorem sound_next (c : Dev nD) (E : Set ℕ) (i : grid1.Coords) (hi : (i 0).val ≠ 0)
    (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .bf16) (harg5 : arg5.IsWhole) (arg6 : Memref sig .tc .vmem S10000x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S400x128 .f32) (harg9 : arg9.IsWhole) (arg10 : Memref sig .tc .vmem S400x128 .bf16) (harg10 : arg10.IsWhole) (arg11 : Memref sig .tc .vmem S10000x256 .bf16) (harg11 : arg11.IsWhole)
    (x1 : Vec F S200x10000 .f32) (x2 : Vec F S200x10000 .f32) (x3 : Vec F S10000x128 .f32) (x4 : Vec F S128x128 .f32) (x5 : Vec F S128x128 .bf16) (x6 : Vec F S10000x128 .bf16) (x7 : Vec F S1x128 .f32) (x8 : Vec F S1x128 .f32) (s : Vec F S10000x256 .bf16) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
        ∗ (∃ d, owns (c : Thread nD τ) arg9 fullShare d) ∗ (∃ d, owns (c : Thread nD τ) arg10 fullShare d) ∗ owns (c : Thread nD τ) arg11 fullShare s
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
            ∗ owns (c : Thread nD τ) arg9 fullShare (outU1 x1 x2 s x8) ∗ owns (c : Thread nD τ) arg10 fullShare (outS1 x1 x2 s x5 x7)
            ∗ owns (c : Thread nD τ) arg11 fullShare s) -∗ K ⟨⟩))
      ⊢ wp frame (wpE (defs₀ (F := F)) Variants.none c none) E (cc1__pass2_body i arg1 harg1 arg2 harg2 arg3 harg3 arg4 harg4 arg5 harg5 arg6 harg6 arg7 harg7 arg8 harg8 arg9 harg9 arg10 harg10 arg11 harg11) K := by
  have hc : ¬ cond1 (i 0).val := fun h => hi ((cond1_iff (i 0)).mp h)
  simp only [cc1__pass2_body_eq_skeleton]; unfold cc1__pass2_body_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, Hk⟩
  subst hf1 hf2 hf3 hf4 hf5 hf6 hf7 hf8 hf11
  sl_exec (disch := first | exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover_out1 _ _)
  isplitl [H10]
  · iexists _; isplitr
    swap; · iexact H10
    ipureintro
    exact View.read_writes_eq_canon _ _ _ (cover_out1 _ _)
  iexists f11; isplitr; · ipureintro; rfl
  iexact H11

end Cert.Kernel.Hand.B1
end
-- ==== Proof.K.Region1.lean ====
/-
  The second kernel region: its proof data and what it owes the launch.

  The region has ten windows: windows 0 and 1 read the SAME adjacency array (the even and the odd 200-row blocks of
  it), window 2 the feature matrix, windows 3 and 4 the two weights, window 5 the first region's result, windows 6 and
  7 the two bias rows, windows 8 and 9 are the two outputs, one 400-row block each per grid point. The adjacency's
  buffer is held by its two windows at the two halves of the full share; every other array by its one window at the
  full share. The body keeps a [10000, 256] buffer from point to point: the first point fills it from the blocks of
  windows 2, 3 and 5 (whole arrays, the same at every point) and every point reads it, so it holds ONE value after
  the first point, and each output block is the body's function of the two adjacency blocks, that value, and the
  weight and bias blocks. The invariant carries that buffer: at anything before the first point, at that value after.
-/
import proofs.«180870_g50560355009132_cont_8to1c4_249_8_alg».proof.Proof.K.Body1
import proofs.«180870_g50560355009132_cont_8to1c4_249_8_alg».proof.Proof.LibSharedArrays

set_option maxRecDepth 16384

noncomputable section

namespace Cert.Kernel.Hand.B1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Lib.SharedArrays

section Region1

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staged buffer holds the array's block at every point, fetched there or not: where it is not
    fetched its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The carried buffer's value -/

/-- The first point. -/
abbrev t0 : Fin cfg1.N := ⟨0, by decide⟩

/-- What the carried buffer holds from the first point on: the first point's fill, from the blocks of windows 2, 3
    and 5 there. -/
def S1 (c : Dev nD) : Vec F S10000x256 .bf16 := scr1 (iblk1 V c 2 t0) (iblk1 V c 3 t0) (iblk1 V c 5 t0)

/-- The grid's one coordinate at a point is the point's number. -/
theorem coord1 : ∀ t : Fin cfg1.N, ((grid1.coords t) 0).val = t.val := by decide

/-! ## The proof data -/

/-- The share each window holds of its array: the adjacency's two windows the two halves, the others everything. -/
def sh1 : Fin 10 → PosShare TreeShare
  | ⟨0, _⟩ => fullShare.left
  | ⟨1, _⟩ => fullShare.right
  | ⟨2, _⟩ => fullShare
  | ⟨3, _⟩ => fullShare
  | ⟨4, _⟩ => fullShare
  | ⟨5, _⟩ => fullShare
  | ⟨6, _⟩ => fullShare
  | ⟨7, _⟩ => fullShare
  | ⟨8, _⟩ => fullShare
  | ⟨9, _⟩ => fullShare

/-- The invariant before point `k`: the generator register at some state, the carried buffer — at anything before
    the first point, at `S1` after it —, and the core's other scoped buffers that are no staging buffer of the
    region, at some contents each. -/
def Φ1 (c : Dev nD) (k : Fin (cfg1.N + 1)) : sProp 𝕄 :=
  iprop((∃ r, prngReg c r)
    ∗ (if k.val = 0 then iprop(∃ d, owns (c : Thread nD τ) (Memref.whole cc1_scratch0 : Memref sig .tc .vmem S10000x256 .bf16) fullShare d)
        else owns (c : Thread nD τ) (Memref.whole cc1_scratch0 : Memref sig .tc .vmem S10000x256 .bf16) fullShare (S1 V c))
    ∗ Pipeline.scopedRestBut (Ix := Unit) (Name := ℕ) (U := UR sig nD τ) (Lvl := ℕ) (Val := Elt F) spec1 c [cc1_scratch0])

theorem Φ1_first (c : Dev nD) (k : Fin (cfg1.N + 1)) (h : k.val = 0) :
    Φ1 V c k = iprop((∃ r, prngReg c r) ∗ (∃ d, owns (c : Thread nD τ) (Memref.whole cc1_scratch0 : Memref sig .tc .vmem S10000x256 .bf16) fullShare d) ∗ Pipeline.scopedRestBut (Ix := Unit) (Name := ℕ) (U := UR sig nD τ) (Lvl := ℕ) (Val := Elt F) spec1 c [cc1_scratch0]) := by
  unfold Φ1; rw [if_pos h]

theorem Φ1_later (c : Dev nD) (k : Fin (cfg1.N + 1)) (h : k.val ≠ 0) :
    Φ1 V c k = iprop((∃ r, prngReg c r) ∗ owns (c : Thread nD τ) (Memref.whole cc1_scratch0 : Memref sig .tc .vmem S10000x256 .bf16) fullShare (S1 V c) ∗ Pipeline.scopedRestBut (Ix := Unit) (Name := ℕ) (U := UR sig nD τ) (Lvl := ℕ) (Val := Elt F) spec1 c [cc1_scratch0]) := by
  unfold Φ1; rw [if_neg h]

/-- The proof data of the second region on core `c`: the arrays as the region finds them; after the body at point `t`
    each input's buffer at its block and each output's at its closed form over the input blocks and `S1`; the
    invariant `Φ1`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => outU1 (iblk1 V c 0 t) (iblk1 V c 1 t) (S1 V c) (iblk1 V c 7 t)
    | ⟨9, _⟩ => outS1 (iblk1 V c 0 t) (iblk1 V c 1 t) (S1 V c) (iblk1 V c 4 t) (iblk1 V c 6 t)
  Φ k := Φ1 V c k
  q := sh1
  owed _ := 0

theorem A_eq1 (c : Dev nD) (w : Fin cfg1.W) : (dat1 V c).A w = V c (Pipeline.arrRef spec1 w) := by
  dsimp only [dat1]

theorem Φ_eq1 (c : Dev nD) (k : Fin (cfg1.N + 1)) : (dat1 V c).Φ k = Φ1 V c k := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) :
    (dat1 V c).after 8 t = outU1 (iblk1 V c 0 t) (iblk1 V c 1 t) (S1 V c) (iblk1 V c 7 t) := by dsimp only [dat1]
theorem after1_9 (c : Dev nD) (t : Fin cfg1.N) :
    (dat1 V c).after 9 t = outS1 (iblk1 V c 0 t) (iblk1 V c 1 t) (S1 V c) (iblk1 V c 4 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

/-- The body at any point: the inputs' memrefs hold their blocks, so the body's triple applies — at the first point
    the one that fills the carried buffer, found at anything and left at `S1`; at a later point the one that reads
    it, found and left at `S1` —; the generator register, the other scoped buffers and the core's dues pass through
    unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl,
    after1_0, after1_1, after1_2, after1_3, after1_4, after1_5, after1_6, after1_7, after1_8, after1_9, Φ_eq1, Φ_eq1,
    Φ1_later V c t.succ (by rw [Fin.val_succ]; exact Nat.succ_ne_zero _)]
  by_cases h0 : t.val = 0
  · have hi : ((grid1.coords t) 0).val = 0 := (coord1 t).trans h0
    rw [Φ1_first V c t.castSucc (by rw [Fin.val_castSucc]; exact h0)]
    obtain rfl : t = t0 := Fin.ext h0
    iintro ⟨⟨Hr, Hs, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_first c Set.univ (grid1.coords t0) hi _ _ _ _ _ _ _ _ _ _ _ _ _ _ _ _ _ _ _ _ _ _ (iblk1 V c 0 t0) (iblk1 V c 1 t0) (iblk1 V c 2 t0) (iblk1 V c 3 t0) (iblk1 V c 4 t0) (iblk1 V c 5 t0) (iblk1 V c 6 t0) (iblk1 V c 7 t0) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [Hs]; · iexact Hs
    iintro ⟨H0, H1, H2, H3, H4, H5, H6, H7, H8, H9, Hs⟩
    isplitl [Hr Hs Hrest]
    · isplitl [Hr]; · iexact Hr
      isplitl [Hs]; · iexact Hs
      iexact Hrest
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · have hi : ((grid1.coords t) 0).val ≠ 0 := fun h => h0 ((coord1 t).symm.trans h)
    rw [Φ1_later V c t.castSucc (by rw [Fin.val_castSucc]; exact h0)]
    iintro ⟨⟨Hr, Hs, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_next c Set.univ (grid1.coords t) hi _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (S1 V c) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [Hs]; · iexact Hs
    iintro ⟨H0, H1, H2, H3, H4, H5, H6, H7, H8, H9, Hs⟩
    isplitl [Hr Hs Hrest]
    · isplitl [Hr]; · iexact Hr
      isplitl [Hs]; · iexact Hs
      iexact Hrest
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's two ends -/

/-- The carried buffer is a scoped buffer of the core and no staging buffer of the region. -/
theorem scratch_mem1 : ([cc1_scratch0] : List (Ref sig .tc)).Forall fun b =>
    b.isScoped = true ∧ ∀ (w : Fin 10) (s : Fin (spec1 w).nbuf), ((spec1 w).stage s).view.ref ≠ b := by decide

/-- The core's scoped rest is the carried buffer at some contents and the others. -/
theorem scopedRest1_split (c : Dev nD) :
    (Pipeline.scopedRest (Ix := Unit) (Name := ℕ) (U := UR sig nD τ) (Lvl := ℕ) (Val := Elt F) spec1 c : sProp 𝕄)
      = iprop((∃ d, owns (c : Thread nD τ) (Memref.whole cc1_scratch0 : Memref sig .tc .vmem S10000x256 .bf16) fullShare d) ∗ Pipeline.scopedRestBut (Ix := Unit) (Name := ℕ) (U := UR sig nD τ) (Lvl := ℕ) (Val := Elt F) spec1 c [cc1_scratch0]) := by
  rw [Pipeline.scopedRest_split_of_list spec1 c [cc1_scratch0] scratch_mem1 (by decide), bigSepL_singleton,
    (Memref.isWhole_whole cc1_scratch0).exists_owns_eq fullShare]
  rfl

/-- ENTRY: what the launch hands the body — the generator register and the scoped rest — is the invariant before the
    first point. -/
theorem hin1 (c : Dev nD) :
    iprop((∃ r, prngReg c r) ∗ Pipeline.scopedRest (Ix := Unit) (Name := ℕ) (U := UR sig nD τ) (Lvl := ℕ) (Val := Elt F) spec1 c)
      ⊢ (dat1 V c).Φ 0 := by
  rw [Φ_eq1, Φ1_first V c 0 rfl, scopedRest1_split]

/-- EXIT: the invariant after the last point gives both back, the carried buffer at some contents again. -/
theorem hout1 (c : Dev nD) :
    (dat1 V c).Φ (Fin.last cfg1.N)
      ⊢ iprop((∃ r, prngReg c r) ∗ Pipeline.scopedRest (Ix := Unit) (Name := ℕ) (U := UR sig nD τ) (Lvl := ℕ) (Val := Elt F) spec1 c) := by
  rw [Φ_eq1, Φ1_later V c (Fin.last cfg1.N) (by decide), scopedRest1_split]
  iintro ⟨Hr, Hs, Hrest⟩
  isplitl [Hr]; · iexact Hr
  isplitl [Hs]; · iexists _; iexact Hs
  iexact Hrest

end Region1

section Ends1

variable (V : (c : Dev nD) → (b : Ref sig .tc) → Buf (Elt F) ((c : Thread nD τ).loc b))

/-! ## The arrays at the region's two ends

The launch holds the core's DISTINCT unscoped buffers, each whole at the full share; the pipeline holds each WINDOW's
array at the window's share. Nine buffers stand behind the ten windows' arrays; the adjacency's full share is the two
halves its two windows hold. -/

/-- The distinct buffers behind the ten windows' arrays. -/
theorem image1 : Finset.univ.image (Pipeline.arrRef spec1) = ({main_arg2, main_arg1, main_arg5, main_v1, main_v3, main_v4, main_v5, main_v6_0, main_v6_1} : Finset (Ref sig .tc)) := by
  decide

/-- Each window holds its array at `sh1`: an input at its own share, an output at the full share. -/
theorem share1 (c : Dev nD) (w : Fin cfg1.W) : (dat1 V c).share w = sh1 w := by
  fin_cases w <;> rfl

/-- The pipeline's arrays, window by window, as whole buffers at the windows' shares. -/
theorem arrays1_eq (c : Dev nD) (G : (w : Fin cfg1.W) → Buf (Elt F) ((cfg1.win w).arr.view.loc (c.tc : Thread nD τ))) :
    (dat1 V c).arrays G = bigSep Finset.univ fun w : Fin cfg1.W => (((c.tc : Thread nD τ).loc (Pipeline.arrRef spec1 w)) ↦{sh1 w} G w : sProp 𝕄) := by
  unfold Dat.arrays
  exact bigSep_congr fun w _ => by rw [(arr_whole1 w).set_eq_univ, share1]

/-- DEALING AND JOINING: the nine distinct buffers whole at contents `Vc` are the ten windows' holdings at `Vc`, the
    adjacency's full share being its left and right halves. -/
theorem deal1 (c : Dev nD) (Vc : (b : Ref sig .tc) → Buf (Elt F) ((c.tc : Thread nD τ).loc b)) :
    (Pipeline.arrBufs spec1 c Vc : sProp 𝕄)
      ⊣⊢ bigSep Finset.univ fun w : Fin cfg1.W => (((c.tc : Thread nD τ).loc (Pipeline.arrRef spec1 w)) ↦{sh1 w} Vc (Pipeline.arrRef spec1 w) : sProp 𝕄) := by
  unfold Pipeline.arrBufs
  rw [image1, BI.bigSep_insert (by decide), BI.bigSep_insert (by decide), BI.bigSep_insert (by decide), BI.bigSep_insert (by decide), BI.bigSep_insert (by decide), BI.bigSep_insert (by decide), BI.bigSep_insert (by decide), BI.bigSep_insert (by decide), BI.bigSep_singleton, bigSep_W1]
  have h : (((c.tc : Thread nD τ).loc main_arg2) ↦{fullShare} Vc main_arg2 : sProp 𝕄)
      ⊣⊢ iprop((((c.tc : Thread nD τ).loc main_arg2) ↦{fullShare.left} Vc main_arg2) ∗ (((c.tc : Thread nD τ).loc main_arg2) ↦{fullShare.right} Vc main_arg2)) :=
    pointsTo_share (PosShare.mem_left_op_right fullShare)
  have h1 := h.1
  have h2 := h.2
  show (iprop((((c.tc : Thread nD τ).loc main_arg2) ↦{fullShare} Vc main_arg2)
      ∗ (((c.tc : Thread nD τ).loc main_arg1) ↦{fullShare} Vc main_arg1)
      ∗ (((c.tc : Thread nD τ).loc main_arg5) ↦{fullShare} Vc main_arg5)
      ∗ (((c.tc : Thread nD τ).loc main_v1) ↦{fullShare} Vc main_v1)
      ∗ (((c.tc : Thread nD τ).loc main_v3) ↦{fullShare} Vc main_v3)
      ∗ (((c.tc : Thread nD τ).loc main_v4) ↦{fullShare} Vc main_v4)
      ∗ (((c.tc : Thread nD τ).loc main_v5) ↦{fullShare} Vc main_v5)
      ∗ (((c.tc : Thread nD τ).loc main_v6_0) ↦{fullShare} Vc main_v6_0)
      ∗ (((c.tc : Thread nD τ).loc main_v6_1) ↦{fullShare} Vc main_v6_1)) : sProp 𝕄) ⊣⊢ _
  constructor
  · iintro ⟨Ha2, Ha1, Ha5, Hv1, Hv3, Hv4, Hv5, Hu, Hs⟩
    ihave H := h1 $$ Ha2
    icases H with ⟨Hl, Hr⟩
    isplitl [Hl]; · iexact Hl
    isplitl [Hr]; · iexact Hr
    isplitl [Ha1]; · iexact Ha1
    isplitl [Ha5]; · iexact Ha5
    isplitl [Hv1]; · iexact Hv1
    isplitl [Hv3]; · iexact Hv3
    isplitl [Hv4]; · iexact Hv4
    isplitl [Hv5]; · iexact Hv5
    isplitl [Hu]; · iexact Hu
    iexact Hs
  · iintro ⟨Hl, Hr, Ha1, Ha5, Hv1, Hv3, Hv4, Hv5, Hu, Hs⟩
    isplitl [Hl Hr]
    · iapply h2
      isplitl [Hl]; · iexact Hl
      iexact Hr
    isplitl [Ha1]; · iexact Ha1
    isplitl [Ha5]; · iexact Ha5
    isplitl [Hv1]; · iexact Hv1
    isplitl [Hv3]; · iexact Hv3
    isplitl [Hv4]; · iexact Hv4
    isplitl [Hv5]; · iexact Hv5
    isplitl [Hu]; · iexact Hu
    iexact Hs

/-- ENTRY: the core's unscoped buffers at `V c` are the region's arrays at the proof data's entry contents and the
    unscoped rest. -/
theorem entry1 (c : Dev nD) :
    (unscopedBufs c (V c) : sProp 𝕄) ⊢ iprop((dat1 V c).arrays (dat1 V c).A ∗ Pipeline.unscopedRest spec1 c (V c)) := by
  rw [unscopedBufs_eq spec1 winFacts₀1.arr_unscoped c (V c), arrays1_eq]
  exact sep_mono ((deal1 c (V c)).1.trans (Entails.of_eq (bigSep_congr fun w _ => by rw [A_eq1]))) .rfl

/-- EXIT: the arrays after every write-back and the unscoped rest as entered are the core's unscoped buffers at any
    valuation that has the two outputs' arrays at what the pipeline leaves and agrees with `V c` elsewhere. -/
theorem exit1 (c : Dev nD) (Vc' : (b : Ref sig .tc) → Buf (Elt F) ((c.tc : Thread nD τ).loc b))
    (hout : Vc' main_v6_0 = (dat1 V c).arrAt 8 cfg1.N) (hout' : Vc' main_v6_1 = (dat1 V c).arrAt 9 cfg1.N)
    (hrest : ∀ b : Ref sig .tc, b ≠ main_v6_0 → b ≠ main_v6_1 → Vc' b = V c b) :
    iprop((dat1 V c).arrays ((dat1 V c).arrAt · cfg1.N) ∗ Pipeline.unscopedRest spec1 c (V c)) ⊢ (unscopedBufs c Vc' : sProp 𝕄) := by
  have hF : ∀ w : Fin cfg1.W, (dat1 V c).arrAt w cfg1.N = Vc' (Pipeline.arrRef spec1 w) := fun w => by
    fin_cases w
    · exact ((dat1 V c).arrAt_in 0 rfl _).trans ((A_eq1 V c 0).trans (hrest main_arg2 (by decide) (by decide)).symm)
    · exact ((dat1 V c).arrAt_in 1 rfl _).trans ((A_eq1 V c 1).trans (hrest main_arg2 (by decide) (by decide)).symm)
    · exact ((dat1 V c).arrAt_in 2 rfl _).trans ((A_eq1 V c 2).trans (hrest main_arg1 (by decide) (by decide)).symm)
    · exact ((dat1 V c).arrAt_in 3 rfl _).trans ((A_eq1 V c 3).trans (hrest main_arg5 (by decide) (by decide)).symm)
    · exact ((dat1 V c).arrAt_in 4 rfl _).trans ((A_eq1 V c 4).trans (hrest main_v1 (by decide) (by decide)).symm)
    · exact ((dat1 V c).arrAt_in 5 rfl _).trans ((A_eq1 V c 5).trans (hrest main_v3 (by decide) (by decide)).symm)
    · exact ((dat1 V c).arrAt_in 6 rfl _).trans ((A_eq1 V c 6).trans (hrest main_v4 (by decide) (by decide)).symm)
    · exact ((dat1 V c).arrAt_in 7 rfl _).trans ((A_eq1 V c 7).trans (hrest main_v5 (by decide) (by decide)).symm)
    · exact hout.symm
    · exact hout'.symm
  rw [unscopedBufs_eq spec1 winFacts₀1.arr_unscoped c Vc', arrays1_eq]
  refine sep_mono ((Entails.of_eq (bigSep_congr fun w _ => by rw [hF w])).trans (deal1 c Vc').2) (Entails.of_eq ?_)
  unfold Pipeline.unscopedRest
  exact bigSep_congr fun b hb => by
    rw [hrest b (fun e => (Finset.mem_sdiff.mp hb).2 (e ▸ Finset.mem_image.mpr ⟨8, Finset.mem_univ _, rfl⟩))
      (fun e => (Finset.mem_sdiff.mp hb).2 (e ▸ Finset.mem_image.mpr ⟨9, Finset.mem_univ _, rfl⟩))]

end Ends1

end Cert.Kernel.Hand.B1

end
-- ==== Proof.K.Body2.lean ====
/-
  The third kernel's body on one grid point. The point's two staged half-tiles of the adjacency (200 rows each, all
  10000 columns) are each multiplied with the whole staged support matrix (10000 x 128), the bias row is added to
  every row, and the maximum with zero is stored: the first half-tile's result to rows 0..199 of the output block, the
  second's to rows 200..399. The two stores tile the block, so the block after the body is one function of the four
  input blocks.
-/
import proofs.«180870_g50560355009132_cont_8to1c4_249_8_alg».proof.Proof.Gen.Kernel.Launch
import proofs.«180870_g50560355009132_cont_8to1c4_249_8_alg».proof.Proof.Gen.Kernel.Skeleton
import proofs.«180870_g50560355009132_cont_8to1c4_249_8_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the bodies load and store through -/

/-- A whole staged half-tile of the adjacency. -/
abbrev rAdj : Rect S200x10000 := Rect.unit (s := S200x10000) ![0, 0] S200x10000.size inb_S200x10000_S200x10000_0_0
/-- A whole [10000, 128] buffer. -/
abbrev rTall : Rect S10000x128 := Rect.unit (s := S10000x128) ![0, 0] S10000x128.size inb_S10000x128_S10000x128_0_0
/-- A whole bias row. -/
abbrev rRow : Rect S1x128 := Rect.unit (s := S1x128) ![0, 0] S1x128.size inb_S1x128_S1x128_0_0
/-- Rows 0..199 of a [400, 128] block. -/
abbrev rTop : Rect S400x128 := Rect.unit (s := S400x128) ![0, 0] S200x128.size inb_S400x128_S200x128_0_0
/-- Rows 200..399 of a [400, 128] block. -/
abbrev rBot : Rect S400x128 := Rect.unit (s := S400x128) ![200, 0] S200x128.size inb_S400x128_S200x128_200_0

/-! ## What the body leaves in the output block -/

/-- The output block after the body, from the two half-tiles `x1`, `x2`, the support matrix `x3` and the bias row
    `x4`: the bottom half's store over the top half's. -/
def out2 (x1 x2 : Vec F S200x10000 .f32) (x3 : Vec F S10000x128 .bf16) (x4 : Vec F S1x128 .f32) : Vec F S400x128 .f32 :=
  View.canon [⟨rBot, k2_pay2 (View.ld x2 rAdj) (View.ld x3 rTall) (View.ld x4 rRow)⟩,
              ⟨rTop, k2_pay1 (View.ld x1 rAdj) (View.ld x3 rTall) (View.ld x4 rRow)⟩]

/-- The two row halves tile the block. -/
theorem cover2 (p0 p1 : Vec F S200x128 .f32) (y : S400x128.Idx) :
    ∃ pc ∈ ([⟨rBot, p0⟩, ⟨rTop, p1⟩] : List (View.Piece (Elt F) S400x128 .f32)), y ∈ pc.1.set :=
  View.cover_of_tiled [⟨rBot, p0⟩, ⟨rTop, p1⟩] S200x128.size (by rfl) y

/-! ## The body's triple -/

set_option maxHeartbeats 1000000 in
/-- From the four input blocks held at `x1 … x4` and the output block held at anything, the body runs to its return with
    the inputs as they were and the output block at `out2` of them. -/
theorem sound_kernel2 (c : Dev nD) (E : Set ℕ) (i : grid2.Coords)
    (arg1 : Memref sig .tc .vmem S200x10000 .f32) (harg1 : arg1.IsWhole) (arg2 : Memref sig .tc .vmem S200x10000 .f32) (harg2 : arg2.IsWhole)
    (arg3 : Memref sig .tc .vmem S10000x128 .bf16) (harg3 : arg3.IsWhole) (arg4 : Memref sig .tc .vmem S1x128 .f32) (harg4 : arg4.IsWhole)
    (arg5 : Memref sig .tc .vmem S400x128 .f32) (harg5 : arg5.IsWhole)
    (x1 x2 : Vec F S200x10000 .f32) (x3 : Vec F S10000x128 .bf16) (x4 : Vec F S1x128 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (out2 x1 x2 x3 x4)) -∗ K ⟨⟩))
      ⊢ wp frame (wpE (defs₀ (F := F)) Variants.none c none) E (cc2__pass3_body i arg1 harg1 arg2 harg2 arg3 harg3 arg4 harg4 arg5 harg5) K := by
  simp only [cc2__pass3_body_eq_skeleton]; unfold cc2__pass3_body_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2 _ _)

end Cert.Kernel.Hand

end
-- ==== Proof.K.Region2.lean ====
/-
  The third kernel region: its proof data and what it owes the launch.

  The region has five windows: windows 0 and 1 read the SAME adjacency array (the even and the odd 200-row blocks of
  it), window 2 the whole support matrix, window 3 the bias row, window 4 is the output, one 400-row block per grid
  point. The adjacency's buffer is held by the two windows at the two halves of the full share; every other array is
  held by its one window at the full share. At a grid point each input window's staged block is the array's block
  there, and the output block is the body's function `out2` of the four input blocks.
-/
import proofs.«180870_g50560355009132_cont_8to1c4_249_8_alg».proof.Proof.K.Body2
import proofs.«180870_g50560355009132_cont_8to1c4_249_8_alg».proof.Proof.LibSharedArrays

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Lib.SharedArrays

section Region2

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staged buffer holds the array's block at every point, fetched there or not: where it is not
    fetched its block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The proof data -/

/-- The share each window holds of its array: the adjacency's two windows the two halves, the others everything. -/
def sh2 : Fin 5 → PosShare TreeShare
  | ⟨0, _⟩ => fullShare.left
  | ⟨1, _⟩ => fullShare.right
  | ⟨2, _⟩ => fullShare
  | ⟨3, _⟩ => fullShare
  | ⟨4, _⟩ => fullShare

/-- The proof data of the third region on core `c`: the arrays as the region finds them; after the body at point `t`
    each input's buffer at its block and the output's at `out2` of the input blocks; the invariant the scoped rest and
    the generator register, untouched; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2 (iblk2 V c 0 t) (iblk2 V c 1 t) (iblk2 V c 2 t) (iblk2 V c 3 t)
  Φ _ := Pipeline.ΦA spec2 c
  q := sh2
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

section Ends2

variable (V : (c : Dev nD) → (b : Ref sig .tc) → Buf (Elt F) ((c : Thread nD τ).loc b))

/-! ## The arrays at the region's two ends

The launch holds the core's DISTINCT unscoped buffers, each whole at the full share; the pipeline holds each WINDOW's
array at the window's share. Four buffers stand behind the five windows' arrays; the adjacency's full share is the
two halves its two windows hold. -/

/-- The distinct buffers behind the five windows' arrays. -/
theorem image2 : Finset.univ.image (Pipeline.arrRef spec2) = ({main_arg3, main_v6_1, main_v7, main_v8} : Finset (Ref sig .tc)) := by
  decide

/-- Each window holds its array at `sh2`: an input at its own share, the output at the full share. -/
theorem share2 (c : Dev nD) (w : Fin cfg2.W) : (dat2 V c).share w = sh2 w := by
  fin_cases w <;> rfl

/-- The pipeline's arrays, window by window, as whole buffers at the windows' shares. -/
theorem arrays2_eq (c : Dev nD) (G : (w : Fin cfg2.W) → Buf (Elt F) ((cfg2.win w).arr.view.loc (c.tc : Thread nD τ))) :
    (dat2 V c).arrays G = bigSep Finset.univ fun w : Fin cfg2.W => (((c.tc : Thread nD τ).loc (Pipeline.arrRef spec2 w)) ↦{sh2 w} G w : sProp 𝕄) := by
  unfold Dat.arrays
  exact bigSep_congr fun w _ => by rw [(arr_whole2 w).set_eq_univ, share2]

/-- DEALING AND JOINING: the four distinct buffers whole at contents `Vc` are the five windows' holdings at `Vc`, the
    adjacency's full share being its left and right halves. -/
theorem deal2 (c : Dev nD) (Vc : (b : Ref sig .tc) → Buf (Elt F) ((c.tc : Thread nD τ).loc b)) :
    (Pipeline.arrBufs spec2 c Vc : sProp 𝕄)
      ⊣⊢ bigSep Finset.univ fun w : Fin cfg2.W => (((c.tc : Thread nD τ).loc (Pipeline.arrRef spec2 w)) ↦{sh2 w} Vc (Pipeline.arrRef spec2 w) : sProp 𝕄) := by
  unfold Pipeline.arrBufs
  rw [image2, BI.bigSep_insert (by decide), BI.bigSep_insert (by decide), BI.bigSep_insert (by decide), BI.bigSep_singleton, bigSep_W2]
  have h : (((c.tc : Thread nD τ).loc main_arg3) ↦{fullShare} Vc main_arg3 : sProp 𝕄)
      ⊣⊢ iprop((((c.tc : Thread nD τ).loc main_arg3) ↦{fullShare.left} Vc main_arg3) ∗ (((c.tc : Thread nD τ).loc main_arg3) ↦{fullShare.right} Vc main_arg3)) :=
    pointsTo_share (PosShare.mem_left_op_right fullShare)
  have h1 := h.1
  have h2 := h.2
  show (iprop((((c.tc : Thread nD τ).loc main_arg3) ↦{fullShare} Vc main_arg3) ∗ (((c.tc : Thread nD τ).loc main_v6_1) ↦{fullShare} Vc main_v6_1)
      ∗ (((c.tc : Thread nD τ).loc main_v7) ↦{fullShare} Vc main_v7) ∗ (((c.tc : Thread nD τ).loc main_v8) ↦{fullShare} Vc main_v8)) : sProp 𝕄) ⊣⊢ _
  constructor
  · iintro ⟨H3, H6, H7, H8⟩
    ihave H := h1 $$ H3
    icases H with ⟨Hl, Hr⟩
    isplitl [Hl]; · iexact Hl
    isplitl [Hr]; · iexact Hr
    isplitl [H6]; · iexact H6
    isplitl [H7]; · iexact H7
    iexact H8
  · iintro ⟨Hl, Hr, H6, H7, H8⟩
    isplitl [Hl Hr]
    · iapply h2
      isplitl [Hl]; · iexact Hl
      iexact Hr
    isplitl [H6]; · iexact H6
    isplitl [H7]; · iexact H7
    iexact H8

/-- ENTRY: the core's unscoped buffers at `V c` are the region's arrays at the proof data's entry contents and the
    unscoped rest. -/
theorem entry2 (c : Dev nD) :
    (unscopedBufs c (V c) : sProp 𝕄) ⊢ iprop((dat2 V c).arrays (dat2 V c).A ∗ Pipeline.unscopedRest spec2 c (V c)) := by
  rw [unscopedBufs_eq spec2 winFacts₀2.arr_unscoped c (V c), arrays2_eq]
  exact sep_mono ((deal2 c (V c)).1.trans (Entails.of_eq (bigSep_congr fun w _ => by rw [A_eq2]))) .rfl

/-- EXIT: the arrays after every write-back and the unscoped rest as entered are the core's unscoped buffers at any
    valuation that has the output's array at what the pipeline leaves and agrees with `V c` elsewhere. -/
theorem exit2 (c : Dev nD) (Vc' : (b : Ref sig .tc) → Buf (Elt F) ((c.tc : Thread nD τ).loc b))
    (hout : Vc' main_v8 = (dat2 V c).arrAt 4 cfg2.N) (hrest : ∀ b : Ref sig .tc, b ≠ main_v8 → Vc' b = V c b) :
    iprop((dat2 V c).arrays ((dat2 V c).arrAt · cfg2.N) ∗ Pipeline.unscopedRest spec2 c (V c)) ⊢ (unscopedBufs c Vc' : sProp 𝕄) := by
  have hF : ∀ w : Fin cfg2.W, (dat2 V c).arrAt w cfg2.N = Vc' (Pipeline.arrRef spec2 w) := fun w => by
    fin_cases w
    · exact ((dat2 V c).arrAt_in 0 rfl _).trans ((A_eq2 V c 0).trans (hrest main_arg3 (by decide)).symm)
    · exact ((dat2 V c).arrAt_in 1 rfl _).trans ((A_eq2 V c 1).trans (hrest main_arg3 (by decide)).symm)
    · exact ((dat2 V c).arrAt_in 2 rfl _).trans ((A_eq2 V c 2).trans (hrest main_v6_1 (by decide)).symm)
    · exact ((dat2 V c).arrAt_in 3 rfl _).trans ((A_eq2 V c 3).trans (hrest main_v7 (by decide)).symm)
    · exact hout.symm
  rw [unscopedBufs_eq spec2 winFacts₀2.arr_unscoped c Vc', arrays2_eq]
  refine sep_mono ((Entails.of_eq (bigSep_congr fun w _ => by rw [hF w])).trans (deal2 c Vc').2) (Entails.of_eq ?_)
  unfold Pipeline.unscopedRest
  exact bigSep_congr fun b hb => by
    rw [hrest b fun e => (Finset.mem_sdiff.mp hb).2 (e ▸ Finset.mem_image.mpr ⟨4, Finset.mem_univ _, rfl⟩)]

end Ends2

end Cert.Kernel.Hand

end
-- ==== Proof.K.Assembly.lean ====
/-
  The three kernel regions of @main as the launch's segment records, and the program's run.

  Between two items of @main a core's unscoped buffers are held whole at a valuation: `W1` after the first host
  stretch, `W2` after the first region (which changes only its output array, to what its pipeline's write-backs
  leave), and so on to `W6`. Each region is entered by dealing the distinct buffers behind its windows' arrays to the
  windows (the adjacency, read through two windows, at the two halves of its share) and left by joining them back
  at the next valuation. The generator register and the core's dues ride along unchanged.
-/
import proofs.«180870_g50560355009132_cont_8to1c4_249_8_alg».proof.Proof.K.Region0
import proofs.«180870_g50560355009132_cont_8to1c4_249_8_alg».proof.Proof.K.Region1
import proofs.«180870_g50560355009132_cont_8to1c4_249_8_alg».proof.Proof.K.Region2
import proofs.«180870_g50560355009132_cont_8to1c4_249_8_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (RegionSeg)

variable (m : (ℓ : Loc nD τ sig) → Buf (Elt F) ℓ) (ρ : Dev nD → PrngReg)

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing
    nothing. -/
abbrev R (c : Dev nD) : sProp 𝕄 := iprop((∃ r, prngReg c r) ∗ ∃ W, owes (c : Thread nD τ) (0 : CellTallies nD τ sig Unit) W)

/-- A valuation read at the TensorCore's references. -/
abbrev Vr (W : Dev nD → Valuation τ sig (Elt F)) : (c : Dev nD) → (b : Ref sig .tc) → Buf (Elt F) ((c : Thread nD τ).loc b) := fun c b => W c b

/-! ## The buffers' contents between items -/

/-- After the first host stretch. -/
abbrev W1 (c : Dev nD) : Valuation τ sig (Elt F) := V1 m c
/-- What the first region leaves in its output array. -/
def o2 (c : Dev nD) : Buf (Elt F) ((c : Thread nD τ).loc main_v3) := (B0.dat0 (Vr (W1 m)) c).arrAt 6 cfg0.N
/-- After the first region. -/
def W2 (c : Dev nD) : Valuation τ sig (Elt F) := Function.update (W1 m c) main_v3 (o2 m c)
/-- After the second host stretch. -/
def W3 (c : Dev nD) : Valuation τ sig (Elt F) := StableHlo.after hostOps1 (W2 m c)
/-- What the second region leaves in its two output arrays. -/
def o4a (c : Dev nD) : Buf (Elt F) ((c : Thread nD τ).loc main_v6_0) := (B1.dat1 (Vr (W3 m)) c).arrAt 8 cfg1.N
def o4b (c : Dev nD) : Buf (Elt F) ((c : Thread nD τ).loc main_v6_1) := (B1.dat1 (Vr (W3 m)) c).arrAt 9 cfg1.N
/-- After the second region. -/
def W4 (c : Dev nD) : Valuation τ sig (Elt F) := Function.update (Function.update (W3 m c) main_v6_0 (o4a m c)) main_v6_1 (o4b m c)
/-- After the third host stretch. -/
def W5 (c : Dev nD) : Valuation τ sig (Elt F) := StableHlo.after hostOps2 (W4 m c)
/-- What the third region leaves in its output array. -/
def o6 (c : Dev nD) : Buf (Elt F) ((c : Thread nD τ).loc main_v8) := (dat2 (Vr (W5 m)) c).arrAt 4 cfg2.N
/-- After the third region. -/
def W6 (c : Dev nD) : Valuation τ sig (Elt F) := Function.update (W5 m c) main_v8 (o6 m c)

/-- What the regions leave, as the launch's conditional frame reads it: each region's output arrays at the contents
    above, anything else at its launch contents (never read). -/
def outs : Outs (F := F) := fun _ r c =>
  if h3 : r = main_v3 then by subst h3; exact o2 m c
  else if h60 : r = main_v6_0 then by subst h60; exact o4a m c
  else if h61 : r = main_v6_1 then by subst h61; exact o4b m c
  else if h8 : r = main_v8 then by subst h8; exact o6 m c
  else m ((c : Thread nD τ).loc r)

theorem outs_v3 (J : ℕ) (c : Dev nD) : outs m J main_v3 c = o2 m c := by unfold outs; rw [dif_pos rfl]
theorem outs_v6_0 (J : ℕ) (c : Dev nD) : outs m J main_v6_0 c = o4a m c := by
  unfold outs; rw [dif_neg (by decide), dif_pos rfl]
theorem outs_v6_1 (J : ℕ) (c : Dev nD) : outs m J main_v6_1 c = o4b m c := by
  unfold outs; rw [dif_neg (by decide), dif_neg (by decide), dif_pos rfl]
theorem outs_v8 (J : ℕ) (c : Dev nD) : outs m J main_v8 c = o6 m c := by
  unfold outs; rw [dif_neg (by decide), dif_neg (by decide), dif_neg (by decide), dif_pos rfl]

/-- The conditional frame's valuations at these contents are the valuations above. -/
theorem V2_eq (c : Dev nD) : V2 m (outs m) c = W2 m c := by unfold W2; dsimp only [V2]; rw [outs_v3]
theorem V3_eq (c : Dev nD) : V3 m (outs m) c = W3 m c := by unfold W3; dsimp only [V3]; rw [V2_eq]
theorem V4_eq (c : Dev nD) : V4 m (outs m) c = W4 m c := by unfold W4; dsimp only [V4]; rw [V3_eq, outs_v6_0, outs_v6_1]
theorem V5_eq (c : Dev nD) : V5 m (outs m) c = W5 m c := by unfold W5; dsimp only [V5]; rw [V4_eq]
theorem V6_eq (c : Dev nD) : V6 m (outs m) c = W6 m c := by unfold W6; dsimp only [V6]; rw [V5_eq, outs_v8]

/-! ## The proof data family -/

/-- Every pipeline's proof data, each at its region's entry contents: a literal match, so that the family at a
    numeral reduces to the region's own data. -/
def pdats : (p : Fin 3) → (c : Dev nD) → Dat τ (Elt F) Unit ℕ (UR sig nD τ) ℕ (cfgs p) c
  | ⟨0, _⟩ => fun c => B0.dat0 (Vr (W1 m)) c
  | ⟨1, _⟩ => fun c => B1.dat1 (Vr (W3 m)) c
  | ⟨2, _⟩ => fun c => dat2 (Vr (W5 m)) c

/-! ## The valuations read at a reference -/

theorem W2_v3 (c : Dev nD) : Vr (W2 m) c main_v3 = (B0.dat0 (Vr (W1 m)) c).arrAt 6 cfg0.N := by
  show W2 m c (Proc.devRef .tc main_v3) = _; unfold W2; exact Function.update_self ..
theorem W2_of (c : Dev nD) (b : Ref sig .tc) (h : b ≠ main_v3) : Vr (W2 m) c b = Vr (W1 m) c b := by
  show W2 m c (Proc.devRef .tc b) = _; unfold W2; exact Function.update_of_ne (StableHlo.devRef_ne_of_ne h) ..
theorem W4_v6_0 (c : Dev nD) : Vr (W4 m) c main_v6_0 = (B1.dat1 (Vr (W3 m)) c).arrAt 8 cfg1.N := by
  show W4 m c (Proc.devRef .tc main_v6_0) = _; unfold W4
  rw [Function.update_of_ne (StableHlo.devRef_ne_of_ne (by decide : main_v6_0 ≠ main_v6_1))]; exact Function.update_self ..
theorem W4_v6_1 (c : Dev nD) : Vr (W4 m) c main_v6_1 = (B1.dat1 (Vr (W3 m)) c).arrAt 9 cfg1.N := by
  show W4 m c (Proc.devRef .tc main_v6_1) = _; unfold W4; exact Function.update_self ..
theorem W4_of (c : Dev nD) (b : Ref sig .tc) (h0 : b ≠ main_v6_0) (h1 : b ≠ main_v6_1) : Vr (W4 m) c b = Vr (W3 m) c b := by
  show W4 m c (Proc.devRef .tc b) = _; unfold W4
  rw [Function.update_of_ne (StableHlo.devRef_ne_of_ne h1), Function.update_of_ne (StableHlo.devRef_ne_of_ne h0)]
theorem W6_v8 (c : Dev nD) : Vr (W6 m) c main_v8 = (dat2 (Vr (W5 m)) c).arrAt 4 cfg2.N := by
  show W6 m c (Proc.devRef .tc main_v8) = _; unfold W6; exact Function.update_self ..
theorem W6_of (c : Dev nD) (b : Ref sig .tc) (h : b ≠ main_v8) : Vr (W6 m) c b = Vr (W5 m) c b := by
  show W6 m c (Proc.devRef .tc b) = _; unfold W6; exact Function.update_of_ne (StableHlo.devRef_ne_of_ne h) ..

/-! ## The regions as segments -/

set_option backward.isDefEq.respectTransparency.types false in
/-- Region 0 over the thread state: entered from every unscoped buffer at `W1`, left at `W2`. -/
def reg0 : RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (B0.body_obligation0 (Vr (W1 m)) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (Vr (W1 m) c)
  hentry c := by
    rw [Pipeline.ownSems0_none]
    have hsplit := B0.entry0 (Vr (W1 m)) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    change iprop((∃ r, prngReg c r) ∗ Pipeline.prefHeld (pcfgs (F := F) 0).pre c (fun _ => fullShare) (adm (F := F) 0).1 ∗ Pipeline.scopedRest spec0 c) ⊢ (B0.dat0 (Vr (W1 m)) c).Φ 0
    iintro ⟨Hp, -, Hr⟩
    iapply (B0.hin0 (Vr (W1 m)) c)
    isplitl [Hp]; · iexact Hp
    iexact Hr
  hout c := by
    rw [Pipeline.ownSems0_none]
    change (B0.dat0 (Vr (W1 m)) c).Φ (Fin.last cfg0.N) ⊢ _
    iintro H
    ihave H' := (B0.hout0 (Vr (W1 m)) c) $$ H
    icases H' with ⟨Hp, Hr⟩
    isplitl [Hp]; · iexact Hp
    isplitr; · iempintro
    iexact Hr
  hexit c := by
    have hjoin := B0.exit0 (Vr (W1 m)) c (Vr (W2 m) c) (W2_v3 m c) (fun b hb => W2_of m c b hb)
    rw [Pipeline.unscopedBufs_held] at hjoin
    change iprop((B0.dat0 (Vr (W1 m)) c).arrays ((B0.dat0 (Vr (W1 m)) c).arrAt · cfg0.N) ∗ (B0.dat0 (Vr (W1 m)) c).owesAt () (Fin.last cfg0.N)
      ∗ (∃ r, prngReg c r) ∗ Pipeline.unscopedRest spec0 c (Vr (W1 m) c)) ⊢ _
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. -/
def reg1 : RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (B1.body_obligation1 (Vr (W3 m)) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (Vr (W3 m) c)
  hentry c := by
    rw [Pipeline.ownSems0_none]
    have hsplit := B1.entry1 (Vr (W3 m)) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    change iprop((∃ r, prngReg c r) ∗ Pipeline.prefHeld (pcfgs (F := F) 1).pre c (fun _ => fullShare) (adm (F := F) 1).1 ∗ Pipeline.scopedRest spec1 c) ⊢ (B1.dat1 (Vr (W3 m)) c).Φ 0
    iintro ⟨Hp, -, Hr⟩
    iapply (B1.hin1 (Vr (W3 m)) c)
    isplitl [Hp]; · iexact Hp
    iexact Hr
  hout c := by
    rw [Pipeline.ownSems0_none]
    change (B1.dat1 (Vr (W3 m)) c).Φ (Fin.last cfg1.N) ⊢ _
    iintro H
    ihave H' := (B1.hout1 (Vr (W3 m)) c) $$ H
    icases H' with ⟨Hp, Hr⟩
    isplitl [Hp]; · iexact Hp
    isplitr; · iempintro
    iexact Hr
  hexit c := by
    have hjoin := B1.exit1 (Vr (W3 m)) c (Vr (W4 m) c) (W4_v6_0 m c) (W4_v6_1 m c) (fun b h0 h1 => W4_of m c b h0 h1)
    rw [Pipeline.unscopedBufs_held] at hjoin
    change iprop((B1.dat1 (Vr (W3 m)) c).arrays ((B1.dat1 (Vr (W3 m)) c).arrAt · cfg1.N) ∗ (B1.dat1 (Vr (W3 m)) c).owesAt () (Fin.last cfg1.N)
      ∗ (∃ r, prngReg c r) ∗ Pipeline.unscopedRest spec1 c (Vr (W3 m) c)) ⊢ _
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. -/
def reg2 : RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (Vr (W5 m)) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (Vr (W5 m) c)
  hentry c := by
    rw [Pipeline.ownSems0_none]
    have hsplit := entry2 (Vr (W5 m)) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := exit2 (Vr (W5 m)) c (Vr (W6 m) c) (W6_v8 m c) (fun b hb => W6_of m c b hb)
    rw [Pipeline.unscopedBufs_held] at hjoin
    change iprop((dat2 (Vr (W5 m)) c).arrays ((dat2 (Vr (W5 m)) c).arrAt · cfg2.N) ∗ (dat2 (Vr (W5 m)) c).owesAt () (Fin.last cfg2.N)
      ∗ (∃ r, prngReg c r) ∗ Pipeline.unscopedRest spec2 c (Vr (W5 m) c)) ⊢ _
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The frame -/

/-- The program runs to its end, faults nowhere, and leaves its twelve argument arrays as launched: the launch's
    conditional frame at the three records above. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_cond m emb₁ () 𝒱₀ L lv (fun _ _ => rfl) ρ (outs m) (pdats m) (fun _ => 0) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (Pipeline.initEach L lv fun c => by
      iintro ⟨⟨-, HO, -, Hp, -⟩, -⟩
      imodintro
      isplitl [Hp]; · iexists _; iexact Hp
      iexists ∅; iexact HO)
    (fun c => by iintro ⟨-, HO⟩; iexact HO)
    (reg0 m) (fun c => .rfl) (fun c => by rw [V2_eq]; exact .rfl)
    (reg1 m) (fun c => by rw [V3_eq]; exact .rfl) (fun c => by rw [V4_eq]; exact .rfl)
    (reg2 m) (fun c => by rw [V5_eq]; exact .rfl) (fun c => by rw [V6_eq]; exact .rfl)

end Cert.Kernel.Hand

end
-- ==== Proof.KI.Body0.lean ====
import proofs.«180870_g50560355009132_cont_8to1c4_249_8_alg».proof.Proof.Gen.KernelIdeal.Launch
import proofs.«180870_g50560355009132_cont_8to1c4_249_8_alg».proof.Proof.Gen.KernelIdeal.Skeleton
import proofs.«180870_g50560355009132_cont_8to1c4_249_8_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand.B0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's access rectangles: every operand whole, the output block in its two row halves -/

abbrev rW_200x10000 : Rect S200x10000 := Rect.unit (s := S200x10000) ![0, 0] S200x10000.size inb_S200x10000_S200x10000_0_0
abbrev rW_10000x128 : Rect S10000x128 := Rect.unit (s := S10000x128) ![0, 0] S10000x128.size inb_S10000x128_S10000x128_0_0
abbrev rW_128x128 : Rect S128x128 := Rect.unit (s := S128x128) ![0, 0] S128x128.size inb_S128x128_S128x128_0_0
abbrev rW_1x128 : Rect S1x128 := Rect.unit (s := S1x128) ![0, 0] S1x128.size inb_S1x128_S1x128_0_0
abbrev rTop : Rect S400x128 := Rect.unit (s := S400x128) ![0, 0] S200x128.size inb_S400x128_S200x128_0_0
abbrev rBot : Rect S400x128 := Rect.unit (s := S400x128) ![200, 0] S200x128.size inb_S400x128_S200x128_200_0

/-- What the first grid point leaves in the carried buffer: the one whole-buffer store of the rounded
    product of the features with the first weight. -/
def scr0 (x3 : Vec F S10000x128 .f32) (x4 : Vec F S128x128 .f32) : Vec F S10000x128 .bf16 :=
  View.canon [⟨rW_10000x128, k0_pay2 (View.ld x3 rW_10000x128) (View.ld x4 rW_128x128)⟩]

/-- What every grid point leaves in the output block, given the carried buffer's contents `s`: rows [200,400)
    from the second half of the adjacency tile, rows [0,200) from the first half (the later store first). -/
def out0 (x1 x2 : Vec F S200x10000 .f32) (s : Vec F S10000x128 .bf16) (x5 : Vec F S128x128 .bf16) (x6 : Vec F S1x128 .f32) : Vec F S400x128 .bf16 :=
  View.canon [⟨rBot, k0_pay1 (k0_pay4 (View.ld x2 rW_200x10000) (View.ld s rW_10000x128) (View.ld x6 rW_1x128)) (k0_pay5 (View.ld x2 rW_200x10000) (View.ld s rW_10000x128) (View.ld x6 rW_1x128)) (Scalar.ofBits .f32 0x3E4CCCCD#32) (View.ld x5 rW_128x128)⟩,
    ⟨rTop, k0_pay3 (View.ld x1 rW_200x10000) (View.ld s rW_10000x128) (View.ld x6 rW_1x128) (View.ld x5 rW_128x128)⟩]

/-- The whole-buffer store covers the carried buffer. -/
theorem cover_scr0 (p0 : Vec F S10000x128 .bf16) (y : S10000x128.Idx) :
    ∃ pc ∈ ([⟨rW_10000x128, p0⟩] : List (View.Piece (Elt F) S10000x128 .bf16)), y ∈ pc.1.set :=
  View.cover_of_tiled [⟨rW_10000x128, p0⟩] S10000x128.size (by rfl) y

/-- The two row halves tile the output block. -/
theorem cover_out0 (p0 p1 : Vec F S200x128 .bf16) (y : S400x128.Idx) :
    ∃ pc ∈ ([⟨rBot, p0⟩, ⟨rTop, p1⟩] : List (View.Piece (Elt F) S400x128 .bf16)), y ∈ pc.1.set :=
  View.cover_of_tiled [⟨rBot, p0⟩, ⟨rTop, p1⟩] S200x128.size (by sl_kernel_rfl) y

/-- The body's branch condition, from the grid coordinate. -/
abbrev cond0 (i : grid0.Coords) : Prop :=
  (Scalar.cmpi .ne (Scalar.extui (Scalar.cmpi .eq (BitVec.ofNat 32 (i 0).val) 0#32)) 0#32) = 1#1

/-- Over the 25 grid points the condition holds exactly at the first. -/
theorem cond0_fin : ∀ n : Fin 25,
    ((Scalar.cmpi .ne (Scalar.extui (Scalar.cmpi .eq (BitVec.ofNat 32 n.val) 0#32)) 0#32) = 1#1) ↔ n.val = 0 := by
  decide

theorem cond0_iff (i : grid0.Coords) : cond0 i ↔ (i 0).val = 0 := cond0_fin (i 0)

/-! ## The body's triples: at the first point the carried buffer is filled and then read; at a later point it is only read -/

set_option maxHeartbeats 1000000 in
/-- At the first grid point, on whole buffers with the six inputs at read contents and the output block and the
    carried buffer at anything, the body runs to the continuation holding the inputs as they were, the carried
    buffer at `scr0` of the features and the first weight, and the output block at `out0` over that. -/
theorem sound_first (c : Dev nD) (E : Set ℕ) (i : grid0.Coords) (hi : (i 0).val = 0) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S400x128 .bf16) (harg7 : arg7.IsWhole) (arg8 : Memref sig .tc .vmem S10000x128 .bf16) (harg8 : arg8.IsWhole)
    (x1 x2 : Vec F S200x10000 .f32) (x3 : Vec F S10000x128 .f32) (x4 : Vec F S128x128 .f32) (x5 : Vec F S128x128 .bf16) (x6 : Vec F S1x128 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out0 x1 x2 (scr0 x3 x4) x5 x6) ∗ owns (c : Thread nD τ) arg8 fullShare (scr0 x3 x4)) -∗ K ⟨⟩))
      ⊢ wp frame (wpE (defs₀ (F := F)) Variants.none c none) E (cc0__pass1_body i arg1 harg1 arg2 harg2 arg3 harg3 arg4 harg4 arg5 harg5 arg6 harg6 arg7 harg7 arg8 harg8) K := by
  have hc0 : cond0 i := (cond0_iff i).mpr hi
  simp only [cc0__pass1_body_eq_skeleton]; unfold cc0__pass1_body_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf1 hf2 hf3 hf4 hf5 hf6
  sl_exec (disch := first | exact hc0)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [View.read_writes_eq_canon _ _ _ (cover_out0 _ _)]
    sl_unfold_run_names
    rw [View.readCov_eq_canon']
    rfl
  · iexists _; isplitr
    swap; · iexact H8
    ipureintro
    sl_unfold_run_names
    exact View.read_writes_eq_canon _ _ _ (cover_scr0 _)

set_option maxHeartbeats 1000000 in
/-- At a later grid point, the carried buffer at read contents `s`: the body leaves it and the inputs as they
    were and the output block at `out0` over `s`. -/
theorem sound_next (c : Dev nD) (E : Set ℕ) (i : grid0.Coords) (hi : (i 0).val ≠ 0) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S400x128 .bf16) (harg7 : arg7.IsWhole) (arg8 : Memref sig .tc .vmem S10000x128 .bf16) (harg8 : arg8.IsWhole)
    (x1 x2 : Vec F S200x10000 .f32) (x3 : Vec F S10000x128 .f32) (x4 : Vec F S128x128 .f32) (x5 : Vec F S128x128 .bf16) (x6 : Vec F S1x128 .f32) (s : Vec F S10000x128 .bf16) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ owns (c : Thread nD τ) arg8 fullShare s
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out0 x1 x2 s x5 x6) ∗ owns (c : Thread nD τ) arg8 fullShare s) -∗ K ⟨⟩))
      ⊢ wp frame (wpE (defs₀ (F := F)) Variants.none c none) E (cc0__pass1_body i arg1 harg1 arg2 harg2 arg3 harg3 arg4 harg4 arg5 harg5 arg6 harg6 arg7 harg7 arg8 harg8) K := by
  have hc0 : ¬ cond0 i := fun h => hi ((cond0_iff i).mp h)
  simp only [cc0__pass1_body_eq_skeleton]; unfold cc0__pass1_body_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  subst hf1 hf2 hf3 hf4 hf5 hf6 hf8
  sl_exec (disch := first | exact hc0)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [View.read_writes_eq_canon _ _ _ (cover_out0 _ _)]
    rfl
  · iexists f8; isplitr; · ipureintro; rfl
    iexact H8

end Cert.KernelIdeal.Hand.B0

end
-- ==== Proof.KI.Region0.lean ====
/-
  The first kernel region: its proof data and what it owes the launch.

  The region has seven windows: windows 0 and 1 read the SAME adjacency array (the even and the odd 200-row blocks of
  it), window 2 the whole feature matrix, windows 3 and 4 the two weights, window 5 the bias row, window 6 is the
  output, one 400-row block per grid point. Beside them the body keeps a buffer of its own from point to point: at
  the first point it fills it with the rounded product of the features with the first weight, at every point it
  reads it. The adjacency's buffer is held by the two windows at the two halves of the full share; every other array
  is held by its one window at the full share. At a grid point each input window's staged block is the array's block
  there, and the output block is the body's function `out0` of the input blocks and of the carried buffer's contents,
  which are the same at every point.
-/
import proofs.«180870_g50560355009132_cont_8to1c4_249_8_alg».proof.Proof.KI.Body0
import proofs.«180870_g50560355009132_cont_8to1c4_249_8_alg».proof.Proof.LibSharedArrays

set_option maxRecDepth 16384

noncomputable section

namespace Cert.KernelIdeal.Hand.B0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Lib.SharedArrays

section Region0

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staged buffer holds the array's block at every point, fetched there or not: where it is not
    fetched its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The carried buffer -/

/-- The first grid point. -/
def t0 : Fin cfg0.N := ⟨0, by decide⟩

/-- What the carried buffer holds from the first point on: the rounded product of the features with the first weight,
    both whole arrays fetched at the first point. -/
def S0 (c : Dev nD) : Vec F S10000x128 .bf16 := scr0 (iblk0 V c 2 t0) (iblk0 V c 3 t0)

/-- The core's scoped buffers that are neither a staging buffer of this region nor its carried buffer, each whole at
    some contents. -/
def others0 (c : Dev nD) : sProp 𝕄 :=
  Pipeline.scopedRestBut (Ix := Unit) (Name := ℕ) (U := UR sig nD τ) (Lvl := ℕ) (Val := Elt F) spec0 c [cc0_scratch0]

/-- The scoped rest is the carried buffer and the others. -/
theorem scopedRest0_split (c : Dev nD) :
    (Pipeline.scopedRest (Ix := Unit) (Name := ℕ) (U := UR sig nD τ) (Lvl := ℕ) (Val := Elt F) spec0 c : sProp 𝕄)
      = iprop((∃ f, owns (c : Thread nD τ) (Memref.whole cc0_scratch0 : Memref sig .tc .vmem S10000x128 .bf16) fullShare f) ∗ others0 (F := F) c) := by
  unfold others0
  rw [Pipeline.scopedRest_split_of_list (Ix := Unit) (Name := ℕ) (U := UR sig nD τ) (Lvl := ℕ) (Val := Elt F) spec0 c [cc0_scratch0] (by decide) (by decide)]
  simp only [owns_whole]
  rfl

/-! ## The proof data -/

/-- The share each window holds of its array: the adjacency's two windows the two halves, the others everything. -/
def sh0 : Fin 7 → PosShare TreeShare
  | ⟨0, _⟩ => fullShare.left
  | ⟨1, _⟩ => fullShare.right
  | ⟨2, _⟩ => fullShare
  | ⟨3, _⟩ => fullShare
  | ⟨4, _⟩ => fullShare
  | ⟨5, _⟩ => fullShare
  | ⟨6, _⟩ => fullShare

/-- The proof data of the first region on core `c`: the arrays as the region finds them; after the body at point `t`
    each input's buffer at its block and the output's at `out0` of the input blocks and the carried buffer's contents;
    the invariant the generator register, the carried buffer — at anything before the first point, at `S0` after it —
    and the other scoped buffers; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0 (iblk0 V c 0 t) (iblk0 V c 1 t) (S0 V c) (iblk0 V c 4 t) (iblk0 V c 5 t)
  Φ k := iprop((∃ r, prngReg c r)
    ∗ (if k.val = 0 then iprop(∃ f, owns (c : Thread nD τ) (Memref.whole cc0_scratch0 : Memref sig .tc .vmem S10000x128 .bf16) fullShare f)
        else owns (c : Thread nD τ) (Memref.whole cc0_scratch0 : Memref sig .tc .vmem S10000x128 .bf16) fullShare (S0 V c))
    ∗ others0 (F := F) c)
  q := sh0
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) :
    (dat0 V c).after 6 t = out0 (iblk0 V c 0 t) (iblk0 V c 1 t) (S0 V c) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- The invariant before the first point: the carried buffer at anything. -/
theorem Phi0_zero (c : Dev nD) (k : Fin (cfg0.N + 1)) (h : k.val = 0) :
    (dat0 V c).Φ k = iprop((∃ r, prngReg c r) ∗ (∃ f, owns (c : Thread nD τ) (Memref.whole cc0_scratch0 : Memref sig .tc .vmem S10000x128 .bf16) fullShare f) ∗ others0 (F := F) c) := by
  dsimp only [dat0]; rw [if_pos h]

/-- The invariant after the first point: the carried buffer at `S0`. -/
theorem Phi0_pos (c : Dev nD) (k : Fin (cfg0.N + 1)) (h : k.val ≠ 0) :
    (dat0 V c).Φ k = iprop((∃ r, prngReg c r) ∗ owns (c : Thread nD τ) (Memref.whole cc0_scratch0 : Memref sig .tc .vmem S10000x128 .bf16) fullShare (S0 V c) ∗ others0 (F := F) c) := by
  dsimp only [dat0]; rw [if_neg h]

/-- The grid coordinate of a point is its number. -/
theorem coord0 : ∀ t : Fin cfg0.N, ((grid0.coords t) 0).val = t.val :=
  (by decide : ∀ t : Fin grid0.N, ((grid0.coords t) 0).val = t.val)

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks; at the first point the carried buffer comes out of
    the invariant at anything and goes back filled, at a later point it comes out filled and goes back as it was; the
    generator register, the other scoped buffers and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl,
    after0_0, after0_1, after0_2, after0_3, after0_4, after0_5, after0_6]
  by_cases h0 : t.val = 0
  · rw [Phi0_zero V c t.castSucc (show t.castSucc.val = 0 from h0), Phi0_pos V c t.succ (show t.succ.val ≠ 0 from Nat.succ_ne_zero _)]
    have hi : ((grid0.coords t) 0).val = 0 := (coord0 t).trans h0
    obtain rfl : t = t0 := Fin.ext h0
    unfold S0
    iintro ⟨⟨Hr, ⟨%f8, H8⟩, Hoth⟩, Ho, ⟨%d0, H0⟩, ⟨%d1, H1⟩, ⟨%d2, H2⟩, ⟨%d3, H3⟩, ⟨%d4, H4⟩, ⟨%d5, H5⟩, ⟨%d6, H6⟩⟩
    iapply (sound_first c Set.univ (grid0.coords t0) hi _ _ _ _ _ _ _ _ _ _ _ _ _ _ _ _ (iblk0 V c 0 t0) (iblk0 V c 1 t0) (iblk0 V c 2 t0) (iblk0 V c 3 t0) (iblk0 V c 4 t0) (iblk0 V c 5 t0) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H8]; · iexists _; iexact H8
    iintro ⟨H0, H1, H2, H3, H4, H5, H6, H8⟩
    isplitl [Hr H8 Hoth]
    · isplitl [Hr]; · iexact Hr
      isplitl [H8]; · iexact H8
      iexact Hoth
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [Phi0_pos V c t.castSucc (show t.castSucc.val ≠ 0 from h0), Phi0_pos V c t.succ (show t.succ.val ≠ 0 from Nat.succ_ne_zero _)]
    have hi : ((grid0.coords t) 0).val ≠ 0 := fun h => h0 ((coord0 t).symm.trans h)
    iintro ⟨⟨Hr, H8, Hoth⟩, Ho, ⟨%d0, H0⟩, ⟨%d1, H1⟩, ⟨%d2, H2⟩, ⟨%d3, H3⟩, ⟨%d4, H4⟩, ⟨%d5, H5⟩, ⟨%d6, H6⟩⟩
    iapply (sound_next c Set.univ (grid0.coords t) hi _ _ _ _ _ _ _ _ _ _ _ _ _ _ _ _ (iblk0 V c 0 t) (iblk0 V c 1 t) (iblk0 V c 2 t) (iblk0 V c 3 t) (iblk0 V c 4 t) (iblk0 V c 5 t) (S0 V c) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H8]; · iexact H8
    iintro ⟨H0, H1, H2, H3, H4, H5, H6, H8⟩
    isplitl [Hr H8 Hoth]
    · isplitl [Hr]; · iexact Hr
      isplitl [H8]; · iexact H8
      iexact Hoth
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's two ends -/

/-- ENTRY of the invariant: the scoped rest holds the carried buffer at some contents. -/
theorem hin0 (c : Dev nD) :
    iprop((∃ r, prngReg c r) ∗ Pipeline.scopedRest (Ix := Unit) (Name := ℕ) (U := UR sig nD τ) (Lvl := ℕ) (Val := Elt F) spec0 c) ⊢ (dat0 V c).Φ 0 := by
  rw [Phi0_zero V c 0 rfl, scopedRest0_split]

/-- EXIT of the invariant: the carried buffer, at what the first point left, is again a scoped buffer at some contents. -/
theorem hout0 (c : Dev nD) :
    (dat0 V c).Φ (Fin.last cfg0.N) ⊢ iprop((∃ r, prngReg c r) ∗ Pipeline.scopedRest (Ix := Unit) (Name := ℕ) (U := UR sig nD τ) (Lvl := ℕ) (Val := Elt F) spec0 c) := by
  rw [Phi0_pos V c (Fin.last cfg0.N) (by decide), scopedRest0_split]
  iintro ⟨Hr, Hs, Ho⟩
  isplitl [Hr]; · iexact Hr
  isplitl [Hs]; · iexists _; iexact Hs
  iexact Ho

end Region0

section Ends0

variable (V : (c : Dev nD) → (b : Ref sig .tc) → Buf (Elt F) ((c : Thread nD τ).loc b))

/-! ## The arrays at the region's two ends -/

/-- The distinct buffers behind the seven windows' arrays. -/
theorem image0 : Finset.univ.image (Pipeline.arrRef spec0) = ({main_arg3, main_arg0, main_arg4, main_v0, main_v2, main_v3} : Finset (Ref sig .tc)) := by
  decide

/-- Each window holds its array at `sh0`. -/
theorem share0 (c : Dev nD) (w : Fin cfg0.W) : (dat0 V c).share w = sh0 w := by
  fin_cases w <;> rfl

/-- The pipeline's arrays, window by window, as whole buffers at the windows' shares. -/
theorem arrays0_eq (c : Dev nD) (G : (w : Fin cfg0.W) → Buf (Elt F) ((cfg0.win w).arr.view.loc (c.tc : Thread nD τ))) :
    (dat0 V c).arrays G = bigSep Finset.univ fun w : Fin cfg0.W => (((c.tc : Thread nD τ).loc (Pipeline.arrRef spec0 w)) ↦{sh0 w} G w : sProp 𝕄) := by
  unfold Dat.arrays
  exact bigSep_congr fun w _ => by rw [(arr_whole0 w).set_eq_univ, share0]

/-- DEALING AND JOINING: the six distinct buffers whole at contents `Vc` are the seven windows' holdings at `Vc`, the
    adjacency's full share being its left and right halves. -/
theorem deal0 (c : Dev nD) (Vc : (b : Ref sig .tc) → Buf (Elt F) ((c.tc : Thread nD τ).loc b)) :
    (Pipeline.arrBufs spec0 c Vc : sProp 𝕄)
      ⊣⊢ bigSep Finset.univ fun w : Fin cfg0.W => (((c.tc : Thread nD τ).loc (Pipeline.arrRef spec0 w)) ↦{sh0 w} Vc (Pipeline.arrRef spec0 w) : sProp 𝕄) := by
  unfold Pipeline.arrBufs
  rw [image0, BI.bigSep_insert (by decide), BI.bigSep_insert (by decide), BI.bigSep_insert (by decide), BI.bigSep_insert (by decide),
    BI.bigSep_insert (by decide), BI.bigSep_singleton, bigSep_W0]
  have h : ((((c.tc : Thread nD τ).loc main_arg3) ↦{fullShare} Vc main_arg3) : sProp 𝕄)
      ⊣⊢ iprop((((c.tc : Thread nD τ).loc main_arg3) ↦{fullShare.left} Vc main_arg3) ∗ (((c.tc : Thread nD τ).loc main_arg3) ↦{fullShare.right} Vc main_arg3)) :=
    pointsTo_share (PosShare.mem_left_op_right fullShare)
  have h1 := h.1
  have h2 := h.2
  show (iprop((((c.tc : Thread nD τ).loc main_arg3) ↦{fullShare} Vc main_arg3) ∗ (((c.tc : Thread nD τ).loc main_arg0) ↦{fullShare} Vc main_arg0) ∗ (((c.tc : Thread nD τ).loc main_arg4) ↦{fullShare} Vc main_arg4)
      ∗ (((c.tc : Thread nD τ).loc main_v0) ↦{fullShare} Vc main_v0) ∗ (((c.tc : Thread nD τ).loc main_v2) ↦{fullShare} Vc main_v2) ∗ (((c.tc : Thread nD τ).loc main_v3) ↦{fullShare} Vc main_v3)) : sProp 𝕄) ⊣⊢ _
  constructor
  · iintro ⟨H3, H0, H4, Hv0, Hv2, Hv3⟩
    ihave H := h1 $$ H3
    icases H with ⟨Hl, Hr⟩
    isplitl [Hl]; · iexact Hl
    isplitl [Hr]; · iexact Hr
    isplitl [H0]; · iexact H0
    isplitl [H4]; · iexact H4
    isplitl [Hv0]; · iexact Hv0
    isplitl [Hv2]; · iexact Hv2
    iexact Hv3
  · iintro ⟨Hl, Hr, H0, H4, Hv0, Hv2, Hv3⟩
    isplitl [Hl Hr]
    · iapply h2
      isplitl [Hl]; · iexact Hl
      iexact Hr
    isplitl [H0]; · iexact H0
    isplitl [H4]; · iexact H4
    isplitl [Hv0]; · iexact Hv0
    isplitl [Hv2]; · iexact Hv2
    iexact Hv3

/-- ENTRY: the core's unscoped buffers at `V c` are the region's arrays at the proof data's entry contents and the
    unscoped rest. -/
theorem entry0 (c : Dev nD) :
    (unscopedBufs c (V c) : sProp 𝕄) ⊢ iprop((dat0 V c).arrays (dat0 V c).A ∗ Pipeline.unscopedRest spec0 c (V c)) := by
  rw [unscopedBufs_eq spec0 winFacts₀0.arr_unscoped c (V c), arrays0_eq]
  exact sep_mono ((deal0 c (V c)).1.trans (Entails.of_eq (bigSep_congr fun w _ => by rw [A_eq0]))) .rfl

/-- EXIT: the arrays after every write-back and the unscoped rest as entered are the core's unscoped buffers at any
    valuation that has the output's array at what the pipeline leaves and agrees with `V c` elsewhere. -/
theorem exit0 (c : Dev nD) (Vc' : (b : Ref sig .tc) → Buf (Elt F) ((c.tc : Thread nD τ).loc b))
    (hout : Vc' main_v3 = (dat0 V c).arrAt 6 cfg0.N) (hrest : ∀ b : Ref sig .tc, b ≠ main_v3 → Vc' b = V c b) :
    iprop((dat0 V c).arrays ((dat0 V c).arrAt · cfg0.N) ∗ Pipeline.unscopedRest spec0 c (V c)) ⊢ (unscopedBufs c Vc' : sProp 𝕄) := by
  have hF : ∀ w : Fin cfg0.W, (dat0 V c).arrAt w cfg0.N = Vc' (Pipeline.arrRef spec0 w) := fun w => by
    fin_cases w
    · exact ((dat0 V c).arrAt_in 0 rfl _).trans ((A_eq0 V c 0).trans (hrest main_arg3 (by decide)).symm)
    · exact ((dat0 V c).arrAt_in 1 rfl _).trans ((A_eq0 V c 1).trans (hrest main_arg3 (by decide)).symm)
    · exact ((dat0 V c).arrAt_in 2 rfl _).trans ((A_eq0 V c 2).trans (hrest main_arg0 (by decide)).symm)
    · exact ((dat0 V c).arrAt_in 3 rfl _).trans ((A_eq0 V c 3).trans (hrest main_arg4 (by decide)).symm)
    · exact ((dat0 V c).arrAt_in 4 rfl _).trans ((A_eq0 V c 4).trans (hrest main_v0 (by decide)).symm)
    · exact ((dat0 V c).arrAt_in 5 rfl _).trans ((A_eq0 V c 5).trans (hrest main_v2 (by decide)).symm)
    · exact hout.symm
  rw [unscopedBufs_eq spec0 winFacts₀0.arr_unscoped c Vc', arrays0_eq]
  refine sep_mono ((Entails.of_eq (bigSep_congr fun w _ => by rw [hF w])).trans (deal0 c Vc').2) (Entails.of_eq ?_)
  unfold Pipeline.unscopedRest
  exact bigSep_congr fun b hb => by
    rw [hrest b fun e => (Finset.mem_sdiff.mp hb).2 (e ▸ Finset.mem_image.mpr ⟨6, Finset.mem_univ _, rfl⟩)]

end Ends0

end Cert.KernelIdeal.Hand.B0

end
-- ==== Proof.KI.Body1.lean ====
/-
  The second kernel body at one grid point, in closed form.

  At the first point the body fills the carried [10000, 256] buffer: columns [0, 128) with the rounded product of the
  feature block and the weight, columns [128, 256) with the earlier result. At every point, for each 200-row half of
  the adjacency tile, it multiplies the rounded half with the whole carried buffer and writes, from the product's
  columns [0, 128), the bf16 output's half (bias, leaky select, product with the bf16 weight, rounded) and, from its
  columns [128, 256), the f32 output's half (bias, maximum with zero).

  `scr1`, `outU1`, `outS1` name what the stores leave as the canonical contents of their pieces; `sound_first` and
  `sound_next` are the body's triples at the first point and at a later one, the carried buffer a parameter of the
  latter.
-/
import proofs.«180870_g50560355009132_cont_8to1c4_249_8_alg».proof.Proof.Gen.KernelIdeal.Launch
import proofs.«180870_g50560355009132_cont_8to1c4_249_8_alg».proof.Proof.Gen.KernelIdeal.Skeleton
import proofs.«180870_g50560355009132_cont_8to1c4_249_8_alg».proof.Proof.Gen.KernelIdeal.Points
import Idealize.ShloMosaic.Lib.Pipeline.FrameBody
import Idealize.ShloMosaic.Lib.Tactic

set_option maxRecDepth 16384

noncomputable section

namespace Cert.KernelIdeal.Hand.B1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The body's access rectangles -/

/-- the whole adjacency half-tile -/
abbrev rA : Rect S200x10000 := Rect.unit (s := S200x10000) ![0, 0] S200x10000.size inb_S200x10000_S200x10000_0_0
/-- the whole feature block / the whole earlier result -/
abbrev rX : Rect S10000x128 := Rect.unit (s := S10000x128) ![0, 0] S10000x128.size inb_S10000x128_S10000x128_0_0
/-- a whole 128 × 128 weight -/
abbrev rW : Rect S128x128 := Rect.unit (s := S128x128) ![0, 0] S128x128.size inb_S128x128_S128x128_0_0
/-- a whole bias row -/
abbrev rB : Rect S1x128 := Rect.unit (s := S1x128) ![0, 0] S1x128.size inb_S1x128_S1x128_0_0
/-- the carried buffer: its columns [0, 128), its columns [128, 256), and all of it -/
abbrev rSl : Rect S10000x256 := Rect.unit (s := S10000x256) ![0, 0] S10000x128.size inb_S10000x256_S10000x128_0_0
abbrev rSr : Rect S10000x256 := Rect.unit (s := S10000x256) ![0, 128] S10000x128.size inb_S10000x256_S10000x128_0_128
abbrev rSw : Rect S10000x256 := Rect.unit (s := S10000x256) ![0, 0] S10000x256.size inb_S10000x256_S10000x256_0_0
/-- an output block: its rows [0, 200) and its rows [200, 400) -/
abbrev rOt : Rect S400x128 := Rect.unit (s := S400x128) ![0, 0] S200x128.size inb_S400x128_S200x128_0_0
abbrev rOb : Rect S400x128 := Rect.unit (s := S400x128) ![200, 0] S200x128.size inb_S400x128_S200x128_200_0

/-! ## What the body leaves -/

/-- What the first point leaves in the carried buffer: the rounded product of the features with the weight in
    columns [0, 128), the earlier result in columns [128, 256) (the two stores as pieces, last first). -/
def scr1 (x3 : Vec F S10000x128 .f32) (x4 : Vec F S128x128 .f32) (x6 : Vec F S10000x128 .bf16) : Vec F S10000x256 .bf16 :=
  View.canon [⟨rSr, k1_pay5 (View.ld x6 rX)⟩, ⟨rSl, k1_pay4 (View.ld x3 rX) (View.ld x4 rW)⟩]

/-- The f32 output block after the body, from the two half-tiles, the carried buffer and the bias row: its two
    row-half stores as pieces, last first. -/
def outU1 (x1 x2 : Vec F S200x10000 .f32) (s : Vec F S10000x256 .bf16) (x8 : Vec F S1x128 .f32) : Vec F S400x128 .f32 :=
  View.canon [⟨rOb, k1_pay3 (k1_pay9 (View.ld x2 rA)) (View.ld s rSw) (View.ld x8 rB)⟩,
              ⟨rOt, k1_pay8 (View.ld x1 rA) (View.ld s rSw) (View.ld x8 rB)⟩]

/-- The bf16 output block after the body, likewise. -/
def outS1 (x1 x2 : Vec F S200x10000 .f32) (s : Vec F S10000x256 .bf16) (x5 : Vec F S128x128 .bf16) (x7 : Vec F S1x128 .f32) : Vec F S400x128 .bf16 :=
  View.canon [⟨rOb, k1_pay2 (k1_pay9 (View.ld x2 rA)) (View.ld s rSw) (View.ld x7 rB) (View.ld x5 rW)⟩,
              ⟨rOt, k1_pay7 (View.ld x1 rA) (View.ld s rSw) (View.ld x7 rB) (View.ld x5 rW)⟩]

/-- The two column rectangles tile the carried buffer. -/
theorem cover_scr1 (p0 p1 : Vec F S10000x128 .bf16) (y : S10000x256.Idx) :
    ∃ pc ∈ ([⟨rSr, p0⟩, ⟨rSl, p1⟩] : List (View.Piece (Elt F) S10000x256 .bf16)), y ∈ pc.1.set :=
  View.cover_of_tiled [⟨rSr, p0⟩, ⟨rSl, p1⟩] S10000x128.size (by rfl) y

/-- The two row halves tile an output block. -/
theorem cover_out1 {e : EltTy} (p0 p1 : S200x128.Idx → Elt F e) (y : S400x128.Idx) :
    ∃ pc ∈ ([⟨rOb, p0⟩, ⟨rOt, p1⟩] : List (View.Piece (Elt F) S400x128 e)), y ∈ pc.1.set :=
  View.cover_of_tiled [⟨rOb, p0⟩, ⟨rOt, p1⟩] S200x128.size (by rfl) y

/-! ## The body's branch on the grid coordinate -/

/-- The printed test of the body's conditional, over the grid coordinate. -/
abbrev cond1 (j : ℕ) : Prop :=
  (Scalar.cmpi .ne (Scalar.extui (Scalar.cmpi .eq (BitVec.ofNat 32 j) 0#32)) 0#32) = 1#1

/-- It holds at the first of the 25 points only. -/
theorem cond1_iff : ∀ j : Fin 25, cond1 j.val ↔ j.val = 0 := by decide

/-! ## The carried buffer read back whole, and the outputs over any spelling of that read -/

/-- After the first point's two stores a load of the whole carried buffer reads `scr1`. -/
theorem readCov_scr1 (v : View sig .tc .vmem S10000x256 .bf16) (x3 : Vec F S10000x128 .f32) (x4 : Vec F S128x128 .f32)
    (x6 : Vec F S10000x128 .bf16) :
    v.readCov [⟨rSr, k1_pay5 (View.ld x6 rX)⟩, ⟨rSl, k1_pay4 (View.ld x3 rX) (View.ld x4 rW)⟩] rSw.toLoadRect
      = View.ld (scr1 x3 x4 x6) rSw :=
  View.readCov_eq_canon_ld v _ rSw (cover_scr1 _ _)

/-- The f32 output's pieces over a value `w` equal to the carried buffer's whole read are `outU1`. -/
theorem outU1_of_read (x1 x2 : Vec F S200x10000 .f32) (w : Vec F S10000x256 .bf16) (s : Vec F S10000x256 .bf16)
    (x8 : Vec F S1x128 .f32) (h : w = View.ld s rSw) :
    View.canon [⟨rOb, k1_pay3 (k1_pay9 (View.ld x2 rA)) w (View.ld x8 rB)⟩,
                ⟨rOt, k1_pay8 (View.ld x1 rA) w (View.ld x8 rB)⟩] = outU1 x1 x2 s x8 := by
  subst h; rfl

/-- The bf16 output's pieces, likewise. -/
theorem outS1_of_read (x1 x2 : Vec F S200x10000 .f32) (w : Vec F S10000x256 .bf16) (s : Vec F S10000x256 .bf16)
    (x5 : Vec F S128x128 .bf16) (x7 : Vec F S1x128 .f32) (h : w = View.ld s rSw) :
    View.canon [⟨rOb, k1_pay2 (k1_pay9 (View.ld x2 rA)) w (View.ld x7 rB) (View.ld x5 rW)⟩,
                ⟨rOt, k1_pay7 (View.ld x1 rA) w (View.ld x7 rB) (View.ld x5 rW)⟩] = outS1 x1 x2 s x5 x7 := by
  subst h; rfl

/-! ## The body's triples -/

set_option maxHeartbeats 1000000 in
/-- At the first point: on whole memrefs, the inputs at their contents and the two outputs and the carried buffer at
    anything, the body runs to the continuation holding the inputs as they were, the carried buffer at `scr1` and
    each output at its closed form over `scr1`. -/
theorem sound_first (c : Dev nD) (E : Set ℕ) (i : grid1.Coords) (hi : (i 0).val = 0)
    (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .bf16) (harg5 : arg5.IsWhole) (arg6 : Memref sig .tc .vmem S10000x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S400x128 .f32) (harg9 : arg9.IsWhole) (arg10 : Memref sig .tc .vmem S400x128 .bf16) (harg10 : arg10.IsWhole) (arg11 : Memref sig .tc .vmem S10000x256 .bf16) (harg11 : arg11.IsWhole)
    (x1 : Vec F S200x10000 .f32) (x2 : Vec F S200x10000 .f32) (x3 : Vec F S10000x128 .f32) (x4 : Vec F S128x128 .f32) (x5 : Vec F S128x128 .bf16) (x6 : Vec F S10000x128 .bf16) (x7 : Vec F S1x128 .f32) (x8 : Vec F S1x128 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
            ∗ owns (c : Thread nD τ) arg9 fullShare (outU1 x1 x2 (scr1 x3 x4 x6) x8) ∗ owns (c : Thread nD τ) arg10 fullShare (outS1 x1 x2 (scr1 x3 x4 x6) x5 x7)
            ∗ owns (c : Thread nD τ) arg11 fullShare (scr1 x3 x4 x6)) -∗ K ⟨⟩))
      ⊢ wp frame (wpE (defs₀ (F := F)) Variants.none c none) E (cc1__pass2_body i arg1 harg1 arg2 harg2 arg3 harg3 arg4 harg4 arg5 harg5 arg6 harg6 arg7 harg7 arg8 harg8 arg9 harg9 arg10 harg10 arg11 harg11) K := by
  have hc : cond1 (i 0).val := (cond1_iff (i 0)).mpr hi
  simp only [cc1__pass2_body_eq_skeleton]; unfold cc1__pass2_body_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf1 hf2 hf3 hf4 hf5 hf6 hf7 hf8
  sl_exec (disch := first | exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    sl_unfold_run_names
    exact (View.read_writes_eq_canon _ _ _ (cover_out1 _ _)).trans
      (outU1_of_read (arg1.view.read (Elt F) f1) (arg2.view.read (Elt F) f2) _
        (scr1 (arg3.view.read (Elt F) f3) (arg4.view.read (Elt F) f4) (arg6.view.read (Elt F) f6))
        (arg8.view.read (Elt F) f8) (readCov_scr1 arg11.view _ _ _))
  isplitl [H10]
  · iexists _; isplitr
    swap; · iexact H10
    ipureintro
    sl_unfold_run_names
    exact (View.read_writes_eq_canon _ _ _ (cover_out1 _ _)).trans
      (outS1_of_read (arg1.view.read (Elt F) f1) (arg2.view.read (Elt F) f2) _
        (scr1 (arg3.view.read (Elt F) f3) (arg4.view.read (Elt F) f4) (arg6.view.read (Elt F) f6))
        (arg5.view.read (Elt F) f5) (arg7.view.read (Elt F) f7) (readCov_scr1 arg11.view _ _ _))
  iexists _; isplitr
  swap; · iexact H11
  ipureintro
  sl_unfold_run_names
  exact View.read_writes_eq_canon _ _ _ (cover_scr1 _ _)

set_option maxHeartbeats 1000000 in
/-- At a later point: the carried buffer at contents `s` stays at `s`, and each output ends at its closed form
    over `s`. -/
theorem sound_next (c : Dev nD) (E : Set ℕ) (i : grid1.Coords) (hi : (i 0).val ≠ 0)
    (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .bf16) (harg5 : arg5.IsWhole) (arg6 : Memref sig .tc .vmem S10000x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S400x128 .f32) (harg9 : arg9.IsWhole) (arg10 : Memref sig .tc .vmem S400x128 .bf16) (harg10 : arg10.IsWhole) (arg11 : Memref sig .tc .vmem S10000x256 .bf16) (harg11 : arg11.IsWhole)
    (x1 : Vec F S200x10000 .f32) (x2 : Vec F S200x10000 .f32) (x3 : Vec F S10000x128 .f32) (x4 : Vec F S128x128 .f32) (x5 : Vec F S128x128 .bf16) (x6 : Vec F S10000x128 .bf16) (x7 : Vec F S1x128 .f32) (x8 : Vec F S1x128 .f32) (s : Vec F S10000x256 .bf16) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
        ∗ (∃ d, owns (c : Thread nD τ) arg9 fullShare d) ∗ (∃ d, owns (c : Thread nD τ) arg10 fullShare d) ∗ owns (c : Thread nD τ) arg11 fullShare s
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
            ∗ owns (c : Thread nD τ) arg9 fullShare (outU1 x1 x2 s x8) ∗ owns (c : Thread nD τ) arg10 fullShare (outS1 x1 x2 s x5 x7)
            ∗ owns (c : Thread nD τ) arg11 fullShare s) -∗ K ⟨⟩))
      ⊢ wp frame (wpE (defs₀ (F := F)) Variants.none c none) E (cc1__pass2_body i arg1 harg1 arg2 harg2 arg3 harg3 arg4 harg4 arg5 harg5 arg6 harg6 arg7 harg7 arg8 harg8 arg9 harg9 arg10 harg10 arg11 harg11) K := by
  have hc : ¬ cond1 (i 0).val := fun h => hi ((cond1_iff (i 0)).mp h)
  simp only [cc1__pass2_body_eq_skeleton]; unfold cc1__pass2_body_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, Hk⟩
  subst hf1 hf2 hf3 hf4 hf5 hf6 hf7 hf8 hf11
  sl_exec (disch := first | exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover_out1 _ _)
  isplitl [H10]
  · iexists _; isplitr
    swap; · iexact H10
    ipureintro
    exact View.read_writes_eq_canon _ _ _ (cover_out1 _ _)
  iexists f11; isplitr; · ipureintro; rfl
  iexact H11

end Cert.KernelIdeal.Hand.B1
end
-- ==== Proof.KI.Region1.lean ====
/-
  The second kernel region: its proof data and what it owes the launch.

  The region has ten windows: windows 0 and 1 read the SAME adjacency array (the even and the odd 200-row blocks of
  it), window 2 the feature matrix, windows 3 and 4 the two weights, window 5 the first region's result, windows 6 and
  7 the two bias rows, windows 8 and 9 are the two outputs, one 400-row block each per grid point. The adjacency's
  buffer is held by its two windows at the two halves of the full share; every other array by its one window at the
  full share. The body keeps a [10000, 256] buffer from point to point: the first point fills it from the blocks of
  windows 2, 3 and 5 (whole arrays, the same at every point) and every point reads it, so it holds ONE value after
  the first point, and each output block is the body's function of the two adjacency blocks, that value, and the
  weight and bias blocks. The invariant carries that buffer: at anything before the first point, at that value after.
-/
import proofs.«180870_g50560355009132_cont_8to1c4_249_8_alg».proof.Proof.KI.Body1
import proofs.«180870_g50560355009132_cont_8to1c4_249_8_alg».proof.Proof.LibSharedArrays

set_option maxRecDepth 16384

noncomputable section

namespace Cert.KernelIdeal.Hand.B1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Lib.SharedArrays

section Region1

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staged buffer holds the array's block at every point, fetched there or not: where it is not
    fetched its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The carried buffer's value -/

/-- The first point. -/
abbrev t0 : Fin cfg1.N := ⟨0, by decide⟩

/-- What the carried buffer holds from the first point on: the first point's fill, from the blocks of windows 2, 3
    and 5 there. -/
def S1 (c : Dev nD) : Vec F S10000x256 .bf16 := scr1 (iblk1 V c 2 t0) (iblk1 V c 3 t0) (iblk1 V c 5 t0)

/-- The grid's one coordinate at a point is the point's number. -/
theorem coord1 : ∀ t : Fin cfg1.N, ((grid1.coords t) 0).val = t.val := by decide

/-! ## The proof data -/

/-- The share each window holds of its array: the adjacency's two windows the two halves, the others everything. -/
def sh1 : Fin 10 → PosShare TreeShare
  | ⟨0, _⟩ => fullShare.left
  | ⟨1, _⟩ => fullShare.right
  | ⟨2, _⟩ => fullShare
  | ⟨3, _⟩ => fullShare
  | ⟨4, _⟩ => fullShare
  | ⟨5, _⟩ => fullShare
  | ⟨6, _⟩ => fullShare
  | ⟨7, _⟩ => fullShare
  | ⟨8, _⟩ => fullShare
  | ⟨9, _⟩ => fullShare

/-- The invariant before point `k`: the generator register at some state, the carried buffer — at anything before
    the first point, at `S1` after it —, and the core's other scoped buffers that are no staging buffer of the
    region, at some contents each. -/
def Φ1 (c : Dev nD) (k : Fin (cfg1.N + 1)) : sProp 𝕄 :=
  iprop((∃ r, prngReg c r)
    ∗ (if k.val = 0 then iprop(∃ d, owns (c : Thread nD τ) (Memref.whole cc1_scratch0 : Memref sig .tc .vmem S10000x256 .bf16) fullShare d)
        else owns (c : Thread nD τ) (Memref.whole cc1_scratch0 : Memref sig .tc .vmem S10000x256 .bf16) fullShare (S1 V c))
    ∗ Pipeline.scopedRestBut (Ix := Unit) (Name := ℕ) (U := UR sig nD τ) (Lvl := ℕ) (Val := Elt F) spec1 c [cc1_scratch0])

theorem Φ1_first (c : Dev nD) (k : Fin (cfg1.N + 1)) (h : k.val = 0) :
    Φ1 V c k = iprop((∃ r, prngReg c r) ∗ (∃ d, owns (c : Thread nD τ) (Memref.whole cc1_scratch0 : Memref sig .tc .vmem S10000x256 .bf16) fullShare d) ∗ Pipeline.scopedRestBut (Ix := Unit) (Name := ℕ) (U := UR sig nD τ) (Lvl := ℕ) (Val := Elt F) spec1 c [cc1_scratch0]) := by
  unfold Φ1; rw [if_pos h]

theorem Φ1_later (c : Dev nD) (k : Fin (cfg1.N + 1)) (h : k.val ≠ 0) :
    Φ1 V c k = iprop((∃ r, prngReg c r) ∗ owns (c : Thread nD τ) (Memref.whole cc1_scratch0 : Memref sig .tc .vmem S10000x256 .bf16) fullShare (S1 V c) ∗ Pipeline.scopedRestBut (Ix := Unit) (Name := ℕ) (U := UR sig nD τ) (Lvl := ℕ) (Val := Elt F) spec1 c [cc1_scratch0]) := by
  unfold Φ1; rw [if_neg h]

/-- The proof data of the second region on core `c`: the arrays as the region finds them; after the body at point `t`
    each input's buffer at its block and each output's at its closed form over the input blocks and `S1`; the
    invariant `Φ1`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => outU1 (iblk1 V c 0 t) (iblk1 V c 1 t) (S1 V c) (iblk1 V c 7 t)
    | ⟨9, _⟩ => outS1 (iblk1 V c 0 t) (iblk1 V c 1 t) (S1 V c) (iblk1 V c 4 t) (iblk1 V c 6 t)
  Φ k := Φ1 V c k
  q := sh1
  owed _ := 0

theorem A_eq1 (c : Dev nD) (w : Fin cfg1.W) : (dat1 V c).A w = V c (Pipeline.arrRef spec1 w) := by
  dsimp only [dat1]

theorem Φ_eq1 (c : Dev nD) (k : Fin (cfg1.N + 1)) : (dat1 V c).Φ k = Φ1 V c k := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) :
    (dat1 V c).after 8 t = outU1 (iblk1 V c 0 t) (iblk1 V c 1 t) (S1 V c) (iblk1 V c 7 t) := by dsimp only [dat1]
theorem after1_9 (c : Dev nD) (t : Fin cfg1.N) :
    (dat1 V c).after 9 t = outS1 (iblk1 V c 0 t) (iblk1 V c 1 t) (S1 V c) (iblk1 V c 4 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

/-- The body at any point: the inputs' memrefs hold their blocks, so the body's triple applies — at the first point
    the one that fills the carried buffer, found at anything and left at `S1`; at a later point the one that reads
    it, found and left at `S1` —; the generator register, the other scoped buffers and the core's dues pass through
    unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl,
    after1_0, after1_1, after1_2, after1_3, after1_4, after1_5, after1_6, after1_7, after1_8, after1_9, Φ_eq1, Φ_eq1,
    Φ1_later V c t.succ (by rw [Fin.val_succ]; exact Nat.succ_ne_zero _)]
  by_cases h0 : t.val = 0
  · have hi : ((grid1.coords t) 0).val = 0 := (coord1 t).trans h0
    rw [Φ1_first V c t.castSucc (by rw [Fin.val_castSucc]; exact h0)]
    obtain rfl : t = t0 := Fin.ext h0
    iintro ⟨⟨Hr, Hs, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_first c Set.univ (grid1.coords t0) hi _ _ _ _ _ _ _ _ _ _ _ _ _ _ _ _ _ _ _ _ _ _ (iblk1 V c 0 t0) (iblk1 V c 1 t0) (iblk1 V c 2 t0) (iblk1 V c 3 t0) (iblk1 V c 4 t0) (iblk1 V c 5 t0) (iblk1 V c 6 t0) (iblk1 V c 7 t0) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [Hs]; · iexact Hs
    iintro ⟨H0, H1, H2, H3, H4, H5, H6, H7, H8, H9, Hs⟩
    isplitl [Hr Hs Hrest]
    · isplitl [Hr]; · iexact Hr
      isplitl [Hs]; · iexact Hs
      iexact Hrest
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · have hi : ((grid1.coords t) 0).val ≠ 0 := fun h => h0 ((coord1 t).symm.trans h)
    rw [Φ1_later V c t.castSucc (by rw [Fin.val_castSucc]; exact h0)]
    iintro ⟨⟨Hr, Hs, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_next c Set.univ (grid1.coords t) hi _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (S1 V c) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [Hs]; · iexact Hs
    iintro ⟨H0, H1, H2, H3, H4, H5, H6, H7, H8, H9, Hs⟩
    isplitl [Hr Hs Hrest]
    · isplitl [Hr]; · iexact Hr
      isplitl [Hs]; · iexact Hs
      iexact Hrest
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's two ends -/

/-- The carried buffer is a scoped buffer of the core and no staging buffer of the region. -/
theorem scratch_mem1 : ([cc1_scratch0] : List (Ref sig .tc)).Forall fun b =>
    b.isScoped = true ∧ ∀ (w : Fin 10) (s : Fin (spec1 w).nbuf), ((spec1 w).stage s).view.ref ≠ b := by decide

/-- The core's scoped rest is the carried buffer at some contents and the others. -/
theorem scopedRest1_split (c : Dev nD) :
    (Pipeline.scopedRest (Ix := Unit) (Name := ℕ) (U := UR sig nD τ) (Lvl := ℕ) (Val := Elt F) spec1 c : sProp 𝕄)
      = iprop((∃ d, owns (c : Thread nD τ) (Memref.whole cc1_scratch0 : Memref sig .tc .vmem S10000x256 .bf16) fullShare d) ∗ Pipeline.scopedRestBut (Ix := Unit) (Name := ℕ) (U := UR sig nD τ) (Lvl := ℕ) (Val := Elt F) spec1 c [cc1_scratch0]) := by
  rw [Pipeline.scopedRest_split_of_list spec1 c [cc1_scratch0] scratch_mem1 (by decide), bigSepL_singleton,
    (Memref.isWhole_whole cc1_scratch0).exists_owns_eq fullShare]
  rfl

/-- ENTRY: what the launch hands the body — the generator register and the scoped rest — is the invariant before the
    first point. -/
theorem hin1 (c : Dev nD) :
    iprop((∃ r, prngReg c r) ∗ Pipeline.scopedRest (Ix := Unit) (Name := ℕ) (U := UR sig nD τ) (Lvl := ℕ) (Val := Elt F) spec1 c)
      ⊢ (dat1 V c).Φ 0 := by
  rw [Φ_eq1, Φ1_first V c 0 rfl, scopedRest1_split]

/-- EXIT: the invariant after the last point gives both back, the carried buffer at some contents again. -/
theorem hout1 (c : Dev nD) :
    (dat1 V c).Φ (Fin.last cfg1.N)
      ⊢ iprop((∃ r, prngReg c r) ∗ Pipeline.scopedRest (Ix := Unit) (Name := ℕ) (U := UR sig nD τ) (Lvl := ℕ) (Val := Elt F) spec1 c) := by
  rw [Φ_eq1, Φ1_later V c (Fin.last cfg1.N) (by decide), scopedRest1_split]
  iintro ⟨Hr, Hs, Hrest⟩
  isplitl [Hr]; · iexact Hr
  isplitl [Hs]; · iexists _; iexact Hs
  iexact Hrest

end Region1

section Ends1

variable (V : (c : Dev nD) → (b : Ref sig .tc) → Buf (Elt F) ((c : Thread nD τ).loc b))

/-! ## The arrays at the region's two ends

The launch holds the core's DISTINCT unscoped buffers, each whole at the full share; the pipeline holds each WINDOW's
array at the window's share. Nine buffers stand behind the ten windows' arrays; the adjacency's full share is the two
halves its two windows hold. -/

/-- The distinct buffers behind the ten windows' arrays. -/
theorem image1 : Finset.univ.image (Pipeline.arrRef spec1) = ({main_arg2, main_arg1, main_arg5, main_v1, main_v3, main_v4, main_v5, main_v6_0, main_v6_1} : Finset (Ref sig .tc)) := by
  decide

/-- Each window holds its array at `sh1`: an input at its own share, an output at the full share. -/
theorem share1 (c : Dev nD) (w : Fin cfg1.W) : (dat1 V c).share w = sh1 w := by
  fin_cases w <;> rfl

/-- The pipeline's arrays, window by window, as whole buffers at the windows' shares. -/
theorem arrays1_eq (c : Dev nD) (G : (w : Fin cfg1.W) → Buf (Elt F) ((cfg1.win w).arr.view.loc (c.tc : Thread nD τ))) :
    (dat1 V c).arrays G = bigSep Finset.univ fun w : Fin cfg1.W => (((c.tc : Thread nD τ).loc (Pipeline.arrRef spec1 w)) ↦{sh1 w} G w : sProp 𝕄) := by
  unfold Dat.arrays
  exact bigSep_congr fun w _ => by rw [(arr_whole1 w).set_eq_univ, share1]

/-- DEALING AND JOINING: the nine distinct buffers whole at contents `Vc` are the ten windows' holdings at `Vc`, the
    adjacency's full share being its left and right halves. -/
theorem deal1 (c : Dev nD) (Vc : (b : Ref sig .tc) → Buf (Elt F) ((c.tc : Thread nD τ).loc b)) :
    (Pipeline.arrBufs spec1 c Vc : sProp 𝕄)
      ⊣⊢ bigSep Finset.univ fun w : Fin cfg1.W => (((c.tc : Thread nD τ).loc (Pipeline.arrRef spec1 w)) ↦{sh1 w} Vc (Pipeline.arrRef spec1 w) : sProp 𝕄) := by
  unfold Pipeline.arrBufs
  rw [image1, BI.bigSep_insert (by decide), BI.bigSep_insert (by decide), BI.bigSep_insert (by decide), BI.bigSep_insert (by decide), BI.bigSep_insert (by decide), BI.bigSep_insert (by decide), BI.bigSep_insert (by decide), BI.bigSep_insert (by decide), BI.bigSep_singleton, bigSep_W1]
  have h : (((c.tc : Thread nD τ).loc main_arg2) ↦{fullShare} Vc main_arg2 : sProp 𝕄)
      ⊣⊢ iprop((((c.tc : Thread nD τ).loc main_arg2) ↦{fullShare.left} Vc main_arg2) ∗ (((c.tc : Thread nD τ).loc main_arg2) ↦{fullShare.right} Vc main_arg2)) :=
    pointsTo_share (PosShare.mem_left_op_right fullShare)
  have h1 := h.1
  have h2 := h.2
  show (iprop((((c.tc : Thread nD τ).loc main_arg2) ↦{fullShare} Vc main_arg2)
      ∗ (((c.tc : Thread nD τ).loc main_arg1) ↦{fullShare} Vc main_arg1)
      ∗ (((c.tc : Thread nD τ).loc main_arg5) ↦{fullShare} Vc main_arg5)
      ∗ (((c.tc : Thread nD τ).loc main_v1) ↦{fullShare} Vc main_v1)
      ∗ (((c.tc : Thread nD τ).loc main_v3) ↦{fullShare} Vc main_v3)
      ∗ (((c.tc : Thread nD τ).loc main_v4) ↦{fullShare} Vc main_v4)
      ∗ (((c.tc : Thread nD τ).loc main_v5) ↦{fullShare} Vc main_v5)
      ∗ (((c.tc : Thread nD τ).loc main_v6_0) ↦{fullShare} Vc main_v6_0)
      ∗ (((c.tc : Thread nD τ).loc main_v6_1) ↦{fullShare} Vc main_v6_1)) : sProp 𝕄) ⊣⊢ _
  constructor
  · iintro ⟨Ha2, Ha1, Ha5, Hv1, Hv3, Hv4, Hv5, Hu, Hs⟩
    ihave H := h1 $$ Ha2
    icases H with ⟨Hl, Hr⟩
    isplitl [Hl]; · iexact Hl
    isplitl [Hr]; · iexact Hr
    isplitl [Ha1]; · iexact Ha1
    isplitl [Ha5]; · iexact Ha5
    isplitl [Hv1]; · iexact Hv1
    isplitl [Hv3]; · iexact Hv3
    isplitl [Hv4]; · iexact Hv4
    isplitl [Hv5]; · iexact Hv5
    isplitl [Hu]; · iexact Hu
    iexact Hs
  · iintro ⟨Hl, Hr, Ha1, Ha5, Hv1, Hv3, Hv4, Hv5, Hu, Hs⟩
    isplitl [Hl Hr]
    · iapply h2
      isplitl [Hl]; · iexact Hl
      iexact Hr
    isplitl [Ha1]; · iexact Ha1
    isplitl [Ha5]; · iexact Ha5
    isplitl [Hv1]; · iexact Hv1
    isplitl [Hv3]; · iexact Hv3
    isplitl [Hv4]; · iexact Hv4
    isplitl [Hv5]; · iexact Hv5
    isplitl [Hu]; · iexact Hu
    iexact Hs

/-- ENTRY: the core's unscoped buffers at `V c` are the region's arrays at the proof data's entry contents and the
    unscoped rest. -/
theorem entry1 (c : Dev nD) :
    (unscopedBufs c (V c) : sProp 𝕄) ⊢ iprop((dat1 V c).arrays (dat1 V c).A ∗ Pipeline.unscopedRest spec1 c (V c)) := by
  rw [unscopedBufs_eq spec1 winFacts₀1.arr_unscoped c (V c), arrays1_eq]
  exact sep_mono ((deal1 c (V c)).1.trans (Entails.of_eq (bigSep_congr fun w _ => by rw [A_eq1]))) .rfl

/-- EXIT: the arrays after every write-back and the unscoped rest as entered are the core's unscoped buffers at any
    valuation that has the two outputs' arrays at what the pipeline leaves and agrees with `V c` elsewhere. -/
theorem exit1 (c : Dev nD) (Vc' : (b : Ref sig .tc) → Buf (Elt F) ((c.tc : Thread nD τ).loc b))
    (hout : Vc' main_v6_0 = (dat1 V c).arrAt 8 cfg1.N) (hout' : Vc' main_v6_1 = (dat1 V c).arrAt 9 cfg1.N)
    (hrest : ∀ b : Ref sig .tc, b ≠ main_v6_0 → b ≠ main_v6_1 → Vc' b = V c b) :
    iprop((dat1 V c).arrays ((dat1 V c).arrAt · cfg1.N) ∗ Pipeline.unscopedRest spec1 c (V c)) ⊢ (unscopedBufs c Vc' : sProp 𝕄) := by
  have hF : ∀ w : Fin cfg1.W, (dat1 V c).arrAt w cfg1.N = Vc' (Pipeline.arrRef spec1 w) := fun w => by
    fin_cases w
    · exact ((dat1 V c).arrAt_in 0 rfl _).trans ((A_eq1 V c 0).trans (hrest main_arg2 (by decide) (by decide)).symm)
    · exact ((dat1 V c).arrAt_in 1 rfl _).trans ((A_eq1 V c 1).trans (hrest main_arg2 (by decide) (by decide)).symm)
    · exact ((dat1 V c).arrAt_in 2 rfl _).trans ((A_eq1 V c 2).trans (hrest main_arg1 (by decide) (by decide)).symm)
    · exact ((dat1 V c).arrAt_in 3 rfl _).trans ((A_eq1 V c 3).trans (hrest main_arg5 (by decide) (by decide)).symm)
    · exact ((dat1 V c).arrAt_in 4 rfl _).trans ((A_eq1 V c 4).trans (hrest main_v1 (by decide) (by decide)).symm)
    · exact ((dat1 V c).arrAt_in 5 rfl _).trans ((A_eq1 V c 5).trans (hrest main_v3 (by decide) (by decide)).symm)
    · exact ((dat1 V c).arrAt_in 6 rfl _).trans ((A_eq1 V c 6).trans (hrest main_v4 (by decide) (by decide)).symm)
    · exact ((dat1 V c).arrAt_in 7 rfl _).trans ((A_eq1 V c 7).trans (hrest main_v5 (by decide) (by decide)).symm)
    · exact hout.symm
    · exact hout'.symm
  rw [unscopedBufs_eq spec1 winFacts₀1.arr_unscoped c Vc', arrays1_eq]
  refine sep_mono ((Entails.of_eq (bigSep_congr fun w _ => by rw [hF w])).trans (deal1 c Vc').2) (Entails.of_eq ?_)
  unfold Pipeline.unscopedRest
  exact bigSep_congr fun b hb => by
    rw [hrest b (fun e => (Finset.mem_sdiff.mp hb).2 (e ▸ Finset.mem_image.mpr ⟨8, Finset.mem_univ _, rfl⟩))
      (fun e => (Finset.mem_sdiff.mp hb).2 (e ▸ Finset.mem_image.mpr ⟨9, Finset.mem_univ _, rfl⟩))]

end Ends1

end Cert.KernelIdeal.Hand.B1

end
-- ==== Proof.KI.Body2.lean ====
/-
  The third kernel's body on one grid point. The point's two staged half-tiles of the adjacency (200 rows each, all
  10000 columns) are each multiplied with the whole staged support matrix (10000 x 128), the bias row is added to
  every row, and the maximum with zero is stored: the first half-tile's result to rows 0..199 of the output block, the
  second's to rows 200..399. The two stores tile the block, so the block after the body is one function of the four
  input blocks.
-/
import proofs.«180870_g50560355009132_cont_8to1c4_249_8_alg».proof.Proof.Gen.KernelIdeal.Launch
import proofs.«180870_g50560355009132_cont_8to1c4_249_8_alg».proof.Proof.Gen.KernelIdeal.Skeleton
import proofs.«180870_g50560355009132_cont_8to1c4_249_8_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the bodies load and store through -/

/-- A whole staged half-tile of the adjacency. -/
abbrev rAdj : Rect S200x10000 := Rect.unit (s := S200x10000) ![0, 0] S200x10000.size inb_S200x10000_S200x10000_0_0
/-- A whole [10000, 128] buffer. -/
abbrev rTall : Rect S10000x128 := Rect.unit (s := S10000x128) ![0, 0] S10000x128.size inb_S10000x128_S10000x128_0_0
/-- A whole bias row. -/
abbrev rRow : Rect S1x128 := Rect.unit (s := S1x128) ![0, 0] S1x128.size inb_S1x128_S1x128_0_0
/-- Rows 0..199 of a [400, 128] block. -/
abbrev rTop : Rect S400x128 := Rect.unit (s := S400x128) ![0, 0] S200x128.size inb_S400x128_S200x128_0_0
/-- Rows 200..399 of a [400, 128] block. -/
abbrev rBot : Rect S400x128 := Rect.unit (s := S400x128) ![200, 0] S200x128.size inb_S400x128_S200x128_200_0

/-! ## What the body leaves in the output block -/

/-- The output block after the body, from the two half-tiles `x1`, `x2`, the support matrix `x3` and the bias row
    `x4`: the bottom half's store over the top half's. -/
def out2 (x1 x2 : Vec F S200x10000 .f32) (x3 : Vec F S10000x128 .bf16) (x4 : Vec F S1x128 .f32) : Vec F S400x128 .f32 :=
  View.canon [⟨rBot, k2_pay2 (View.ld x2 rAdj) (View.ld x3 rTall) (View.ld x4 rRow)⟩,
              ⟨rTop, k2_pay1 (View.ld x1 rAdj) (View.ld x3 rTall) (View.ld x4 rRow)⟩]

/-- The two row halves tile the block. -/
theorem cover2 (p0 p1 : Vec F S200x128 .f32) (y : S400x128.Idx) :
    ∃ pc ∈ ([⟨rBot, p0⟩, ⟨rTop, p1⟩] : List (View.Piece (Elt F) S400x128 .f32)), y ∈ pc.1.set :=
  View.cover_of_tiled [⟨rBot, p0⟩, ⟨rTop, p1⟩] S200x128.size (by rfl) y

/-! ## The body's triple -/

set_option maxHeartbeats 1000000 in
/-- From the four input blocks held at `x1 … x4` and the output block held at anything, the body runs to its return with
    the inputs as they were and the output block at `out2` of them. -/
theorem sound_kernel2 (c : Dev nD) (E : Set ℕ) (i : grid2.Coords)
    (arg1 : Memref sig .tc .vmem S200x10000 .f32) (harg1 : arg1.IsWhole) (arg2 : Memref sig .tc .vmem S200x10000 .f32) (harg2 : arg2.IsWhole)
    (arg3 : Memref sig .tc .vmem S10000x128 .bf16) (harg3 : arg3.IsWhole) (arg4 : Memref sig .tc .vmem S1x128 .f32) (harg4 : arg4.IsWhole)
    (arg5 : Memref sig .tc .vmem S400x128 .f32) (harg5 : arg5.IsWhole)
    (x1 x2 : Vec F S200x10000 .f32) (x3 : Vec F S10000x128 .bf16) (x4 : Vec F S1x128 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (out2 x1 x2 x3 x4)) -∗ K ⟨⟩))
      ⊢ wp frame (wpE (defs₀ (F := F)) Variants.none c none) E (cc2__pass3_body i arg1 harg1 arg2 harg2 arg3 harg3 arg4 harg4 arg5 harg5) K := by
  simp only [cc2__pass3_body_eq_skeleton]; unfold cc2__pass3_body_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2 _ _)

end Cert.KernelIdeal.Hand

end
-- ==== Proof.KI.Region2.lean ====
/-
  The third kernel region: its proof data and what it owes the launch.

  The region has five windows: windows 0 and 1 read the SAME adjacency array (the even and the odd 200-row blocks of
  it), window 2 the whole support matrix, window 3 the bias row, window 4 is the output, one 400-row block per grid
  point. The adjacency's buffer is held by the two windows at the two halves of the full share; every other array is
  held by its one window at the full share. At a grid point each input window's staged block is the array's block
  there, and the output block is the body's function `out2` of the four input blocks.
-/
import proofs.«180870_g50560355009132_cont_8to1c4_249_8_alg».proof.Proof.KI.Body2
import proofs.«180870_g50560355009132_cont_8to1c4_249_8_alg».proof.Proof.LibSharedArrays

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Lib.SharedArrays

section Region2

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staged buffer holds the array's block at every point, fetched there or not: where it is not
    fetched its block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The proof data -/

/-- The share each window holds of its array: the adjacency's two windows the two halves, the others everything. -/
def sh2 : Fin 5 → PosShare TreeShare
  | ⟨0, _⟩ => fullShare.left
  | ⟨1, _⟩ => fullShare.right
  | ⟨2, _⟩ => fullShare
  | ⟨3, _⟩ => fullShare
  | ⟨4, _⟩ => fullShare

/-- The proof data of the third region on core `c`: the arrays as the region finds them; after the body at point `t`
    each input's buffer at its block and the output's at `out2` of the input blocks; the invariant the scoped rest and
    the generator register, untouched; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2 (iblk2 V c 0 t) (iblk2 V c 1 t) (iblk2 V c 2 t) (iblk2 V c 3 t)
  Φ _ := Pipeline.ΦA spec2 c
  q := sh2
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

section Ends2

variable (V : (c : Dev nD) → (b : Ref sig .tc) → Buf (Elt F) ((c : Thread nD τ).loc b))

/-! ## The arrays at the region's two ends

The launch holds the core's DISTINCT unscoped buffers, each whole at the full share; the pipeline holds each WINDOW's
array at the window's share. Four buffers stand behind the five windows' arrays; the adjacency's full share is the
two halves its two windows hold. -/

/-- The distinct buffers behind the five windows' arrays. -/
theorem image2 : Finset.univ.image (Pipeline.arrRef spec2) = ({main_arg3, main_v6_1, main_v7, main_v8} : Finset (Ref sig .tc)) := by
  decide

/-- Each window holds its array at `sh2`: an input at its own share, the output at the full share. -/
theorem share2 (c : Dev nD) (w : Fin cfg2.W) : (dat2 V c).share w = sh2 w := by
  fin_cases w <;> rfl

/-- The pipeline's arrays, window by window, as whole buffers at the windows' shares. -/
theorem arrays2_eq (c : Dev nD) (G : (w : Fin cfg2.W) → Buf (Elt F) ((cfg2.win w).arr.view.loc (c.tc : Thread nD τ))) :
    (dat2 V c).arrays G = bigSep Finset.univ fun w : Fin cfg2.W => (((c.tc : Thread nD τ).loc (Pipeline.arrRef spec2 w)) ↦{sh2 w} G w : sProp 𝕄) := by
  unfold Dat.arrays
  exact bigSep_congr fun w _ => by rw [(arr_whole2 w).set_eq_univ, share2]

/-- DEALING AND JOINING: the four distinct buffers whole at contents `Vc` are the five windows' holdings at `Vc`, the
    adjacency's full share being its left and right halves. -/
theorem deal2 (c : Dev nD) (Vc : (b : Ref sig .tc) → Buf (Elt F) ((c.tc : Thread nD τ).loc b)) :
    (Pipeline.arrBufs spec2 c Vc : sProp 𝕄)
      ⊣⊢ bigSep Finset.univ fun w : Fin cfg2.W => (((c.tc : Thread nD τ).loc (Pipeline.arrRef spec2 w)) ↦{sh2 w} Vc (Pipeline.arrRef spec2 w) : sProp 𝕄) := by
  unfold Pipeline.arrBufs
  rw [image2, BI.bigSep_insert (by decide), BI.bigSep_insert (by decide), BI.bigSep_insert (by decide), BI.bigSep_singleton, bigSep_W2]
  have h : (((c.tc : Thread nD τ).loc main_arg3) ↦{fullShare} Vc main_arg3 : sProp 𝕄)
      ⊣⊢ iprop((((c.tc : Thread nD τ).loc main_arg3) ↦{fullShare.left} Vc main_arg3) ∗ (((c.tc : Thread nD τ).loc main_arg3) ↦{fullShare.right} Vc main_arg3)) :=
    pointsTo_share (PosShare.mem_left_op_right fullShare)
  have h1 := h.1
  have h2 := h.2
  show (iprop((((c.tc : Thread nD τ).loc main_arg3) ↦{fullShare} Vc main_arg3) ∗ (((c.tc : Thread nD τ).loc main_v6_1) ↦{fullShare} Vc main_v6_1)
      ∗ (((c.tc : Thread nD τ).loc main_v7) ↦{fullShare} Vc main_v7) ∗ (((c.tc : Thread nD τ).loc main_v8) ↦{fullShare} Vc main_v8)) : sProp 𝕄) ⊣⊢ _
  constructor
  · iintro ⟨H3, H6, H7, H8⟩
    ihave H := h1 $$ H3
    icases H with ⟨Hl, Hr⟩
    isplitl [Hl]; · iexact Hl
    isplitl [Hr]; · iexact Hr
    isplitl [H6]; · iexact H6
    isplitl [H7]; · iexact H7
    iexact H8
  · iintro ⟨Hl, Hr, H6, H7, H8⟩
    isplitl [Hl Hr]
    · iapply h2
      isplitl [Hl]; · iexact Hl
      iexact Hr
    isplitl [H6]; · iexact H6
    isplitl [H7]; · iexact H7
    iexact H8

/-- ENTRY: the core's unscoped buffers at `V c` are the region's arrays at the proof data's entry contents and the
    unscoped rest. -/
theorem entry2 (c : Dev nD) :
    (unscopedBufs c (V c) : sProp 𝕄) ⊢ iprop((dat2 V c).arrays (dat2 V c).A ∗ Pipeline.unscopedRest spec2 c (V c)) := by
  rw [unscopedBufs_eq spec2 winFacts₀2.arr_unscoped c (V c), arrays2_eq]
  exact sep_mono ((deal2 c (V c)).1.trans (Entails.of_eq (bigSep_congr fun w _ => by rw [A_eq2]))) .rfl

/-- EXIT: the arrays after every write-back and the unscoped rest as entered are the core's unscoped buffers at any
    valuation that has the output's array at what the pipeline leaves and agrees with `V c` elsewhere. -/
theorem exit2 (c : Dev nD) (Vc' : (b : Ref sig .tc) → Buf (Elt F) ((c.tc : Thread nD τ).loc b))
    (hout : Vc' main_v8 = (dat2 V c).arrAt 4 cfg2.N) (hrest : ∀ b : Ref sig .tc, b ≠ main_v8 → Vc' b = V c b) :
    iprop((dat2 V c).arrays ((dat2 V c).arrAt · cfg2.N) ∗ Pipeline.unscopedRest spec2 c (V c)) ⊢ (unscopedBufs c Vc' : sProp 𝕄) := by
  have hF : ∀ w : Fin cfg2.W, (dat2 V c).arrAt w cfg2.N = Vc' (Pipeline.arrRef spec2 w) := fun w => by
    fin_cases w
    · exact ((dat2 V c).arrAt_in 0 rfl _).trans ((A_eq2 V c 0).trans (hrest main_arg3 (by decide)).symm)
    · exact ((dat2 V c).arrAt_in 1 rfl _).trans ((A_eq2 V c 1).trans (hrest main_arg3 (by decide)).symm)
    · exact ((dat2 V c).arrAt_in 2 rfl _).trans ((A_eq2 V c 2).trans (hrest main_v6_1 (by decide)).symm)
    · exact ((dat2 V c).arrAt_in 3 rfl _).trans ((A_eq2 V c 3).trans (hrest main_v7 (by decide)).symm)
    · exact hout.symm
  rw [unscopedBufs_eq spec2 winFacts₀2.arr_unscoped c Vc', arrays2_eq]
  refine sep_mono ((Entails.of_eq (bigSep_congr fun w _ => by rw [hF w])).trans (deal2 c Vc').2) (Entails.of_eq ?_)
  unfold Pipeline.unscopedRest
  exact bigSep_congr fun b hb => by
    rw [hrest b fun e => (Finset.mem_sdiff.mp hb).2 (e ▸ Finset.mem_image.mpr ⟨4, Finset.mem_univ _, rfl⟩)]

end Ends2

end Cert.KernelIdeal.Hand

end
-- ==== Proof.KI.Assembly.lean ====
/-
  The three kernel regions of @main as the launch's segment records, and the program's run.

  Between two items of @main a core's unscoped buffers are held whole at a valuation: `W1` after the first host
  stretch, `W2` after the first region (which changes only its output array, to what its pipeline's write-backs
  leave), and so on to `W6`. Each region is entered by dealing the distinct buffers behind its windows' arrays to the
  windows (the adjacency, read through two windows, at the two halves of its share) and left by joining them back
  at the next valuation. The generator register and the core's dues ride along unchanged.
-/
import proofs.«180870_g50560355009132_cont_8to1c4_249_8_alg».proof.Proof.KI.Region0
import proofs.«180870_g50560355009132_cont_8to1c4_249_8_alg».proof.Proof.KI.Region1
import proofs.«180870_g50560355009132_cont_8to1c4_249_8_alg».proof.Proof.KI.Region2
import proofs.«180870_g50560355009132_cont_8to1c4_249_8_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (RegionSeg)

variable (m : (ℓ : Loc nD τ sig) → Buf (Elt F) ℓ) (ρ : Dev nD → PrngReg)

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing
    nothing. -/
abbrev R (c : Dev nD) : sProp 𝕄 := iprop((∃ r, prngReg c r) ∗ ∃ W, owes (c : Thread nD τ) (0 : CellTallies nD τ sig Unit) W)

/-- A valuation read at the TensorCore's references. -/
abbrev Vr (W : Dev nD → Valuation τ sig (Elt F)) : (c : Dev nD) → (b : Ref sig .tc) → Buf (Elt F) ((c : Thread nD τ).loc b) := fun c b => W c b

/-! ## The buffers' contents between items -/

/-- After the first host stretch. -/
abbrev W1 (c : Dev nD) : Valuation τ sig (Elt F) := V1 m c
/-- What the first region leaves in its output array. -/
def o2 (c : Dev nD) : Buf (Elt F) ((c : Thread nD τ).loc main_v3) := (B0.dat0 (Vr (W1 m)) c).arrAt 6 cfg0.N
/-- After the first region. -/
def W2 (c : Dev nD) : Valuation τ sig (Elt F) := Function.update (W1 m c) main_v3 (o2 m c)
/-- After the second host stretch. -/
def W3 (c : Dev nD) : Valuation τ sig (Elt F) := StableHlo.after hostOps1 (W2 m c)
/-- What the second region leaves in its two output arrays. -/
def o4a (c : Dev nD) : Buf (Elt F) ((c : Thread nD τ).loc main_v6_0) := (B1.dat1 (Vr (W3 m)) c).arrAt 8 cfg1.N
def o4b (c : Dev nD) : Buf (Elt F) ((c : Thread nD τ).loc main_v6_1) := (B1.dat1 (Vr (W3 m)) c).arrAt 9 cfg1.N
/-- After the second region. -/
def W4 (c : Dev nD) : Valuation τ sig (Elt F) := Function.update (Function.update (W3 m c) main_v6_0 (o4a m c)) main_v6_1 (o4b m c)
/-- After the third host stretch. -/
def W5 (c : Dev nD) : Valuation τ sig (Elt F) := StableHlo.after hostOps2 (W4 m c)
/-- What the third region leaves in its output array. -/
def o6 (c : Dev nD) : Buf (Elt F) ((c : Thread nD τ).loc main_v8) := (dat2 (Vr (W5 m)) c).arrAt 4 cfg2.N
/-- After the third region. -/
def W6 (c : Dev nD) : Valuation τ sig (Elt F) := Function.update (W5 m c) main_v8 (o6 m c)

/-- What the regions leave, as the launch's conditional frame reads it: each region's output arrays at the contents
    above, anything else at its launch contents (never read). -/
def outs : Outs (F := F) := fun _ r c =>
  if h3 : r = main_v3 then by subst h3; exact o2 m c
  else if h60 : r = main_v6_0 then by subst h60; exact o4a m c
  else if h61 : r = main_v6_1 then by subst h61; exact o4b m c
  else if h8 : r = main_v8 then by subst h8; exact o6 m c
  else m ((c : Thread nD τ).loc r)

theorem outs_v3 (J : ℕ) (c : Dev nD) : outs m J main_v3 c = o2 m c := by unfold outs; rw [dif_pos rfl]
theorem outs_v6_0 (J : ℕ) (c : Dev nD) : outs m J main_v6_0 c = o4a m c := by
  unfold outs; rw [dif_neg (by decide), dif_pos rfl]
theorem outs_v6_1 (J : ℕ) (c : Dev nD) : outs m J main_v6_1 c = o4b m c := by
  unfold outs; rw [dif_neg (by decide), dif_neg (by decide), dif_pos rfl]
theorem outs_v8 (J : ℕ) (c : Dev nD) : outs m J main_v8 c = o6 m c := by
  unfold outs; rw [dif_neg (by decide), dif_neg (by decide), dif_neg (by decide), dif_pos rfl]

/-- The conditional frame's valuations at these contents are the valuations above. -/
theorem V2_eq (c : Dev nD) : V2 m (outs m) c = W2 m c := by unfold W2; dsimp only [V2]; rw [outs_v3]
theorem V3_eq (c : Dev nD) : V3 m (outs m) c = W3 m c := by unfold W3; dsimp only [V3]; rw [V2_eq]
theorem V4_eq (c : Dev nD) : V4 m (outs m) c = W4 m c := by unfold W4; dsimp only [V4]; rw [V3_eq, outs_v6_0, outs_v6_1]
theorem V5_eq (c : Dev nD) : V5 m (outs m) c = W5 m c := by unfold W5; dsimp only [V5]; rw [V4_eq]
theorem V6_eq (c : Dev nD) : V6 m (outs m) c = W6 m c := by unfold W6; dsimp only [V6]; rw [V5_eq, outs_v8]

/-! ## The proof data family -/

/-- Every pipeline's proof data, each at its region's entry contents: a literal match, so that the family at a
    numeral reduces to the region's own data. -/
def pdats : (p : Fin 3) → (c : Dev nD) → Dat τ (Elt F) Unit ℕ (UR sig nD τ) ℕ (cfgs p) c
  | ⟨0, _⟩ => fun c => B0.dat0 (Vr (W1 m)) c
  | ⟨1, _⟩ => fun c => B1.dat1 (Vr (W3 m)) c
  | ⟨2, _⟩ => fun c => dat2 (Vr (W5 m)) c

/-! ## The valuations read at a reference -/

theorem W2_v3 (c : Dev nD) : Vr (W2 m) c main_v3 = (B0.dat0 (Vr (W1 m)) c).arrAt 6 cfg0.N := by
  show W2 m c (Proc.devRef .tc main_v3) = _; unfold W2; exact Function.update_self ..
theorem W2_of (c : Dev nD) (b : Ref sig .tc) (h : b ≠ main_v3) : Vr (W2 m) c b = Vr (W1 m) c b := by
  show W2 m c (Proc.devRef .tc b) = _; unfold W2; exact Function.update_of_ne (StableHlo.devRef_ne_of_ne h) ..
theorem W4_v6_0 (c : Dev nD) : Vr (W4 m) c main_v6_0 = (B1.dat1 (Vr (W3 m)) c).arrAt 8 cfg1.N := by
  show W4 m c (Proc.devRef .tc main_v6_0) = _; unfold W4
  rw [Function.update_of_ne (StableHlo.devRef_ne_of_ne (by decide : main_v6_0 ≠ main_v6_1))]; exact Function.update_self ..
theorem W4_v6_1 (c : Dev nD) : Vr (W4 m) c main_v6_1 = (B1.dat1 (Vr (W3 m)) c).arrAt 9 cfg1.N := by
  show W4 m c (Proc.devRef .tc main_v6_1) = _; unfold W4; exact Function.update_self ..
theorem W4_of (c : Dev nD) (b : Ref sig .tc) (h0 : b ≠ main_v6_0) (h1 : b ≠ main_v6_1) : Vr (W4 m) c b = Vr (W3 m) c b := by
  show W4 m c (Proc.devRef .tc b) = _; unfold W4
  rw [Function.update_of_ne (StableHlo.devRef_ne_of_ne h1), Function.update_of_ne (StableHlo.devRef_ne_of_ne h0)]
theorem W6_v8 (c : Dev nD) : Vr (W6 m) c main_v8 = (dat2 (Vr (W5 m)) c).arrAt 4 cfg2.N := by
  show W6 m c (Proc.devRef .tc main_v8) = _; unfold W6; exact Function.update_self ..
theorem W6_of (c : Dev nD) (b : Ref sig .tc) (h : b ≠ main_v8) : Vr (W6 m) c b = Vr (W5 m) c b := by
  show W6 m c (Proc.devRef .tc b) = _; unfold W6; exact Function.update_of_ne (StableHlo.devRef_ne_of_ne h) ..

/-! ## The regions as segments -/

set_option backward.isDefEq.respectTransparency.types false in
/-- Region 0 over the thread state: entered from every unscoped buffer at `W1`, left at `W2`. -/
def reg0 : RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (B0.body_obligation0 (Vr (W1 m)) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (Vr (W1 m) c)
  hentry c := by
    rw [Pipeline.ownSems0_none]
    have hsplit := B0.entry0 (Vr (W1 m)) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    change iprop((∃ r, prngReg c r) ∗ Pipeline.prefHeld (pcfgs (F := F) 0).pre c (fun _ => fullShare) (adm (F := F) 0).1 ∗ Pipeline.scopedRest spec0 c) ⊢ (B0.dat0 (Vr (W1 m)) c).Φ 0
    iintro ⟨Hp, -, Hr⟩
    iapply (B0.hin0 (Vr (W1 m)) c)
    isplitl [Hp]; · iexact Hp
    iexact Hr
  hout c := by
    rw [Pipeline.ownSems0_none]
    change (B0.dat0 (Vr (W1 m)) c).Φ (Fin.last cfg0.N) ⊢ _
    iintro H
    ihave H' := (B0.hout0 (Vr (W1 m)) c) $$ H
    icases H' with ⟨Hp, Hr⟩
    isplitl [Hp]; · iexact Hp
    isplitr; · iempintro
    iexact Hr
  hexit c := by
    have hjoin := B0.exit0 (Vr (W1 m)) c (Vr (W2 m) c) (W2_v3 m c) (fun b hb => W2_of m c b hb)
    rw [Pipeline.unscopedBufs_held] at hjoin
    change iprop((B0.dat0 (Vr (W1 m)) c).arrays ((B0.dat0 (Vr (W1 m)) c).arrAt · cfg0.N) ∗ (B0.dat0 (Vr (W1 m)) c).owesAt () (Fin.last cfg0.N)
      ∗ (∃ r, prngReg c r) ∗ Pipeline.unscopedRest spec0 c (Vr (W1 m) c)) ⊢ _
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. -/
def reg1 : RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (B1.body_obligation1 (Vr (W3 m)) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (Vr (W3 m) c)
  hentry c := by
    rw [Pipeline.ownSems0_none]
    have hsplit := B1.entry1 (Vr (W3 m)) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    change iprop((∃ r, prngReg c r) ∗ Pipeline.prefHeld (pcfgs (F := F) 1).pre c (fun _ => fullShare) (adm (F := F) 1).1 ∗ Pipeline.scopedRest spec1 c) ⊢ (B1.dat1 (Vr (W3 m)) c).Φ 0
    iintro ⟨Hp, -, Hr⟩
    iapply (B1.hin1 (Vr (W3 m)) c)
    isplitl [Hp]; · iexact Hp
    iexact Hr
  hout c := by
    rw [Pipeline.ownSems0_none]
    change (B1.dat1 (Vr (W3 m)) c).Φ (Fin.last cfg1.N) ⊢ _
    iintro H
    ihave H' := (B1.hout1 (Vr (W3 m)) c) $$ H
    icases H' with ⟨Hp, Hr⟩
    isplitl [Hp]; · iexact Hp
    isplitr; · iempintro
    iexact Hr
  hexit c := by
    have hjoin := B1.exit1 (Vr (W3 m)) c (Vr (W4 m) c) (W4_v6_0 m c) (W4_v6_1 m c) (fun b h0 h1 => W4_of m c b h0 h1)
    rw [Pipeline.unscopedBufs_held] at hjoin
    change iprop((B1.dat1 (Vr (W3 m)) c).arrays ((B1.dat1 (Vr (W3 m)) c).arrAt · cfg1.N) ∗ (B1.dat1 (Vr (W3 m)) c).owesAt () (Fin.last cfg1.N)
      ∗ (∃ r, prngReg c r) ∗ Pipeline.unscopedRest spec1 c (Vr (W3 m) c)) ⊢ _
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. -/
def reg2 : RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (Vr (W5 m)) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (Vr (W5 m) c)
  hentry c := by
    rw [Pipeline.ownSems0_none]
    have hsplit := entry2 (Vr (W5 m)) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := exit2 (Vr (W5 m)) c (Vr (W6 m) c) (W6_v8 m c) (fun b hb => W6_of m c b hb)
    rw [Pipeline.unscopedBufs_held] at hjoin
    change iprop((dat2 (Vr (W5 m)) c).arrays ((dat2 (Vr (W5 m)) c).arrAt · cfg2.N) ∗ (dat2 (Vr (W5 m)) c).owesAt () (Fin.last cfg2.N)
      ∗ (∃ r, prngReg c r) ∗ Pipeline.unscopedRest spec2 c (Vr (W5 m) c)) ⊢ _
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The frame -/

/-- The program runs to its end, faults nowhere, and leaves its twelve argument arrays as launched: the launch's
    conditional frame at the three records above. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_cond m emb₁ () 𝒱₀ L lv (fun _ _ => rfl) ρ (outs m) (pdats m) (fun _ => 0) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (Pipeline.initEach L lv fun c => by
      iintro ⟨⟨-, HO, -, Hp, -⟩, -⟩
      imodintro
      isplitl [Hp]; · iexists _; iexact Hp
      iexists ∅; iexact HO)
    (fun c => by iintro ⟨-, HO⟩; iexact HO)
    (reg0 m) (fun c => .rfl) (fun c => by rw [V2_eq]; exact .rfl)
    (reg1 m) (fun c => by rw [V3_eq]; exact .rfl) (fun c => by rw [V4_eq]; exact .rfl)
    (reg2 m) (fun c => by rw [V5_eq]; exact .rfl) (fun c => by rw [V6_eq]; exact .rfl)

end Cert.KernelIdeal.Hand

end
-- ==== Proof.KI.RunCond.lean ====
/-
  The program's run with its two results named: from one segment record per kernel region, every weakly fair
  execution of @main terminates, and the final memory holds each of the two result arrays at what the last
  valuation holds there and each argument array as launched.
-/
import proofs.«180870_g50560355009132_cont_8to1c4_249_8_alg».proof.Proof.Gen.KernelIdeal.Regions

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
/-- The run, given the regions' records: as the launch's conditional frame, with the final memory also read at the two
    result arrays (the second region's first output and the third region's output) against the last valuation. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c)) :
    θ_run defs (onTc (τ := τ) (main (F := F))) ⟨m, fun _ => 0, ρ⟩ (fun r => ∀ c : Dev nD,
      r.2.mem ((c.tc : Thread nD τ).loc main_v6_0) = V6 m outs c main_v6_0
      ∧ r.2.mem ((c.tc : Thread nD τ).loc main_v8) = V6 m outs c main_v8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V6 m outs c))
    (hch := fun c => ⟨.rfl, hpre0 c, hpost0 c, hpre1 c, hpost1 c, hpre2 c, (hpost2 c).trans (sep_mono .rfl (hE3 c))⟩)
    (hinit := ?_) (QY := fun c s => s.mem ((c.tc : Thread nD τ).loc main_v6_0) = V6 m outs c main_v6_0 ∧ s.mem ((c.tc : Thread nD τ).loc main_v8) = V6 m outs c main_v8 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V6 m outs c) s') $$ [Hh HSI]
    · isplitl [Hh] <;> iassumption
    icases Hr with ⟨%h, HSI⟩
    imodintro
    isplitr
    · ipureintro
      exact ⟨h (Proc.devRef .tc main_v6_0) (Finset.mem_filter.mpr ⟨StableHlo.devRef_mem_tcRefs main_v6_0, by decide⟩),
        h (Proc.devRef .tc main_v8) (Finset.mem_filter.mpr ⟨StableHlo.devRef_mem_tcRefs main_v8, by decide⟩),
        (h (Proc.devRef .tc main_arg0) (Finset.mem_filter.mpr ⟨StableHlo.devRef_mem_tcRefs main_arg0, by decide⟩)).trans (V6_main_arg0 m outs c),
        (h (Proc.devRef .tc main_arg1) (Finset.mem_filter.mpr ⟨StableHlo.devRef_mem_tcRefs main_arg1, by decide⟩)).trans (V6_main_arg1 m outs c),
        (h (Proc.devRef .tc main_arg2) (Finset.mem_filter.mpr ⟨StableHlo.devRef_mem_tcRefs main_arg2, by decide⟩)).trans (V6_main_arg2 m outs c),
        (h (Proc.devRef .tc main_arg3) (Finset.mem_filter.mpr ⟨StableHlo.devRef_mem_tcRefs main_arg3, by decide⟩)).trans (V6_main_arg3 m outs c),
        (h (Proc.devRef .tc main_arg4) (Finset.mem_filter.mpr ⟨StableHlo.devRef_mem_tcRefs main_arg4, by decide⟩)).trans (V6_main_arg4 m outs c),
        (h (Proc.devRef .tc main_arg5) (Finset.mem_filter.mpr ⟨StableHlo.devRef_mem_tcRefs main_arg5, by decide⟩)).trans (V6_main_arg5 m outs c),
        (h (Proc.devRef .tc main_arg6) (Finset.mem_filter.mpr ⟨StableHlo.devRef_mem_tcRefs main_arg6, by decide⟩)).trans (V6_main_arg6 m outs c),
        (h (Proc.devRef .tc main_arg7) (Finset.mem_filter.mpr ⟨StableHlo.devRef_mem_tcRefs main_arg7, by decide⟩)).trans (V6_main_arg7 m outs c),
        (h (Proc.devRef .tc main_arg8) (Finset.mem_filter.mpr ⟨StableHlo.devRef_mem_tcRefs main_arg8, by decide⟩)).trans (V6_main_arg8 m outs c),
        (h (Proc.devRef .tc main_arg9) (Finset.mem_filter.mpr ⟨StableHlo.devRef_mem_tcRefs main_arg9, by decide⟩)).trans (V6_main_arg9 m outs c),
        (h (Proc.devRef .tc main_arg10) (Finset.mem_filter.mpr ⟨StableHlo.devRef_mem_tcRefs main_arg10, by decide⟩)).trans (V6_main_arg10 m outs c),
        (h (Proc.devRef .tc main_arg11) (Finset.mem_filter.mpr ⟨StableHlo.devRef_mem_tcRefs main_arg11, by decide⟩)).trans (V6_main_arg11 m outs c)⟩
    · iexact HSI

end Cert.KernelIdeal.Hand

end
-- ==== Proof.KI.Results.lean ====
/-
  The program's run with its two result arrays named: the second region's first output array ends at what that
  region's pipeline leaves in it (neither the last host stretch nor the third region writes it), and the third
  region's output array at what its pipeline leaves; the twelve argument arrays end as launched.
-/
import proofs.«180870_g50560355009132_cont_8to1c4_249_8_alg».proof.Proof.KI.Assembly
import proofs.«180870_g50560355009132_cont_8to1c4_249_8_alg».proof.Proof.KI.RunCond

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The last host stretch leaves what it does not write. -/
theorem W5_of (c : Dev nD) (b : Ref sig .tc) (h : b ∉ hostOps2_W) : Vr (W5 m) c b = Vr (W4 m) c b := by
  show W5 m c (Proc.devRef .tc b) = _; unfold W5
  exact StableHlo.after_of_writes_sub hostOps2 _ hostOps2_writes h

theorem run_results : θ_run defs (onTc (τ := τ) (main (F := F))) ⟨m, fun _ => 0, ρ⟩ (fun r => ∀ c : Dev nD,
      r.2.mem ((c.tc : Thread nD τ).loc main_v6_0) = (B1.dat1 (Vr (W3 m)) c).arrAt 8 cfg1.N
      ∧ r.2.mem ((c.tc : Thread nD τ).loc main_v8) = (dat2 (Vr (W5 m)) c).arrAt 4 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) := by
  refine (θ_run defs _ _).mono (fun r h c => ?_)
    (run_cond m emb₁ () 𝒱₀ L lv (fun _ _ => rfl) ρ (outs m) (pdats m) (fun _ => 0) (fun _ => iprop(emp))
      (initOf (Pipeline.cells cfgs cellOf_inj) (Pipeline.launchToks cfgs cellOf_inj))
      (by
        iintro Hu; imodintro
        isplitl [Hu]
        · iapply (show (ownU (initOf (Pipeline.cells cfgs cellOf_inj) (Pipeline.launchToks cfgs cellOf_inj)) : sProp 𝕄)
              ⊢ BI.own (emb₁ (initOf (Pipeline.cells cfgs cellOf_inj) (Pipeline.launchToks cfgs cellOf_inj))) from .rfl)
          iexact Hu
        iapply (show (BI.emp : sProp 𝕄) ⊢ bigSep Finset.univ (fun _ : Dev nD => (BI.emp : sProp 𝕄)) from by rw [BI.bigSep_emp_const])
        iempintro)
      (fun _ c => R c)
      (Pipeline.initEach L lv fun c => by
        iintro ⟨⟨-, HO, -, Hp, -⟩, -⟩
        imodintro
        isplitl [Hp]; · iexists _; iexact Hp
        iexists ∅; iexact HO)
      (fun c => by iintro ⟨-, HO⟩; iexact HO)
      (reg0 m) (fun c => .rfl) (fun c => by rw [V2_eq]; exact .rfl)
      (reg1 m) (fun c => by rw [V3_eq]; exact .rfl) (fun c => by rw [V4_eq]; exact .rfl)
      (reg2 m) (fun c => by rw [V5_eq]; exact .rfl) (fun c => by rw [V6_eq]; exact .rfl))
  obtain ⟨h0, h1, hargs⟩ := h c
  refine ⟨h0.trans ?_, h1.trans ?_, hargs⟩
  · rw [V6_eq]
    exact (W6_of m c main_v6_0 (by decide)).trans ((W5_of m c main_v6_0 (by decide)).trans (W4_v6_0 m c))
  · rw [V6_eq]
    exact W6_v8 m c

end Cert.KernelIdeal.Hand

end
-- ==== Proof.RefRun.lean ====
/-
  The reference program's run, read back by hand.  Its @main is a straight line of host operations: four
  layers  z = adj · (x · W) + b  (the bias a row broadcast over every row), each followed by the leaky
  rectifier  select (z ≥ 0) z (0.2 · z)  written out operation by operation at its call site, and a final
  rectifier  max (·, 0)  on the third and fourth layers' values.  Every weakly fair execution terminates with
  each result buffer at the composed term of the twelve argument arrays, and the arguments unchanged.
-/
import proofs.«180870_g50560355009132_cont_8to1c4_249_8_alg».proof.Defs
import proofs.«180870_g50560355009132_cont_8to1c4_249_8_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo
variable {F : FTy → Type} [FloatOps F]

/-- @main's fifty-eight operations in order, the calls written out at their sites: per layer the two products, the
    bias's two broadcasts, the sum, the slope, then the leaky rectifier's seven (zero, its splat, the comparison,
    the slope converted and splat, the product, the select); last the two rectifiers' three each. An operation of
    a called function reads and writes its buffers through typed references; at these literal buffers the
    transport is the identity, so each is listed as the plain operation on the buffers. -/
abbrev ops : List (HloOp τ sig (Elt F)) :=
  [ binary main_arg0 main_arg4 main_v0 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    binary main_arg3 main_v0 main_v1 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    unary main_arg8 main_v2 (broadcastInDim S1x128 ![1] bcast_S128_S1x128_1 : (⟨S128, .f32⟩ : BufTy).Contents (Elt F) → (⟨S1x128, .f32⟩ : BufTy).Contents (Elt F)),
    unary main_v2 main_v3 (broadcastInDim S10000x128 ![0, 1] bcast_S1x128_S10000x128_0_1 : (⟨S1x128, .f32⟩ : BufTy).Contents (Elt F) → (⟨S10000x128, .f32⟩ : BufTy).Contents (Elt F)),
    binary main_v1 main_v3 main_v4 (addf : (⟨S10000x128, .f32⟩ : BufTy).Contents (Elt F) → (⟨S10000x128, .f32⟩ : BufTy).Contents (Elt F) → (⟨S10000x128, .f32⟩ : BufTy).Contents (Elt F)),
    nullary main_cst (constant S_ .f32 0x3E4CCCCD#32),
    nullary main_call0_cst (constant S_ .f32 0x00000000#32),
    unary main_call0_cst main_call0_v0 (broadcastInDim S10000x128 ![] bcast_S_S10000x128 : (⟨S_, .f32⟩ : BufTy).Contents (Elt F) → (⟨S10000x128, .f32⟩ : BufTy).Contents (Elt F)),
    binary main_v4 main_call0_v0 main_call0_v1 (cmpf .oge : (⟨S10000x128, .f32⟩ : BufTy).Contents (Elt F) → (⟨S10000x128, .f32⟩ : BufTy).Contents (Elt F) → (⟨S10000x128, .i1⟩ : BufTy).Contents (Elt F)),
    unary main_cst main_call0_v2 (id : (⟨S_, .f32⟩ : BufTy).Contents (Elt F) → (⟨S_, .f32⟩ : BufTy).Contents (Elt F)),
    unary main_call0_v2 main_call0_v3 (broadcastInDim S10000x128 ![] bcast_S_S10000x128 : (⟨S_, .f32⟩ : BufTy).Contents (Elt F) → (⟨S10000x128, .f32⟩ : BufTy).Contents (Elt F)),
    binary main_call0_v3 main_v4 main_call0_v4 (mulf : (⟨S10000x128, .f32⟩ : BufTy).Contents (Elt F) → (⟨S10000x128, .f32⟩ : BufTy).Contents (Elt F) → (⟨S10000x128, .f32⟩ : BufTy).Contents (Elt F)),
    ternary main_call0_v1 main_v4 main_call0_v4 main_v5 (select : (⟨S10000x128, .i1⟩ : BufTy).Contents (Elt F) → (⟨S10000x128, .f32⟩ : BufTy).Contents (Elt F) → (⟨S10000x128, .f32⟩ : BufTy).Contents (Elt F) → (⟨S10000x128, .f32⟩ : BufTy).Contents (Elt F)),
    binary main_arg1 main_arg5 main_v6 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    binary main_arg2 main_v6 main_v7 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    unary main_arg9 main_v8 (broadcastInDim S1x128 ![1] bcast_S128_S1x128_1 : (⟨S128, .f32⟩ : BufTy).Contents (Elt F) → (⟨S1x128, .f32⟩ : BufTy).Contents (Elt F)),
    unary main_v8 main_v9 (broadcastInDim S10000x128 ![0, 1] bcast_S1x128_S10000x128_0_1 : (⟨S1x128, .f32⟩ : BufTy).Contents (Elt F) → (⟨S10000x128, .f32⟩ : BufTy).Contents (Elt F)),
    binary main_v7 main_v9 main_v10 (addf : (⟨S10000x128, .f32⟩ : BufTy).Contents (Elt F) → (⟨S10000x128, .f32⟩ : BufTy).Contents (Elt F) → (⟨S10000x128, .f32⟩ : BufTy).Contents (Elt F)),
    nullary main_cst_0 (constant S_ .f32 0x3E4CCCCD#32),
    nullary main_call1_cst (constant S_ .f32 0x00000000#32),
    unary main_call1_cst main_call1_v0 (broadcastInDim S10000x128 ![] bcast_S_S10000x128 : (⟨S_, .f32⟩ : BufTy).Contents (Elt F) → (⟨S10000x128, .f32⟩ : BufTy).Contents (Elt F)),
    binary main_v10 main_call1_v0 main_call1_v1 (cmpf .oge : (⟨S10000x128, .f32⟩ : BufTy).Contents (Elt F) → (⟨S10000x128, .f32⟩ : BufTy).Contents (Elt F) → (⟨S10000x128, .i1⟩ : BufTy).Contents (Elt F)),
    unary main_cst_0 main_call1_v2 (id : (⟨S_, .f32⟩ : BufTy).Contents (Elt F) → (⟨S_, .f32⟩ : BufTy).Contents (Elt F)),
    unary main_call1_v2 main_call1_v3 (broadcastInDim S10000x128 ![] bcast_S_S10000x128 : (⟨S_, .f32⟩ : BufTy).Contents (Elt F) → (⟨S10000x128, .f32⟩ : BufTy).Contents (Elt F)),
    binary main_call1_v3 main_v10 main_call1_v4 (mulf : (⟨S10000x128, .f32⟩ : BufTy).Contents (Elt F) → (⟨S10000x128, .f32⟩ : BufTy).Contents (Elt F) → (⟨S10000x128, .f32⟩ : BufTy).Contents (Elt F)),
    ternary main_call1_v1 main_v10 main_call1_v4 main_v11 (select : (⟨S10000x128, .i1⟩ : BufTy).Contents (Elt F) → (⟨S10000x128, .f32⟩ : BufTy).Contents (Elt F) → (⟨S10000x128, .f32⟩ : BufTy).Contents (Elt F) → (⟨S10000x128, .f32⟩ : BufTy).Contents (Elt F)),
    binary main_v5 main_arg6 main_v12 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    binary main_arg2 main_v12 main_v13 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    unary main_arg10 main_v14 (broadcastInDim S1x128 ![1] bcast_S128_S1x128_1 : (⟨S128, .f32⟩ : BufTy).Contents (Elt F) → (⟨S1x128, .f32⟩ : BufTy).Contents (Elt F)),
    unary main_v14 main_v15 (broadcastInDim S10000x128 ![0, 1] bcast_S1x128_S10000x128_0_1 : (⟨S1x128, .f32⟩ : BufTy).Contents (Elt F) → (⟨S10000x128, .f32⟩ : BufTy).Contents (Elt F)),
    binary main_v13 main_v15 main_v16 (addf : (⟨S10000x128, .f32⟩ : BufTy).Contents (Elt F) → (⟨S10000x128, .f32⟩ : BufTy).Contents (Elt F) → (⟨S10000x128, .f32⟩ : BufTy).Contents (Elt F)),
    nullary main_cst_1 (constant S_ .f32 0x3E4CCCCD#32),
    nullary main_call2_cst (constant S_ .f32 0x00000000#32),
    unary main_call2_cst main_call2_v0 (broadcastInDim S10000x128 ![] bcast_S_S10000x128 : (⟨S_, .f32⟩ : BufTy).Contents (Elt F) → (⟨S10000x128, .f32⟩ : BufTy).Contents (Elt F)),
    binary main_v16 main_call2_v0 main_call2_v1 (cmpf .oge : (⟨S10000x128, .f32⟩ : BufTy).Contents (Elt F) → (⟨S10000x128, .f32⟩ : BufTy).Contents (Elt F) → (⟨S10000x128, .i1⟩ : BufTy).Contents (Elt F)),
    unary main_cst_1 main_call2_v2 (id : (⟨S_, .f32⟩ : BufTy).Contents (Elt F) → (⟨S_, .f32⟩ : BufTy).Contents (Elt F)),
    unary main_call2_v2 main_call2_v3 (broadcastInDim S10000x128 ![] bcast_S_S10000x128 : (⟨S_, .f32⟩ : BufTy).Contents (Elt F) → (⟨S10000x128, .f32⟩ : BufTy).Contents (Elt F)),
    binary main_call2_v3 main_v16 main_call2_v4 (mulf : (⟨S10000x128, .f32⟩ : BufTy).Contents (Elt F) → (⟨S10000x128, .f32⟩ : BufTy).Contents (Elt F) → (⟨S10000x128, .f32⟩ : BufTy).Contents (Elt F)),
    ternary main_call2_v1 main_v16 main_call2_v4 main_v17 (select : (⟨S10000x128, .i1⟩ : BufTy).Contents (Elt F) → (⟨S10000x128, .f32⟩ : BufTy).Contents (Elt F) → (⟨S10000x128, .f32⟩ : BufTy).Contents (Elt F) → (⟨S10000x128, .f32⟩ : BufTy).Contents (Elt F)),
    binary main_v11 main_arg7 main_v18 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    binary main_arg3 main_v18 main_v19 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    unary main_arg11 main_v20 (broadcastInDim S1x128 ![1] bcast_S128_S1x128_1 : (⟨S128, .f32⟩ : BufTy).Contents (Elt F) → (⟨S1x128, .f32⟩ : BufTy).Contents (Elt F)),
    unary main_v20 main_v21 (broadcastInDim S10000x128 ![0, 1] bcast_S1x128_S10000x128_0_1 : (⟨S1x128, .f32⟩ : BufTy).Contents (Elt F) → (⟨S10000x128, .f32⟩ : BufTy).Contents (Elt F)),
    binary main_v19 main_v21 main_v22 (addf : (⟨S10000x128, .f32⟩ : BufTy).Contents (Elt F) → (⟨S10000x128, .f32⟩ : BufTy).Contents (Elt F) → (⟨S10000x128, .f32⟩ : BufTy).Contents (Elt F)),
    nullary main_cst_2 (constant S_ .f32 0x3E4CCCCD#32),
    nullary main_call3_cst (constant S_ .f32 0x00000000#32),
    unary main_call3_cst main_call3_v0 (broadcastInDim S10000x128 ![] bcast_S_S10000x128 : (⟨S_, .f32⟩ : BufTy).Contents (Elt F) → (⟨S10000x128, .f32⟩ : BufTy).Contents (Elt F)),
    binary main_v22 main_call3_v0 main_call3_v1 (cmpf .oge : (⟨S10000x128, .f32⟩ : BufTy).Contents (Elt F) → (⟨S10000x128, .f32⟩ : BufTy).Contents (Elt F) → (⟨S10000x128, .i1⟩ : BufTy).Contents (Elt F)),
    unary main_cst_2 main_call3_v2 (id : (⟨S_, .f32⟩ : BufTy).Contents (Elt F) → (⟨S_, .f32⟩ : BufTy).Contents (Elt F)),
    unary main_call3_v2 main_call3_v3 (broadcastInDim S10000x128 ![] bcast_S_S10000x128 : (⟨S_, .f32⟩ : BufTy).Contents (Elt F) → (⟨S10000x128, .f32⟩ : BufTy).Contents (Elt F)),
    binary main_call3_v3 main_v22 main_call3_v4 (mulf : (⟨S10000x128, .f32⟩ : BufTy).Contents (Elt F) → (⟨S10000x128, .f32⟩ : BufTy).Contents (Elt F) → (⟨S10000x128, .f32⟩ : BufTy).Contents (Elt F)),
    ternary main_call3_v1 main_v22 main_call3_v4 main_v23 (select : (⟨S10000x128, .i1⟩ : BufTy).Contents (Elt F) → (⟨S10000x128, .f32⟩ : BufTy).Contents (Elt F) → (⟨S10000x128, .f32⟩ : BufTy).Contents (Elt F) → (⟨S10000x128, .f32⟩ : BufTy).Contents (Elt F)),
    nullary main_call4_cst (constant S_ .f32 0x00000000#32),
    unary main_call4_cst main_call4_v0 (broadcastInDim S10000x128 ![] bcast_S_S10000x128 : (⟨S_, .f32⟩ : BufTy).Contents (Elt F) → (⟨S10000x128, .f32⟩ : BufTy).Contents (Elt F)),
    binary main_v17 main_call4_v0 main_v24 (maximumf : (⟨S10000x128, .f32⟩ : BufTy).Contents (Elt F) → (⟨S10000x128, .f32⟩ : BufTy).Contents (Elt F) → (⟨S10000x128, .f32⟩ : BufTy).Contents (Elt F)),
    nullary main_call5_cst (constant S_ .f32 0x00000000#32),
    unary main_call5_cst main_call5_v0 (broadcastInDim S10000x128 ![] bcast_S_S10000x128 : (⟨S_, .f32⟩ : BufTy).Contents (Elt F) → (⟨S10000x128, .f32⟩ : BufTy).Contents (Elt F)),
    binary main_v23 main_call5_v0 main_v25 (maximumf : (⟨S10000x128, .f32⟩ : BufTy).Contents (Elt F) → (⟨S10000x128, .f32⟩ : BufTy).Contents (Elt F) → (⟨S10000x128, .f32⟩ : BufTy).Contents (Elt F)) ]

set_option maxRecDepth 8192 in
set_option maxHeartbeats 1000000 in
/-- @main is that straight line: the called functions unfold at their calls and the call records at their fields,
    sequencing re-associates by computation, and a typed reference's transport at a literal buffer is the identity. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., nullary_bufs_sub .., unary_bufs_sub .., binary_bufs_sub .., nullary_bufs_sub .., unary_bufs_sub .., binary_bufs_sub ..⟩

/-- One layer at the ideal instance: `adj · (x · w)` plus the bias broadcast over the rows, then the leaky
    rectifier  select (z ≥ 0) z (slope · z)  with the slope the literal `0x3E4CCCCD`. -/
def layer (adj : FVec Ideal S10000x10000 .f32) (x : FVec Ideal S10000x128 .f32) (w : FVec Ideal S128x128 .f32)
    (b : FVec Ideal S128 .f32) : FVec Ideal S10000x128 .f32 :=
  let z : FVec Ideal S10000x128 .f32 :=
    addf (Host.dotGeneral dot_S10000x10000_S10000x128_S10000x128_1_0_0_1_n_n none adj (Host.dotGeneral dot_S10000x128_S128x128_S10000x128_1_0_0_1_n_n none x w))
      (broadcastInDim S10000x128 ![0, 1] bcast_S1x128_S10000x128_0_1 (broadcastInDim S1x128 ![1] bcast_S128_S1x128_1 b))
  select (cmpf .oge z (broadcastInDim S10000x128 ![] bcast_S_S10000x128 (constant (F := Ideal) S_ .f32 0x00000000#32))) z
    (mulf (broadcastInDim S10000x128 ![] bcast_S_S10000x128 (id (constant (F := Ideal) S_ .f32 0x3E4CCCCD#32))) z)

/-- The final rectifier: the maximum with a splat zero. -/
def relu (x : FVec Ideal S10000x128 .f32) : FVec Ideal S10000x128 .f32 :=
  maximumf x (broadcastInDim S10000x128 ![] bcast_S_S10000x128 (constant (F := Ideal) S_ .f32 0x00000000#32))

/-- The first result: the third layer (on `a2`, weights `a6`, bias `a10`) of the first layer's value, rectified. -/
def resU (a0 a1 : FVec Ideal S10000x128 .f32) (a2 a3 : FVec Ideal S10000x10000 .f32) (a4 a5 a6 a7 : FVec Ideal S128x128 .f32)
    (a8 a9 a10 a11 : FVec Ideal S128 .f32) : FVec Ideal S10000x128 .f32 :=
  relu (layer a2 (layer a3 a0 a4 a8) a6 a10)

/-- The second result: the fourth layer (on `a3`, weights `a7`, bias `a11`) of the second layer's value, rectified. -/
def resI (a0 a1 : FVec Ideal S10000x128 .f32) (a2 a3 : FVec Ideal S10000x10000 .f32) (a4 a5 a6 a7 : FVec Ideal S128x128 .f32)
    (a8 a9 a10 a11 : FVec Ideal S128 .f32) : FVec Ideal S10000x128 .f32 :=
  relu (layer a3 (layer a2 a1 a5 a9) a7 a11)

-- the fold over fifty-eight operations is unrolled once per result and argument
set_option maxRecDepth 8192 in
set_option maxHeartbeats 2000000 in
/-- On every device, from any memory with zero counters: every weakly fair execution of @main terminates with the two
    results at `resU` and `resI` of the twelve argument arrays' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v24) = resU (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v25) = resI (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c main_v24).trans (by after_results_simp; rfl),
      (h c main_v25).trans (by after_results_simp; rfl),
      (h c main_arg0).trans (by after_results_simp),
      (h c main_arg1).trans (by after_results_simp),
      (h c main_arg2).trans (by after_results_simp),
      (h c main_arg3).trans (by after_results_simp),
      (h c main_arg4).trans (by after_results_simp),
      (h c main_arg5).trans (by after_results_simp),
      (h c main_arg6).trans (by after_results_simp),
      (h c main_arg7).trans (by after_results_simp),
      (h c main_arg8).trans (by after_results_simp),
      (h c main_arg9).trans (by after_results_simp),
      (h c main_arg10).trans (by after_results_simp),
      (h c main_arg11).trans (by after_results_simp)⟩)
    (run_seq scopedRefs_eq scopedSems_eq defs main (fun _ => ops) main_eq (fun _ => ops_sub) m ρ)

end Cert.ReferenceIdeal.RefValue

end
-- ==== Proof.LibRowLayers.lean ====
/-
  Rows of two-dimensional arrays over the extended reals, and the layers of a row-wise network.

  A point-wise multilayer perceptron treats every row of its input matrix alone: a dense layer sends the row
  `h` to `j ↦ (∑ k, h k · w[k, j]) + b j`, a rectifier takes the maximum with a threshold entry by entry, a
  concatenation along the columns sets two rows side by side. This file names those three row functions
  (`dense`, `relu`, `join`) and reads, ROW BY ROW, the array operations that compute them: a matrix product
  into a zero accumulator (the device's) or with no accumulator (the host's) whose dimension numbers say
  "rows times columns" (`RowsTimesCols`), the addition of a bias row broadcast down the rows, the maximum
  with a splat constant, a slice of columns, and a concatenation of columns. Every statement is for an
  arbitrary number of rows, so one calculus serves a block of rows and the whole array alike.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.RowLayers

open Idealize.ShloMosaic Idealize.ShloMosaic.ValueIdx

/-! ## Rows, and the three row functions -/

section Rows
variable {α : Type}

/-- Row `p` of an `[a, b]` array: the function `k ↦ v[p, k]`. -/
def rowOf {a b : ℕ} (v : (⟨2, ![a, b]⟩ : Shape).Idx → α) (p : Fin a) : Fin b → α := fun k => v (ix2 p k)

theorem rowOf_apply {a b : ℕ} (v : (⟨2, ![a, b]⟩ : Shape).Idx → α) (p : Fin a) (k : Fin b) : rowOf v p k = v (ix2 p k) := rfl

/-- An array read at an index is its row at the first coordinate read at the second. -/
theorem apply_eq_rowOf {a b : ℕ} (v : (⟨2, ![a, b]⟩ : Shape).Idx → α) (i : (⟨2, ![a, b]⟩ : Shape).Idx) : v i = rowOf v (i 0) (i 1) :=
  congrArg v (eq_ix2 i)

/-- Two rows side by side: the first `A` entries are `f`'s, the next `B` are `g`'s. -/
def join {A B C : ℕ} (hC : C = A + B) (f : Fin A → α) (g : Fin B → α) : Fin C → α :=
  fun k => if h : k.val < A then f ⟨k.val, h⟩ else g ⟨k.val - A, by have := k.isLt; omega⟩

end Rows

/-- A dense layer on a row `h`: entry `j` is `(∑ k, h k · w[k, j]) + b j`. -/
def dense {K J : ℕ} (h : Fin K → EReal) (w : (⟨2, ![K, J]⟩ : Shape).Idx → EReal) (b : Fin J → EReal) : Fin J → EReal :=
  fun j => (∑ k : Fin K, h k * w (ix2 k j)) + b j

/-- The rectifier with threshold `z`, entry by entry: `max (f j) z`. -/
def relu {J : ℕ} (z : EReal) (f : Fin J → EReal) : Fin J → EReal := fun j => max (f j) z

/-! ## A matrix product whose dimension numbers say "rows times columns" -/

section Contraction
variable {a K b : ℕ} (d : DotDims ⟨2, ![a, K]⟩ ⟨2, ![K, b]⟩ ⟨2, ![a, b]⟩)

/-- The dimension numbers of an `[a, K] × [K, b] → [a, b]` product contract ONE axis, of extent `K`, and read the
    left operand at (output row, contracted position) and the right one at (contracted position, output column). -/
structure RowsTimesCols : Prop where
  rank : d.contr.rank = 1
  size : d.contr.size ⟨0, by omega⟩ = K
  lhs0 : ∀ (j : (⟨2, ![a, b]⟩ : Shape).Idx) (q : d.contr.Idx), (d.lhsIdx j q 0).val = (j 0).val
  lhs1 : ∀ (j : (⟨2, ![a, b]⟩ : Shape).Idx) (q : d.contr.Idx), (d.lhsIdx j q 1).val = (q ⟨0, by omega⟩).val
  rhs0 : ∀ (j : (⟨2, ![a, b]⟩ : Shape).Idx) (q : d.contr.Idx), (d.rhsIdx j q 0).val = (q ⟨0, by omega⟩).val
  rhs1 : ∀ (j : (⟨2, ![a, b]⟩ : Shape).Idx) (q : d.contr.Idx), (d.rhsIdx j q 1).val = (j 1).val

variable {d}

/-- The sum over the contraction's index set, re-indexed by the contracted position `k < K`: entry `(p, q)` of the
    product is `∑ k, lhs[p, k] · rhs[k, q]`. -/
theorem RowsTimesCols.sum_eq (H : RowsTimesCols d) (lhs : (⟨2, ![a, K]⟩ : Shape).Idx → EReal) (rhs : (⟨2, ![K, b]⟩ : Shape).Idx → EReal)
    (p : Fin a) (q : Fin b) :
    (∑ k : d.contr.Idx, lhs (d.lhsIdx (ix2 p q) k) * rhs (d.rhsIdx (ix2 p q) k)) = ∑ k : Fin K, lhs (ix2 p k) * rhs (ix2 k q) := by
  rw [← Equiv.sum_comp (contrEquiv1 d K H.rank H.size).symm]
  refine Finset.sum_congr rfl fun k _ => ?_
  have hk := contrEquiv1_symm_val d K H.rank H.size k
  have el : d.lhsIdx (ix2 p q) ((contrEquiv1 d K H.rank H.size).symm k) = ix2 p k := funext fun ax => Fin.ext (by
    match ax with
    | ⟨0, _⟩ => exact H.lhs0 _ _
    | ⟨1, _⟩ => exact (H.lhs1 _ _).trans hk)
  have er : d.rhsIdx (ix2 p q) ((contrEquiv1 d K H.rank H.size).symm k) = ix2 k q := funext fun ax => Fin.ext (by
    match ax with
    | ⟨0, _⟩ => exact (H.rhs0 _ _).trans hk
    | ⟨1, _⟩ => exact H.rhs1 _ _)
  rw [el, er]

/-- Row `p` of the device's product into a zero accumulator. -/
theorem rowOf_matmul_zero {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (matmul d prec lhs rhs (constant (F := Ideal) ⟨2, ![a, b]⟩ .f32 0x00000000#32)) p
      = fun j => ∑ k : Fin K, rowOf lhs p k * rhs (ix2 k j) := by
  funext j
  show FloatOps.matmul d prec lhs rhs (constant (F := Ideal) ⟨2, ![a, b]⟩ .f32 0x00000000#32) (ix2 p j) = _
  rw [Ideal.matmul_constant_zero_apply]
  exact H.sum_eq lhs rhs p j

/-- Row `p` of the host's product. -/
theorem rowOf_dotGeneral {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (Host.dotGeneral (F := Ideal) d prec lhs rhs) p = fun j => ∑ k : Fin K, rowOf lhs p k * rhs (ix2 k j) := by
  funext j
  show FloatOps.dotGeneral d prec .single lhs rhs (ix2 p j) = _
  rw [Ideal.dotGeneral_apply]
  exact H.sum_eq lhs rhs p j

end Contraction

/-! ## The other operations, read on a row -/

section Ops
variable {a b : ℕ} {φ : FTy}

/-- A sum of arrays, on a row. -/
theorem rowOf_addf (x y : FVec Ideal ⟨2, ![a, b]⟩ φ) (p : Fin a) : rowOf (addf x y) p = fun j => rowOf x p j + rowOf y p j := rfl

/-- A change of float format does nothing to an extended real. -/
theorem rowOf_truncf {ψ : FTy} (x : FVec Ideal ⟨2, ![a, b]⟩ φ) (h : ψ.bits < φ.bits) (p : Fin a) :
    rowOf (truncf ψ x h : FVec Ideal ⟨2, ![a, b]⟩ ψ) p = rowOf x p := rfl

/-- The maximum with a splat scalar is the rectifier at that scalar. -/
theorem rowOf_maximumf_splat (x : FVec Ideal ⟨2, ![a, b]⟩ φ) (z : Ideal φ) (p : Fin a) :
    rowOf (maximumf x (broadcast ⟨2, ![a, b]⟩ z)) p = relu z (rowOf x p) := rfl

/-- The maximum with a rank-0 constant broadcast over the array is the rectifier at that constant. -/
theorem rowOf_maximumf_const {s : Shape} (x : FVec Ideal ⟨2, ![a, b]⟩ φ) (w : BitVec φ.bits) (dims : Fin s.rank → Fin 2)
    (h : s.BroadcastsInDim ⟨2, ![a, b]⟩ dims) (p : Fin a) :
    rowOf (maximumf x (broadcastInDim ⟨2, ![a, b]⟩ dims h (constant (F := Ideal) s φ w))) p = relu (Ideal.ofBits φ w) (rowOf x p) := rfl

/-- One row broadcast down `a` rows: every row is that row. -/
theorem rowOf_broadcastTo {α : Type} (v : (⟨2, ![1, b]⟩ : Shape).Idx → α) (h : (⟨2, ![1, b]⟩ : Shape).Broadcasts ⟨2, ![a, b]⟩) (p : Fin a) :
    rowOf (broadcastTo ⟨2, ![a, b]⟩ v h) p = rowOf v 0 :=
  funext fun c => broadcastTo_1b_ab_apply v h p c

/-- The host's form of the same: a `[b]` vector first given a unit leading axis, then broadcast down `a` rows. -/
theorem rowOf_broadcastInDim_vec {α : Type} (x : (⟨1, ![b]⟩ : Shape).Idx → α)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (broadcastInDim ⟨2, ![a, b]⟩ ![0, 1] h2 (broadcastInDim ⟨2, ![1, b]⟩ ![1] h1 x)) p = fun j => x (ix1 j) := by
  funext c
  show broadcastInDim ⟨2, ![a, b]⟩ ![0, 1] h2 (broadcastInDim ⟨2, ![1, b]⟩ ![1] h1 x) (ix2 p c) = x (ix1 c)
  rw [broadcastInDim_apply ![0, 1] h2 _ (ix2 p c) (ix2 (0 : Fin 1) c) (fun ax => by
        match ax with
        | ⟨0, _⟩ => show (0 : ℕ) = if (1 : ℕ) = 1 then 0 else p.val; rw [if_pos rfl]
        | ⟨1, _⟩ => show c.val = if b = 1 then 0 else c.val; split <;> [(have := c.isLt; omega); rfl]),
      broadcastInDim_apply ![1] h1 x (ix2 (0 : Fin 1) c) (ix1 c) (fun ax => by
        match ax with
        | ⟨0, _⟩ => show c.val = if b = 1 then 0 else c.val; split <;> [(have := c.isLt; omega); rfl])]

/-- A window of `m` columns from column `o`: the row's entries from `o` on. -/
theorem rowOf_slice_cols {α : Type} {n m : ℕ} (o : ℕ) (X : (⟨2, ![a, n]⟩ : Shape).Idx → α)
    (h : (⟨2, ![a, n]⟩ : Shape).Slices ![0, o] ⟨2, ![a, m]⟩) (p : Fin a) :
    rowOf (extractStridedSlice ⟨2, ![a, m]⟩ ![0, o] X h) p
      = fun j => rowOf X p ⟨o + j.val, Nat.lt_of_lt_of_le (Nat.add_lt_add_left j.isLt o) (h.2 1)⟩ :=
  funext fun j => slice2_axis1_eq o X h p j

/-- Two arrays concatenated along the columns: each row is the two rows side by side. -/
theorem rowOf_concat_cols {α : Type} {A B C : ℕ} (x : (⟨2, ![a, A]⟩ : Shape).Idx → α) (y : (⟨2, ![a, B]⟩ : Shape).Idx → α)
    (h : Shape.Concatenates [(⟨2, ![a, A]⟩ : Shape), ⟨2, ![a, B]⟩] ⟨2, ![a, C]⟩ 1) (hC : C = A + B) (p : Fin a) :
    rowOf (concatenate ⟨2, ![a, C]⟩ 1 [⟨⟨2, ![a, A]⟩, x⟩, ⟨⟨2, ![a, B]⟩, y⟩] h) p = join hC (rowOf x p) (rowOf y p) := by
  funext k
  show concatenate ⟨2, ![a, C]⟩ 1 [⟨⟨2, ![a, A]⟩, x⟩, ⟨⟨2, ![a, B]⟩, y⟩] h (ix2 p k) = _
  unfold join
  by_cases hk : k.val < A
  · rw [dif_pos hk]
    exact concatenate_pair_apply_left 1 x y h (ix2 p k) rfl (ix2 p ⟨k.val, hk⟩) (fun ax => by
      match ax with
      | ⟨0, _⟩ => rfl
      | ⟨1, _⟩ => rfl)
  · rw [dif_neg hk]
    have hk' : A ≤ k.val := Nat.le_of_not_lt hk
    exact concatenate_pair_apply_right 1 x y h (ix2 p k) rfl rfl (ix2 p ⟨k.val - A, by have := k.isLt; omega⟩)
      (fun ax hne => by
        match ax with
        | ⟨0, _⟩ => rfl
        | ⟨1, _⟩ => exact absurd rfl hne)
      (by show k.val - A + A = k.val; omega)

end Ops

/-! ## A dense layer as each program prints it -/

section Dense
variable {a K b : ℕ} {d : DotDims ⟨2, ![a, K]⟩ ⟨2, ![K, b]⟩ ⟨2, ![a, b]⟩} {φ₁ φ₂ : FTy}

/-- The device's dense layer — a product into a zero accumulator plus a `[1, b]` bias row broadcast down the rows —
    sends row `p` of the input to `dense` of it. -/
theorem rowOf_dense_device (H : RowsTimesCols d) (prec : Option ContractPrecision)
    (h : FVec Ideal ⟨2, ![a, K]⟩ φ₁) (w : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (matmul d prec h w (constant (F := Ideal) ⟨2, ![a, b]⟩ .f32 0x00000000#32)) (broadcastTo ⟨2, ![a, b]⟩ bias hB)) p
      = dense (rowOf h p) w (rowOf bias 0) := by
  rw [rowOf_addf, rowOf_matmul_zero H, rowOf_broadcastTo]
  rfl

/-- The host's dense layer — a product plus a `[b]` bias vector given a unit leading axis and broadcast down the
    rows — sends row `p` of the input to `dense` of it. -/
theorem rowOf_dense_host (H : RowsTimesCols d) (prec : Option ContractPrecision)
    (h : FVec Ideal ⟨2, ![a, K]⟩ φ₁) (w : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (Host.dotGeneral (F := Ideal) d prec h w) (broadcastInDim ⟨2, ![a, b]⟩ ![0, 1] h2 (broadcastInDim ⟨2, ![1, b]⟩ ![1] h1 bias))) p
      = dense (rowOf h p) w (fun j => bias (ix1 j)) := by
  rw [rowOf_addf, rowOf_dotGeneral H, rowOf_broadcastInDim_vec]
  rfl

end Dense

end Cert.RowLayers

end
-- ==== Proof.LibMatProd.lean ====
/-
  The product of two matrices over the extended reals, entry by entry, and the one law this certificate rests on.

  `prod x w` is the `[a, b]` array whose entry `(p, q)` is `∑ k, x[p, k] · w[k, q]`. Three array programs
  compute it: a matrix product into a zero accumulator whose operands first change float format (a change of
  format is the identity on extended reals), a host `dot_general` with no accumulator, and — the law — a window
  of columns cut out of the product with two weight matrices set side by side:

      (x · [w₁ | w₂])[:, 0:A]   = x · w₁        (x · [w₁ | w₂])[:, A:A+B] = x · w₂ ,

  because entry `(k, q)` of `[w₁ | w₂]` is `w₁[k, q]` for `q < A` and `w₂[k, q - A]` beyond. Each sum is the
  same sum term by term, so nothing is asked of the entries: infinities are welcome.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«180870_g50560355009132_cont_8to1c4_249_8_alg».proof.Proof.LibRowLayers

noncomputable section

namespace Cert.MatProd

open Idealize.ShloMosaic Idealize.ShloMosaic.ValueIdx Cert.RowLayers

/-- The matrix product entry by entry: `(x · w)[p, q] = ∑ k, x[p, k] · w[k, q]`. -/
def prod {a K b : ℕ} (x : (⟨2, ![a, K]⟩ : Shape).Idx → EReal) (w : (⟨2, ![K, b]⟩ : Shape).Idx → EReal) :
    (⟨2, ![a, b]⟩ : Shape).Idx → EReal :=
  fun i => ∑ k : Fin K, rowOf x (i 0) k * w (ix2 k (i 1))

theorem prod_apply {a K b : ℕ} (x : (⟨2, ![a, K]⟩ : Shape).Idx → EReal) (w : (⟨2, ![K, b]⟩ : Shape).Idx → EReal)
    (p : Fin a) (q : Fin b) : prod x w (ix2 p q) = ∑ k : Fin K, x (ix2 p k) * w (ix2 k q) := rfl

/-! ## The programs that compute it -/

section Programs
variable {a K b : ℕ} {d : DotDims ⟨2, ![a, K]⟩ ⟨2, ![K, b]⟩ ⟨2, ![a, b]⟩} {φ₁ φ₂ : FTy}

/-- The host's product with "rows times columns" dimension numbers is `prod`. -/
theorem dotGeneral_eq_prod (H : RowsTimesCols d) (prec : Option ContractPrecision)
    (x : FVec Ideal ⟨2, ![a, K]⟩ φ₁) (w : FVec Ideal ⟨2, ![K, b]⟩ φ₂) :
    Host.dotGeneral (F := Ideal) d prec x w = prod x w := by
  funext i
  obtain ⟨p, q, rfl⟩ : ∃ (p : Fin a) (q : Fin b), i = ix2 p q := ⟨i 0, i 1, eq_ix2 i⟩
  exact congrFun (rowOf_dotGeneral H prec x w p) q

/-- The device's product into a zero accumulator is `prod`. -/
theorem matmul_zero_eq_prod (H : RowsTimesCols d) (prec : Option ContractPrecision)
    (x : FVec Ideal ⟨2, ![a, K]⟩ φ₁) (w : FVec Ideal ⟨2, ![K, b]⟩ φ₂) :
    matmul d prec x w (constant (F := Ideal) ⟨2, ![a, b]⟩ .f32 0x00000000#32) = prod x w := by
  funext i
  obtain ⟨p, q, rfl⟩ : ∃ (p : Fin a) (q : Fin b), i = ix2 p q := ⟨i 0, i 1, eq_ix2 i⟩
  exact congrFun (rowOf_matmul_zero H prec x w p) q

end Programs

/-! ## A block of rows -/

/-- Entry `(r, q)` of a product reads row `r` of the left factor only: if `x₀` holds the rows of `x` from `r₀` on,
    then `x₀ · w` at `(p, q)` is `x · w` at `(r₀ + p, q)`. -/
theorem prod_of_row_block {a₀ a K b : ℕ} (x : (⟨2, ![a, K]⟩ : Shape).Idx → EReal) (w : (⟨2, ![K, b]⟩ : Shape).Idx → EReal)
    (x₀ : (⟨2, ![a₀, K]⟩ : Shape).Idx → EReal) (r₀ : ℕ)
    (hx₀ : ∀ (y : (⟨2, ![a₀, K]⟩ : Shape).Idx) (z : (⟨2, ![a, K]⟩ : Shape).Idx),
      (z 0).val = r₀ + (y 0).val → (z 1).val = (y 1).val → x₀ y = x z)
    (j : (⟨2, ![a₀, b]⟩ : Shape).Idx) (i : (⟨2, ![a, b]⟩ : Shape).Idx)
    (hi0 : (i 0).val = r₀ + (j 0).val) (hi1 : (i 1).val = (j 1).val) :
    prod x₀ w j = prod x w i := by
  unfold prod
  refine Finset.sum_congr rfl fun k _ => ?_
  have e0 : rowOf x₀ (j 0) k = rowOf x (i 0) k := hx₀ (ix2 (j 0) k) (ix2 (i 0) k) hi0 rfl
  have e1 : (ix2 k (j 1) : (⟨2, ![K, b]⟩ : Shape).Idx) = ix2 k (i 1) := congrArg (ix2 k) (Fin.ext hi1.symm)
  exact congrArg₂ (· * ·) e0 (congrArg w e1)

/-! ## Two weight matrices side by side -/

section SideBySide
variable {K A B C : ℕ}

/-- Left of the seam the joined matrix is the first one. -/
theorem concat_cols_left (w₁ : (⟨2, ![K, A]⟩ : Shape).Idx → EReal) (w₂ : (⟨2, ![K, B]⟩ : Shape).Idx → EReal)
    (hc : Shape.Concatenates [(⟨2, ![K, A]⟩ : Shape), ⟨2, ![K, B]⟩] ⟨2, ![K, C]⟩ 1) (hC : C = A + B)
    (k : Fin K) (j : Fin C) (hj : j.val < A) :
    concatenate ⟨2, ![K, C]⟩ 1 [⟨⟨2, ![K, A]⟩, w₁⟩, ⟨⟨2, ![K, B]⟩, w₂⟩] hc (ix2 k j) = w₁ (ix2 k ⟨j.val, hj⟩) :=
  (congrFun (rowOf_concat_cols w₁ w₂ hc hC k) j).trans (dif_pos hj)

/-- From the seam on it is the second one. -/
theorem concat_cols_right (w₁ : (⟨2, ![K, A]⟩ : Shape).Idx → EReal) (w₂ : (⟨2, ![K, B]⟩ : Shape).Idx → EReal)
    (hc : Shape.Concatenates [(⟨2, ![K, A]⟩ : Shape), ⟨2, ![K, B]⟩] ⟨2, ![K, C]⟩ 1) (hC : C = A + B)
    (k : Fin K) (j : Fin C) (hj : ¬ j.val < A) :
    concatenate ⟨2, ![K, C]⟩ 1 [⟨⟨2, ![K, A]⟩, w₁⟩, ⟨⟨2, ![K, B]⟩, w₂⟩] hc (ix2 k j)
      = w₂ (ix2 k ⟨j.val - A, by have := j.isLt; omega⟩) :=
  (congrFun (rowOf_concat_cols w₁ w₂ hc hC k) j).trans (dif_neg hj)

variable {a : ℕ}

/-- THE LAW, left half: the first `A` columns of `x · [w₁ | w₂]` are `x · w₁`. -/
theorem slice_prod_concat_left (x : (⟨2, ![a, K]⟩ : Shape).Idx → EReal)
    (w₁ : (⟨2, ![K, A]⟩ : Shape).Idx → EReal) (w₂ : (⟨2, ![K, B]⟩ : Shape).Idx → EReal)
    (hc : Shape.Concatenates [(⟨2, ![K, A]⟩ : Shape), ⟨2, ![K, B]⟩] ⟨2, ![K, C]⟩ 1) (hC : C = A + B)
    (hs : (⟨2, ![a, C]⟩ : Shape).Slices ![0, 0] ⟨2, ![a, A]⟩) :
    extractStridedSlice ⟨2, ![a, A]⟩ ![0, 0]
        (prod x (concatenate ⟨2, ![K, C]⟩ 1 [⟨⟨2, ![K, A]⟩, w₁⟩, ⟨⟨2, ![K, B]⟩, w₂⟩] hc)) hs
      = prod x w₁ := by
  funext i
  obtain ⟨p, q, rfl⟩ : ∃ (p : Fin a) (q : Fin A), i = ix2 p q := ⟨i 0, i 1, eq_ix2 i⟩
  rw [slice2_axis1_eq]
  refine Finset.sum_congr rfl fun k _ => congrArg (rowOf x p k * ·) ?_
  refine (concat_cols_left w₁ w₂ hc hC k _ (by show 0 + q.val < A; have := q.isLt; omega)).trans ?_
  exact congrArg (fun z => w₁ (ix2 k z)) (Fin.ext (Nat.zero_add q.val))

/-- THE LAW, right half: the next `B` columns of `x · [w₁ | w₂]` are `x · w₂`. -/
theorem slice_prod_concat_right (x : (⟨2, ![a, K]⟩ : Shape).Idx → EReal)
    (w₁ : (⟨2, ![K, A]⟩ : Shape).Idx → EReal) (w₂ : (⟨2, ![K, B]⟩ : Shape).Idx → EReal)
    (hc : Shape.Concatenates [(⟨2, ![K, A]⟩ : Shape), ⟨2, ![K, B]⟩] ⟨2, ![K, C]⟩ 1) (hC : C = A + B)
    (hs : (⟨2, ![a, C]⟩ : Shape).Slices ![0, A] ⟨2, ![a, B]⟩) :
    extractStridedSlice ⟨2, ![a, B]⟩ ![0, A]
        (prod x (concatenate ⟨2, ![K, C]⟩ 1 [⟨⟨2, ![K, A]⟩, w₁⟩, ⟨⟨2, ![K, B]⟩, w₂⟩] hc)) hs
      = prod x w₂ := by
  funext i
  obtain ⟨p, q, rfl⟩ : ∃ (p : Fin a) (q : Fin B), i = ix2 p q := ⟨i 0, i 1, eq_ix2 i⟩
  rw [slice2_axis1_eq]
  refine Finset.sum_congr rfl fun k _ => congrArg (rowOf x p k * ·) ?_
  refine (concat_cols_right w₁ w₂ hc hC k _ (by show ¬ A + q.val < A; omega)).trans ?_
  exact congrArg (fun z => w₂ (ix2 k z)) (Fin.ext (by show A + q.val - A = q.val; omega))

end SideBySide

end Cert.MatProd

end
-- ==== Proof.Spec.lean ====
/-
  What both programs compute, stated once over the extended reals.

  Four dense layers over two adjacency matrices.  A layer's pre-activation is  adj · (x · w) + b , the bias a row
  added to every row, the products associated exactly so.  The first two layers end in the leaky rectifier
  z ↦ z  for  0 ≤ z ,  slope · z  otherwise; the last two end in  z ↦ max z 0 .  The results are

      G_U = rect (a2 · (leaky (a3 · (a0 · a4) + a8) · a6) + a10)
      G_I = rect (a3 · (leaky (a2 · (a1 · a5) + a9) · a7) + a11) .

  Two laws of the extended reals let differently written programs meet here, neither asking any entry to be
  finite: the leaky rectifier written with a strict comparison and the product the other way round is the same
  function (at zero both give zero; multiplication commutes), and a rectifier after a leaky rectifier is the
  rectifier alone (for  z < 0  the positive slope keeps  slope · z ≤ 0 ; at  ⊥  the product is  ⊥ ).
-/
import Idealize.ShloMosaic.PureOps.Ideal
import Idealize.ShloMosaic.PureOps.Ideal.Laws
import Idealize.ShloMosaic.Lib.ValueIdx
import proofs.«180870_g50560355009132_cont_8to1c4_249_8_alg».proof.Proof.LibRowLayers
import proofs.«180870_g50560355009132_cont_8to1c4_249_8_alg».proof.Proof.LibMatProd

noncomputable section

namespace Cert.Spec

open Idealize.ShloMosaic Idealize.ShloMosaic.ValueIdx Cert.RowLayers Cert.MatProd

/-! ## The leaky rectifier -/

/-- The slope: the extended real the binary32 pattern `0x3E4CCCCD` denotes. -/
def slope : EReal := Ideal.ofBits .f32 0x3E4CCCCD#32

/-- The slope is a positive real number. -/
theorem slope_pos_real : ∃ r : ℝ, 0 < r ∧ slope = (r : EReal) := by
  refine ⟨((2 ^ 23 + 5033165 : ℕ) : ℝ) * (2 : ℝ) ^ (-26 : ℤ), by positivity, ?_⟩
  unfold slope
  simp [Ideal.ofBits, Ideal.ieee]

theorem slope_pos : 0 < slope := by
  obtain ⟨r, hr, h⟩ := slope_pos_real
  rw [h]; exact_mod_cast hr

/-- The leaky rectifier:  z  for  0 ≤ z ,  slope · z  otherwise. -/
def leaky (z : EReal) : EReal := if 0 ≤ z then z else slope * z

/-- The same with a strict comparison and the product the other way round. -/
def leakyGT (z : EReal) : EReal := if 0 < z then z else z * slope

/-- The two spellings are one function on every extended real. -/
theorem leakyGT_eq_leaky (z : EReal) : leakyGT z = leaky z := by
  unfold leakyGT leaky
  rcases lt_trichotomy 0 z with h | h | h
  · rw [if_pos h, if_pos h.le]
  · subst h; rw [if_neg (lt_irrefl _), if_pos le_rfl, zero_mul]
  · rw [if_neg (not_lt.mpr h.le), if_neg (not_le.mpr h), mul_comm]

/-- A negative argument stays non-positive under the leaky rectifier. -/
theorem leaky_nonpos_of_neg {z : EReal} (h : z < 0) : leaky z ≤ 0 := by
  unfold leaky
  rw [if_neg (not_le.mpr h)]
  exact EReal.mul_nonpos_iff.mpr (Or.inl ⟨slope_pos.le, h.le⟩)

/-- The rectifier after the leaky rectifier is the rectifier alone, on every extended real. -/
theorem max_leaky_zero (z : EReal) : max (leaky z) 0 = max z 0 := by
  by_cases h : 0 ≤ z
  · unfold leaky; rw [if_pos h]
  · have hz : z < 0 := not_le.mp h
    rw [max_eq_right (leaky_nonpos_of_neg hz), max_eq_right hz.le]

/-! ## The layers -/

section Layers
variable {a n K f : ℕ}

/-- A layer's pre-activation:  adj · (x · w)  plus the bias row `b` on every row. -/
def pre (adj : (⟨2, ![a, n]⟩ : Shape).Idx → EReal) (x : (⟨2, ![n, K]⟩ : Shape).Idx → EReal)
    (w : (⟨2, ![K, f]⟩ : Shape).Idx → EReal) (b : (⟨1, ![f]⟩ : Shape).Idx → EReal) : (⟨2, ![a, f]⟩ : Shape).Idx → EReal :=
  fun i => prod adj (prod x w) i + b (ix1 (i 1))

theorem pre_apply (adj : (⟨2, ![a, n]⟩ : Shape).Idx → EReal) (x : (⟨2, ![n, K]⟩ : Shape).Idx → EReal)
    (w : (⟨2, ![K, f]⟩ : Shape).Idx → EReal) (b : (⟨1, ![f]⟩ : Shape).Idx → EReal) (p : Fin a) (q : Fin f) :
    pre adj x w b (ix2 p q) = prod adj (prod x w) (ix2 p q) + b (ix1 q) := rfl

/-- A layer ending in the leaky rectifier. -/
def layerL (adj : (⟨2, ![a, n]⟩ : Shape).Idx → EReal) (x : (⟨2, ![n, K]⟩ : Shape).Idx → EReal)
    (w : (⟨2, ![K, f]⟩ : Shape).Idx → EReal) (b : (⟨1, ![f]⟩ : Shape).Idx → EReal) : (⟨2, ![a, f]⟩ : Shape).Idx → EReal :=
  fun i => leaky (pre adj x w b i)

/-- A layer ending in the rectifier. -/
def layerR (adj : (⟨2, ![a, n]⟩ : Shape).Idx → EReal) (x : (⟨2, ![n, K]⟩ : Shape).Idx → EReal)
    (w : (⟨2, ![K, f]⟩ : Shape).Idx → EReal) (b : (⟨1, ![f]⟩ : Shape).Idx → EReal) : (⟨2, ![a, f]⟩ : Shape).Idx → EReal :=
  fun i => max (pre adj x w b i) 0

/-- The leaky layer in the strict spelling. -/
theorem layerL_eq_GT (adj : (⟨2, ![a, n]⟩ : Shape).Idx → EReal) (x : (⟨2, ![n, K]⟩ : Shape).Idx → EReal)
    (w : (⟨2, ![K, f]⟩ : Shape).Idx → EReal) (b : (⟨1, ![f]⟩ : Shape).Idx → EReal) :
    layerL adj x w b = fun i => leakyGT (pre adj x w b i) :=
  funext fun i => (leakyGT_eq_leaky _).symm

/-- The rectifier layer, written as the rectifier after the leaky rectifier. -/
theorem layerR_eq_max_leaky (adj : (⟨2, ![a, n]⟩ : Shape).Idx → EReal) (x : (⟨2, ![n, K]⟩ : Shape).Idx → EReal)
    (w : (⟨2, ![K, f]⟩ : Shape).Idx → EReal) (b : (⟨1, ![f]⟩ : Shape).Idx → EReal) :
    layerR adj x w b = fun i => max (leaky (pre adj x w b i)) 0 :=
  funext fun i => (max_leaky_zero _).symm

end Layers

/-! ## The two results -/

/-- The first result. -/
def G_U (a0 a1 : (⟨2, ![10000, 128]⟩ : Shape).Idx → EReal) (a2 a3 : (⟨2, ![10000, 10000]⟩ : Shape).Idx → EReal)
    (a4 a5 a6 a7 : (⟨2, ![128, 128]⟩ : Shape).Idx → EReal) (a8 a9 a10 a11 : (⟨1, ![128]⟩ : Shape).Idx → EReal) :
    (⟨2, ![10000, 128]⟩ : Shape).Idx → EReal :=
  layerR a2 (layerL a3 a0 a4 a8) a6 a10

/-- The second result. -/
def G_I (a0 a1 : (⟨2, ![10000, 128]⟩ : Shape).Idx → EReal) (a2 a3 : (⟨2, ![10000, 10000]⟩ : Shape).Idx → EReal)
    (a4 a5 a6 a7 : (⟨2, ![128, 128]⟩ : Shape).Idx → EReal) (a8 a9 a10 a11 : (⟨1, ![128]⟩ : Shape).Idx → EReal) :
    (⟨2, ![10000, 128]⟩ : Shape).Idx → EReal :=
  layerR a3 (layerL a2 a1 a5 a9) a7 a11

end Cert.Spec

end
-- ==== Proof.RefIsSpec.lean ====
/-
  The reference's two results are the specification's.

  Each host product whose dimension numbers say "rows times columns" is the matrix product entry by entry; the bias
  given a unit leading axis and broadcast down the rows adds  b[q]  at entry  (p, q) ; so a layer's pre-activation is
  the specification's  adj · (x · w) + b , with the same association.  The comparison  z ≥ 0  against a splat zero,
  the select and the product with the splat slope are the leaky rectifier entry by entry, and the maximum with a
  splat zero after it is the rectifier alone.
-/
import proofs.«180870_g50560355009132_cont_8to1c4_249_8_alg».proof.Proof.RefRun
import proofs.«180870_g50560355009132_cont_8to1c4_249_8_alg».proof.Proof.Spec

noncomputable section

namespace Cert.ReferenceIdeal.RefValue

open Cert.ReferenceIdeal Cert.ReferenceIdeal.Gen Idealize.ShloMosaic Idealize.ShloMosaic.ValueIdx Cert.RowLayers Cert.MatProd

/-- The feature product's dimension numbers say rows times columns. -/
theorem rtc_feat : RowsTimesCols (a := 10000) (K := 128) (b := 128) dot_S10000x128_S128x128_S10000x128_1_0_0_1_n_n :=
  ⟨rfl, rfl, fun _ _ => rfl, fun _ _ => rfl, fun _ _ => rfl, fun _ _ => rfl⟩

/-- The adjacency product's dimension numbers say rows times columns. -/
theorem rtc_adj : RowsTimesCols (a := 10000) (K := 10000) (b := 128) dot_S10000x10000_S10000x128_S10000x128_1_0_0_1_n_n :=
  ⟨rfl, rfl, fun _ _ => rfl, fun _ _ => rfl, fun _ _ => rfl, fun _ _ => rfl⟩

/-- Selecting on the bit of the comparison  z ≥ 0  is selecting on the proposition  0 ≤ z . -/
theorem select_oge (z t e : EReal) : Scalar.select (Ideal.cmp .oge z 0) t e = if 0 ≤ z then t else e := by
  unfold Scalar.select Ideal.cmp
  by_cases h : (0 : EReal) ≤ z <;> simp [h]

/-- A layer's pre-activation as the program writes it is the specification's. -/
theorem pre_eq (adj : FVec Ideal S10000x10000 .f32) (x : FVec Ideal S10000x128 .f32) (w : FVec Ideal S128x128 .f32)
    (b : FVec Ideal S128 .f32) :
    addf (Host.dotGeneral dot_S10000x10000_S10000x128_S10000x128_1_0_0_1_n_n none adj (Host.dotGeneral dot_S10000x128_S128x128_S10000x128_1_0_0_1_n_n none x w))
        (broadcastInDim S10000x128 ![0, 1] bcast_S1x128_S10000x128_0_1 (broadcastInDim S1x128 ![1] bcast_S128_S1x128_1 b))
      = Cert.Spec.pre adj x w b := by
  rw [dotGeneral_eq_prod rtc_feat, dotGeneral_eq_prod rtc_adj]
  funext i
  obtain ⟨p, q, rfl⟩ : ∃ (p : Fin 10000) (q : Fin 128), i = ix2 p q := ⟨i 0, i 1, eq_ix2 i⟩
  rw [Cert.Spec.pre_apply]
  exact congrArg (prod adj (prod x w) (ix2 p q) + ·)
    (congrFun (rowOf_broadcastInDim_vec b bcast_S128_S1x128_1 bcast_S1x128_S10000x128_0_1 p) q)

/-- The comparison against a splat zero, the select and the product with the splat slope: the leaky rectifier at
    every entry. -/
theorem leaky_array (Z : FVec Ideal S10000x128 .f32) (i : S10000x128.Idx) :
    select (cmpf .oge Z (broadcastInDim S10000x128 ![] bcast_S_S10000x128 (constant (F := Ideal) S_ .f32 0x00000000#32))) Z
        (mulf (broadcastInDim S10000x128 ![] bcast_S_S10000x128 (id (constant (F := Ideal) S_ .f32 0x3E4CCCCD#32))) Z) i
      = Cert.Spec.leaky (Z i) := by
  show Scalar.select (Ideal.cmp .oge (Z i) (Ideal.ofBits .f32 0x00000000#32)) (Z i) (Ideal.ofBits .f32 0x3E4CCCCD#32 * Z i) = _
  rw [Ideal.ofBits_zero_f32, select_oge]
  rfl

/-- The maximum with a splat zero: the rectifier at every entry. -/
theorem relu_array (Z : FVec Ideal S10000x128 .f32) (i : S10000x128.Idx) : relu Z i = max (Z i) 0 := by
  show max (Z i) (Ideal.ofBits .f32 0x00000000#32) = _
  rw [Ideal.ofBits_zero_f32]

/-- A layer of the program is the specification's leaky layer. -/
theorem layer_eq (adj : FVec Ideal S10000x10000 .f32) (x : FVec Ideal S10000x128 .f32) (w : FVec Ideal S128x128 .f32)
    (b : FVec Ideal S128 .f32) : layer adj x w b = Cert.Spec.layerL adj x w b := by
  have hz := pre_eq adj x w b
  funext i
  unfold layer
  simp only [hz]
  exact leaky_array _ i

/-- The rectifier after a layer of the program is the specification's rectifier layer. -/
theorem relu_layer_eq (adj : FVec Ideal S10000x10000 .f32) (x : FVec Ideal S10000x128 .f32) (w : FVec Ideal S128x128 .f32)
    (b : FVec Ideal S128 .f32) : relu (layer adj x w b) = Cert.Spec.layerR adj x w b := by
  rw [layer_eq]
  funext i
  rw [relu_array]
  exact Cert.Spec.max_leaky_zero _

theorem resU_eq_G_U (a0 a1 : FVec Ideal S10000x128 .f32) (a2 a3 : FVec Ideal S10000x10000 .f32) (a4 a5 a6 a7 : FVec Ideal S128x128 .f32)
    (a8 a9 a10 a11 : FVec Ideal S128 .f32) :
    resU a0 a1 a2 a3 a4 a5 a6 a7 a8 a9 a10 a11 = Cert.Spec.G_U a0 a1 a2 a3 a4 a5 a6 a7 a8 a9 a10 a11 := by
  unfold resU Cert.Spec.G_U
  rw [layer_eq a3 a0 a4 a8]
  exact relu_layer_eq a2 _ a6 a10

theorem resI_eq_G_I (a0 a1 : FVec Ideal S10000x128 .f32) (a2 a3 : FVec Ideal S10000x10000 .f32) (a4 a5 a6 a7 : FVec Ideal S128x128 .f32)
    (a8 a9 a10 a11 : FVec Ideal S128 .f32) :
    resI a0 a1 a2 a3 a4 a5 a6 a7 a8 a9 a10 a11 = Cert.Spec.G_I a0 a1 a2 a3 a4 a5 a6 a7 a8 a9 a10 a11 := by
  unfold resI Cert.Spec.G_I
  rw [layer_eq a2 a1 a5 a9]
  exact relu_layer_eq a3 _ a7 a11

end Cert.ReferenceIdeal.RefValue

end
-- ==== Proof.KI.Compose.lean ====
/-
  The kernel program's two results are the specification's.

  Between the three regions the host only changes representation: two weight matrices change float format (the
  identity on extended reals) and each bias vector gets a unit leading axis (row 0 of the [1, 128] array is the
  vector).  No item writes an argument array.  So, given what each region leaves in its output arrays as a function
  of the arrays it reads —

      region 0 :  x2  = leaky (a3 · (a0 · a4) + a8) · a6
      region 1 :  x4a = rect (a2 · x2 + a10) ,   x4b = leaky (a2 · (a1 · a5) + a9) · a7
      region 2 :  x6  = rect (a3 · x4b + a11)

  — the first result is  G_U  and the second  G_I  of the twelve argument arrays, the products associated as written.
-/
import proofs.«180870_g50560355009132_cont_8to1c4_249_8_alg».proof.Proof.Gen.KernelIdeal.Regions
import proofs.«180870_g50560355009132_cont_8to1c4_249_8_alg».proof.Proof.Spec
import Idealize.ShloMosaic.Lib.StableHlo.Run
import Idealize.ShloMosaic.Lib.ValueLayout

noncomputable section

namespace Cert.KernelIdeal.Hand.Comp

open Cert.KernelIdeal Cert.KernelIdeal.Gen
open Idealize.ShloMosaic Idealize.ShloMosaic.TcCoe Idealize.ShloMosaic.ValueIdx Idealize.ShloMosaic.StableHlo
open Cert.MatProd
open Cert.Spec (leakyGT leaky)

/-! ## A layer written with a [1, f] bias row -/

section Generic
variable {a n K f : ℕ}

/-- The leaky layer in the strict spelling, the bias read from row 0 of a [1, f] array whose row is `b`. -/
theorem layerL_of (adj : (⟨2, ![a, n]⟩ : Shape).Idx → EReal) (x : (⟨2, ![n, K]⟩ : Shape).Idx → EReal)
    (w : (⟨2, ![K, f]⟩ : Shape).Idx → EReal) (B : (⟨2, ![1, f]⟩ : Shape).Idx → EReal) (b : (⟨1, ![f]⟩ : Shape).Idx → EReal)
    (hB : ∀ q : Fin f, B (ix2 0 q) = b (ix1 q)) :
    (fun i : (⟨2, ![a, f]⟩ : Shape).Idx => leakyGT (prod adj (prod x w) i + B (ix2 0 (i 1)))) = Cert.Spec.layerL adj x w b :=
  funext fun i =>
    (congrArg (fun t => leakyGT (prod adj (prod x w) i + t)) (hB (i 1))).trans (Cert.Spec.leakyGT_eq_leaky _)

/-- The rectifier layer, the bias read from row 0 of a [1, f] array whose row is `b`. -/
theorem layerR_of (adj : (⟨2, ![a, n]⟩ : Shape).Idx → EReal) (x : (⟨2, ![n, K]⟩ : Shape).Idx → EReal)
    (w : (⟨2, ![K, f]⟩ : Shape).Idx → EReal) (B : (⟨2, ![1, f]⟩ : Shape).Idx → EReal) (b : (⟨1, ![f]⟩ : Shape).Idx → EReal)
    (hB : ∀ q : Fin f, B (ix2 0 q) = b (ix1 q)) :
    (fun i : (⟨2, ![a, f]⟩ : Shape).Idx => max (prod adj (prod x w) i + B (ix2 0 (i 1))) 0) = Cert.Spec.layerR adj x w b :=
  funext fun i => congrArg (fun t => max (prod adj (prod x w) i + t) 0) (hB (i 1))

end Generic

variable (m : (ℓ : Loc nD τ sig) → Buf (Elt Ideal) ℓ) (outs : Outs (F := Ideal)) (c : Dev nD)

/-! ## The host stretches, read at a reference -/

/-- No item writes an argument array. -/
theorem V1_arg0 : (V1 m c main_arg0 : S10000x128.Idx → EReal) = m ((c : Thread nD τ).loc main_arg0) :=
  (V1_of m c main_arg0 (by decide)).trans <| rfl
theorem V1_arg3 : (V1 m c main_arg3 : S10000x10000.Idx → EReal) = m ((c : Thread nD τ).loc main_arg3) :=
  (V1_of m c main_arg3 (by decide)).trans <| rfl
theorem V1_arg4 : (V1 m c main_arg4 : S128x128.Idx → EReal) = m ((c : Thread nD τ).loc main_arg4) :=
  (V1_of m c main_arg4 (by decide)).trans <| rfl
theorem V3_arg1 : (V3 m outs c main_arg1 : S10000x128.Idx → EReal) = m ((c : Thread nD τ).loc main_arg1) :=
  (V3_of m outs c main_arg1 (by decide)).trans <| (V2_of m outs c main_arg1 (by decide)).trans <| (V1_of m c main_arg1 (by decide)).trans <| rfl
theorem V3_arg2 : (V3 m outs c main_arg2 : S10000x10000.Idx → EReal) = m ((c : Thread nD τ).loc main_arg2) :=
  (V3_of m outs c main_arg2 (by decide)).trans <| (V2_of m outs c main_arg2 (by decide)).trans <| (V1_of m c main_arg2 (by decide)).trans <| rfl
theorem V3_arg5 : (V3 m outs c main_arg5 : S128x128.Idx → EReal) = m ((c : Thread nD τ).loc main_arg5) :=
  (V3_of m outs c main_arg5 (by decide)).trans <| (V2_of m outs c main_arg5 (by decide)).trans <| (V1_of m c main_arg5 (by decide)).trans <| rfl
theorem V5_arg3 : (V5 m outs c main_arg3 : S10000x10000.Idx → EReal) = m ((c : Thread nD τ).loc main_arg3) :=
  (V5_of m outs c main_arg3 (by decide)).trans <| (V4_of m outs c main_arg3 (by decide)).trans <| (V3_of m outs c main_arg3 (by decide)).trans <| (V2_of m outs c main_arg3 (by decide)).trans <| (V1_of m c main_arg3 (by decide)).trans <| rfl

/-- The first weight's change of format is the identity. -/
theorem V1_v0 : (V1 m c main_v0 : S128x128.Idx → EReal) = m ((c : Thread nD τ).loc main_arg6) := by
  dsimp only [V1, V0, hostOps0]
  after_results
  rfl

/-- The second weight's change of format is the identity; the next stretch and the first region do not write it. -/
theorem V3_v1 : (V3 m outs c main_v1 : S128x128.Idx → EReal) = m ((c : Thread nD τ).loc main_arg7) := by
  refine (V3_of m outs c main_v1 (by decide)).trans <| (V2_of m outs c main_v1 (by decide)).trans ?_
  dsimp only [V1, V0, hostOps0]
  after_results
  rfl

/-- Row 0 of the first bias's [1, 128] form is the bias. -/
theorem V1_v2 (q : Fin 128) : (V1 m c main_v2 : S1x128.Idx → EReal) (ix2 0 q) = m ((c : Thread nD τ).loc main_arg8) (ix1 q) := by
  dsimp only [V1, V0, hostOps0]
  after_results
  exact shapeCast_a_1a_apply _ _ 0 q

/-- The second stretch gives the second bias a unit leading axis: row 0 is the vector. -/
theorem row_v4 (W : Valuation τ sig (Elt Ideal)) (q : Fin 128) :
    (after (hostOps1 (F := Ideal)) W main_v4 : S1x128.Idx → EReal) (ix2 0 q) = (W main_arg9 : S128.Idx → EReal) (ix1 q) := by
  after_results
  exact shapeCast_a_1a_apply _ _ 0 q

/-- The second stretch gives the third bias a unit leading axis: row 0 is the vector. -/
theorem row_v5 (W : Valuation τ sig (Elt Ideal)) (q : Fin 128) :
    (after (hostOps1 (F := Ideal)) W main_v5 : S1x128.Idx → EReal) (ix2 0 q) = (W main_arg10 : S128.Idx → EReal) (ix1 q) := by
  after_results
  exact shapeCast_a_1a_apply _ _ 0 q

/-- The third stretch gives the fourth bias a unit leading axis: row 0 is the vector. -/
theorem row_v7 (W : Valuation τ sig (Elt Ideal)) (q : Fin 128) :
    (after (hostOps2 (F := Ideal)) W main_v7 : S1x128.Idx → EReal) (ix2 0 q) = (W main_arg11 : S128.Idx → EReal) (ix1 q) := by
  after_results
  exact shapeCast_a_1a_apply _ _ 0 q

/-- Row 0 of the second bias's [1, 128] form is the bias. -/
theorem V3_v4 (q : Fin 128) : (V3 m outs c main_v4 : S1x128.Idx → EReal) (ix2 0 q) = m ((c : Thread nD τ).loc main_arg9) (ix1 q) :=
  (row_v4 (V2 m outs c) q).trans <| congrFun ((V2_of m outs c main_arg9 (by decide)).trans <| (V1_of m c main_arg9 (by decide)).trans rfl) (ix1 q)

/-- Row 0 of the third bias's [1, 128] form is the bias. -/
theorem V3_v5 (q : Fin 128) : (V3 m outs c main_v5 : S1x128.Idx → EReal) (ix2 0 q) = m ((c : Thread nD τ).loc main_arg10) (ix1 q) :=
  (row_v5 (V2 m outs c) q).trans <| congrFun ((V2_of m outs c main_arg10 (by decide)).trans <| (V1_of m c main_arg10 (by decide)).trans rfl) (ix1 q)

/-- Row 0 of the fourth bias's [1, 128] form is the bias. -/
theorem V5_v7 (q : Fin 128) : (V5 m outs c main_v7 : S1x128.Idx → EReal) (ix2 0 q) = m ((c : Thread nD τ).loc main_arg11) (ix1 q) :=
  (row_v7 (V4 m outs c) q).trans <| congrFun ((V4_of m outs c main_arg11 (by decide)).trans <| (V3_of m outs c main_arg11 (by decide)).trans <|
    (V2_of m outs c main_arg11 (by decide)).trans <| (V1_of m c main_arg11 (by decide)).trans rfl) (ix1 q)

/-- The second stretch leaves the first region's output where it is. -/
theorem V3_v3 : (V3 m outs c main_v3 : S10000x128.Idx → EReal) = outs 2 main_v3 c :=
  (V3_of m outs c main_v3 (by decide)).trans (Function.update_self ..)

/-- The third stretch leaves the second region's second output where it is. -/
theorem V5_v6_1 : (V5 m outs c main_v6_1 : S10000x128.Idx → EReal) = outs 4 main_v6_1 c :=
  (V5_of m outs c main_v6_1 (by decide)).trans (Function.update_self ..)

/-! ## The results read back at the end -/

/-- The third stretch and the third region do not write the second region's first output. -/
theorem V6_v6_0 : (V6 m outs c main_v6_0 : S10000x128.Idx → EReal) = outs 4 main_v6_0 c :=
  (V6_of m outs c main_v6_0 (by decide)).trans <| (V5_of m outs c main_v6_0 (by decide)).trans <|
    (Function.update_of_ne (devRef_ne_of_ne (by decide : main_v6_0 ≠ main_v6_1)) ..).trans (Function.update_self ..)

theorem V6_v8 : (V6 m outs c main_v8 : S10000x128.Idx → EReal) = outs 6 main_v8 c :=
  Function.update_self ..

/-! ## The composition -/

/-- The first result, from what regions 0 and 1 leave. -/
theorem resultU
    (h0 : (outs 2 main_v3 c : S10000x128.Idx → EReal)
        = prod (fun i : S10000x128.Idx => leakyGT (prod (V1 m c main_arg3 : S10000x10000.Idx → EReal) (prod (V1 m c main_arg0 : S10000x128.Idx → EReal) (V1 m c main_arg4 : S128x128.Idx → EReal)) i
            + (V1 m c main_v2 : S1x128.Idx → EReal) (ix2 0 (i 1)))) (V1 m c main_v0 : S128x128.Idx → EReal))
    (h1a : (outs 4 main_v6_0 c : S10000x128.Idx → EReal)
        = fun i : S10000x128.Idx => max (prod (V3 m outs c main_arg2 : S10000x10000.Idx → EReal) (V3 m outs c main_v3 : S10000x128.Idx → EReal) i
            + (V3 m outs c main_v5 : S1x128.Idx → EReal) (ix2 0 (i 1))) 0) :
    (outs 4 main_v6_0 c : S10000x128.Idx → EReal) = Cert.Spec.G_U (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [layerL_of _ _ _ _ _ (V1_v2 m c), V1_arg3, V1_arg0, V1_arg4, V1_v0] at h0
  rw [V3_arg2, V3_v3, h0] at h1a
  rw [h1a]
  exact layerR_of _ _ _ _ _ (V3_v5 m outs c)

/-- The second result, from what regions 1 and 2 leave. -/
theorem resultI
    (h1b : (outs 4 main_v6_1 c : S10000x128.Idx → EReal)
        = prod (fun i : S10000x128.Idx => leakyGT (prod (V3 m outs c main_arg2 : S10000x10000.Idx → EReal) (prod (V3 m outs c main_arg1 : S10000x128.Idx → EReal) (V3 m outs c main_arg5 : S128x128.Idx → EReal)) i
            + (V3 m outs c main_v4 : S1x128.Idx → EReal) (ix2 0 (i 1)))) (V3 m outs c main_v1 : S128x128.Idx → EReal))
    (h2 : (outs 6 main_v8 c : S10000x128.Idx → EReal)
        = fun i : S10000x128.Idx => max (prod (V5 m outs c main_arg3 : S10000x10000.Idx → EReal) (V5 m outs c main_v6_1 : S10000x128.Idx → EReal) i
            + (V5 m outs c main_v7 : S1x128.Idx → EReal) (ix2 0 (i 1))) 0) :
    (outs 6 main_v8 c : S10000x128.Idx → EReal) = Cert.Spec.G_I (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [layerL_of _ _ _ _ _ (V3_v4 m outs c), V3_arg2, V3_arg1, V3_arg5, V3_v1] at h1b
  rw [V5_arg3, V5_v6_1, h1b] at h2
  rw [h2]
  exact layerR_of _ _ _ _ _ (V5_v7 m outs c)

end Cert.KernelIdeal.Hand.Comp

end
-- ==== Proof.KI.Value0.lean ====
/-
  The value of the first kernel region over the extended reals.

  At the first grid point the body fills its carried buffer with the features times the first weight (the rounding to
  a shorter float format is the identity on extended reals). At every point each of the two 200-row halves of the
  adjacency tile gives 200 rows of   leaky (adj · carried + bias row) · second weight ,   the leaky rectifier written as a
  select on  z > 0  between  z  and  z · slope . A product's entry (p, q) reads row p of its left factor only, so a
  block of rows of the left factor gives the same block of rows of the product: the point's 400 output rows are rows
  400 t … 400 t + 399 of ONE whole-array function of the arrays the region is entered with, and the 25 blocks tile
  the result array.
-/
import proofs.«180870_g50560355009132_cont_8to1c4_249_8_alg».proof.Proof.KI.Region0
import proofs.«180870_g50560355009132_cont_8to1c4_249_8_alg».proof.Proof.LibMatProd
import proofs.«180870_g50560355009132_cont_8to1c4_249_8_alg».proof.Proof.Spec
import Idealize.ShloMosaic.Lib.Pipeline.Value
import Idealize.ShloMosaic.Lib.Tactic

set_option maxRecDepth 16384

noncomputable section

namespace Cert.KernelIdeal.Hand.V0

open Cert.KernelIdeal Cert.KernelIdeal.Gen
open Idealize.ShloMosaic Idealize.ShloMosaic.TcCoe Idealize.ShloMosaic.ValueIdx Idealize.SL.Sem
open Idealize.ShloMosaic.Pipeline (Dat)
open Cert.RowLayers Cert.MatProd

/-! ## The three products' dimension numbers -/

theorem hz : (![0, 0] : Fin 2 → Nat) = fun _ => 0 := funext fun a => by fin_cases a <;> rfl

/-- The feature product's dimension numbers say rows times columns. -/
theorem rtc_feat : RowsTimesCols (a := 10000) (K := 128) (b := 128) dot_S10000x128_S128x128_S10000x128_1_0_0_1_n_n :=
  ⟨rfl, rfl, fun _ _ => rfl, fun _ _ => rfl, fun _ _ => rfl, fun _ _ => rfl⟩

/-- The half tile's product with the carried buffer. -/
theorem rtc_adj : RowsTimesCols (a := 200) (K := 10000) (b := 128) dot_S200x10000_S10000x128_S200x128_1_0_0_1_n_n :=
  ⟨rfl, rfl, fun _ _ => rfl, fun _ _ => rfl, fun _ _ => rfl, fun _ _ => rfl⟩

/-- The product with the second weight. -/
theorem rtc_out : RowsTimesCols (a := 200) (K := 128) (b := 128) dot_S200x128_S128x128_S200x128_1_0_0_1_n_n :=
  ⟨rfl, rfl, fun _ _ => rfl, fun _ _ => rfl, fun _ _ => rfl, fun _ _ => rfl⟩

/-! ## The payloads over the extended reals -/

/-- Selecting on the bit of the comparison  z > 0  is selecting on the proposition  0 < z . -/
theorem select_ogt (z t e : EReal) : Scalar.select (Ideal.cmp .ogt z 0) t e = if 0 < z then t else e := by
  unfold Scalar.select Ideal.cmp
  by_cases h : (0 : EReal) < z <;> simp [h]

/-- A half tile's pre-activation: its 200 adjacency rows times the carried matrix, plus the bias row. -/
def preH (a : S200x10000.Idx → EReal) (s : S10000x128.Idx → EReal) (b : S1x128.Idx → EReal) : S200x128.Idx → EReal :=
  fun i => prod a s i + b (ix2 0 (i 1))

/-- What a half tile stores: the leaky rectifier of the pre-activation, times the second weight. -/
def half (a : S200x10000.Idx → EReal) (s : S10000x128.Idx → EReal) (b : S1x128.Idx → EReal) (w : S128x128.Idx → EReal) :
    S200x128.Idx → EReal :=
  prod (fun i => Cert.Spec.leakyGT (preH a s b i)) w

/-- The carried buffer's payload is the product of the features with the first weight. -/
theorem pay2_eq (x3 : Vec Ideal S10000x128 .f32) (x4 : Vec Ideal S128x128 .f32) : k0_pay2 (F := Ideal) x3 x4 = prod x3 x4 := by
  unfold k0_pay2
  exact (shapeCast_self _ _).trans (matmul_zero_eq_prod (φ₁ := .f32) (φ₂ := .f32) rtc_feat none x3 x4)

/-- The pre-activation payload at an entry. -/
theorem pay4_eq (a : Vec Ideal S200x10000 .f32) (s : Vec Ideal S10000x128 .bf16) (b : Vec Ideal S1x128 .f32) :
    k0_pay4 (F := Ideal) a s b = preH a s b := by
  funext i
  obtain ⟨p, q, rfl⟩ : ∃ (p : Fin 200) (q : Fin 128), i = ix2 p q := ⟨i 0, i 1, eq_ix2 i⟩
  unfold k0_pay4
  have e : shapeCast S1x128 b shapeCasts_S1x128_S1x128 = b := shapeCast_self _ _
  exact (congrFun (rowOf_dense_device rtc_adj none (truncf .bf16 a bitsLt_bf16_f32) s (shapeCast S1x128 b shapeCasts_S1x128_S1x128) broadcasts_S1x128_S200x128 p) q).trans
    (congrArg (fun (b' : Vec Ideal S1x128 .f32) => prod a s (ix2 p q) + b' (ix2 0 q)) e)

/-- The leaky rectifier as the body writes it — the select on  z > 0  against a splat zero between  z  and  z  times the
    splat slope —, then the product with the second weight. -/
theorem pay1_eq (z : FVec Ideal S200x128 .f32) (w : Vec Ideal S128x128 .bf16) :
    k0_pay1 (F := Ideal) z (cmpf .ogt z (broadcast S200x128 (Scalar.ofBits (F := Ideal) .f32 0x00000000#32))) (Scalar.ofBits (F := Ideal) .f32 0x3E4CCCCD#32) w
      = prod (fun i => Cert.Spec.leakyGT (z i)) w := by
  unfold k0_pay1
  have e : shapeCast S128x128 w shapeCasts_S128x128_S128x128 = w := shapeCast_self _ _
  have hl : (select (cmpf .ogt z (broadcast S200x128 (Scalar.ofBits (F := Ideal) .f32 0x00000000#32))) z
      (mulf z (broadcast S200x128 (Scalar.ofBits (F := Ideal) .f32 0x3E4CCCCD#32))) : FVec Ideal S200x128 .f32)
      = fun i => Cert.Spec.leakyGT (z i) := by
    funext i
    show Scalar.select (Ideal.cmp .ogt (z i) (Ideal.ofBits .f32 0x00000000#32)) (z i) (z i * Ideal.ofBits .f32 0x3E4CCCCD#32) = _
    rw [Ideal.ofBits_zero_f32, select_ogt]
    rfl
  exact (matmul_zero_eq_prod rtc_out none _ _).trans (congrArg₂ prod hl e)

/-- The bottom half's payload. -/
theorem bot_eq (a : Vec Ideal S200x10000 .f32) (s : Vec Ideal S10000x128 .bf16) (b : Vec Ideal S1x128 .f32) (w : Vec Ideal S128x128 .bf16) :
    k0_pay1 (F := Ideal) (k0_pay4 a s b) (k0_pay5 a s b) (Scalar.ofBits (F := Ideal) .f32 0x3E4CCCCD#32) w = half a s b w := by
  unfold k0_pay5
  refine (pay1_eq (k0_pay4 (F := Ideal) a s b) w).trans ?_
  unfold half
  rw [pay4_eq]

/-- The top half's payload is the same function of its own adjacency rows. -/
theorem top_eq (a : Vec Ideal S200x10000 .f32) (s : Vec Ideal S10000x128 .bf16) (b : Vec Ideal S1x128 .f32) (w : Vec Ideal S128x128 .bf16) :
    k0_pay3 (F := Ideal) a s b w = half a s b w := by
  have h4 := pay4_eq a s b
  have h1 := bot_eq a s b w
  unfold k0_pay1 k0_pay5 k0_pay4 at h1
  unfold k0_pay3
  exact h1

/-! ## The body's two closed forms over the extended reals -/

/-- The carried buffer after the first point: the product of the features with the first weight. -/
theorem scr0_eq (x3 : Vec Ideal S10000x128 .f32) (x4 : Vec Ideal S128x128 .f32) : B0.scr0 (F := Ideal) x3 x4 = prod x3 x4 := by
  unfold B0.scr0
  rw [View.canon_unit_zero hz]
  simp only [View.ld_unit_zero (S := S10000x128) hz, View.ld_unit_zero (S := S128x128) hz]
  exact pay2_eq x3 x4

/-- The output block: the two half tiles' stores, the bottom one last. -/
theorem out0_eq (x1 x2 : Vec Ideal S200x10000 .f32) (s : Vec Ideal S10000x128 .bf16) (x5 : Vec Ideal S128x128 .bf16) (x6 : Vec Ideal S1x128 .f32) :
    B0.out0 (F := Ideal) x1 x2 s x5 x6
      = View.canon [(⟨B0.rBot, half x2 s x6 x5⟩ : View.Piece (Elt Ideal) S400x128 .bf16), ⟨B0.rTop, half x1 s x6 x5⟩] := by
  unfold B0.out0
  simp only [View.ld_unit_zero (S := S200x10000) hz, View.ld_unit_zero (S := S10000x128) hz, View.ld_unit_zero (S := S1x128) hz,
    View.ld_unit_zero (S := S128x128) hz]
  rw [bot_eq, top_eq]

/-! ## A block of 400 rows of the whole result -/

/-- The whole result: the leaky layer of the adjacency over the carried matrix, times the second weight. -/
def whole (A : S10000x10000.Idx → EReal) (Sm : S10000x128.Idx → EReal) (B : S1x128.Idx → EReal) (W : S128x128.Idx → EReal) :
    S10000x128.Idx → EReal :=
  prod (fun i : S10000x128.Idx => Cert.Spec.leakyGT (prod A Sm i + B (ix2 0 (i 1)))) W

/-- A half tile whose 200 adjacency rows are rows `r₀ …` of the adjacency stores rows `r₀ …` of the whole result. -/
theorem half_eq_whole (A : S10000x10000.Idx → EReal) (Sm : S10000x128.Idx → EReal) (B : S1x128.Idx → EReal) (W : S128x128.Idx → EReal)
    (a : S200x10000.Idx → EReal) (r₀ : ℕ)
    (ha : ∀ (y : S200x10000.Idx) (z : S10000x10000.Idx), (z 0).val = r₀ + (y 0).val → (z 1).val = (y 1).val → a y = A z)
    (x : S200x128.Idx) (i : S10000x128.Idx) (hi0 : (i 0).val = r₀ + (x 0).val) (hi1 : (i 1).val = (x 1).val) :
    half a Sm B W x = whole A Sm B W i := by
  unfold half whole
  refine prod_of_row_block (a₀ := 200) (a := 10000) (K := 128) (b := 128) _ W _ r₀ (fun y z hz0 hz1 => ?_) x i hi0 hi1
  refine congrArg Cert.Spec.leakyGT ?_
  unfold preH
  exact congrArg₂ (· + ·) (prod_of_row_block (a₀ := 200) (a := 10000) (K := 10000) (b := 128) A Sm a r₀ ha y z hz0 hz1)
    (congrArg B (congrArg (ix2 (0 : Fin 1)) (Fin.ext hz1.symm)))

/-- The output block at a point whose two half tiles are rows `r …` and `r + 200 …` of the adjacency is rows `r …` of the
    whole result. -/
theorem block_eq (A : S10000x10000.Idx → EReal) (Sm : S10000x128.Idx → EReal) (B : S1x128.Idx → EReal) (W : S128x128.Idx → EReal)
    (x1 x2 : S200x10000.Idx → EReal) (s : S10000x128.Idx → EReal) (x5 : S128x128.Idx → EReal) (x6 : S1x128.Idx → EReal)
    (hs : s = Sm) (h5 : x5 = W) (h6 : x6 = B) (r : ℕ) (hr : r + 400 ≤ 10000)
    (h1 : ∀ (y : S200x10000.Idx) (z : S10000x10000.Idx), (z 0).val = r + (y 0).val → (z 1).val = (y 1).val → x1 y = A z)
    (h2 : ∀ (y : S200x10000.Idx) (z : S10000x10000.Idx), (z 0).val = r + 200 + (y 0).val → (z 1).val = (y 1).val → x2 y = A z)
    (j : S400x128.Idx) (i : S10000x128.Idx) (hi0 : (i 0).val = r + (j 0).val) (hi1 : (i 1).val = (j 1).val) :
    B0.out0 (F := Ideal) x1 x2 s x5 x6 j = whole A Sm B W i := by
  subst hs h5 h6
  rw [out0_eq]
  have key := View.canon_apply_of_pieces (Val := Elt Ideal)
    (fun y : S400x128.Idx => whole A s x6 x5 (ix2 ⟨r + (y 0).val, by have h : (y 0).val < 400 := (y 0).isLt; omega⟩ (y 1)))
    [(⟨B0.rBot, half x2 s x6 x5⟩ : View.Piece (Elt Ideal) S400x128 .bf16), ⟨B0.rTop, half x1 s x6 x5⟩]
    (fun p hp => by
      rcases List.mem_cons.mp hp with rfl | hp
      · intro x
        refine half_eq_whole A s x6 x5 x2 (r + 200) h2 x _ ?_ ?_
        · show r + (200 + 1 * (x 0).val) = r + 200 + (x 0).val; omega
        · show 0 + 1 * (x 1).val = (x 1).val; omega
      · rcases List.mem_singleton.mp hp with rfl
        intro x
        refine half_eq_whole A s x6 x5 x1 r h1 x _ ?_ ?_
        · show r + (0 + 1 * (x 0).val) = r + (x 0).val; omega
        · show 0 + 1 * (x 1).val = (x 1).val; omega)
    j (B0.cover_out0 _ _ j)
  refine key.trans (congrArg (whole A s x6 x5) (funext fun a => Fin.ext ?_))
  match a with
  | ⟨0, _⟩ => exact hi0.symm
  | ⟨1, _⟩ => exact hi1.symm

/-! ## The region: each window's block, what a point writes back, the whole array -/

section Region

variable (V : (c : Dev nD) → (b : Ref sig .tc) → Buf (Elt Ideal) ((c : Thread nD τ).loc b))

/-- The printed index maps over the grid: the adjacency's two windows at the even and the odd 200-row block, the whole
    arrays at block 0, the output at the point's own 400-row block. -/
theorem idx_facts : ∀ t : Fin cfg0.N,
    win0_0.index t (0 : Fin 2) = 2 * t.val ∧ win0_0.index t (1 : Fin 2) = 0
    ∧ win0_1.index t (0 : Fin 2) = 2 * t.val + 1 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Window 0's block at point `t` is rows `400 t …` of the adjacency. -/
theorem iblk0_0_apply (c : Dev nD) (t : Fin cfg0.N) (y : S200x10000.Idx) (z : S10000x10000.Idx)
    (hz0 : (z 0).val = 400 * t.val + (y 0).val) (hz1 : (z 1).val = (y 1).val) :
    (B0.iblk0 V c 0 t : Vec Ideal S200x10000 .f32) y = (V c main_arg3 : S10000x10000.Idx → EReal) z := by
  obtain ⟨e0, e1, -⟩ := idx_facts t
  unfold B0.iblk0
  rw [View.read_apply]
  refine congrArg (V c main_arg3 : S10000x10000.Idx → EReal) (funext fun a => Fin.ext ?_)
  match a with
  | ⟨0, _⟩ => show win0_0.index t (0 : Fin 2) * 200 + 1 * (y 0).val = (z 0).val; rw [e0, hz0]; omega
  | ⟨1, _⟩ => show win0_0.index t (1 : Fin 2) * 10000 + 1 * (y 1).val = (z 1).val; rw [e1, hz1]; omega

/-- Window 1's block at point `t` is rows `400 t + 200 …` of the adjacency. -/
theorem iblk0_1_apply (c : Dev nD) (t : Fin cfg0.N) (y : S200x10000.Idx) (z : S10000x10000.Idx)
    (hz0 : (z 0).val = 400 * t.val + 200 + (y 0).val) (hz1 : (z 1).val = (y 1).val) :
    (B0.iblk0 V c 1 t : Vec Ideal S200x10000 .f32) y = (V c main_arg3 : S10000x10000.Idx → EReal) z := by
  obtain ⟨-, -, e0, e1, -⟩ := idx_facts t
  unfold B0.iblk0
  rw [View.read_apply]
  refine congrArg (V c main_arg3 : S10000x10000.Idx → EReal) (funext fun a => Fin.ext ?_)
  match a with
  | ⟨0, _⟩ => show win0_1.index t (0 : Fin 2) * 200 + 1 * (y 0).val = (z 0).val; rw [e0, hz0]; omega
  | ⟨1, _⟩ => show win0_1.index t (1 : Fin 2) * 10000 + 1 * (y 1).val = (z 1).val; rw [e1, hz1]; omega

/-- The features' one block is the whole array. -/
theorem iblk0_2_eq (c : Dev nD) (t : Fin cfg0.N) : (B0.iblk0 V c 2 t : Vec Ideal S10000x128 .f32) = (V c main_arg0 : S10000x128.Idx → EReal) := by
  obtain ⟨-, -, -, -, e0, e1, -⟩ := idx_facts t
  funext y
  unfold B0.iblk0
  rw [View.read_apply]
  refine congrArg (V c main_arg0 : S10000x128.Idx → EReal) (funext fun a => Fin.ext ?_)
  match a with
  | ⟨0, _⟩ => show win0_2.index t (0 : Fin 2) * 10000 + 1 * (y 0).val = (y 0).val; rw [e0]; omega
  | ⟨1, _⟩ => show win0_2.index t (1 : Fin 2) * 128 + 1 * (y 1).val = (y 1).val; rw [e1]; omega

/-- The first weight's one block is the whole array. -/
theorem iblk0_3_eq (c : Dev nD) (t : Fin cfg0.N) : (B0.iblk0 V c 3 t : Vec Ideal S128x128 .f32) = (V c main_arg4 : S128x128.Idx → EReal) := by
  obtain ⟨-, -, -, -, -, -, e0, e1, -⟩ := idx_facts t
  funext y
  unfold B0.iblk0
  rw [View.read_apply]
  refine congrArg (V c main_arg4 : S128x128.Idx → EReal) (funext fun a => Fin.ext ?_)
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- The second weight's one block is the whole array. -/
theorem iblk0_4_eq (c : Dev nD) (t : Fin cfg0.N) : (B0.iblk0 V c 4 t : Vec Ideal S128x128 .bf16) = (V c main_v0 : S128x128.Idx → EReal) := by
  obtain ⟨-, -, -, -, -, -, -, -, e0, e1, -⟩ := idx_facts t
  funext y
  unfold B0.iblk0
  rw [View.read_apply]
  refine congrArg (V c main_v0 : S128x128.Idx → EReal) (funext fun a => Fin.ext ?_)
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

/-- The bias row's one block is the whole array. -/
theorem iblk0_5_eq (c : Dev nD) (t : Fin cfg0.N) : (B0.iblk0 V c 5 t : Vec Ideal S1x128 .f32) = (V c main_v2 : S1x128.Idx → EReal) := by
  obtain ⟨-, -, -, -, -, -, -, -, -, -, e0, e1, -⟩ := idx_facts t
  funext y
  unfold B0.iblk0
  rw [View.read_apply]
  refine congrArg (V c main_v2 : S1x128.Idx → EReal) (funext fun a => Fin.ext ?_)
  match a with
  | ⟨0, _⟩ => show win0_5.index t (0 : Fin 2) * 1 + 1 * (y 0).val = (y 0).val; rw [e0]; omega
  | ⟨1, _⟩ => show win0_5.index t (1 : Fin 2) * 128 + 1 * (y 1).val = (y 1).val; rw [e1]; omega

/-- The carried buffer from the first point on: the features times the first weight. -/
theorem S0_eq (c : Dev nD) :
    B0.S0 (F := Ideal) V c = prod (V c main_arg0 : S10000x128.Idx → EReal) (V c main_arg4 : S128x128.Idx → EReal) := by
  unfold B0.S0
  exact (scr0_eq _ _).trans (congrArg₂ prod (iblk0_2_eq V c B0.t0) (iblk0_3_eq V c B0.t0))

/-- The whole result as a function of the arrays the region is entered with. -/
def G0 (c : Dev nD) : S10000x128.Idx → EReal :=
  whole (V c main_arg3 : S10000x10000.Idx → EReal)
    (prod (V c main_arg0 : S10000x128.Idx → EReal) (V c main_arg4 : S128x128.Idx → EReal))
    (V c main_v2 : S1x128.Idx → EReal) (V c main_v0 : S128x128.Idx → EReal)

/-- WHAT POINT `t` WRITES BACK is block `t` of the whole result. -/
theorem flushed0_eq (c : Dev nD) (t : Fin cfg0.N) :
    (B0.dat0 (F := Ideal) V c).flushed 6 t = ((cfg0.win 6).blk t).view.read (Elt Ideal) (G0 V c) := by
  show (cfg0.win 6).cut (grid0.coords t) ((B0.dat0 (F := Ideal) V c).after 6 t) = _
  rw [B0.after0_6]
  have ht : t.val < 25 := lt_of_lt_of_eq t.isLt (N_0 : cfg0.N = 25)
  obtain ⟨-, -, -, -, -, -, -, -, -, -, -, -, e0, e1⟩ := idx_facts t
  funext j
  rw [View.read_apply]
  refine block_eq (V c main_arg3 : S10000x10000.Idx → EReal)
    (prod (V c main_arg0 : S10000x128.Idx → EReal) (V c main_arg4 : S128x128.Idx → EReal))
    (V c main_v2 : S1x128.Idx → EReal) (V c main_v0 : S128x128.Idx → EReal)
    (B0.iblk0 V c 0 t) (B0.iblk0 V c 1 t) (B0.S0 V c) (B0.iblk0 V c 4 t) (B0.iblk0 V c 5 t)
    (S0_eq V c) (iblk0_4_eq V c t) (iblk0_5_eq V c t) (400 * t.val) (by omega)
    (fun y z hz0 hz1 => iblk0_0_apply V c t y z hz0 hz1) (fun y z hz0 hz1 => iblk0_1_apply V c t y z hz0 hz1)
    j (((cfg0.win 6).blk t).view.emb j) ?_ ?_
  · show win0_6.index t (0 : Fin 2) * 400 + 1 * (j 0).val = 400 * t.val + (j 0).val; rw [e0]; omega
  · show win0_6.index t (1 : Fin 2) * 128 + 1 * (j 1).val = (j 1).val; rw [e1]; omega

/-- An index of the result array is in point `t`'s block iff each coordinate is in the block's range on its axis. -/
theorem mem_blk6 (t : Fin cfg0.N) (i : S10000x128.Idx) :
    i ∈ ((cfg0.win 6).blk t).view.set ↔ ∀ a : Fin 2, win0_6.index t a * S400x128.size a ≤ (i a).val ∧ (i a).val < win0_6.index t a * S400x128.size a + S400x128.size a := by
  show i ∈ ((View.whole main_v3).slice (win0_6.rect t)).set ↔ _
  rw [View.set_slice_whole, Rect.mem_set_unit]
  exact Iff.rfl

/-- THE ARRAY after the region: the whole result. Row `r` is written back by point `r / 400`. -/
theorem final0_whole (c : Dev nD) : (B0.dat0 (F := Ideal) V c).arrAt 6 cfg0.N = G0 V c :=
  (B0.dat0 (F := Ideal) V c).arrAt_eq_of_cover 6 (G0 V c) (fun t _ => flushed0_eq V c t) fun i => by
    have hi0 : ((i : S10000x128.Idx) 0).val < 10000 := ((i : S10000x128.Idx) 0).isLt
    have hi1 : ((i : S10000x128.Idx) 1).val < 128 := ((i : S10000x128.Idx) 1).isLt
    have hN : cfg0.N = 25 := N_0
    let t : Fin cfg0.N := ⟨((i : S10000x128.Idx) 0).val / 400, by rw [hN]; omega⟩
    obtain ⟨-, -, -, -, -, -, -, -, -, -, -, -, e0, e1⟩ := idx_facts t
    refine ⟨t, flush0_6 t, ?_⟩
    rw [mem_blk6]
    intro a
    match a with
    | ⟨0, _⟩ =>
      show win0_6.index t (0 : Fin 2) * 400 ≤ ((i : S10000x128.Idx) 0).val ∧ ((i : S10000x128.Idx) 0).val < win0_6.index t (0 : Fin 2) * 400 + 400
      rw [e0]; show ((i : S10000x128.Idx) 0).val / 400 * 400 ≤ _ ∧ _ < ((i : S10000x128.Idx) 0).val / 400 * 400 + 400; omega
    | ⟨1, _⟩ =>
      show win0_6.index t (1 : Fin 2) * 128 ≤ ((i : S10000x128.Idx) 1).val ∧ ((i : S10000x128.Idx) 1).val < win0_6.index t (1 : Fin 2) * 128 + 128
      rw [e1]; omega

/-- The same, the whole result written out over the arrays the region is entered with: the leaky layer of the adjacency
    over the features times the first weight, plus the bias row, times the second weight. -/
theorem final0 (c : Dev nD) :
    (B0.dat0 (F := Ideal) V c).arrAt 6 cfg0.N
      = prod (fun i : S10000x128.Idx => Cert.Spec.leakyGT
            (prod (V c main_arg3 : S10000x10000.Idx → EReal) (prod (V c main_arg0 : S10000x128.Idx → EReal) (V c main_arg4 : S128x128.Idx → EReal)) i
              + (V c main_v2 : S1x128.Idx → EReal) (ix2 0 (i 1))))
          (V c main_v0 : S128x128.Idx → EReal) :=
  final0_whole V c

end Region

end Cert.KernelIdeal.Hand.V0

end
-- ==== Proof.KI.ValueCommon.lean ====
/-
  What the three kernel regions' value proofs share, at the exact extended reals.

  Every region's body works on two half-tiles of 200 rows of a 400-row block.  On a half-tile it forms a matrix
  product into a zero accumulator, adds a bias row to every row, and ends in a rectifier: the maximum with a splat
  zero, or the leaky rectifier written as a strict comparison with a splat zero and a select between the entry and its
  product with the splat slope.  Entry (p, q) of such a result is read here once, over arbitrary operands.  The two
  half-tiles' stores tile the block, so the block after the body is ONE function of the block's index as soon as each
  half agrees with that function on its own rows.  Row r of a 10000-row array lies in the 400-row block number r / 400.
-/
import proofs.«180870_g50560355009132_cont_8to1c4_249_8_alg».proof.Proof.Gen.KernelIdeal
import proofs.«180870_g50560355009132_cont_8to1c4_249_8_alg».proof.Proof.LibRowLayers
import proofs.«180870_g50560355009132_cont_8to1c4_249_8_alg».proof.Proof.LibMatProd
import proofs.«180870_g50560355009132_cont_8to1c4_249_8_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Writes
import Idealize.ShloMosaic.Lib.Pipeline.Value

set_option maxRecDepth 16384

noncomputable section

namespace Cert.KernelIdeal.Hand.VC

open Cert.KernelIdeal Cert.KernelIdeal.Gen
open Idealize.ShloMosaic Idealize.ShloMosaic.ValueIdx Cert.RowLayers Cert.MatProd

/-- The zero offsets of a whole rank-2 buffer, however spelt. -/
theorem hz : (![0, 0] : Fin 2 → Nat) = fun _ => 0 := funext fun a => by fin_cases a <;> rfl

/-! ## The products' dimension numbers say "rows times columns" -/

theorem rtc_half : RowsTimesCols (a := 200) (K := 10000) (b := 128) dot_S200x10000_S10000x128_S200x128_1_0_0_1_n_n :=
  ⟨rfl, rfl, fun _ _ => rfl, fun _ _ => rfl, fun _ _ => rfl, fun _ _ => rfl⟩

theorem rtc_half_wide : RowsTimesCols (a := 200) (K := 10000) (b := 256) dot_S200x10000_S10000x256_S200x256_1_0_0_1_n_n :=
  ⟨rfl, rfl, fun _ _ => rfl, fun _ _ => rfl, fun _ _ => rfl, fun _ _ => rfl⟩

theorem rtc_half_feat : RowsTimesCols (a := 200) (K := 128) (b := 128) dot_S200x128_S128x128_S200x128_1_0_0_1_n_n :=
  ⟨rfl, rfl, fun _ _ => rfl, fun _ _ => rfl, fun _ _ => rfl, fun _ _ => rfl⟩

theorem rtc_tall_feat : RowsTimesCols (a := 10000) (K := 128) (b := 128) dot_S10000x128_S128x128_S10000x128_1_0_0_1_n_n :=
  ⟨rfl, rfl, fun _ _ => rfl, fun _ _ => rfl, fun _ _ => rfl, fun _ _ => rfl⟩

/-! ## A dense layer and its rectifier, at an entry -/

section Entry
variable {a K b : ℕ} {d : DotDims ⟨2, ![a, K]⟩ ⟨2, ![K, b]⟩ ⟨2, ![a, b]⟩} {φ₁ φ₂ : FTy}

/-- A product into a zero accumulator plus a bias row broadcast down the rows, at entry `(p, q)`:
    `(∑ k, x[p, k] · w[k, q]) + bias[0, q]`. -/
theorem dense_apply (H : RowsTimesCols d) (prec : Option ContractPrecision)
    (x : FVec Ideal ⟨2, ![a, K]⟩ φ₁) (w : FVec Ideal ⟨2, ![K, b]⟩ φ₂) (bias : FVec Ideal ⟨2, ![1, b]⟩ .f32)
    (hB : (⟨2, ![1, b]⟩ : Shape).Broadcasts ⟨2, ![a, b]⟩) (p : Fin a) (q : Fin b) :
    addf (matmul d prec x w (constant (F := Ideal) ⟨2, ![a, b]⟩ .f32 0x00000000#32)) (broadcastTo ⟨2, ![a, b]⟩ bias hB) (ix2 p q)
      = prod x w (ix2 p q) + bias (ix2 0 q) :=
  congrFun (rowOf_dense_device H prec x w bias hB p) q

/-- The same with the right factor and the bias row first cast to their own shapes, as the bodies print them. -/
theorem dense_cast_apply (H : RowsTimesCols d) (prec : Option ContractPrecision)
    (x : FVec Ideal ⟨2, ![a, K]⟩ φ₁) (w : FVec Ideal ⟨2, ![K, b]⟩ φ₂) (hw : (⟨2, ![K, b]⟩ : Shape).ShapeCasts ⟨2, ![K, b]⟩)
    (bias : FVec Ideal ⟨2, ![1, b]⟩ .f32) (hb : (⟨2, ![1, b]⟩ : Shape).ShapeCasts ⟨2, ![1, b]⟩)
    (hB : (⟨2, ![1, b]⟩ : Shape).Broadcasts ⟨2, ![a, b]⟩) (p : Fin a) (q : Fin b) :
    addf (matmul d prec x (shapeCast ⟨2, ![K, b]⟩ w hw) (constant (F := Ideal) ⟨2, ![a, b]⟩ .f32 0x00000000#32))
        (broadcastTo ⟨2, ![a, b]⟩ (shapeCast ⟨2, ![1, b]⟩ bias hb) hB) (ix2 p q)
      = prod x w (ix2 p q) + bias (ix2 0 q) := by
  rw [shapeCast_self, shapeCast_self]
  exact dense_apply H prec x w bias hB p q

end Entry

/-- The maximum with a splat zero, at an entry. -/
theorem max_splat_zero_apply {s : Shape} (z : FVec Ideal s .f32) (i : s.Idx) :
    maximumf z (broadcast s (Scalar.ofBits (F := Ideal) .f32 0x00000000#32)) i = max (z i) 0 := by
  show max (z i) (Ideal.ofBits .f32 0x00000000#32) = _
  rw [Ideal.ofBits_zero_f32]

/-- Selecting on the bit of the comparison `z > 0` is selecting on the proposition `0 < z`. -/
theorem select_ogt (z t e : EReal) : Scalar.select (Ideal.cmp .ogt z 0) t e = if 0 < z then t else e := by
  unfold Scalar.select Ideal.cmp
  by_cases h : (0 : EReal) < z <;> simp [h]

/-- The strict comparison with a splat zero, the product with the splat slope and the select between the two: the
    leaky rectifier in its strict spelling, at an entry. -/
theorem leaky_select_apply {s : Shape} (z : FVec Ideal s .f32) (i : s.Idx) :
    select (cmpf .ogt z (broadcast s (Scalar.ofBits (F := Ideal) .f32 0x00000000#32))) z
        (mulf z (broadcast s (Scalar.ofBits (F := Ideal) .f32 0x3E4CCCCD#32))) i
      = Cert.Spec.leakyGT (z i) := by
  show Scalar.select (Ideal.cmp .ogt (z i) (Ideal.ofBits .f32 0x00000000#32)) (z i) (z i * Ideal.ofBits .f32 0x3E4CCCCD#32) = _
  rw [Ideal.ofBits_zero_f32, select_ogt]
  rfl

/-- The same once the entry of the rectifier's argument is known: for a dense layer, by `dense_cast_apply`. -/
theorem leaky_of_entry {s : Shape} (z : FVec Ideal s .f32) (i : s.Idx) (v : EReal) (h : z i = v) :
    select (cmpf .ogt z (broadcast s (Scalar.ofBits (F := Ideal) .f32 0x00000000#32))) z
        (mulf z (broadcast s (Scalar.ofBits (F := Ideal) .f32 0x3E4CCCCD#32))) i
      = Cert.Spec.leakyGT v :=
  (leaky_select_apply z i).trans (congrArg Cert.Spec.leakyGT h)

/-- The maximum with a splat zero once the entry of its argument is known. -/
theorem relu_of_entry {s : Shape} (z : FVec Ideal s .f32) (i : s.Idx) (v : EReal) (h : z i = v) :
    maximumf z (broadcast s (Scalar.ofBits (F := Ideal) .f32 0x00000000#32)) i = max v 0 :=
  (max_splat_zero_apply z i).trans (congrArg (max · 0) h)

section Entry2
variable {a K b : ℕ} {d : DotDims ⟨2, ![a, K]⟩ ⟨2, ![K, b]⟩ ⟨2, ![a, b]⟩} {φ₁ φ₂ : FTy}

/-- A dense layer ending in the maximum with a splat zero, as the bodies print it, at entry `(p, q)`. -/
theorem relu_dense_apply (H : RowsTimesCols d) (prec : Option ContractPrecision)
    (x : FVec Ideal ⟨2, ![a, K]⟩ φ₁) (w : FVec Ideal ⟨2, ![K, b]⟩ φ₂) (hw : (⟨2, ![K, b]⟩ : Shape).ShapeCasts ⟨2, ![K, b]⟩)
    (bias : FVec Ideal ⟨2, ![1, b]⟩ .f32) (hb : (⟨2, ![1, b]⟩ : Shape).ShapeCasts ⟨2, ![1, b]⟩)
    (hB : (⟨2, ![1, b]⟩ : Shape).Broadcasts ⟨2, ![a, b]⟩) (p : Fin a) (q : Fin b) :
    maximumf (addf (matmul d prec x (shapeCast ⟨2, ![K, b]⟩ w hw) (constant (F := Ideal) ⟨2, ![a, b]⟩ .f32 0x00000000#32))
        (broadcastTo ⟨2, ![a, b]⟩ (shapeCast ⟨2, ![1, b]⟩ bias hb) hB)) (broadcast ⟨2, ![a, b]⟩ (Scalar.ofBits (F := Ideal) .f32 0x00000000#32)) (ix2 p q)
      = max (prod x w (ix2 p q) + bias (ix2 0 q)) 0 :=
  (max_splat_zero_apply _ (ix2 p q)).trans (congrArg (max · 0) (dense_cast_apply H prec x w hw bias hb hB p q))

end Entry2

/-! ## A 400-row block stored as two 200-row halves -/

section Halves
variable {Val : EltTy → Type} [∀ e, Nonempty (Val e)] {e : EltTy}

/-- The block left by a store of `pb` to rows 200..399 over a store of `pt` to rows 0..199 is ONE function `G` of the
    block's index as soon as each half is `G` on its rows. -/
theorem canon_halves
    (inbB : ∀ a, (![200, 0] : Fin 2 → Nat) a + S200x128.size a ≤ S400x128.size a)
    (inbT : ∀ a, (![0, 0] : Fin 2 → Nat) a + S200x128.size a ≤ S400x128.size a)
    (pb pt : S200x128.Idx → Val e) (G : S400x128.Idx → Val e)
    (ht : ∀ (r : Fin 200) (q : Fin 128), pt (ix2 r q) = G (ix2 ⟨r.val, Nat.lt_of_lt_of_le r.isLt (by decide)⟩ q))
    (hb : ∀ (r : Fin 200) (q : Fin 128), pb (ix2 r q) = G (ix2 ⟨200 + r.val, by have := r.isLt; omega⟩ q)) :
    View.canon [(⟨Rect.unit (s := S400x128) ![200, 0] S200x128.size inbB, pb⟩ : View.Piece Val S400x128 e),
                ⟨Rect.unit (s := S400x128) ![0, 0] S200x128.size inbT, pt⟩] = G := by
  have hc : ∀ y : S400x128.Idx, ∃ p ∈ ([⟨Rect.unit (s := S400x128) ![200, 0] S200x128.size inbB, pb⟩,
      ⟨Rect.unit (s := S400x128) ![0, 0] S200x128.size inbT, pt⟩] : List (View.Piece Val S400x128 e)), y ∈ p.1.set :=
    View.cover_of_tiled _ S200x128.size (by rfl)
  funext y
  refine View.canon_apply_of_pieces G _ ?_ y (hc y)
  intro p hp x
  rcases List.mem_cons.mp hp with rfl | hp
  · obtain ⟨r, q, rfl⟩ : ∃ (r : Fin 200) (q : Fin 128), x = ix2 r q := ⟨x 0, x 1, eq_ix2 x⟩
    refine (hb r q).trans (congrArg G ?_)
    funext ax; apply Fin.ext
    match ax with
    | ⟨0, _⟩ => show 200 + r.val = 200 + 1 * r.val; omega
    | ⟨1, _⟩ => show q.val = 0 + 1 * q.val; omega
  · obtain rfl := List.mem_singleton.mp hp
    obtain ⟨r, q, rfl⟩ : ∃ (r : Fin 200) (q : Fin 128), x = ix2 r q := ⟨x 0, x 1, eq_ix2 x⟩
    refine (ht r q).trans (congrArg G ?_)
    funext ax; apply Fin.ext
    match ax with
    | ⟨0, _⟩ => show r.val = 0 + 1 * r.val; omega
    | ⟨1, _⟩ => show q.val = 0 + 1 * q.val; omega

end Halves

/-! ## Rows and 400-row blocks -/

/-- Row `r` of a 10000-row array lies in block `r / 400` of its 25 blocks of 400 rows. -/
theorem row_in_block (r : ℕ) (hr : r < 10000) : r / 400 < 25 ∧ r / 400 * 400 ≤ r ∧ r < r / 400 * 400 + 400 := by
  omega

end Cert.KernelIdeal.Hand.VC

end
-- ==== Proof.KI.Value1.lean ====
/-
  What the second region leaves in its bf16 output array, at the exact extended reals.

  The carried buffer after the first point is the column join  [ X · W | S₃ ] : its first 128 columns are the product
  of the feature array with the first weight. One product of a 200-row half-tile of the adjacency with it gives, in
  columns 0 .. 127, those rows of  A · (X · W) ; that plus the bias row, through the leaky rectifier (a strict
  comparison with zero and a select between the entry and its product with the slope), times the second weight is
  the half of the output block. The two halves tile the 400-row block, the 25 blocks tile the array, and every entry
  reads one row of the adjacency only: so the array after the region is ONE function of the arrays it was entered
  with,

      leakyGT (A · (X · W) + b) · W' .

  A change of float format is the identity on extended reals, so nothing is rounded here.
-/
import proofs.«180870_g50560355009132_cont_8to1c4_249_8_alg».proof.Proof.KI.Region1
import proofs.«180870_g50560355009132_cont_8to1c4_249_8_alg».proof.Proof.KI.ValueCommon

set_option maxRecDepth 16384

noncomputable section

namespace Cert.KernelIdeal.Hand.V1

open Cert.KernelIdeal Cert.KernelIdeal.Gen Cert.KernelIdeal.Hand
open Idealize.ShloMosaic Idealize.ShloMosaic.TcCoe Idealize.ShloMosaic.ValueIdx
open Cert.RowLayers Cert.MatProd
open Idealize.ShloMosaic.Pipeline (Dat Cfg Window)

/-! ## The payloads, as matrix products -/

/-- The first point's left fill: the product of the features with the weight (the change of format does nothing). -/
theorem pay4_eq (x3 : Vec Ideal S10000x128 .f32) (x4 : Vec Ideal S128x128 .f32) :
    k1_pay4 (F := Ideal) x3 x4 = prod x3 x4 :=
  (shapeCast_self _ _).trans (matmul_zero_eq_prod (φ₁ := .f32) (φ₂ := .f32) VC.rtc_tall_feat none x3 x4)

/-- Its right fill: the earlier result as it is. -/
theorem pay5_eq (x6 : Vec Ideal S10000x128 .bf16) : k1_pay5 (F := Ideal) x6 = x6 :=
  (shapeCast_self _ _).trans (shapeCast_self _ _)

/-- The half-tile's product with the carried buffer. -/
theorem pay6_eq (x : Vec Ideal S200x10000 .f32) (s : Vec Ideal S10000x256 .bf16) :
    k1_pay6 (F := Ideal) x s = prod x s :=
  matmul_zero_eq_prod (φ₁ := .bf16) (φ₂ := .bf16) VC.rtc_half_wide none x s

/-- The same for the second half-tile, already in the narrower format. -/
theorem pay1_eq (x : FVec Ideal S200x10000 .bf16) (s : Vec Ideal S10000x256 .bf16) :
    k1_pay1 (F := Ideal) x s = prod x s :=
  matmul_zero_eq_prod (φ₁ := .bf16) (φ₂ := .bf16) VC.rtc_half_wide none x s

/-- The change of format of the second half-tile. -/
theorem pay9_eq (x : Vec Ideal S200x10000 .f32) : k1_pay9 (F := Ideal) x = x := rfl

/-! ## The carried buffer, entry by entry -/

/-- The carried buffer after the first point as one function of its index: left of column 128 the product of the
    features with the weight, from column 128 on the earlier result. -/
def scrFn (x3 : Vec Ideal S10000x128 .f32) (x4 : Vec Ideal S128x128 .f32) (x6 : Vec Ideal S10000x128 .bf16) :
    Vec Ideal S10000x256 .bf16 :=
  fun i => if h : (i 1).val < 128 then prod x3 x4 (ix2 (i 0) ⟨(i 1).val, h⟩)
    else x6 (ix2 (i 0) ⟨(i 1).val - 128, by have h' : (i 1).val < 256 := (i 1).isLt; omega⟩)

theorem scr1_eq (x3 : Vec Ideal S10000x128 .f32) (x4 : Vec Ideal S128x128 .f32) (x6 : Vec Ideal S10000x128 .bf16) :
    B1.scr1 (F := Ideal) x3 x4 x6 = scrFn x3 x4 x6 := by
  funext y
  unfold B1.scr1
  refine View.canon_apply_of_pieces (Val := Elt Ideal) (scrFn x3 x4 x6) _ ?_ y (B1.cover_scr1 _ _ y)
  intro p hp x
  rcases List.mem_cons.mp hp with rfl | hp
  · obtain ⟨k, q, rfl⟩ : ∃ (k : Fin 10000) (q : Fin 128), x = ix2 k q := ⟨x 0, x 1, eq_ix2 x⟩
    show k1_pay5 (F := Ideal) (View.ld x6 B1.rX) (ix2 k q) = _
    rw [pay5_eq, View.ld_unit_zero (S := S10000x128) VC.hz]
    unfold scrFn
    have h1 : ((B1.rSr.emb (ix2 k q)) 1).val = 128 + 1 * q.val := rfl
    have h0 : ((B1.rSr.emb (ix2 k q)) 0).val = 0 + 1 * k.val := rfl
    rw [dif_neg (by rw [h1]; omega)]
    refine congrArg x6 ?_
    funext ax; apply Fin.ext
    match ax with
    | ⟨0, _⟩ => show k.val = ((B1.rSr.emb (ix2 k q)) 0).val; rw [h0]; omega
    | ⟨1, _⟩ => show q.val = ((B1.rSr.emb (ix2 k q)) 1).val - 128; rw [h1]; omega
  · obtain rfl := List.mem_singleton.mp hp
    obtain ⟨k, q, rfl⟩ : ∃ (k : Fin 10000) (q : Fin 128), x = ix2 k q := ⟨x 0, x 1, eq_ix2 x⟩
    show k1_pay4 (F := Ideal) (View.ld x3 B1.rX) (View.ld x4 B1.rW) (ix2 k q) = _
    rw [pay4_eq, View.ld_unit_zero (S := S10000x128) VC.hz, View.ld_unit_zero (S := S128x128) VC.hz]
    unfold scrFn
    have h1 : ((B1.rSl.emb (ix2 k q)) 1).val = 0 + 1 * q.val := rfl
    have h0 : ((B1.rSl.emb (ix2 k q)) 0).val = 0 + 1 * k.val := rfl
    have hlt : ((B1.rSl.emb (ix2 k q)) 1).val < 128 := by rw [h1]; have := q.isLt; omega
    rw [dif_pos hlt]
    refine congrArg (prod x3 x4) ?_
    funext ax; apply Fin.ext
    match ax with
    | ⟨0, _⟩ => show k.val = ((B1.rSl.emb (ix2 k q)) 0).val; rw [h0]; omega
    | ⟨1, _⟩ => show q.val = ((B1.rSl.emb (ix2 k q)) 1).val; rw [h1]; omega

/-- Its first 128 columns are the product of the features with the weight. -/
theorem scr1_left (x3 : Vec Ideal S10000x128 .f32) (x4 : Vec Ideal S128x128 .f32) (x6 : Vec Ideal S10000x128 .bf16)
    (k : Fin 10000) (q : Fin 128) :
    B1.scr1 (F := Ideal) x3 x4 x6 (ix2 k ⟨0 + q.val, by have := q.isLt; omega⟩) = prod x3 x4 (ix2 k q) := by
  rw [scr1_eq]
  unfold scrFn
  rw [dif_pos (by show 0 + q.val < 128; have := q.isLt; omega)]
  exact congrArg (fun z => prod x3 x4 (ix2 k z)) (Fin.ext (by show 0 + q.val = q.val; omega))

/-! ## The stored values, entry by entry -/

/-- The bf16 output's half: columns ..128 of the same product, plus the bias row, through the leaky rectifier, times
    the second weight. -/
theorem pay7_apply (x : Vec Ideal S200x10000 .f32) (s : Vec Ideal S10000x256 .bf16) (b : Vec Ideal S1x128 .f32)
    (w : Vec Ideal S128x128 .bf16) (r : Fin 200) (q : Fin 128) :
    k1_pay7 (F := Ideal) x s b w (ix2 r q)
      = ∑ j : Fin 128, Cert.Spec.leakyGT (prod x s (ix2 r ⟨0 + j.val, by have := j.isLt; omega⟩) + b (ix2 0 j)) * w (ix2 j q) := by
  unfold k1_pay7
  refine (congrFun (matmul_zero_eq_prod (φ₁ := .bf16) (φ₂ := .bf16) VC.rtc_half_feat none _ _) (ix2 r q)).trans ?_
  rw [prod_apply]
  refine Finset.sum_congr rfl fun j _ => ?_
  refine congrArg₂ (· * ·) ?_ (congrFun (shapeCast_self w _) _)
  refine (VC.leaky_select_apply _ (ix2 r j)).trans (congrArg Cert.Spec.leakyGT ?_)
  refine congrArg₂ (· + ·) ?_ ?_
  · refine (slice2_axis1_eq 0 (k1_pay6 (F := Ideal) x s) slices_S200x256_o0_0_S200x128 r j).trans ?_
    rw [pay6_eq]
  · refine (broadcastTo_1b_ab_apply _ _ r j).trans ?_
    rw [shapeCast_self]

theorem pay2_apply (x : FVec Ideal S200x10000 .bf16) (s : Vec Ideal S10000x256 .bf16) (b : Vec Ideal S1x128 .f32)
    (w : Vec Ideal S128x128 .bf16) (r : Fin 200) (q : Fin 128) :
    k1_pay2 (F := Ideal) x s b w (ix2 r q)
      = ∑ j : Fin 128, Cert.Spec.leakyGT (prod x s (ix2 r ⟨0 + j.val, by have := j.isLt; omega⟩) + b (ix2 0 j)) * w (ix2 j q) := by
  unfold k1_pay2
  refine (congrFun (matmul_zero_eq_prod (φ₁ := .bf16) (φ₂ := .bf16) VC.rtc_half_feat none _ _) (ix2 r q)).trans ?_
  rw [prod_apply]
  refine Finset.sum_congr rfl fun j _ => ?_
  refine congrArg₂ (· * ·) ?_ (congrFun (shapeCast_self w _) _)
  refine (VC.leaky_select_apply _ (ix2 r j)).trans (congrArg Cert.Spec.leakyGT ?_)
  refine congrArg₂ (· + ·) ?_ ?_
  · refine (slice2_axis1_eq 0 (k1_pay1 (F := Ideal) x s) slices_S200x256_o0_0_S200x128 r j).trans ?_
    rw [pay1_eq]
  · refine (broadcastTo_1b_ab_apply _ _ r j).trans ?_
    rw [shapeCast_self]

/-! ## The bf16 result, as a function of whole arrays -/

/-- The bf16 result: `adj · (x · w)` plus the bias row through the leaky rectifier, times the second weight. -/
def GS (A : S10000x10000.Idx → EReal) (X : S10000x128.Idx → EReal) (W : S128x128.Idx → EReal) (b : S1x128.Idx → EReal)
    (W' : S128x128.Idx → EReal) : S10000x128.Idx → EReal :=
  prod (fun i : S10000x128.Idx => Cert.Spec.leakyGT (prod A (prod X W) i + b (ix2 0 (i 1)))) W'

/-! ## A half-tile of rows -/

/-- A product whose left factor holds the rows of `A` from `r₀` on and whose right factor's columns from `o` on
    are `M`, at row `r` and column `o + q`: entry `(r₀ + r, q)` of `A · M`. -/
theorem prod_rows_cols (A : S10000x10000.Idx → EReal) (M : S10000x128.Idx → EReal)
    (x : S200x10000.Idx → EReal) (s : S10000x256.Idx → EReal) (r₀ o : ℕ) (ho : o + 128 ≤ 256)
    (hx : ∀ (y : S200x10000.Idx) (z : S10000x10000.Idx), (z 0).val = r₀ + (y 0).val → (z 1).val = (y 1).val → x y = A z)
    (hs : ∀ (k : Fin 10000) (q : Fin 128), s (ix2 k ⟨o + q.val, by have := q.isLt; omega⟩) = M (ix2 k q))
    (r : Fin 200) (q : Fin 128) (i : S10000x128.Idx) (hi0 : (i 0).val = r₀ + r.val) (hi1 : (i 1).val = q.val) :
    prod x s (ix2 r ⟨o + q.val, by have := q.isLt; omega⟩) = prod A M i := by
  rw [prod_apply]
  unfold prod
  refine Finset.sum_congr rfl fun k _ => ?_
  have e0 : x (ix2 r k) = rowOf A (i 0) k := hx (ix2 r k) (ix2 (i 0) k) hi0 rfl
  have e1 : s (ix2 k ⟨o + q.val, by have := q.isLt; omega⟩) = M (ix2 k (i 1)) :=
    (hs k q).trans (congrArg (fun z => M (ix2 k z)) (Fin.ext hi1.symm))
  exact congrArg₂ (· * ·) e0 e1

/-- The bf16 output's half at `(r, q)` is the bf16 result at `(r₀ + r, q)`. -/
theorem halfS (A : S10000x10000.Idx → EReal) (X : S10000x128.Idx → EReal) (W : S128x128.Idx → EReal) (b4 : S1x128.Idx → EReal)
    (W' : S128x128.Idx → EReal)
    (x : S200x10000.Idx → EReal) (s : S10000x256.Idx → EReal) (b : S1x128.Idx → EReal) (w : S128x128.Idx → EReal) (r₀ : ℕ)
    (hx : ∀ (y : S200x10000.Idx) (z : S10000x10000.Idx), (z 0).val = r₀ + (y 0).val → (z 1).val = (y 1).val → x y = A z)
    (hs : ∀ (k : Fin 10000) (q : Fin 128), s (ix2 k ⟨0 + q.val, by have := q.isLt; omega⟩) = prod X W (ix2 k q))
    (hb : b = b4) (hw : w = W')
    (r : Fin 200) (q : Fin 128) (i : S10000x128.Idx) (hi0 : (i 0).val = r₀ + r.val) (hi1 : (i 1).val = q.val) :
    (∑ j : Fin 128, Cert.Spec.leakyGT (prod x s (ix2 r ⟨0 + j.val, by have := j.isLt; omega⟩) + b (ix2 0 j)) * w (ix2 j q))
      = GS A X W b4 W' i := by
  unfold GS
  subst hb hw
  show _ = ∑ j : Fin 128, rowOf (fun i : S10000x128.Idx => Cert.Spec.leakyGT (prod A (prod X W) i + b (ix2 0 (i 1)))) (i 0) j * w (ix2 j (i 1))
  refine Finset.sum_congr rfl fun j _ => ?_
  refine congrArg₂ (· * ·) ?_ (congrArg (fun z => w (ix2 j z)) (Fin.ext hi1.symm))
  show Cert.Spec.leakyGT _ = Cert.Spec.leakyGT (prod A (prod X W) (ix2 (i 0) j) + b (ix2 0 j))
  rw [prod_rows_cols A (prod X W) x s r₀ 0 (by omega) hx hs r j (ix2 (i 0) j) hi0 rfl]

/-! ## A 400-row block -/

/-- The bf16 output block: when the two half-tiles hold the rows of `A` from `R` and from `R + 200` on, the carried
    buffer's left half is `X · W`, the bias row is `b4` and the second weight is `W'`, the block is the bf16 result on the
    rows from `R` on — at whatever index `emb y` sits at row `R +` the block's row and at the block's column. -/
theorem blockS (A : S10000x10000.Idx → EReal) (X : S10000x128.Idx → EReal) (W : S128x128.Idx → EReal) (b4 : S1x128.Idx → EReal)
    (W' : S128x128.Idx → EReal)
    (x1 x2 : Vec Ideal S200x10000 .f32) (s : Vec Ideal S10000x256 .bf16) (x5 : Vec Ideal S128x128 .bf16) (x7 : Vec Ideal S1x128 .f32) (R : ℕ)
    (hx1 : (∀ (y : S200x10000.Idx) (z : S10000x10000.Idx), (z 0).val = R + (y 0).val → (z 1).val = (y 1).val → x1 y = A z))
    (hx2 : (∀ (y : S200x10000.Idx) (z : S10000x10000.Idx), (z 0).val = (R + 200) + (y 0).val → (z 1).val = (y 1).val → x2 y = A z))
    (hs : ∀ (k : Fin 10000) (q : Fin 128), s (ix2 k ⟨0 + q.val, by have := q.isLt; omega⟩) = prod X W (ix2 k q))
    (hb : x7 = b4) (hw : x5 = W')
    (emb : S400x128.Idx → S10000x128.Idx) (he0 : ∀ y, (emb y 0).val = R + (y 0).val) (he1 : ∀ y, (emb y 1).val = (y 1).val) :
    B1.outS1 (F := Ideal) x1 x2 s x5 x7 = fun y => GS A X W b4 W' (emb y) := by
  unfold B1.outS1
  refine VC.canon_halves (Val := Elt Ideal) inb_S400x128_S200x128_200_0 inb_S400x128_S200x128_0_0 _ _ _ ?_ ?_
  · intro r q
    rw [View.ld_unit_zero (S := S200x10000) VC.hz, View.ld_unit_zero (S := S10000x256) VC.hz, View.ld_unit_zero (S := S1x128) VC.hz, View.ld_unit_zero (S := S128x128) VC.hz]
    refine (pay7_apply x1 s x7 x5 r q).trans ?_
    exact halfS A X W b4 W' x1 s x7 x5 R hx1 hs hb hw r q _ (he0 _) (he1 _)
  · intro r q
    rw [View.ld_unit_zero (S := S200x10000) VC.hz, View.ld_unit_zero (S := S10000x256) VC.hz, View.ld_unit_zero (S := S1x128) VC.hz, View.ld_unit_zero (S := S128x128) VC.hz]
    refine (pay2_apply x2 s x7 x5 r q).trans ?_
    exact halfS A X W b4 W' x2 s x7 x5 (R + 200) hx2 hs hb hw r q _
      ((he0 _).trans (by show R + (200 + r.val) = R + 200 + r.val; omega)) (he1 _)

/-! ## From blocks to the array -/

section Blocks

variable (V : (c : Dev nD) → (b : Ref sig .tc) → Buf (Elt Ideal) ((c : Thread nD τ).loc b))

/-- The printed index maps over the grid: the adjacency's two windows at blocks `2t` and `2t + 1` of 200 rows, the
    six whole-array windows at block 0, the two outputs at block `t` of 400 rows. -/
theorem idx1 : ∀ t : Fin cfg1.N, win1_0.index t (0 : Fin 2) = 2 * t.val ∧ win1_0.index t (1 : Fin 2) = 0
    ∧ win1_1.index t (0 : Fin 2) = 2 * t.val + 1 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0
    ∧ win1_9.index t (0 : Fin 2) = t.val ∧ win1_9.index t (1 : Fin 2) = 0 :=
  (by decide +kernel : ∀ t : Fin grid1.N, _)

/-- The first adjacency window's block at point `t` is rows `400t ..` of the adjacency. -/
theorem iblk1_0_apply (c : Dev nD) (t : Fin cfg1.N) (y : S200x10000.Idx) (z : S10000x10000.Idx)
    (h0 : (z 0).val = 400 * t.val + (y 0).val) (h1 : (z 1).val = (y 1).val) :
    (B1.iblk1 V c 0 t : Vec Ideal S200x10000 .f32) y = (V c main_arg2 : S10000x10000.Idx → EReal) z := by
  obtain ⟨e0, e1, -⟩ := idx1 t
  unfold B1.iblk1
  rw [View.read_apply]
  show (V c main_arg2 : S10000x10000.Idx → EReal) _ = V c main_arg2 z
  refine congrArg (V c main_arg2 : S10000x10000.Idx → EReal) ?_
  funext a; apply Fin.ext
  match a with
  | ⟨0, _⟩ => show win1_0.index t (0 : Fin 2) * 200 + 1 * (y 0).val = (z 0).val; rw [e0, h0]; omega
  | ⟨1, _⟩ => show win1_0.index t (1 : Fin 2) * 10000 + 1 * (y 1).val = (z 1).val; rw [e1, h1]; omega

/-- The second adjacency window's block at point `t` is rows `400t + 200 ..` of the adjacency. -/
theorem iblk1_1_apply (c : Dev nD) (t : Fin cfg1.N) (y : S200x10000.Idx) (z : S10000x10000.Idx)
    (h0 : (z 0).val = 400 * t.val + 200 + (y 0).val) (h1 : (z 1).val = (y 1).val) :
    (B1.iblk1 V c 1 t : Vec Ideal S200x10000 .f32) y = (V c main_arg2 : S10000x10000.Idx → EReal) z := by
  obtain ⟨-, -, e0, e1, -⟩ := idx1 t
  unfold B1.iblk1
  rw [View.read_apply]
  show (V c main_arg2 : S10000x10000.Idx → EReal) _ = V c main_arg2 z
  refine congrArg (V c main_arg2 : S10000x10000.Idx → EReal) ?_
  funext a; apply Fin.ext
  match a with
  | ⟨0, _⟩ => show win1_1.index t (0 : Fin 2) * 200 + 1 * (y 0).val = (z 0).val; rw [e0, h0]; omega
  | ⟨1, _⟩ => show win1_1.index t (1 : Fin 2) * 10000 + 1 * (y 1).val = (z 1).val; rw [e1, h1]; omega

/-- Window 2's block is its whole array at every point. -/
theorem iblk1_2_eq (c : Dev nD) (t : Fin cfg1.N) :
    (B1.iblk1 V c 2 t : Vec Ideal S10000x128 .f32) = (V c main_arg1 : S10000x128.Idx → EReal) := by
  obtain ⟨-, -, -, -, e0, e1, -⟩ := idx1 t
  funext y
  unfold B1.iblk1
  rw [View.read_apply]
  show (V c main_arg1 : S10000x128.Idx → EReal) _ = V c main_arg1 y
  refine congrArg (V c main_arg1 : S10000x128.Idx → EReal) ?_
  funext a; apply Fin.ext
  match a with
  | ⟨0, _⟩ => show win1_2.index t (0 : Fin 2) * 10000 + 1 * (y 0).val = (y 0).val; rw [e0]; omega
  | ⟨1, _⟩ => show win1_2.index t (1 : Fin 2) * 128 + 1 * (y 1).val = (y 1).val; rw [e1]; omega

/-- Window 3's block is its whole array at every point. -/
theorem iblk1_3_eq (c : Dev nD) (t : Fin cfg1.N) :
    (B1.iblk1 V c 3 t : Vec Ideal S128x128 .f32) = (V c main_arg5 : S128x128.Idx → EReal) := by
  obtain ⟨-, -, -, -, -, -, e0, e1, -⟩ := idx1 t
  funext y
  unfold B1.iblk1
  rw [View.read_apply]
  show (V c main_arg5 : S128x128.Idx → EReal) _ = V c main_arg5 y
  refine congrArg (V c main_arg5 : S128x128.Idx → EReal) ?_
  funext a; apply Fin.ext
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

/-- Window 4's block is its whole array at every point. -/
theorem iblk1_4_eq (c : Dev nD) (t : Fin cfg1.N) :
    (B1.iblk1 V c 4 t : Vec Ideal S128x128 .bf16) = (V c main_v1 : S128x128.Idx → EReal) := by
  obtain ⟨-, -, -, -, -, -, -, -, e0, e1, -⟩ := idx1 t
  funext y
  unfold B1.iblk1
  rw [View.read_apply]
  show (V c main_v1 : S128x128.Idx → EReal) _ = V c main_v1 y
  refine congrArg (V c main_v1 : S128x128.Idx → EReal) ?_
  funext a; apply Fin.ext
  match a with
  | ⟨0, _⟩ => show win1_4.index t (0 : Fin 2) * 128 + 1 * (y 0).val = (y 0).val; rw [e0]; omega
  | ⟨1, _⟩ => show win1_4.index t (1 : Fin 2) * 128 + 1 * (y 1).val = (y 1).val; rw [e1]; omega

/-- Window 5's block is its whole array at every point. -/
theorem iblk1_5_eq (c : Dev nD) (t : Fin cfg1.N) :
    (B1.iblk1 V c 5 t : Vec Ideal S10000x128 .bf16) = (V c main_v3 : S10000x128.Idx → EReal) := by
  obtain ⟨-, -, -, -, -, -, -, -, -, -, e0, e1, -⟩ := idx1 t
  funext y
  unfold B1.iblk1
  rw [View.read_apply]
  show (V c main_v3 : S10000x128.Idx → EReal) _ = V c main_v3 y
  refine congrArg (V c main_v3 : S10000x128.Idx → EReal) ?_
  funext a; apply Fin.ext
  match a with
  | ⟨0, _⟩ => show win1_5.index t (0 : Fin 2) * 10000 + 1 * (y 0).val = (y 0).val; rw [e0]; omega
  | ⟨1, _⟩ => show win1_5.index t (1 : Fin 2) * 128 + 1 * (y 1).val = (y 1).val; rw [e1]; omega

/-- Window 6's block is its whole array at every point. -/
theorem iblk1_6_eq (c : Dev nD) (t : Fin cfg1.N) :
    (B1.iblk1 V c 6 t : Vec Ideal S1x128 .f32) = (V c main_v4 : S1x128.Idx → EReal) := by
  obtain ⟨-, -, -, -, -, -, -, -, -, -, -, -, e0, e1, -⟩ := idx1 t
  funext y
  unfold B1.iblk1
  rw [View.read_apply]
  show (V c main_v4 : S1x128.Idx → EReal) _ = V c main_v4 y
  refine congrArg (V c main_v4 : S1x128.Idx → EReal) ?_
  funext a; apply Fin.ext
  match a with
  | ⟨0, _⟩ => show win1_6.index t (0 : Fin 2) * 1 + 1 * (y 0).val = (y 0).val; rw [e0]; omega
  | ⟨1, _⟩ => show win1_6.index t (1 : Fin 2) * 128 + 1 * (y 1).val = (y 1).val; rw [e1]; omega

/-- Window 7's block is its whole array at every point. -/
theorem iblk1_7_eq (c : Dev nD) (t : Fin cfg1.N) :
    (B1.iblk1 V c 7 t : Vec Ideal S1x128 .f32) = (V c main_v5 : S1x128.Idx → EReal) := by
  obtain ⟨-, -, -, -, -, -, -, -, -, -, -, -, -, -, e0, e1, -⟩ := idx1 t
  funext y
  unfold B1.iblk1
  rw [View.read_apply]
  show (V c main_v5 : S1x128.Idx → EReal) _ = V c main_v5 y
  refine congrArg (V c main_v5 : S1x128.Idx → EReal) ?_
  funext a; apply Fin.ext
  match a with
  | ⟨0, _⟩ => show win1_7.index t (0 : Fin 2) * 1 + 1 * (y 0).val = (y 0).val; rw [e0]; omega
  | ⟨1, _⟩ => show win1_7.index t (1 : Fin 2) * 128 + 1 * (y 1).val = (y 1).val; rw [e1]; omega

/-- The carried buffer's first 128 columns, from the first point on: the product of the feature array with the
    weight array. -/
theorem S1_left (c : Dev nD) (k : Fin 10000) (q : Fin 128) :
    B1.S1 (F := Ideal) V c (ix2 k ⟨0 + q.val, by have := q.isLt; omega⟩)
      = prod (V c main_arg1 : S10000x128.Idx → EReal) (V c main_arg5 : S128x128.Idx → EReal) (ix2 k q) := by
  unfold B1.S1
  refine (scr1_left _ _ _ k q).trans ?_
  rw [iblk1_2_eq V c B1.t0, iblk1_3_eq V c B1.t0]

/-- Point `n`'s bf16 block is the bf16 result on rows `400n ..`. -/
theorem block9_eq (c : Dev nD) (t : Fin cfg1.N) (hN : t.val < 25) :
    B1.outS1 (F := Ideal) (B1.iblk1 V c 0 t) (B1.iblk1 V c 1 t) (B1.S1 V c) (B1.iblk1 V c 4 t) (B1.iblk1 V c 6 t)
      = fun y : S400x128.Idx => GS (V c main_arg2) (V c main_arg1) (V c main_arg5) (V c main_v4) (V c main_v1)
          (ix2 ⟨400 * t.val + (y 0).val, by have h' : (y 0).val < 400 := (y 0).isLt; omega⟩ (y 1)) :=
  blockS (V c main_arg2) (V c main_arg1) (V c main_arg5) (V c main_v4) (V c main_v1)
    (B1.iblk1 V c 0 t) (B1.iblk1 V c 1 t) (B1.S1 V c) (B1.iblk1 V c 4 t) (B1.iblk1 V c 6 t) (400 * t.val)
    (iblk1_0_apply V c t) (iblk1_1_apply V c t) (S1_left V c) (iblk1_6_eq V c t) (iblk1_4_eq V c t)
    (fun y => ix2 ⟨400 * t.val + (y 0).val, by have h' : (y 0).val < 400 := (y 0).isLt; omega⟩ (y 1))
    (fun _ => rfl) (fun _ => rfl)

/-- WHAT POINT `t` WRITES BACK to the bf16 output is block `t` of the bf16 result of the arrays as the region finds
    them. -/
theorem flushed1_9_eq (c : Dev nD) (t : Fin cfg1.N) :
    (B1.dat1 (F := Ideal) V c).flushed 9 t
      = ((cfg1.win 9).blk t).view.read (Elt Ideal) (GS (V c main_arg2) (V c main_arg1) (V c main_arg5) (V c main_v4) (V c main_v1)) := by
  have hN : t.val < 25 := lt_of_lt_of_eq t.isLt N_1
  obtain ⟨-, -, -, -, -, -, -, -, -, -, -, -, -, -, -, -, -, -, e0, e1⟩ := idx1 t
  show (cfg1.win 9).cut (grid1.coords t) ((B1.dat1 V c).after 9 t) = _
  rw [B1.after1_9, block9_eq V c t hN]
  funext y
  rw [View.read_apply]
  show GS (V c main_arg2) (V c main_arg1) (V c main_arg5) (V c main_v4) (V c main_v1) _ = GS (V c main_arg2) (V c main_arg1) (V c main_arg5) (V c main_v4) (V c main_v1) _
  refine congrArg (GS (V c main_arg2) (V c main_arg1) (V c main_arg5) (V c main_v4) (V c main_v1)) ?_
  funext a; apply Fin.ext
  match a with
  | ⟨0, _⟩ => show 400 * t.val + (y 0).val = win1_9.index t (0 : Fin 2) * 400 + 1 * (y 0).val; rw [e0]; omega
  | ⟨1, _⟩ => show (y 1).val = win1_9.index t (1 : Fin 2) * 128 + 1 * (y 1).val; rw [e1]; omega

/-- Row `r` of the bf16 output is in the block of point `r / 400`, which writes back. -/
theorem covered1_9 (i : S10000x128.Idx) :
    ∃ t : Fin cfg1.N, (cfg1.win 9).flush t = true ∧ i ∈ ((cfg1.win 9).blk t).view.set := by
  have h0 : (i 0 : Nat) < 10000 := (i 0).isLt
  have h1 : (i 1 : Nat) < 128 := (i 1).isLt
  obtain ⟨hq, hlo, hhi⟩ := VC.row_in_block (i 0 : Nat) h0
  have hq' : (i 0 : Nat) / 400 < cfg1.N := lt_of_lt_of_eq hq N_1.symm
  obtain ⟨-, -, -, -, -, -, -, -, -, -, -, -, -, -, -, -, -, -, e0, e1⟩ := idx1 ⟨(i 0 : Nat) / 400, hq'⟩
  refine ⟨⟨(i 0 : Nat) / 400, hq'⟩, flush1_9 _, ?_⟩
  show i ∈ ((View.whole main_v6_1).slice (win1_9.rect ⟨(i 0 : Nat) / 400, hq'⟩)).set
  rw [View.set_slice_whole, Rect.mem_set_unit]
  intro a
  match a with
  | ⟨0, _⟩ =>
    show win1_9.index ⟨(i 0 : Nat) / 400, hq'⟩ (0 : Fin 2) * 400 ≤ (i 0 : Nat)
      ∧ (i 0 : Nat) < win1_9.index ⟨(i 0 : Nat) / 400, hq'⟩ (0 : Fin 2) * 400 + 400
    rw [e0]; exact ⟨hlo, hhi⟩
  | ⟨1, _⟩ =>
    show win1_9.index ⟨(i 0 : Nat) / 400, hq'⟩ (1 : Fin 2) * 128 ≤ (i 1 : Nat)
      ∧ (i 1 : Nat) < win1_9.index ⟨(i 0 : Nat) / 400, hq'⟩ (1 : Fin 2) * 128 + 128
    rw [e1]; omega

/-- THE bf16 ARRAY after the region: the adjacency times (the features times the first weight), plus the bias row,
    through the leaky rectifier, times the second weight — of the arrays as the region finds them, everywhere. -/
theorem final1b (c : Dev nD) :
    (B1.dat1 (F := Ideal) V c).arrAt 9 cfg1.N
      = Cert.MatProd.prod (fun i : S10000x128.Idx => Cert.Spec.leakyGT (Cert.MatProd.prod (V c main_arg2 : S10000x10000.Idx → EReal) (Cert.MatProd.prod (V c main_arg1 : S10000x128.Idx → EReal) (V c main_arg5 : S128x128.Idx → EReal)) i + (V c main_v4 : S1x128.Idx → EReal) (ix2 0 (i 1)))) (V c main_v1 : S128x128.Idx → EReal) :=
  (B1.dat1 (F := Ideal) V c).arrAt_eq_of_cover 9 (GS (V c main_arg2) (V c main_arg1) (V c main_arg5) (V c main_v4) (V c main_v1)) (fun t _ => flushed1_9_eq V c t)
    fun i => covered1_9 i

end Blocks

end Cert.KernelIdeal.Hand.V1

end
-- ==== Proof.KI.Value1a.lean ====
/-
  The second kernel region's first output array, after the region, as one function of the arrays it was entered with.

  Entry (r, q) of this output is  max ((∑ k, adj[r, k] · u[k, q]) + b[0, q]) 0 , where u is the earlier result the
  region's sixth window stages whole.  The first grid point copies u into columns 128..255 of the carried buffer; every
  point multiplies its two adjacency half-tiles (rows 400t .. 400t+199 and 400t+200 .. 400t+399) with the WHOLE carried
  buffer, cuts columns 128..255 out of the 256-column product, adds the bias row and rectifies.  Column 128 + q of the
  product reads column 128 + q of the buffer only, which is column q of u; and a product's entry reads only its own row
  of the left factor.  So each half-tile's result is the whole array's function on its rows, and the 25 blocks of 400
  rows tile the output.
-/
import proofs.«180870_g50560355009132_cont_8to1c4_249_8_alg».proof.Proof.KI.Region1
import proofs.«180870_g50560355009132_cont_8to1c4_249_8_alg».proof.Proof.KI.ValueCommon
import proofs.«180870_g50560355009132_cont_8to1c4_249_8_alg».proof.Proof.LibMatProd
import proofs.«180870_g50560355009132_cont_8to1c4_249_8_alg».proof.Proof.LibRowLayers
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand.V1a

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat Cfg Window)
open Cert.MatProd Cert.RowLayers

/-! ## The function -/

/-- Entry `i` of the rectified product: `max ((adj · u) i + b[0, i 1]) 0`. -/
def G (adj : S10000x10000.Idx → EReal) (u : S10000x128.Idx → EReal) (b : S1x128.Idx → EReal) : S10000x128.Idx → EReal :=
  fun i => max (prod adj u i + b (ix2 0 (i 1))) 0

theorem G_apply (adj : S10000x10000.Idx → EReal) (u : S10000x128.Idx → EReal) (b : S1x128.Idx → EReal) (p : Fin 10000) (q : Fin 128) :
    G adj u b (ix2 p q) = max (prod adj u (ix2 p q) + b (ix2 0 q)) 0 := rfl

/-! ## The body's payloads at an entry -/

/-- Column `128 + q` of a half-tile's product with the 256-column buffer, cut out by the column slice. -/
theorem wide_slice_apply (x : FVec Ideal S200x10000 .bf16) (s : FVec Ideal S10000x256 .bf16) (r : Fin 200) (q : Fin 128) :
    extractStridedSlice S200x128 ![0, 128]
        (matmul dot_S200x10000_S10000x256_S200x256_1_0_0_1_n_n none x s (constant (F := Ideal) S200x256 .f32 0x00000000#32))
        slices_S200x256_o0_128_S200x128 (ix2 r q)
      = prod x s (ix2 r ⟨128 + q.val, by have := q.isLt; omega⟩) :=
  (slice2_axis1_eq 128 _ slices_S200x256_o0_128_S200x128 r q).trans
    (congrFun (matmul_zero_eq_prod VC.rtc_half_wide none x s) _)

/-- The bias row, cast to its own shape and broadcast down the rows, at an entry. -/
theorem bias_row_apply (b : Vec Ideal S1x128 .f32) (r : Fin 200) (q : Fin 128) :
    broadcastTo S200x128 (shapeCast S1x128 b shapeCasts_S1x128_S1x128) broadcasts_S1x128_S200x128 (ix2 r q) = b (ix2 0 q) :=
  (broadcastTo_1b_ab_apply _ broadcasts_S1x128_S200x128 r q).trans (congrFun (shapeCast_self b shapeCasts_S1x128_S1x128) (ix2 0 q))

theorem pay8_apply (x : Vec Ideal S200x10000 .f32) (s : Vec Ideal S10000x256 .bf16) (b : Vec Ideal S1x128 .f32) (r : Fin 200) (q : Fin 128) :
    k1_pay8 x s b (ix2 r q) = max (prod x s (ix2 r ⟨128 + q.val, by have := q.isLt; omega⟩) + b (ix2 0 q)) 0 := by
  unfold k1_pay8 k1_pay6
  refine VC.relu_of_entry _ (ix2 r q) _ ?_
  exact congrArg₂ (· + ·) (wide_slice_apply (truncf .bf16 x bitsLt_bf16_f32) s r q) (bias_row_apply b r q)

theorem pay3_apply (x : Vec Ideal S200x10000 .f32) (s : Vec Ideal S10000x256 .bf16) (b : Vec Ideal S1x128 .f32) (r : Fin 200) (q : Fin 128) :
    k1_pay3 (k1_pay9 x) s b (ix2 r q) = max (prod x s (ix2 r ⟨128 + q.val, by have := q.isLt; omega⟩) + b (ix2 0 q)) 0 := by
  unfold k1_pay3 k1_pay1 k1_pay9
  refine VC.relu_of_entry _ (ix2 r q) _ ?_
  exact congrArg₂ (· + ·) (wide_slice_apply (truncf .bf16 x bitsLt_bf16_f32) s r q) (bias_row_apply b r q)

/-! ## The carried buffer's right column half -/

/-- Column `128 + q` of what the first point leaves in the carried buffer is column `q` of the staged earlier result. -/
theorem scr1_right (x3 : Vec Ideal S10000x128 .f32) (x4 : Vec Ideal S128x128 .f32) (x6 : Vec Ideal S10000x128 .bf16)
    (k : Fin 10000) (q : Fin 128) :
    B1.scr1 x3 x4 x6 (ix2 k ⟨128 + q.val, by have := q.isLt; omega⟩) = x6 (ix2 k q) := by
  have e : (ix2 k ⟨128 + q.val, by have := q.isLt; omega⟩ : S10000x256.Idx) = B1.rSr.emb (ix2 k q) := by
    funext a; apply Fin.ext
    match a with
    | ⟨0, _⟩ => show k.val = 0 + 1 * k.val; omega
    | ⟨1, _⟩ => show 128 + q.val = 128 + 1 * q.val; omega
  unfold B1.scr1
  rw [e]
  refine (View.canon_cons_emb B1.rSr _ _ (ix2 k q)).trans ?_
  unfold k1_pay5
  exact congrFun ((shapeCast_self _ _).trans ((shapeCast_self _ _).trans
    (View.ld_unit_zero (S := S10000x128) VC.hz _ x6))) (ix2 k q)

/-! ## The block a point leaves, from blocks that are rows of the arrays -/

/-- Column `128 + q` of a half-tile's product with a buffer whose right column half is `u`, when the half-tile holds
    the rows of `adj` from `r₀` on: the whole product `adj · u` at row `r₀ + r`. -/
theorem prod_right_cols (adj : S10000x10000.Idx → EReal) (u : S10000x128.Idx → EReal)
    (x : Vec Ideal S200x10000 .f32) (s : Vec Ideal S10000x256 .bf16) (r₀ : ℕ)
    (hx : ∀ (y : S200x10000.Idx) (z : S10000x10000.Idx), (z 0).val = r₀ + (y 0).val → (z 1).val = (y 1).val → x y = adj z)
    (hs : ∀ (k : Fin 10000) (q : Fin 128), s (ix2 k ⟨128 + q.val, by have := q.isLt; omega⟩) = u (ix2 k q))
    (r : Fin 200) (q : Fin 128) (p : Fin 10000) (hp : p.val = r₀ + r.val) :
    prod x s (ix2 r ⟨128 + q.val, by have := q.isLt; omega⟩) = prod adj u (ix2 p q) := by
  show (∑ k : Fin 10000, x (ix2 r k) * s (ix2 k ⟨128 + q.val, _⟩)) = ∑ k : Fin 10000, adj (ix2 p k) * u (ix2 k q)
  exact Finset.sum_congr rfl fun k _ => congrArg₂ (· * ·) (hx (ix2 r k) (ix2 p k) hp rfl) (hs k q)

/-- If `x1` and `x2` hold rows `400n ..` and `400n + 200 ..` of `adj`, the buffer's right column half is `u` and `x8`
    is `b`, the block the body leaves is rows `400n ..` of `G adj u b`. -/
theorem block_eq (adj : S10000x10000.Idx → EReal) (u : S10000x128.Idx → EReal) (b : S1x128.Idx → EReal)
    (x1 x2 : Vec Ideal S200x10000 .f32) (s : Vec Ideal S10000x256 .bf16) (x8 : Vec Ideal S1x128 .f32) (n : ℕ) (hn : n < 25)
    (h1 : ∀ (y : S200x10000.Idx) (z : S10000x10000.Idx), (z 0).val = 400 * n + (y 0).val → (z 1).val = (y 1).val → x1 y = adj z)
    (h2 : ∀ (y : S200x10000.Idx) (z : S10000x10000.Idx), (z 0).val = 400 * n + 200 + (y 0).val → (z 1).val = (y 1).val → x2 y = adj z)
    (hs : ∀ (k : Fin 10000) (q : Fin 128), s (ix2 k ⟨128 + q.val, by have := q.isLt; omega⟩) = u (ix2 k q))
    (h8 : x8 = b) :
    B1.outU1 x1 x2 s x8
      = fun j : S400x128.Idx => G adj u b (ix2 ⟨400 * n + (j 0).val, by have := (j 0).isLt; show _ < 10000; change (j 0).val < 400 at this; omega⟩ (j 1)) := by
  subst h8
  unfold B1.outU1
  rw [View.ld_unit_zero (S := S200x10000) VC.hz, View.ld_unit_zero (S := S200x10000) VC.hz, View.ld_unit_zero (S := S10000x256) VC.hz,
    View.ld_unit_zero (S := S1x128) VC.hz]
  refine VC.canon_halves _ _ _ _ _ (fun r q => ?_) (fun r q => ?_)
  · rw [pay8_apply]
    show _ = max (prod adj u (ix2 _ q) + x8 (ix2 0 q)) 0
    refine congrArg (fun v => max (v + x8 (ix2 0 q)) 0) ?_
    exact prod_right_cols adj u x1 s (400 * n) h1 hs r q _ rfl
  · rw [pay3_apply]
    show _ = max (prod adj u (ix2 _ q) + x8 (ix2 0 q)) 0
    refine congrArg (fun v => max (v + x8 (ix2 0 q)) 0) ?_
    exact prod_right_cols adj u x2 s (400 * n + 200) h2 hs r q _ (by show 400 * n + (200 + r.val) = 400 * n + 200 + r.val; omega)

/-! ## The windows' blocks as rows of the arrays -/

section Blocks

variable (V : (c : Dev nD) → (b : Ref sig .tc) → Buf (Elt Ideal) ((c : Thread nD τ).loc b))

/-- The printed index maps over the grid: the adjacency's two windows at blocks `2t` and `2t + 1` of 200 rows, the
    earlier result and the bias row whole, the output at block `t` of 400 rows. -/
theorem idx1 : ∀ t : Fin cfg1.N, win1_0.index t (0 : Fin 2) = 2 * t.val ∧ win1_0.index t (1 : Fin 2) = 0
    ∧ win1_1.index t (0 : Fin 2) = 2 * t.val + 1 ∧ win1_1.index t (1 : Fin 2) = 0
    ∧ win1_5.index t (0 : Fin 2) = 0 ∧ win1_5.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-- The first adjacency window's block at point `t` is rows `400t ..` of the adjacency. -/
theorem iblk1_0_apply (c : Dev nD) (t : Fin cfg1.N) (y : S200x10000.Idx) (z : S10000x10000.Idx)
    (h0 : (z 0).val = 400 * t.val + (y 0).val) (h1 : (z 1).val = (y 1).val) :
    (B1.iblk1 V c 0 t : Vec Ideal S200x10000 .f32) y = (V c main_arg2 : S10000x10000.Idx → EReal) z := by
  obtain ⟨e0, e1, -⟩ := idx1 t
  unfold B1.iblk1
  rw [View.read_apply]
  show (V c main_arg2 : S10000x10000.Idx → EReal) _ = V c main_arg2 z
  refine congrArg (V c main_arg2 : S10000x10000.Idx → EReal) ?_
  funext a; apply Fin.ext
  match a with
  | ⟨0, _⟩ => show win1_0.index t (0 : Fin 2) * 200 + 1 * (y 0).val = (z 0).val; rw [e0, h0]; omega
  | ⟨1, _⟩ => show win1_0.index t (1 : Fin 2) * 10000 + 1 * (y 1).val = (z 1).val; rw [e1, h1]; omega

/-- The second adjacency window's block at point `t` is rows `400t + 200 ..` of the adjacency. -/
theorem iblk1_1_apply (c : Dev nD) (t : Fin cfg1.N) (y : S200x10000.Idx) (z : S10000x10000.Idx)
    (h0 : (z 0).val = 400 * t.val + 200 + (y 0).val) (h1 : (z 1).val = (y 1).val) :
    (B1.iblk1 V c 1 t : Vec Ideal S200x10000 .f32) y = (V c main_arg2 : S10000x10000.Idx → EReal) z := by
  obtain ⟨-, -, e0, e1, -⟩ := idx1 t
  unfold B1.iblk1
  rw [View.read_apply]
  show (V c main_arg2 : S10000x10000.Idx → EReal) _ = V c main_arg2 z
  refine congrArg (V c main_arg2 : S10000x10000.Idx → EReal) ?_
  funext a; apply Fin.ext
  match a with
  | ⟨0, _⟩ => show win1_1.index t (0 : Fin 2) * 200 + 1 * (y 0).val = (z 0).val; rw [e0, h0]; omega
  | ⟨1, _⟩ => show win1_1.index t (1 : Fin 2) * 10000 + 1 * (y 1).val = (z 1).val; rw [e1, h1]; omega

/-- The earlier result's block is the whole array at every point. -/
theorem iblk1_5_eq (c : Dev nD) (t : Fin cfg1.N) :
    (B1.iblk1 V c 5 t : Vec Ideal S10000x128 .bf16) = (V c main_v3 : S10000x128.Idx → EReal) := by
  obtain ⟨-, -, -, -, e0, e1, -⟩ := idx1 t
  funext y
  unfold B1.iblk1
  rw [View.read_apply]
  show (V c main_v3 : S10000x128.Idx → EReal) _ = V c main_v3 y
  refine congrArg (V c main_v3 : S10000x128.Idx → EReal) ?_
  funext a; apply Fin.ext
  match a with
  | ⟨0, _⟩ => show win1_5.index t (0 : Fin 2) * 10000 + 1 * (y 0).val = (y 0).val; rw [e0]; omega
  | ⟨1, _⟩ => show win1_5.index t (1 : Fin 2) * 128 + 1 * (y 1).val = (y 1).val; rw [e1]; omega

/-- The bias row's block is the whole row at every point. -/
theorem iblk1_7_eq (c : Dev nD) (t : Fin cfg1.N) :
    (B1.iblk1 V c 7 t : Vec Ideal S1x128 .f32) = (V c main_v5 : S1x128.Idx → EReal) := by
  obtain ⟨-, -, -, -, -, -, e0, e1, -⟩ := idx1 t
  funext y
  unfold B1.iblk1
  rw [View.read_apply]
  show (V c main_v5 : S1x128.Idx → EReal) _ = V c main_v5 y
  refine congrArg (V c main_v5 : S1x128.Idx → EReal) ?_
  funext a; apply Fin.ext
  match a with
  | ⟨0, _⟩ => show win1_7.index t (0 : Fin 2) * 1 + 1 * (y 0).val = (y 0).val; rw [e0]; omega
  | ⟨1, _⟩ => show win1_7.index t (1 : Fin 2) * 128 + 1 * (y 1).val = (y 1).val; rw [e1]; omega

/-- The carried buffer's right column half is the earlier result as the region finds it. -/
theorem S1_right (c : Dev nD) (k : Fin 10000) (q : Fin 128) :
    (B1.S1 V c : Vec Ideal S10000x256 .bf16) (ix2 k ⟨128 + q.val, by have := q.isLt; omega⟩)
      = (V c main_v3 : S10000x128.Idx → EReal) (ix2 k q) := by
  unfold B1.S1
  exact (scr1_right (B1.iblk1 V c 2 B1.t0) (B1.iblk1 V c 3 B1.t0) (B1.iblk1 V c 5 B1.t0) k q).trans
    (congrFun (iblk1_5_eq V c B1.t0) (ix2 k q))

/-! ## What a point writes back, and the array after the region -/

/-- WHAT POINT `t` WRITES BACK is block `t` of `G` of the arrays as the region finds them. -/
theorem flushed1a_eq (c : Dev nD) (t : Fin cfg1.N) :
    (B1.dat1 (F := Ideal) V c).flushed 8 t
      = ((cfg1.win 8).blk t).view.read (Elt Ideal) (G (V c main_arg2) (V c main_v3) (V c main_v5)) := by
  have hN : t.val < 25 := lt_of_lt_of_eq t.isLt N_1
  obtain ⟨-, -, -, -, -, -, -, -, e0, e1⟩ := idx1 t
  have hb := block_eq (V c main_arg2) (V c main_v3) (V c main_v5) (B1.iblk1 V c 0 t) (B1.iblk1 V c 1 t) (B1.S1 V c) (B1.iblk1 V c 7 t)
    t.val hN (iblk1_0_apply V c t) (iblk1_1_apply V c t) (S1_right V c) (iblk1_7_eq V c t)
  show (cfg1.win 8).cut (grid1.coords t) ((B1.dat1 V c).after 8 t) = _
  rw [B1.after1_8, hb]
  funext y
  rw [View.read_apply]
  show G (V c main_arg2) (V c main_v3) (V c main_v5) _ = G (V c main_arg2) (V c main_v3) (V c main_v5) _
  refine congrArg (G (V c main_arg2) (V c main_v3) (V c main_v5)) ?_
  funext a; apply Fin.ext
  match a with
  | ⟨0, _⟩ => show 400 * t.val + (y 0).val = win1_8.index t (0 : Fin 2) * 400 + 1 * (y 0).val; rw [e0]; omega
  | ⟨1, _⟩ => show (y 1).val = win1_8.index t (1 : Fin 2) * 128 + 1 * (y 1).val; rw [e1]; omega

/-- Row `r` of the output is in the block of point `r / 400`, which writes back. -/
theorem covered1a (i : S10000x128.Idx) :
    ∃ t : Fin cfg1.N, (cfg1.win 8).flush t = true ∧ i ∈ ((cfg1.win 8).blk t).view.set := by
  have h0 : (i 0 : Nat) < 10000 := (i 0).isLt
  have h1 : (i 1 : Nat) < 128 := (i 1).isLt
  obtain ⟨hq, hlo, hhi⟩ := VC.row_in_block (i 0 : Nat) h0
  have hq' : (i 0 : Nat) / 400 < cfg1.N := lt_of_lt_of_eq hq N_1.symm
  obtain ⟨-, -, -, -, -, -, -, -, e0, e1⟩ := idx1 ⟨(i 0 : Nat) / 400, hq'⟩
  refine ⟨⟨(i 0 : Nat) / 400, hq'⟩, flush1_8 _, ?_⟩
  show i ∈ ((View.whole main_v6_0).slice (win1_8.rect ⟨(i 0 : Nat) / 400, hq'⟩)).set
  rw [View.set_slice_whole, Rect.mem_set_unit]
  intro a
  match a with
  | ⟨0, _⟩ =>
    show win1_8.index ⟨(i 0 : Nat) / 400, hq'⟩ (0 : Fin 2) * 400 ≤ (i 0 : Nat)
      ∧ (i 0 : Nat) < win1_8.index ⟨(i 0 : Nat) / 400, hq'⟩ (0 : Fin 2) * 400 + 400
    rw [e0]; exact ⟨hlo, hhi⟩
  | ⟨1, _⟩ =>
    show win1_8.index ⟨(i 0 : Nat) / 400, hq'⟩ (1 : Fin 2) * 128 ≤ (i 1 : Nat)
      ∧ (i 1 : Nat) < win1_8.index ⟨(i 0 : Nat) / 400, hq'⟩ (1 : Fin 2) * 128 + 128
    rw [e1]; omega

/-- THE ARRAY after the region: `G` of the arrays as the region finds them, everywhere. -/
theorem final1a (c : Dev nD) :
    (B1.dat1 (F := Ideal) V c).arrAt 8 cfg1.N
      = fun i : S10000x128.Idx => max (Cert.MatProd.prod (V c main_arg2 : S10000x10000.Idx → EReal) (V c main_v3 : S10000x128.Idx → EReal) i
          + (V c main_v5 : S1x128.Idx → EReal) (ix2 0 (i 1))) 0 :=
  (B1.dat1 (F := Ideal) V c).arrAt_eq_of_cover 8 (G (V c main_arg2) (V c main_v3) (V c main_v5)) (fun t _ => flushed1a_eq V c t)
    fun i => covered1a i

end Blocks

end Cert.KernelIdeal.Hand.V1a

end
-- ==== Proof.KI.Value2.lean ====
/-
  The third kernel region's output array, after the region, as one function of the arrays it was entered with.

  Entry (r, q) of the output is  max ((∑ k, adj[r, k] · s[k, q]) + b[0, q]) 0 : the adjacency row r against the
  support matrix, plus the bias row, rectified.  A grid point t stages rows 400t .. 400t+199 and 400t+200 .. 400t+399
  of the adjacency as two half-tiles, the whole support matrix and the bias row; the body's two stores write the
  rectified products of the two half-tiles to the two halves of the output's block, rows 400t .. 400t+399.  A product's
  entry reads only its own row of the left factor, so each half-tile's product is the whole product on its rows; the
  25 blocks tile the output, so the array ends at the function everywhere.
-/
import proofs.«180870_g50560355009132_cont_8to1c4_249_8_alg».proof.Proof.KI.Region2
import proofs.«180870_g50560355009132_cont_8to1c4_249_8_alg».proof.Proof.KI.ValueCommon
import proofs.«180870_g50560355009132_cont_8to1c4_249_8_alg».proof.Proof.LibMatProd
import proofs.«180870_g50560355009132_cont_8to1c4_249_8_alg».proof.Proof.LibRowLayers
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand.V2

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat Cfg Window)
open Cert.MatProd

/-! ## The function -/

/-- Entry `i` of the rectified product: `max ((adj · s) i + b[0, i 1]) 0`. -/
def G (adj : S10000x10000.Idx → EReal) (s : S10000x128.Idx → EReal) (b : S1x128.Idx → EReal) : S10000x128.Idx → EReal :=
  fun i => max (prod adj s i + b (ix2 0 (i 1))) 0

theorem G_apply (adj : S10000x10000.Idx → EReal) (s : S10000x128.Idx → EReal) (b : S1x128.Idx → EReal) (p : Fin 10000) (q : Fin 128) :
    G adj s b (ix2 p q) = max (prod adj s (ix2 p q) + b (ix2 0 q)) 0 := rfl

/-! ## The body's two payloads at an entry -/

theorem pay1_apply (x : Vec Ideal S200x10000 .f32) (s : Vec Ideal S10000x128 .bf16) (b : Vec Ideal S1x128 .f32) (r : Fin 200) (q : Fin 128) :
    k2_pay1 x s b (ix2 r q) = max (prod x s (ix2 r q) + b (ix2 0 q)) 0 := by
  unfold k2_pay1
  exact VC.relu_dense_apply VC.rtc_half none (truncf .bf16 x bitsLt_bf16_f32) s shapeCasts_S10000x128_S10000x128 b shapeCasts_S1x128_S1x128
    broadcasts_S1x128_S200x128 r q

theorem pay2_apply (x : Vec Ideal S200x10000 .f32) (s : Vec Ideal S10000x128 .bf16) (b : Vec Ideal S1x128 .f32) (r : Fin 200) (q : Fin 128) :
    k2_pay2 x s b (ix2 r q) = max (prod x s (ix2 r q) + b (ix2 0 q)) 0 := by
  unfold k2_pay2
  exact VC.relu_dense_apply VC.rtc_half none (truncf .bf16 x bitsLt_bf16_f32) s shapeCasts_S10000x128_S10000x128 b shapeCasts_S1x128_S1x128
    broadcasts_S1x128_S200x128 r q

/-! ## The block a point leaves, from blocks that are rows of the arrays -/

/-- If `x1` and `x2` hold rows `400n ..` and `400n + 200 ..` of `adj`, `x3` is `s` and `x4` is `b`, the block the body
    leaves is rows `400n ..` of `G adj s b`. -/
theorem block_eq (adj : S10000x10000.Idx → EReal) (s : S10000x128.Idx → EReal) (b : S1x128.Idx → EReal)
    (x1 x2 : Vec Ideal S200x10000 .f32) (x3 : Vec Ideal S10000x128 .bf16) (x4 : Vec Ideal S1x128 .f32) (n : ℕ) (hn : n < 25)
    (h1 : ∀ (y : S200x10000.Idx) (z : S10000x10000.Idx), (z 0).val = 400 * n + (y 0).val → (z 1).val = (y 1).val → x1 y = adj z)
    (h2 : ∀ (y : S200x10000.Idx) (z : S10000x10000.Idx), (z 0).val = 400 * n + 200 + (y 0).val → (z 1).val = (y 1).val → x2 y = adj z)
    (h3 : x3 = s) (h4 : x4 = b) :
    out2 x1 x2 x3 x4
      = fun j : S400x128.Idx => G adj s b (ix2 ⟨400 * n + (j 0).val, by have := (j 0).isLt; show _ < 10000; change (j 0).val < 400 at this; omega⟩ (j 1)) := by
  subst h3; subst h4
  unfold out2
  rw [View.ld_unit_zero (S := S200x10000) VC.hz, View.ld_unit_zero (S := S200x10000) VC.hz, View.ld_unit_zero (S := S10000x128) VC.hz,
    View.ld_unit_zero (S := S1x128) VC.hz]
  refine VC.canon_halves _ _ _ _ _ (fun r q => ?_) (fun r q => ?_)
  · rw [pay1_apply]
    show _ = max (prod adj x3 (ix2 _ q) + x4 (ix2 0 q)) 0
    refine congrArg (fun u => max (u + x4 (ix2 0 q)) 0) ?_
    exact prod_of_row_block adj x3 x1 (400 * n) (fun y z e0 e1 => h1 y z e0 e1) (ix2 r q) (ix2 _ q) rfl rfl
  · rw [pay2_apply]
    show _ = max (prod adj x3 (ix2 _ q) + x4 (ix2 0 q)) 0
    refine congrArg (fun u => max (u + x4 (ix2 0 q)) 0) ?_
    exact prod_of_row_block adj x3 x2 (400 * n + 200) (fun y z e0 e1 => h2 y z e0 e1) (ix2 r q) (ix2 _ q) (by show 400 * n + (200 + r.val) = 400 * n + 200 + r.val; omega) rfl

/-! ## The windows' blocks as rows of the arrays -/

section Blocks

variable (V : (c : Dev nD) → (b : Ref sig .tc) → Buf (Elt Ideal) ((c : Thread nD τ).loc b))

/-- The printed index maps over the grid: the adjacency's two windows at blocks `2t` and `2t + 1` of 200 rows, the
    support matrix and the bias row whole, the output at block `t` of 400 rows. -/
theorem idx2 : ∀ t : Fin cfg2.N, win2_0.index t (0 : Fin 2) = 2 * t.val ∧ win2_0.index t (1 : Fin 2) = 0
    ∧ win2_1.index t (0 : Fin 2) = 2 * t.val + 1 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The first adjacency window's block at point `t` is rows `400t ..` of the adjacency. -/
theorem iblk2_0_apply (c : Dev nD) (t : Fin cfg2.N) (y : S200x10000.Idx) (z : S10000x10000.Idx)
    (h0 : (z 0).val = 400 * t.val + (y 0).val) (h1 : (z 1).val = (y 1).val) :
    (iblk2 V c 0 t : Vec Ideal S200x10000 .f32) y = (V c main_arg3 : S10000x10000.Idx → EReal) z := by
  obtain ⟨e0, e1, -⟩ := idx2 t
  unfold iblk2
  rw [View.read_apply]
  show (V c main_arg3 : S10000x10000.Idx → EReal) _ = V c main_arg3 z
  refine congrArg (V c main_arg3 : S10000x10000.Idx → EReal) ?_
  funext a; apply Fin.ext
  match a with
  | ⟨0, _⟩ => show win2_0.index t (0 : Fin 2) * 200 + 1 * (y 0).val = (z 0).val; rw [e0, h0]; omega
  | ⟨1, _⟩ => show win2_0.index t (1 : Fin 2) * 10000 + 1 * (y 1).val = (z 1).val; rw [e1, h1]; omega

/-- The second adjacency window's block at point `t` is rows `400t + 200 ..` of the adjacency. -/
theorem iblk2_1_apply (c : Dev nD) (t : Fin cfg2.N) (y : S200x10000.Idx) (z : S10000x10000.Idx)
    (h0 : (z 0).val = 400 * t.val + 200 + (y 0).val) (h1 : (z 1).val = (y 1).val) :
    (iblk2 V c 1 t : Vec Ideal S200x10000 .f32) y = (V c main_arg3 : S10000x10000.Idx → EReal) z := by
  obtain ⟨-, -, e0, e1, -⟩ := idx2 t
  unfold iblk2
  rw [View.read_apply]
  show (V c main_arg3 : S10000x10000.Idx → EReal) _ = V c main_arg3 z
  refine congrArg (V c main_arg3 : S10000x10000.Idx → EReal) ?_
  funext a; apply Fin.ext
  match a with
  | ⟨0, _⟩ => show win2_1.index t (0 : Fin 2) * 200 + 1 * (y 0).val = (z 0).val; rw [e0, h0]; omega
  | ⟨1, _⟩ => show win2_1.index t (1 : Fin 2) * 10000 + 1 * (y 1).val = (z 1).val; rw [e1, h1]; omega

/-- The support matrix's block is the whole matrix at every point. -/
theorem iblk2_2_eq (c : Dev nD) (t : Fin cfg2.N) :
    (iblk2 V c 2 t : Vec Ideal S10000x128 .bf16) = (V c main_v6_1 : S10000x128.Idx → EReal) := by
  obtain ⟨-, -, -, -, e0, e1, -⟩ := idx2 t
  funext y
  unfold iblk2
  rw [View.read_apply]
  show (V c main_v6_1 : S10000x128.Idx → EReal) _ = V c main_v6_1 y
  refine congrArg (V c main_v6_1 : S10000x128.Idx → EReal) ?_
  funext a; apply Fin.ext
  match a with
  | ⟨0, _⟩ => show win2_2.index t (0 : Fin 2) * 10000 + 1 * (y 0).val = (y 0).val; rw [e0]; omega
  | ⟨1, _⟩ => show win2_2.index t (1 : Fin 2) * 128 + 1 * (y 1).val = (y 1).val; rw [e1]; omega

/-- The bias row's block is the whole row at every point. -/
theorem iblk2_3_eq (c : Dev nD) (t : Fin cfg2.N) :
    (iblk2 V c 3 t : Vec Ideal S1x128 .f32) = (V c main_v7 : S1x128.Idx → EReal) := by
  obtain ⟨-, -, -, -, -, -, e0, e1, -⟩ := idx2 t
  funext y
  unfold iblk2
  rw [View.read_apply]
  show (V c main_v7 : S1x128.Idx → EReal) _ = V c main_v7 y
  refine congrArg (V c main_v7 : S1x128.Idx → EReal) ?_
  funext a; apply Fin.ext
  match a with
  | ⟨0, _⟩ => show win2_3.index t (0 : Fin 2) * 1 + 1 * (y 0).val = (y 0).val; rw [e0]; omega
  | ⟨1, _⟩ => show win2_3.index t (1 : Fin 2) * 128 + 1 * (y 1).val = (y 1).val; rw [e1]; omega

/-! ## What a point writes back, and the array after the region -/

/-- WHAT POINT `t` WRITES BACK is block `t` of `G` of the arrays as the region finds them. -/
theorem flushed2_eq (c : Dev nD) (t : Fin cfg2.N) :
    (dat2 (F := Ideal) V c).flushed 4 t
      = ((cfg2.win 4).blk t).view.read (Elt Ideal) (G (V c main_arg3) (V c main_v6_1) (V c main_v7)) := by
  have hN : t.val < 25 := lt_of_lt_of_eq t.isLt N_2
  obtain ⟨-, -, -, -, -, -, -, -, e0, e1⟩ := idx2 t
  have hb := block_eq (V c main_arg3) (V c main_v6_1) (V c main_v7) (iblk2 V c 0 t) (iblk2 V c 1 t) (iblk2 V c 2 t) (iblk2 V c 3 t)
    t.val hN (iblk2_0_apply V c t) (iblk2_1_apply V c t) (iblk2_2_eq V c t) (iblk2_3_eq V c t)
  show (cfg2.win 4).cut (grid2.coords t) ((dat2 V c).after 4 t) = _
  rw [after2_4, hb]
  funext y
  rw [View.read_apply]
  show G (V c main_arg3) (V c main_v6_1) (V c main_v7) _ = G (V c main_arg3) (V c main_v6_1) (V c main_v7) _
  refine congrArg (G (V c main_arg3) (V c main_v6_1) (V c main_v7)) ?_
  funext a; apply Fin.ext
  match a with
  | ⟨0, _⟩ => show 400 * t.val + (y 0).val = win2_4.index t (0 : Fin 2) * 400 + 1 * (y 0).val; rw [e0]; omega
  | ⟨1, _⟩ => show (y 1).val = win2_4.index t (1 : Fin 2) * 128 + 1 * (y 1).val; rw [e1]; omega

/-- Row `r` of the output is in the block of point `r / 400`, which writes back. -/
theorem covered2 (i : S10000x128.Idx) :
    ∃ t : Fin cfg2.N, (cfg2.win 4).flush t = true ∧ i ∈ ((cfg2.win 4).blk t).view.set := by
  have h0 : (i 0 : Nat) < 10000 := (i 0).isLt
  have h1 : (i 1 : Nat) < 128 := (i 1).isLt
  obtain ⟨hq, hlo, hhi⟩ := VC.row_in_block (i 0 : Nat) h0
  have hq' : (i 0 : Nat) / 400 < cfg2.N := lt_of_lt_of_eq hq N_2.symm
  obtain ⟨-, -, -, -, -, -, -, -, e0, e1⟩ := idx2 ⟨(i 0 : Nat) / 400, hq'⟩
  refine ⟨⟨(i 0 : Nat) / 400, hq'⟩, flush2_4 _, ?_⟩
  show i ∈ ((View.whole main_v8).slice (win2_4.rect ⟨(i 0 : Nat) / 400, hq'⟩)).set
  rw [View.set_slice_whole, Rect.mem_set_unit]
  intro a
  match a with
  | ⟨0, _⟩ =>
    show win2_4.index ⟨(i 0 : Nat) / 400, hq'⟩ (0 : Fin 2) * 400 ≤ (i 0 : Nat)
      ∧ (i 0 : Nat) < win2_4.index ⟨(i 0 : Nat) / 400, hq'⟩ (0 : Fin 2) * 400 + 400
    rw [e0]; exact ⟨hlo, hhi⟩
  | ⟨1, _⟩ =>
    show win2_4.index ⟨(i 0 : Nat) / 400, hq'⟩ (1 : Fin 2) * 128 ≤ (i 1 : Nat)
      ∧ (i 1 : Nat) < win2_4.index ⟨(i 0 : Nat) / 400, hq'⟩ (1 : Fin 2) * 128 + 128
    rw [e1]; omega

/-- THE ARRAY after the region: `G` of the arrays as the region finds them, everywhere. -/
theorem final2 (c : Dev nD) :
    (dat2 (F := Ideal) V c).arrAt 4 cfg2.N
      = fun i : S10000x128.Idx => max (Cert.MatProd.prod (V c main_arg3 : S10000x10000.Idx → EReal) (V c main_v6_1 : S10000x128.Idx → EReal) i
          + (V c main_v7 : S1x128.Idx → EReal) (ix2 0 (i 1))) 0 :=
  (dat2 (F := Ideal) V c).arrAt_eq_of_cover 4 (G (V c main_arg3) (V c main_v6_1) (V c main_v7)) (fun t _ => flushed2_eq V c t)
    fun i => covered2 i

end Blocks

end Cert.KernelIdeal.Hand.V2

end
-- ==== Proof.KI.Final.lean ====
/-
  The kernel program's two result arrays, as the regions' pipelines leave them, are the specification's  G_U  and  G_I
  of the launch memory's twelve argument arrays: what each region leaves, composed through the host stretches.
-/
import proofs.«180870_g50560355009132_cont_8to1c4_249_8_alg».proof.Proof.KI.Assembly
import proofs.«180870_g50560355009132_cont_8to1c4_249_8_alg».proof.Proof.KI.Compose
import proofs.«180870_g50560355009132_cont_8to1c4_249_8_alg».proof.Proof.KI.Value0
import proofs.«180870_g50560355009132_cont_8to1c4_249_8_alg».proof.Proof.KI.Value1
import proofs.«180870_g50560355009132_cont_8to1c4_249_8_alg».proof.Proof.KI.Value1a
import proofs.«180870_g50560355009132_cont_8to1c4_249_8_alg».proof.Proof.KI.Value2

noncomputable section

namespace Cert.KernelIdeal.Hand

open Cert.KernelIdeal Cert.KernelIdeal.Gen
open Idealize.ShloMosaic Idealize.ShloMosaic.TcCoe Idealize.ShloMosaic.ValueIdx
open Idealize.SL.Sem

/-- The first result array at the end of region 1. -/
theorem kernelU (m : (ℓ : Loc nD τ sig) → Buf (Elt Ideal) ℓ) (c : Dev nD) :
    ((B1.dat1 (F := Ideal) (Vr (W3 m)) c).arrAt 8 cfg1.N : S10000x128.Idx → EReal)
      = Cert.Spec.G_U (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  have h := Comp.resultU m (outs m) c (by rw [outs_v3]; exact V0.final0 (Vr (W1 m)) c)
    (by rw [outs_v6_0, V3_eq]; exact V1a.final1a (Vr (W3 m)) c)
  rw [outs_v6_0] at h
  exact h

/-- The second result array at the end of region 2. -/
theorem kernelI (m : (ℓ : Loc nD τ sig) → Buf (Elt Ideal) ℓ) (c : Dev nD) :
    ((dat2 (F := Ideal) (Vr (W5 m)) c).arrAt 4 cfg2.N : S10000x128.Idx → EReal)
      = Cert.Spec.G_I (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  have h := Comp.resultI m (outs m) c (by rw [outs_v6_1, V3_eq]; exact V1.final1b (Vr (W3 m)) c)
    (by rw [outs_v8, V5_eq]; exact V2.final2 (Vr (W5 m)) c)
  rw [outs_v8] at h
  exact h

end Cert.KernelIdeal.Hand

end
-- ==== Proof.KI.KernelRun.lean ====
/-
  The idealized kernel's run with its two results as functions of the arguments: the run with the result arrays
  named at what the second and third regions' pipelines leave, rewritten by the regions' values composed through the
  host stretches.
-/
import proofs.«180870_g50560355009132_cont_8to1c4_249_8_alg».proof.Proof.KI.Results
import proofs.«180870_g50560355009132_cont_8to1c4_249_8_alg».proof.Proof.KI.Final

noncomputable section

namespace Cert.KernelIdeal.Hand

open Cert.KernelIdeal Cert.KernelIdeal.Gen
open Idealize.ShloMosaic Idealize.ShloMosaic.TcCoe Idealize.SL.Sem

/-- At the ideal instance every weakly fair execution of the kernel program terminates with the first result at
    `G_U` and the second at `G_I` of the launch memory's twelve argument arrays, which end as launched. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v6_0) = Cert.Spec.G_U (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v8) = Cert.Spec.G_I (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) := by
  refine (θ_run (defs (F := Ideal)) _ _).mono (fun r h c => ?_) (run_results (F := Ideal) m ρ)
  obtain ⟨h0, h1, hargs⟩ := h c
  exact ⟨h0.trans (kernelU m c), h1.trans (kernelI m c), hargs⟩

end Cert.KernelIdeal.Hand

end
-- ==== Proof.lean ====
/-
  The certificate of the three-pass graph-convolution kernel against its reference.

  The kernel streams each dense adjacency through 200-row half-tiles. Pass 1 forms s1 = ufea·W1 once (kept in a
  scratch buffer), and per tile the rows of U1 = leaky(VU·s1 + b1) and of s3 = U1·W3. Pass 2 keeps [vfea·W2 | s3]
  in its scratch, multiplies each tile of UV with it once, and from the two column halves gives the rows of
  I1 = leaky(UV·(vfea·W2) + b2), of s4 = I1·W4, and of the first result max(UV·s3 + b3, 0). Pass 3 gives the second
  result max(VU·s4 + b4, 0). The reference computes the same four layers adj·(x·W) + b with the leaky rectifier after
  each and the maximum with zero after the last two. Over the extended reals the two agree with no re-association and
  no finiteness: the kernel's leaky select (z > 0 ? z : z·a) is the reference's (z ≥ 0 ? z : a·z), and because the
  slope a is positive, max(leaky z, 0) = max(z, 0) for every extended real z.

  The three frames: every weakly fair execution terminates, faults nowhere and leaves the twelve argument arrays as
  launched. Each kernel region reads one adjacency array through two windows, so the array's buffer is dealt to
  the two windows at the two halves of its share and joined again at the region's end.
-/
import proofs.«180870_g50560355009132_cont_8to1c4_249_8_alg».proof.Defs
import proofs.«180870_g50560355009132_cont_8to1c4_249_8_alg».proof.Proof.Gen.Kernel
import proofs.«180870_g50560355009132_cont_8to1c4_249_8_alg».proof.Proof.Gen.KernelIdeal
import proofs.«180870_g50560355009132_cont_8to1c4_249_8_alg».proof.Proof.Gen.ReferenceIdeal
import proofs.«180870_g50560355009132_cont_8to1c4_249_8_alg».proof.Proof.Gen.Pre_finite_inputs
import proofs.«180870_g50560355009132_cont_8to1c4_249_8_alg».proof.Proof.K.Assembly
import proofs.«180870_g50560355009132_cont_8to1c4_249_8_alg».proof.Proof.KI.Results
import proofs.«180870_g50560355009132_cont_8to1c4_249_8_alg».proof.Proof.RefIsSpec
import proofs.«180870_g50560355009132_cont_8to1c4_249_8_alg».proof.Proof.KI.KernelRun

noncomputable section

namespace Cert.Proof

open Idealize.ShloMosaic Idealize.SL.Sem

/-- The word-level kernel runs and leaves its arguments as launched. -/
theorem frame_kernel : Cert.frame_Kernel := fun m ρ _ => Cert.Kernel.Hand.frame m ρ

/-- The idealized kernel runs and leaves its arguments as launched. -/
theorem frame_kernelIdeal : Cert.frame_KernelIdeal := fun m ρ _ => Cert.KernelIdeal.Hand.frame m ρ

/-- The reference runs and leaves its arguments as launched: its run with the two results dropped. -/
theorem frame_referenceIdeal : Cert.frame_ReferenceIdeal := fun m ρ _ =>
  (θ_run Cert.ReferenceIdeal.defs _ _).mono (fun _ h c => (h c).2.2) (Cert.ReferenceIdeal.RefValue.run m ρ)

/-- The idealization rewrote no operation: nothing to preserve. -/
theorem preserves : Cert.preserves_Kernel_KernelIdeal := trivial

/-- From memories agreeing on the twelve arguments both programs end with the first result at G_U and the second
    at G_I of the arguments: the kernel by its regions' values composed through the host stretches, the reference by
    its run read as the same two functions. -/
theorem algebraic : Cert.algebraic_KernelIdeal_ReferenceIdeal := by
  intro m ρ m' ρ' _ hagree
  refine ⟨_, _, Cert.KernelIdeal.Hand.kernel_run m ρ, ?_⟩
  refine (θ_run Cert.ReferenceIdeal.defs _ _).mono (fun _ h c => ?_) (Cert.ReferenceIdeal.RefValue.run m' ρ')
  obtain ⟨h0, h1, hargs⟩ := h c
  obtain ⟨e0, e1, e2, e3, e4, e5, e6, e7, e8, e9, e10, e11⟩ := hagree c
  refine ⟨h0.trans ?_, h1.trans ?_, hargs⟩
  · rw [Cert.ReferenceIdeal.RefValue.resU_eq_G_U, e0, e1, e2, e3, e4, e5, e6, e7, e8, e9, e10, e11]
  · rw [Cert.ReferenceIdeal.RefValue.resI_eq_G_I, e0, e1, e2, e3, e4, e5, e6, e7, e8, e9, e10, e11]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
